-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v267)) (v1 : (c : Dev Cert.KernelIdeal.nD) → Buf (Elt Ideal) ((c.tc : Thread Cert.KernelIdeal.nD Cert.KernelIdeal.τ).loc Cert.KernelIdeal.main_v279)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v267) = v0 c
          ∧ r.2.mem ((c.tc : Thread Cert.KernelIdeal.nD Cert.KernelIdeal.τ).loc Cert.KernelIdeal.main_v279) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_v281) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x128 : Shape := ⟨3, ![256, 256, 128]⟩
abbrev S65536x64 : Shape := ⟨2, ![65536, 64]⟩
abbrev S65536x1024 : Shape := ⟨2, ![65536, 1024]⟩
abbrev S1024x1024 : Shape := ⟨2, ![1024, 1024]⟩
abbrev S65536x2048 : Shape := ⟨2, ![65536, 2048]⟩
abbrev S2048x2048 : Shape := ⟨2, ![2048, 2048]⟩
abbrev S128 : Shape := ⟨1, ![128]⟩
abbrev S256x128 : Shape := ⟨2, ![256, 128]⟩
abbrev S256 : Shape := ⟨1, ![256]⟩
abbrev S128x128 : Shape := ⟨2, ![128, 128]⟩
abbrev S64x128 : Shape := ⟨2, ![64, 128]⟩
abbrev S64 : Shape := ⟨1, ![64]⟩
abbrev S16x128 : Shape := ⟨2, ![16, 128]⟩
abbrev S16 : Shape := ⟨1, ![16]⟩
abbrev S16x64 : Shape := ⟨2, ![16, 64]⟩
abbrev S1 : Shape := ⟨1, ![1]⟩
abbrev S_ : Shape := ⟨0, ![]⟩
abbrev S1024 : Shape := ⟨1, ![1024]⟩
abbrev S2048 : Shape := ⟨1, ![2048]⟩

class Facts : Prop where
  bcast_S_S256x256x128 : S_.BroadcastsInDim S256x256x128 (![] : Fin 0 → Fin S256x256x128.rank)
  reducesTo_S256x256x128_S_d0_1_2 : S256x256x128.ReducesTo [0, 1, 2] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S65536x1024 : S_.BroadcastsInDim S65536x1024 (![] : Fin 0 → Fin S65536x1024.rank)
  reducesTo_S65536x1024_S_d0_1 : S65536x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S65536x2048 : S_.BroadcastsInDim S65536x2048 (![] : Fin 0 → Fin S65536x2048.rank)
  reducesTo_S65536x2048_S_d0_1 : S65536x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S1 : S_.BroadcastsInDim S1 (![] : Fin 0 → Fin S1.rank)
  reducesTo_S1_S_d0 : S1.ReducesTo [0] S_
  reducesTo_S65536x1024_S1024_d0 : S65536x1024.ReducesTo [0] S1024
  bcast_S_S1024 : S_.BroadcastsInDim S1024 (![] : Fin 0 → Fin S1024.rank)
  reducesTo_S1024_S_d0 : S1024.ReducesTo [0] S_
  reducesTo_S65536x2048_S2048_d0 : S65536x2048.ReducesTo [0] S2048
  bcast_S_S2048 : S_.BroadcastsInDim S2048 (![] : Fin 0 → Fin S2048.rank)
  reducesTo_S2048_S_d0 : S2048.ReducesTo [0] S_

variable [Facts]

def fn_part10 {F : FTy → Type} [FloatOps F] (main_arg2 : FVec F S65536x1024 .f32) (main_arg4 : FVec F S65536x2048 .f32) (main_v168 : IVec S_ 1) (main_v169 : FVec F S1 .f32) (main_v170 : FVec F S1 .f32) : IVec S_ 1 :=
  let main_v171 : IVec S1 1 := cmpf .olt main_v169 main_v170
  let main_c_67 : IVec S_ 1 := constantI S_ 1 1#1
  let main_v172 : IVec S_ 1 := (fun x v => Host.reduce IntOp.andi x v reducesTo_S1_S_d0 h_S_) main_v171 main_c_67
  let main_v173 : IVec S_ 1 := andi main_v168 main_v172
  let main_cst_68 : FVec F S_ .f32 := constant S_ .f32 0x00000000#32
  let main_v174 : FVec F S1024 .f32 := (fun x v => Host.reduceAdd x v reducesTo_S65536x1024_S1024_d0 h_S_) main_arg2 main_cst_68
  let main_cst_69 : FVec F S_ .f32 := constant S_ .f32 0x00000000#32
  let main_v175 : FVec F S1024 .f32 := broadcastInDim S1024 ![] bcast_S_S1024 main_cst_69
  let main_v176 : IVec S1024 1 := cmpf .une main_v174 main_v175
  let main_c_70 : IVec S_ 1 := constantI S_ 1 1#1
  let main_v177 : IVec S_ 1 := (fun x v => Host.reduce IntOp.andi x v reducesTo_S1024_S_d0 h_S_) main_v176 main_c_70
  let main_v178 : IVec S_ 1 := andi main_v173 main_v177
  let main_cst_71 : FVec F S_ .f32 := constant S_ .f32 0x00000000#32
  let main_v179 : FVec F S2048 .f32 := (fun x v => Host.reduceAdd x v reducesTo_S65536x2048_S2048_d0 h_S_) main_arg4 main_cst_71
  let main_cst_72 : FVec F S_ .f32 := constant S_ .f32 0x00000000#32
  let main_v180 : FVec F S2048 .f32 := broadcastInDim S2048 ![] bcast_S_S2048 main_cst_72
  let main_v181 : IVec S2048 1 := cmpf .une main_v179 main_v180
  let main_c_73 : IVec S_ 1 := constantI S_ 1 1#1
  let main_v182 : IVec S_ 1 := (fun x v => Host.reduce IntOp.andi x v reducesTo_S2048_S_d0 h_S_) main_v181 main_c_73
  let main_v183 : IVec S_ 1 := andi main_v178 main_v182
  main_v183

def fn_part9 {F : FTy → Type} [FloatOps F] (main_arg2 : FVec F S65536x1024 .f32) (main_arg4 : FVec F S65536x2048 .f32) (main_arg31 : FVec F S16 .f32) (main_arg32 : FVec F S16x64 .f32) (main_arg33 : FVec F S16 .f32) (main_arg34 : FVec F S1 .f32) (main_v153 : IVec S_ 1) : IVec S_ 1 :=
  let main_v154 : FVec F S16 .f32 := Host.absf main_arg31
  let main_cst_60 : FVec F S_ .f32 := constant S_ .f32 0x7F800000#32
  let main_v155 : FVec F S16 .f32 := broadcastInDim S16 ![] bcast_S_S16 main_cst_60
  let main_v156 : IVec S16 1 := cmpf .olt main_v154 main_v155
  let main_c_61 : IVec S_ 1 := constantI S_ 1 1#1
  let main_v157 : IVec S_ 1 := (fun x v => Host.reduce IntOp.andi x v reducesTo_S16_S_d0 h_S_) main_v156 main_c_61
  let main_v158 : IVec S_ 1 := andi main_v153 main_v157
  let main_v159 : FVec F S16x64 .f32 := Host.absf main_arg32
  let main_cst_62 : FVec F S_ .f32 := constant S_ .f32 0x7F800000#32
  let main_v160 : FVec F S16x64 .f32 := broadcastInDim S16x64 ![] bcast_S_S16x64 main_cst_62
  let main_v161 : IVec S16x64 1 := cmpf .olt main_v159 main_v160
  let main_c_63 : IVec S_ 1 := constantI S_ 1 1#1
  let main_v162 : IVec S_ 1 := (fun x v => Host.reduce IntOp.andi x v reducesTo_S16x64_S_d0_1 h_S_) main_v161 main_c_63
  let main_v163 : IVec S_ 1 := andi main_v158 main_v162
  let main_v164 : FVec F S16 .f32 := Host.absf main_arg33
  let main_cst_64 : FVec F S_ .f32 := constant S_ .f32 0x7F800000#32
  let main_v165 : FVec F S16 .f32 := broadcastInDim S16 ![] bcast_S_S16 main_cst_64
  let main_v166 : IVec S16 1 := cmpf .olt main_v164 main_v165
  let main_c_65 : IVec S_ 1 := constantI S_ 1 1#1
  let main_v167 : IVec S_ 1 := (fun x v => Host.reduce IntOp.andi x v reducesTo_S16_S_d0 h_S_) main_v166 main_c_65
  let main_v168 : IVec S_ 1 := andi main_v163 main_v167
  let main_v169 : FVec F S1 .f32 := Host.absf main_arg34
  let main_cst_66 : FVec F S_ .f32 := constant S_ .f32 0x7F800000#32
  let main_v170 : FVec F S1 .f32 := broadcastInDim S1 ![] bcast_S_S1 main_cst_66
  fn_part10 (F := F) main_arg2 main_arg4 main_v168 main_v169 main_v170

def fn_part8 {F : FTy → Type} [FloatOps F] (main_arg2 : FVec F S65536x1024 .f32) (main_arg4 : FVec F S65536x2048 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S64x128 .f32 := Host.absf main_arg28
  let main_cst_54 : FVec F S_ .f32 := constant S_ .f32 0x7F800000#32
  let main_v140 : FVec F S64x128 .f32 := broadcastInDim S64x128 ![] bcast_S_S64x128 main_cst_54
  let main_v141 : IVec S64x128 1 := cmpf .olt main_v139 main_v140
  let main_c_55 : IVec S_ 1 := constantI S_ 1 1#1
  let main_v142 : IVec S_ 1 := (fun x v => Host.reduce IntOp.andi x v reducesTo_S64x128_S_d0_1 h_S_) main_v141 main_c_55
  let main_v143 : IVec S_ 1 := andi main_v138 main_v142
  let main_v144 : FVec F S64 .f32 := Host.absf main_arg29
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S16x128 .f32 := Host.absf main_arg30
  let main_cst_58 : FVec F S_ .f32 := constant S_ .f32 0x7F800000#32
  let main_v150 : FVec F S16x128 .f32 := broadcastInDim S16x128 ![] bcast_S_S16x128 main_cst_58
  let main_v151 : IVec S16x128 1 := cmpf .olt main_v149 main_v150
  let main_c_59 : IVec S_ 1 := constantI S_ 1 1#1
  let main_v152 : IVec S_ 1 := (fun x v => Host.reduce IntOp.andi x v reducesTo_S16x128_S_d0_1 h_S_) main_v151 main_c_59
  let main_v153 : IVec S_ 1 := andi main_v148 main_v152
  fn_part9 (F := F) main_arg2 main_arg4 main_arg31 main_arg32 main_arg33 main_arg34 main_v153

def fn_part7 {F : FTy → Type} [FloatOps F] (main_arg2 : FVec F S65536x1024 .f32) (main_arg4 : FVec F S65536x2048 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S256x128 .f32 := Host.absf main_arg26
  let main_cst_50 : FVec F S_ .f32 := constant S_ .f32 0x7F800000#32
  let main_v130 : FVec F S256x128 .f32 := broadcastInDim S256x128 ![] bcast_S_S256x128 main_cst_50
  let main_v131 : IVec S256x128 1 := cmpf .olt main_v129 main_v130
  let main_c_51 : IVec S_ 1 := constantI S_ 1 1#1
  let main_v132 : IVec S_ 1 := (fun x v => Host.reduce IntOp.andi x v reducesTo_S256x128_S_d0_1 h_S_) main_v131 main_c_51
  let main_v133 : IVec S_ 1 := andi main_v128 main_v132
  let main_v134 : FVec F S256 .f32 := Host.absf main_arg27
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg2 main_arg4 main_arg28 main_arg29 main_arg30 main_arg31 main_arg32 main_arg33 main_arg34 main_v133 main_v136

def fn_part6 {F : FTy → Type} [FloatOps F] (main_arg2 : FVec F S65536x1024 .f32) (main_arg4 : FVec F S65536x2048 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x128 .f32 := Host.absf main_arg22
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg2 main_arg4 main_arg25 main_arg26 main_arg27 main_arg28 main_arg29 main_arg30 main_arg31 main_arg32 main_arg33 main_arg34 main_v118 main_v119

def fn_part5 {F : FTy → Type} [FloatOps F] (main_arg2 : FVec F S65536x1024 .f32) (main_arg4 : FVec F S65536x2048 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x128 .f32 := Host.absf main_arg20
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg2 main_arg4 main_arg21 main_arg22 main_arg23 main_arg24 main_arg25 main_arg26 main_arg27 main_arg28 main_arg29 main_arg30 main_arg31 main_arg32 main_arg33 main_arg34 main_v98 main_v101 main_c_39

def fn_part4 {F : FTy → Type} [FloatOps F] (main_arg2 : FVec F S65536x1024 .f32) (main_arg4 : FVec F S65536x2048 .f32) (main_arg14 : FVec F S256x128 .f32) (main_arg15 : FVec F S256 .f32) (main_arg16 : FVec F S64x128 .f32) (main_arg17 : FVec F S64 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S64x128 .f32 := Host.absf main_arg16
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg2 main_arg4 main_arg18 main_arg19 main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg2 : FVec F S65536x1024 .f32) (main_arg4 : FVec F S65536x2048 .f32) (main_arg11 : FVec F S128 .f32) (main_arg12 : FVec F S128 .f32) (main_arg13 : FVec F S128 .f32) (main_arg14 : FVec F S256x128 .f32) (main_arg15 : FVec F S256 .f32) (main_arg16 : FVec F S64x128 .f32) (main_arg17 : FVec F S64 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg4 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg2 : FVec F S65536x1024 .f32) (main_arg4 : FVec F S65536x2048 .f32) (main_arg7 : FVec F S128 .f32) (main_arg8 : FVec F S256x128 .f32) (main_arg9 : FVec F S256 .f32) (main_arg10 : FVec F S128x128 .f32) (main_arg11 : FVec F S128 .f32) (main_arg12 : FVec F S128 .f32) (main_arg13 : FVec F S128 .f32) (main_arg14 : FVec F S256x128 .f32) (main_arg15 : FVec F S256 .f32) (main_arg16 : FVec F S64x128 .f32) (main_arg17 : FVec F S64 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg2 main_arg4 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg2 : FVec F S65536x1024 .f32) (main_arg4 : FVec F S65536x2048 .f32) (main_arg5 : FVec F S2048x2048 .f32) (main_arg6 : FVec F S128 .f32) (main_arg7 : FVec F S128 .f32) (main_arg8 : FVec F S256x128 .f32) (main_arg9 : FVec F S256 .f32) (main_arg10 : FVec F S128x128 .f32) (main_arg11 : FVec F S128 .f32) (main_arg12 : FVec F S128 .f32) (main_arg13 : FVec F S128 .f32) (main_arg14 : FVec F S256x128 .f32) (main_arg15 : FVec F S256 .f32) (main_arg16 : FVec F S64x128 .f32) (main_arg17 : FVec F S64 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S65536x2048 .f32 := Host.absf main_arg4
  let main_cst_6 : FVec F S_ .f32 := constant S_ .f32 0x7F800000#32
  let main_v20 : FVec F S65536x2048 .f32 := broadcastInDim S65536x2048 ![] bcast_S_S65536x2048 main_cst_6
  let main_v21 : IVec S65536x2048 1 := cmpf .olt main_v19 main_v20
  let main_c_7 : IVec S_ 1 := constantI S_ 1 1#1
  let main_v22 : IVec S_ 1 := (fun x v => Host.reduce IntOp.andi x v reducesTo_S65536x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg4 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S256x256x128 .f32) (main_arg1 : FVec F S65536x64 .f32) (main_arg2 : FVec F S65536x1024 .f32) (main_arg3 : FVec F S1024x1024 .f32) (main_arg4 : FVec F S65536x2048 .f32) (main_arg5 : FVec F S2048x2048 .f32) (main_arg6 : FVec F S128 .f32) (main_arg7 : FVec F S128 .f32) (main_arg8 : FVec F S256x128 .f32) (main_arg9 : FVec F S256 .f32) (main_arg10 : FVec F S128x128 .f32) (main_arg11 : FVec F S128 .f32) (main_arg12 : FVec F S128 .f32) (main_arg13 : FVec F S128 .f32) (main_arg14 : FVec F S256x128 .f32) (main_arg15 : FVec F S256 .f32) (main_arg16 : FVec F S64x128 .f32) (main_arg17 : FVec F S64 .f32) (main_arg18 : FVec F S128 .f32) (main_arg19 : FVec F S128 .f32) (main_arg20 : FVec F S256x128 .f32) (main_arg21 : FVec F S256 .f32) (main_arg22 : FVec F S128x128 .f32) (main_arg23 : FVec F S128 .f32) (main_arg24 : FVec F S128 .f32) (main_arg25 : FVec F S128 .f32) (main_arg26 : FVec F S256x128 .f32) (main_arg27 : FVec F S256 .f32) (main_arg28 : FVec F S64x128 .f32) (main_arg29 : FVec F S64 .f32) (main_arg30 : FVec F S16x128 .f32) (main_arg31 : FVec F S16 .f32) (main_arg32 : FVec F S16x64 .f32) (main_arg33 : FVec F S16 .f32) (main_arg34 : FVec F S1 .f32) : IVec S_ 1 :=
  let main_v0 : FVec F S256x256x128 .f32 := Host.absf main_arg0
  let main_cst : FVec F S_ .f32 := constant S_ .f32 0x7F800000#32
  let main_v1 : FVec F S256x256x128 .f32 := broadcastInDim S256x256x128 ![] bcast_S_S256x256x128 main_cst
  let main_v2 : IVec S256x256x128 1 := cmpf .olt main_v0 main_v1
  let main_c : IVec S_ 1 := constantI S_ 1 1#1
  let main_v3 : IVec S_ 1 := (fun x v => Host.reduce IntOp.andi x v reducesTo_S256x256x128_S_d0_1_2 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg2 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S256x256x128 : Shape := ⟨3, ![256, 256, 128]⟩
abbrev S65536x64 : Shape := ⟨2, ![65536, 64]⟩
abbrev S65536x1024 : Shape := ⟨2, ![65536, 1024]⟩
abbrev S1024x1024 : Shape := ⟨2, ![1024, 1024]⟩
abbrev S65536x2048 : Shape := ⟨2, ![65536, 2048]⟩
abbrev S2048x2048 : Shape := ⟨2, ![2048, 2048]⟩
abbrev S128 : Shape := ⟨1, ![128]⟩
abbrev S256x128 : Shape := ⟨2, ![256, 128]⟩
abbrev S256 : Shape := ⟨1, ![256]⟩
abbrev S128x128 : Shape := ⟨2, ![128, 128]⟩
abbrev S64x128 : Shape := ⟨2, ![64, 128]⟩
abbrev S64 : Shape := ⟨1, ![64]⟩
abbrev S16x128 : Shape := ⟨2, ![16, 128]⟩
abbrev S16 : Shape := ⟨1, ![16]⟩
abbrev S16x64 : Shape := ⟨2, ![16, 64]⟩
abbrev S1 : Shape := ⟨1, ![1]⟩
abbrev S65536x128 : Shape := ⟨2, ![65536, 128]⟩
abbrev S_ : Shape := ⟨0, ![]⟩
abbrev S1024 : Shape := ⟨1, ![1024]⟩
abbrev S2048 : Shape := ⟨1, ![2048]⟩
abbrev S1024x128 : Shape := ⟨2, ![1024, 128]⟩
abbrev S2048x1024 : Shape := ⟨2, ![2048, 1024]⟩
abbrev S2048x128 : Shape := ⟨2, ![2048, 128]⟩
abbrev S1024x1 : Shape := ⟨2, ![1024, 1]⟩
abbrev S1x128 : Shape := ⟨2, ![1, 128]⟩
abbrev S128x256 : Shape := ⟨2, ![128, 256]⟩
abbrev S1024x256 : Shape := ⟨2, ![1024, 256]⟩
abbrev S1x256 : Shape := ⟨2, ![1, 256]⟩
abbrev S256x1024 : Shape := ⟨2, ![256, 1024]⟩
abbrev S1x1024 : Shape := ⟨2, ![1, 1024]⟩
abbrev S128x64 : Shape := ⟨2, ![128, 64]⟩
abbrev S1024x64 : Shape := ⟨2, ![1024, 64]⟩
abbrev S1x64 : Shape := ⟨2, ![1, 64]⟩
abbrev S1024x2048 : Shape := ⟨2, ![1024, 2048]⟩
abbrev S2048x1 : Shape := ⟨2, ![2048, 1]⟩
abbrev S2048x256 : Shape := ⟨2, ![2048, 256]⟩
abbrev S256x2048 : Shape := ⟨2, ![256, 2048]⟩
abbrev S1x2048 : Shape := ⟨2, ![1, 2048]⟩
abbrev S2048x64 : Shape := ⟨2, ![2048, 64]⟩
abbrev S1x1 : Shape := ⟨2, ![1, 1]⟩
abbrev S128x16 : Shape := ⟨2, ![128, 16]⟩
abbrev S65536x16 : Shape := ⟨2, ![65536, 16]⟩
abbrev S1x16 : Shape := ⟨2, ![1, 16]⟩
abbrev S65536 : Shape := ⟨1, ![65536]⟩
abbrev S65536x1 : Shape := ⟨2, ![65536, 1]⟩
abbrev S64x16 : Shape := ⟨2, ![64, 16]⟩

abbrev nBuf : Space → Nat
  | .hbm => 471
  | .vmem => 22
  | .smem => 0
  | _ => 0

abbrev hbmTy0_0 (i : Nat) : BufTy := match i % 128 with
  | 0 => ⟨S256x256x128, .f32⟩
  | 1 => ⟨S65536x64, .f32⟩
  | 2 => ⟨S65536x1024, .f32⟩
  | 3 => ⟨S1024x1024, .f32⟩
  | 4 => ⟨S65536x2048, .f32⟩
  | 5 => ⟨S2048x2048, .f32⟩
  | 6 => ⟨S128, .f32⟩
  | 7 => ⟨S128, .f32⟩
  | 8 => ⟨S256x128, .f32⟩
  | 9 => ⟨S256, .f32⟩
  | 10 => ⟨S128x128, .f32⟩
  | 11 => ⟨S128, .f32⟩
  | 12 => ⟨S128, .f32⟩
  | 13 => ⟨S128, .f32⟩
  | 14 => ⟨S256x128, .f32⟩
  | 15 => ⟨S256, .f32⟩
  | 16 => ⟨S64x128, .f32⟩
  | 17 => ⟨S64, .f32⟩
  | 18 => ⟨S128, .f32⟩
  | 19 => ⟨S128, .f32⟩
  | 20 => ⟨S256x128, .f32⟩
  | 21 => ⟨S256, .f32⟩
  | 22 => ⟨S128x128, .f32⟩
  | 23 => ⟨S128, .f32⟩
  | 24 => ⟨S128, .f32⟩
  | 25 => ⟨S128, .f32⟩
  | 26 => ⟨S256x128, .f32⟩
  | 27 => ⟨S256, .f32⟩
  | 28 => ⟨S64x128, .f32⟩
  | 29 => ⟨S64, .f32⟩
  | 30 => ⟨S16x128, .f32⟩
  | 31 => ⟨S16, .f32⟩
  | 32 => ⟨S16x64, .f32⟩
  | 33 => ⟨S16, .f32⟩
  | 34 => ⟨S1, .f32⟩
  | 35 => ⟨S65536x128, .f32⟩
  | 36 => ⟨S_, .f32⟩
  | 37 => ⟨S1024, .f32⟩
  | 38 => ⟨S_, .f32⟩
  | 39 => ⟨S2048, .f32⟩
  | 40 => ⟨S1024x128, .f32⟩
  | 41 => ⟨S1024x1, .f32⟩
  | 42 => ⟨S1024x128, .f32⟩
  | 43 => ⟨S1024x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S1024x128, .f32⟩
  | 57 => ⟨S1024x128, .f32⟩
  | 58 => ⟨S1024x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S1024x128, .f32⟩
  | 74 => ⟨S1024x128, .f32⟩
  | 75 => ⟨S_, .f32⟩
  | 76 => ⟨S128, .f32⟩
  | 77 => ⟨S128, .f32⟩
  | 78 => ⟨S128, .f32⟩
  | 79 => ⟨S1x128, .f32⟩
  | 80 => ⟨S1024x128, .f32⟩
  | 81 => ⟨S1024x128, .f32⟩
  | 82 => ⟨S1x128, .f32⟩
  | 83 => ⟨S1024x128, .f32⟩
  | 84 => ⟨S1024x128, .f32⟩
  | 85 => ⟨S1x128, .f32⟩
  | 86 => ⟨S1024x128, .f32⟩
  | 87 => ⟨S1024x128, .f32⟩
  | 88 => ⟨S128x256, .f32⟩
  | 89 => ⟨S1024x256, .f32⟩
  | 90 => ⟨S1x256, .f32⟩
  | 91 => ⟨S1024x256, .f32⟩
  | 92 => ⟨S1024x256, .f32⟩
  | 93 => ⟨S256x1024, .f32⟩
  | 94 => ⟨S1024x1024, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S_, .f32⟩
  | 101 => ⟨S1024x1024, .f32⟩
  | 102 => ⟨S1024x1024, .f32⟩
  | 103 => ⟨S_, .f32⟩
  | 104 => ⟨S1024x1024, .f32⟩
  | 105 => ⟨S1024x1024, .f32⟩
  | 106 => ⟨S1024x1024, .f32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S1024x1024, .i1⟩
  | 113 => ⟨S1024x1024, .f32⟩
  | 114 => ⟨S1024x1024, .f32⟩
  | 115 => ⟨S_, .f32⟩
  | 116 => ⟨S1024, .f32⟩
  | 117 => ⟨S_, .f32⟩
  | 118 => ⟨S1024, .f32⟩
  | 119 => ⟨S1024, .f32⟩
  | 120 => ⟨S1024x1, .f32⟩
  | 121 => ⟨S1024x1024, .f32⟩
  | 122 => ⟨S1024x1024, .f32⟩
  | 123 => ⟨S1x1024, .f32⟩
  | 124 => ⟨S1024x1024, .f32⟩
  | 125 => ⟨S1024x1024, .f32⟩
  | 126 => ⟨S128x128, .f32⟩
  | 127 => ⟨S1024x128, .f32⟩
  | _ => ⟨S256x256x128, .f32⟩

abbrev hbmTy0_1 (i : Nat) : BufTy := match i % 128 with
  | 0 => ⟨S1x128, .f32⟩
  | 1 => ⟨S1024x128, .f32⟩
  | 2 => ⟨S1024x128, .f32⟩
  | 3 => ⟨S1024x128, .f32⟩
  | 4 => ⟨S_, .f32⟩
  | 5 => ⟨S_, .f32⟩
  | 6 => ⟨S1024x128, .f32⟩
  | 7 => ⟨S1024x128, .i1⟩
  | 8 => ⟨S_, .f32⟩
  | 9 => ⟨S1024x128, .f32⟩
  | 10 => ⟨S1024x128, .f32⟩
  | 11 => ⟨S1024x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S1024x128, .f32⟩
  | 25 => ⟨S1024x128, .f32⟩
  | 26 => ⟨S1024x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S1024x128, .f32⟩
  | 42 => ⟨S1024x128, .f32⟩
  | 43 => ⟨S_, .f32⟩
  | 44 => ⟨S128, .f32⟩
  | 45 => ⟨S128, .f32⟩
  | 46 => ⟨S128, .f32⟩
  | 47 => ⟨S1x128, .f32⟩
  | 48 => ⟨S1024x128, .f32⟩
  | 49 => ⟨S1024x128, .f32⟩
  | 50 => ⟨S1x128, .f32⟩
  | 51 => ⟨S1024x128, .f32⟩
  | 52 => ⟨S1024x128, .f32⟩
  | 53 => ⟨S1x128, .f32⟩
  | 54 => ⟨S1024x128, .f32⟩
  | 55 => ⟨S1024x128, .f32⟩
  | 56 => ⟨S128x256, .f32⟩
  | 57 => ⟨S1024x256, .f32⟩
  | 58 => ⟨S1x256, .f32⟩
  | 59 => ⟨S1024x256, .f32⟩
  | 60 => ⟨S1024x256, .f32⟩
  | 61 => ⟨S256x1024, .f32⟩
  | 62 => ⟨S1024x1024, .f32⟩
  | 63 => ⟨S1024x1024, .f32⟩
  | 64 => ⟨S1024x1024, .f32⟩
  | 65 => ⟨S_, .f32⟩
  | 66 => ⟨S1024x1024, .f32⟩
  | 67 => ⟨S1024x1024, .f32⟩
  | 68 => ⟨S_, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S1024x1024, .i1⟩
  | 81 => ⟨S1024x1024, .f32⟩
  | 82 => ⟨S1024x1024, .f32⟩
  | 83 => ⟨S_, .f32⟩
  | 84 => ⟨S1024, .f32⟩
  | 85 => ⟨S_, .f32⟩
  | 86 => ⟨S1024, .f32⟩
  | 87 => ⟨S1024, .f32⟩
  | 88 => ⟨S1024x1, .f32⟩
  | 89 => ⟨S1024x1024, .f32⟩
  | 90 => ⟨S1024x1024, .f32⟩
  | 91 => ⟨S1x1024, .f32⟩
  | 92 => ⟨S1024x1024, .f32⟩
  | 93 => ⟨S1024x1024, .f32⟩
  | 94 => ⟨S128x64, .f32⟩
  | 95 => ⟨S1024x64, .f32⟩
  | 96 => ⟨S1x64, .f32⟩
  | 97 => ⟨S1024x64, .f32⟩
  | 98 => ⟨S1024x64, .f32⟩
  | 99 => ⟨S1024x64, .f32⟩
  | 100 => ⟨S_, .f32⟩
  | 101 => ⟨S_, .f32⟩
  | 102 => ⟨S1024x64, .f32⟩
  | 103 => ⟨S1024x64, .i1⟩
  | 104 => ⟨S_, .f32⟩
  | 105 => ⟨S1024x64, .f32⟩
  | 106 => ⟨S1024x64, .f32⟩
  | 107 => ⟨S1024x64, .f32⟩
  | 108 => ⟨S65536x64, .f32⟩
  | 109 => ⟨S2048x128, .f32⟩
  | 110 => ⟨S2048x1, .f32⟩
  | 111 => ⟨S2048x128, .f32⟩
  | 112 => ⟨S2048x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S2048x128, .f32⟩
  | 126 => ⟨S2048x128, .f32⟩
  | 127 => ⟨S2048x128, .f32⟩
  | _ => ⟨S256x256x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S2048x128, .f32⟩
  | 15 => ⟨S2048x128, .f32⟩
  | 16 => ⟨S_, .f32⟩
  | 17 => ⟨S128, .f32⟩
  | 18 => ⟨S128, .f32⟩
  | 19 => ⟨S128, .f32⟩
  | 20 => ⟨S1x128, .f32⟩
  | 21 => ⟨S2048x128, .f32⟩
  | 22 => ⟨S2048x128, .f32⟩
  | 23 => ⟨S1x128, .f32⟩
  | 24 => ⟨S2048x128, .f32⟩
  | 25 => ⟨S2048x128, .f32⟩
  | 26 => ⟨S1x128, .f32⟩
  | 27 => ⟨S2048x128, .f32⟩
  | 28 => ⟨S2048x128, .f32⟩
  | 29 => ⟨S128x256, .f32⟩
  | 30 => ⟨S2048x256, .f32⟩
  | 31 => ⟨S1x256, .f32⟩
  | 32 => ⟨S2048x256, .f32⟩
  | 33 => ⟨S2048x256, .f32⟩
  | 34 => ⟨S256x2048, .f32⟩
  | 35 => ⟨S2048x2048, .f32⟩
  | 36 => ⟨S2048x2048, .f32⟩
  | 37 => ⟨S2048x2048, .f32⟩
  | 38 => ⟨S_, .f32⟩
  | 39 => ⟨S2048x2048, .f32⟩
  | 40 => ⟨S2048x2048, .f32⟩
  | 41 => ⟨S_, .f32⟩
  | 42 => ⟨S2048x2048, .f32⟩
  | 43 => ⟨S2048x2048, .f32⟩
  | 44 => ⟨S2048x2048, .f32⟩
  | 45 => ⟨S2048x2048, .i32⟩
  | 46 => ⟨S2048x2048, .i32⟩
  | 47 => ⟨S_, .i32⟩
  | 48 => ⟨S2048x2048, .i32⟩
  | 49 => ⟨S2048x2048, .i32⟩
  | 50 => ⟨S2048x2048, .i1⟩
  | 51 => ⟨S2048x2048, .f32⟩
  | 52 => ⟨S2048x2048, .f32⟩
  | 53 => ⟨S_, .f32⟩
  | 54 => ⟨S2048, .f32⟩
  | 55 => ⟨S_, .f32⟩
  | 56 => ⟨S2048, .f32⟩
  | 57 => ⟨S2048, .f32⟩
  | 58 => ⟨S2048x1, .f32⟩
  | 59 => ⟨S2048x2048, .f32⟩
  | 60 => ⟨S2048x2048, .f32⟩
  | 61 => ⟨S1x2048, .f32⟩
  | 62 => ⟨S2048x2048, .f32⟩
  | 63 => ⟨S2048x2048, .f32⟩
  | 64 => ⟨S128x128, .f32⟩
  | 65 => ⟨S2048x128, .f32⟩
  | 66 => ⟨S1x128, .f32⟩
  | 67 => ⟨S2048x128, .f32⟩
  | 68 => ⟨S2048x128, .f32⟩
  | 69 => ⟨S2048x128, .f32⟩
  | 70 => ⟨S_, .f32⟩
  | 71 => ⟨S_, .f32⟩
  | 72 => ⟨S2048x128, .f32⟩
  | 73 => ⟨S2048x128, .i1⟩
  | 74 => ⟨S_, .f32⟩
  | 75 => ⟨S2048x128, .f32⟩
  | 76 => ⟨S2048x128, .f32⟩
  | 77 => ⟨S2048x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S2048x128, .f32⟩
  | 91 => ⟨S2048x128, .f32⟩
  | 92 => ⟨S2048x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S2048x128, .f32⟩
  | 108 => ⟨S2048x128, .f32⟩
  | 109 => ⟨S_, .f32⟩
  | 110 => ⟨S128, .f32⟩
  | 111 => ⟨S128, .f32⟩
  | 112 => ⟨S128, .f32⟩
  | 113 => ⟨S1x128, .f32⟩
  | 114 => ⟨S2048x128, .f32⟩
  | 115 => ⟨S2048x128, .f32⟩
  | 116 => ⟨S1x128, .f32⟩
  | 117 => ⟨S2048x128, .f32⟩
  | 118 => ⟨S2048x128, .f32⟩
  | 119 => ⟨S1x128, .f32⟩
  | 120 => ⟨S2048x128, .f32⟩
  | 121 => ⟨S2048x128, .f32⟩
  | 122 => ⟨S128x256, .f32⟩
  | 123 => ⟨S2048x256, .f32⟩
  | 124 => ⟨S1x256, .f32⟩
  | 125 => ⟨S2048x256, .f32⟩
  | 126 => ⟨S2048x256, .f32⟩
  | 127 => ⟨S256x2048, .f32⟩
  | _ => ⟨S256x256x128, .f32⟩

abbrev hbmTy0_3 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S_, .f32⟩
  | 7 => ⟨S2048x2048, .f32⟩
  | 8 => ⟨S2048x2048, .f32⟩
  | 9 => ⟨S2048x2048, .f32⟩
  | 10 => ⟨S2048x2048, .i32⟩
  | 11 => ⟨S2048x2048, .i32⟩
  | 12 => ⟨S_, .i32⟩
  | 13 => ⟨S2048x2048, .i32⟩
  | 14 => ⟨S2048x2048, .i32⟩
  | 15 => ⟨S2048x2048, .i1⟩
  | 16 => ⟨S2048x2048, .f32⟩
  | 17 => ⟨S2048x2048, .f32⟩
  | 18 => ⟨S_, .f32⟩
  | 19 => ⟨S2048, .f32⟩
  | 20 => ⟨S_, .f32⟩
  | 21 => ⟨S2048, .f32⟩
  | 22 => ⟨S2048, .f32⟩
  | 23 => ⟨S2048x1, .f32⟩
  | 24 => ⟨S2048x2048, .f32⟩
  | 25 => ⟨S2048x2048, .f32⟩
  | 26 => ⟨S1x2048, .f32⟩
  | 27 => ⟨S2048x2048, .f32⟩
  | 28 => ⟨S2048x2048, .f32⟩
  | 29 => ⟨S128x64, .f32⟩
  | 30 => ⟨S2048x64, .f32⟩
  | 31 => ⟨S1x64, .f32⟩
  | 32 => ⟨S2048x64, .f32⟩
  | 33 => ⟨S2048x64, .f32⟩
  | 34 => ⟨S2048x64, .f32⟩
  | 35 => ⟨S_, .f32⟩
  | 36 => ⟨S_, .f32⟩
  | 37 => ⟨S2048x64, .f32⟩
  | 38 => ⟨S2048x64, .i1⟩
  | 39 => ⟨S_, .f32⟩
  | 40 => ⟨S2048x64, .f32⟩
  | 41 => ⟨S2048x64, .f32⟩
  | 42 => ⟨S2048x64, .f32⟩
  | 43 => ⟨S65536x64, .f32⟩
  | 44 => ⟨S65536x128, .f32⟩
  | 45 => ⟨S65536x128, .f32⟩
  | 46 => ⟨S1x1, .f32⟩
  | 47 => ⟨S65536x128, .f32⟩
  | 48 => ⟨S65536x128, .f32⟩
  | 49 => ⟨S_, .f32⟩
  | 50 => ⟨S1, .f32⟩
  | 51 => ⟨S1, .f32⟩
  | 52 => ⟨S1x1, .f32⟩
  | 53 => ⟨S65536x128, .f32⟩
  | 54 => ⟨S65536x128, .f32⟩
  | 55 => ⟨S65536x128, .f32⟩
  | 56 => ⟨S128x16, .f32⟩
  | 57 => ⟨S65536x16, .f32⟩
  | 58 => ⟨S1x16, .f32⟩
  | 59 => ⟨S65536x16, .f32⟩
  | 60 => ⟨S65536x16, .f32⟩
  | 61 => ⟨S_, .f32⟩
  | 62 => ⟨S65536, .f32⟩
  | 63 => ⟨S_, .f32⟩
  | 64 => ⟨S65536, .f32⟩
  | 65 => ⟨S65536, .f32⟩
  | 66 => ⟨S65536x1, .f32⟩
  | 67 => ⟨S65536x16, .f32⟩
  | 68 => ⟨S65536x16, .f32⟩
  | 69 => ⟨S65536x16, .f32⟩
  | 70 => ⟨S_, .f32⟩
  | 71 => ⟨S65536, .f32⟩
  | 72 => ⟨S65536x1, .f32⟩
  | 73 => ⟨S65536x16, .f32⟩
  | 74 => ⟨S65536x16, .f32⟩
  | 75 => ⟨S64x16, .f32⟩
  | 76 => ⟨S65536x16, .f32⟩
  | 77 => ⟨S1x16, .f32⟩
  | 78 => ⟨S65536x16, .f32⟩
  | 79 => ⟨S65536x16, .f32⟩
  | 80 => ⟨S64x16, .f32⟩
  | 81 => ⟨S65536x16, .f32⟩
  | 82 => ⟨S1x16, .f32⟩
  | 83 => ⟨S65536x16, .f32⟩
  | 84 => ⟨S65536x16, .f32⟩
  | 85 => ⟨S65536x16, .f32⟩
  | 86 => ⟨S65536x16, .f32⟩
  | _ => ⟨S256x256x128, .f32⟩

abbrev hbmTy (i : Nat) : BufTy := match i / 128 with
  | 0 => hbmTy0_0 i
  | 1 => hbmTy0_1 i
  | 2 => hbmTy0_2 i
  | 3 => hbmTy0_3 i
  | _ => ⟨S256x256x128, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x2048, .f32⟩
  | .local _ .vmem, ⟨12, _⟩ => ⟨S1024x2048, .f32⟩
  | .local _ .vmem, ⟨13, _⟩ => ⟨S1024x128, .f32⟩
  | .local _ .vmem, ⟨14, _⟩ => ⟨S1024x128, .f32⟩
  | .local _ .vmem, ⟨15, _⟩ => ⟨S2048x128, .f32⟩
  | .local _ .vmem, ⟨16, _⟩ => ⟨S2048x128, .f32⟩
  | .local _ .vmem, ⟨17, _⟩ => ⟨S1024x2048, .f32⟩
  | .local _ .vmem, ⟨18, _⟩ => ⟨S1024x2048, .f32⟩
  | .local _ .vmem, ⟨19, _⟩ => ⟨S2048x64, .f32⟩
  | .local _ .vmem, ⟨20, _⟩ => ⟨S1024x64, .f32⟩
  | .local _ .vmem, ⟨21, _⟩ => ⟨S1024x64, .f32⟩
  | _, _ => ⟨S256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_cst : Ref sig .tc := ⟨.hbm, 36, rfl⟩
abbrev main_v1 : Ref sig .tc := ⟨.hbm, 37, rfl⟩
abbrev main_cst_0 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst_1 : Ref sig .tc := ⟨.hbm, 44, rfl⟩
abbrev main_v7 : Ref sig .tc := ⟨.hbm, 45, rfl⟩
abbrev main_cst_2 : Ref sig .tc := ⟨.hbm, 46, rfl⟩
abbrev main_v8 : Ref sig .tc := ⟨.hbm, 47, rfl⟩
abbrev main_v9 : Ref sig .tc := ⟨.hbm, 48, rfl⟩
abbrev main_c : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_cst_3 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_4 : Ref sig .tc := ⟨.hbm, 97, rfl⟩
abbrev main_v35 : Ref sig .tc := ⟨.hbm, 98, rfl⟩
abbrev main_v36 : Ref sig .tc := ⟨.hbm, 99, rfl⟩
abbrev main_cst_5 : Ref sig .tc := ⟨.hbm, 100, rfl⟩
abbrev main_v37 : Ref sig .tc := ⟨.hbm, 101, rfl⟩
abbrev main_v38 : Ref sig .tc := ⟨.hbm, 102, rfl⟩
abbrev main_cst_6 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_7 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_8 : Ref sig .tc := ⟨.hbm, 115, rfl⟩
abbrev main_v49 : Ref sig .tc := ⟨.hbm, 116, rfl⟩
abbrev main_cst_9 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_10 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v64 : Ref sig .tc := ⟨.hbm, 139, rfl⟩
abbrev main_cst_11 : Ref sig .tc := ⟨.hbm, 140, rfl⟩
abbrev main_v65 : Ref sig .tc := ⟨.hbm, 141, rfl⟩
abbrev main_cst_12 : Ref sig .tc := ⟨.hbm, 142, rfl⟩
abbrev main_v66 : Ref sig .tc := ⟨.hbm, 143, rfl⟩
abbrev main_v67 : Ref sig .tc := ⟨.hbm, 144, rfl⟩
abbrev main_c_13 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_cst_14 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_cst_15 : Ref sig .tc := ⟨.hbm, 193, rfl⟩
abbrev main_v93 : Ref sig .tc := ⟨.hbm, 194, rfl⟩
abbrev main_v94 : Ref sig .tc := ⟨.hbm, 195, rfl⟩
abbrev main_cst_16 : Ref sig .tc := ⟨.hbm, 196, rfl⟩
abbrev main_v95 : Ref sig .tc := ⟨.hbm, 197, rfl⟩
abbrev main_v96 : Ref sig .tc := ⟨.hbm, 198, rfl⟩
abbrev main_cst_17 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_c_18 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_cst_19 : Ref sig .tc := ⟨.hbm, 211, rfl⟩
abbrev main_v107 : Ref sig .tc := ⟨.hbm, 212, rfl⟩
abbrev main_cst_20 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_cst_21 : Ref sig .tc := ⟨.hbm, 228, rfl⟩
abbrev main_call3_cst : Ref sig .tc := ⟨.hbm, 229, rfl⟩
abbrev main_call3_v0 : Ref sig .tc := ⟨.hbm, 230, rfl⟩
abbrev main_call3_v1 : Ref sig .tc := ⟨.hbm, 231, rfl⟩
abbrev main_call3_v2 : Ref sig .tc := ⟨.hbm, 232, rfl⟩
abbrev main_call3_v3 : Ref sig .tc := ⟨.hbm, 233, rfl⟩
abbrev main_call3_v4 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_22 : Ref sig .tc := ⟨.hbm, 241, rfl⟩
abbrev main_v128 : Ref sig .tc := ⟨.hbm, 242, rfl⟩
abbrev main_cst_23 : Ref sig .tc := ⟨.hbm, 243, rfl⟩
abbrev main_v129 : Ref sig .tc := ⟨.hbm, 244, rfl⟩
abbrev main_v130 : Ref sig .tc := ⟨.hbm, 245, rfl⟩
abbrev main_c_24 : Ref sig .tc := ⟨.hbm, 246, rfl⟩
abbrev main_call4_cst : Ref sig .tc := ⟨.hbm, 247, rfl⟩
abbrev main_call4_v0 : Ref sig .tc := ⟨.hbm, 248, rfl⟩
abbrev main_call4_v1 : Ref sig .tc := ⟨.hbm, 249, rfl⟩
abbrev main_call4_cst_0 : Ref sig .tc := ⟨.hbm, 250, rfl⟩
abbrev main_call4_v2 : Ref sig .tc := ⟨.hbm, 251, rfl⟩
abbrev main_call4_v3 : Ref sig .tc := ⟨.hbm, 252, rfl⟩
abbrev main_call4_v4 : Ref sig .tc := ⟨.hbm, 253, rfl⟩
abbrev main_call4_v5 : Ref sig .tc := ⟨.hbm, 254, rfl⟩
abbrev main_call4_v6 : Ref sig .tc := ⟨.hbm, 255, rfl⟩
abbrev main_call4_v7 : Ref sig .tc := ⟨.hbm, 256, rfl⟩
abbrev main_call4_cst_1 : Ref sig .tc := ⟨.hbm, 257, rfl⟩
abbrev main_call4_v8 : Ref sig .tc := ⟨.hbm, 258, rfl⟩
abbrev main_call4_cst_2 : Ref sig .tc := ⟨.hbm, 259, rfl⟩
abbrev main_call4_v9 : Ref sig .tc := ⟨.hbm, 260, rfl⟩
abbrev main_call4_v10 : Ref sig .tc := ⟨.hbm, 261, rfl⟩
abbrev main_call4_v11 : Ref sig .tc := ⟨.hbm, 262, rfl⟩
abbrev main_call4_cst_3 : Ref sig .tc := ⟨.hbm, 263, rfl⟩
abbrev main_call4_v12 : Ref sig .tc := ⟨.hbm, 264, rfl⟩
abbrev main_call4_cst_4 : Ref sig .tc := ⟨.hbm, 265, rfl⟩
abbrev main_call4_call0_v0 : Ref sig .tc := ⟨.hbm, 266, rfl⟩
abbrev main_call4_call0_v1 : Ref sig .tc := ⟨.hbm, 267, rfl⟩
abbrev main_v131 : Ref sig .tc := ⟨.hbm, 268, rfl⟩
abbrev main_v132 : Ref sig .tc := ⟨.hbm, 269, rfl⟩
abbrev main_v133 : Ref sig .tc := ⟨.hbm, 270, rfl⟩
abbrev main_v134 : Ref sig .tc := ⟨.hbm, 271, rfl⟩
abbrev main_cst_25 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_cst_26 : Ref sig .tc := ⟨.hbm, 294, rfl⟩
abbrev main_v156 : Ref sig .tc := ⟨.hbm, 295, rfl⟩
abbrev main_v157 : Ref sig .tc := ⟨.hbm, 296, rfl⟩
abbrev main_cst_27 : Ref sig .tc := ⟨.hbm, 297, rfl⟩
abbrev main_v158 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_c_28 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_cst_29 : Ref sig .tc := ⟨.hbm, 309, rfl⟩
abbrev main_v168 : Ref sig .tc := ⟨.hbm, 310, rfl⟩
abbrev main_cst_30 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_cst_31 : Ref sig .tc := ⟨.hbm, 326, rfl⟩
abbrev main_call5_cst : Ref sig .tc := ⟨.hbm, 327, rfl⟩
abbrev main_call5_v0 : Ref sig .tc := ⟨.hbm, 328, rfl⟩
abbrev main_call5_v1 : Ref sig .tc := ⟨.hbm, 329, rfl⟩
abbrev main_call5_v2 : Ref sig .tc := ⟨.hbm, 330, rfl⟩
abbrev main_call5_v3 : Ref sig .tc := ⟨.hbm, 331, rfl⟩
abbrev main_call5_v4 : Ref sig .tc := ⟨.hbm, 332, rfl⟩
abbrev main_v183 : Ref sig .tc := ⟨.hbm, 333, rfl⟩
abbrev main_cst_32 : Ref sig .tc := ⟨.hbm, 334, rfl⟩
abbrev main_v184 : Ref sig .tc := ⟨.hbm, 335, rfl⟩
abbrev main_cst_33 : Ref sig .tc := ⟨.hbm, 336, rfl⟩
abbrev main_v185 : Ref sig .tc := ⟨.hbm, 337, rfl⟩
abbrev main_v186 : Ref sig .tc := ⟨.hbm, 338, rfl⟩
abbrev main_c_34 : Ref sig .tc := ⟨.hbm, 339, rfl⟩
abbrev main_call6_cst : Ref sig .tc := ⟨.hbm, 340, rfl⟩
abbrev main_call6_v0 : Ref sig .tc := ⟨.hbm, 341, rfl⟩
abbrev main_call6_v1 : Ref sig .tc := ⟨.hbm, 342, rfl⟩
abbrev main_call6_cst_0 : Ref sig .tc := ⟨.hbm, 343, rfl⟩
abbrev main_call6_v2 : Ref sig .tc := ⟨.hbm, 344, rfl⟩
abbrev main_call6_v3 : Ref sig .tc := ⟨.hbm, 345, rfl⟩
abbrev main_call6_v4 : Ref sig .tc := ⟨.hbm, 346, rfl⟩
abbrev main_call6_v5 : Ref sig .tc := ⟨.hbm, 347, rfl⟩
abbrev main_call6_v6 : Ref sig .tc := ⟨.hbm, 348, rfl⟩
abbrev main_call6_v7 : Ref sig .tc := ⟨.hbm, 349, rfl⟩
abbrev main_call6_cst_1 : Ref sig .tc := ⟨.hbm, 350, rfl⟩
abbrev main_call6_v8 : Ref sig .tc := ⟨.hbm, 351, rfl⟩
abbrev main_call6_cst_2 : Ref sig .tc := ⟨.hbm, 352, rfl⟩
abbrev main_call6_v9 : Ref sig .tc := ⟨.hbm, 353, rfl⟩
abbrev main_call6_v10 : Ref sig .tc := ⟨.hbm, 354, rfl⟩
abbrev main_call6_v11 : Ref sig .tc := ⟨.hbm, 355, rfl⟩
abbrev main_call6_cst_3 : Ref sig .tc := ⟨.hbm, 356, rfl⟩
abbrev main_call6_v12 : Ref sig .tc := ⟨.hbm, 357, rfl⟩
abbrev main_call6_cst_4 : Ref sig .tc := ⟨.hbm, 358, rfl⟩
abbrev main_call6_call0_v0 : Ref sig .tc := ⟨.hbm, 359, rfl⟩
abbrev main_call6_call0_v1 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_cst_35 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_cst_36 : Ref sig .tc := ⟨.hbm, 387, rfl⟩
abbrev main_v212 : Ref sig .tc := ⟨.hbm, 388, rfl⟩
abbrev main_v213 : Ref sig .tc := ⟨.hbm, 389, rfl⟩
abbrev main_cst_37 : Ref sig .tc := ⟨.hbm, 390, rfl⟩
abbrev main_v214 : Ref sig .tc := ⟨.hbm, 391, rfl⟩
abbrev main_v215 : Ref sig .tc := ⟨.hbm, 392, rfl⟩
abbrev main_v216 : Ref sig .tc := ⟨.hbm, 393, rfl⟩
abbrev main_v217 : Ref sig .tc := ⟨.hbm, 394, rfl⟩
abbrev main_v218 : Ref sig .tc := ⟨.hbm, 395, rfl⟩
abbrev main_c_38 : Ref sig .tc := ⟨.hbm, 396, rfl⟩
abbrev main_v219 : Ref sig .tc := ⟨.hbm, 397, rfl⟩
abbrev main_v220 : Ref sig .tc := ⟨.hbm, 398, rfl⟩
abbrev main_v221 : Ref sig .tc := ⟨.hbm, 399, rfl⟩
abbrev main_v222 : Ref sig .tc := ⟨.hbm, 400, rfl⟩
abbrev main_v223 : Ref sig .tc := ⟨.hbm, 401, rfl⟩
abbrev main_cst_39 : Ref sig .tc := ⟨.hbm, 402, rfl⟩
abbrev main_v224 : Ref sig .tc := ⟨.hbm, 403, rfl⟩
abbrev main_cst_40 : Ref sig .tc := ⟨.hbm, 404, rfl⟩
abbrev main_v225 : Ref sig .tc := ⟨.hbm, 405, rfl⟩
abbrev main_v226 : Ref sig .tc := ⟨.hbm, 406, rfl⟩
abbrev main_v227 : Ref sig .tc := ⟨.hbm, 407, rfl⟩
abbrev main_v228 : Ref sig .tc := ⟨.hbm, 408, rfl⟩
abbrev main_v229 : Ref sig .tc := ⟨.hbm, 409, rfl⟩
abbrev main_v230 : Ref sig .tc := ⟨.hbm, 410, rfl⟩
abbrev main_v231 : Ref sig .tc := ⟨.hbm, 411, rfl⟩
abbrev main_v232 : Ref sig .tc := ⟨.hbm, 412, rfl⟩
abbrev main_v233 : Ref sig .tc := ⟨.hbm, 413, rfl⟩
abbrev main_v234 : Ref sig .tc := ⟨.hbm, 414, rfl⟩
abbrev main_v235 : Ref sig .tc := ⟨.hbm, 415, rfl⟩
abbrev main_v236 : Ref sig .tc := ⟨.hbm, 416, rfl⟩
abbrev main_v237 : Ref sig .tc := ⟨.hbm, 417, rfl⟩
abbrev main_v238 : Ref sig .tc := ⟨.hbm, 418, rfl⟩
abbrev main_cst_41 : Ref sig .tc := ⟨.hbm, 419, rfl⟩
abbrev main_call7_cst : Ref sig .tc := ⟨.hbm, 420, rfl⟩
abbrev main_call7_v0 : Ref sig .tc := ⟨.hbm, 421, rfl⟩
abbrev main_call7_v1 : Ref sig .tc := ⟨.hbm, 422, rfl⟩
abbrev main_call7_v2 : Ref sig .tc := ⟨.hbm, 423, rfl⟩
abbrev main_call7_v3 : Ref sig .tc := ⟨.hbm, 424, rfl⟩
abbrev main_call7_v4 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_cst_42 : Ref sig .tc := ⟨.hbm, 433, rfl⟩
abbrev main_v246 : Ref sig .tc := ⟨.hbm, 434, rfl⟩
abbrev main_v247 : Ref sig .tc := ⟨.hbm, 435, rfl⟩
abbrev main_v248 : Ref sig .tc := ⟨.hbm, 436, rfl⟩
abbrev main_v249 : Ref sig .tc := ⟨.hbm, 437, rfl⟩
abbrev main_v250 : Ref sig .tc := ⟨.hbm, 438, rfl⟩
abbrev main_v251 : Ref sig .tc := ⟨.hbm, 439, rfl⟩
abbrev main_v252 : Ref sig .tc := ⟨.hbm, 440, rfl⟩
abbrev main_v253 : Ref sig .tc := ⟨.hbm, 441, rfl⟩
abbrev main_v254 : Ref sig .tc := ⟨.hbm, 442, rfl⟩
abbrev main_v255 : Ref sig .tc := ⟨.hbm, 443, rfl⟩
abbrev main_v256 : Ref sig .tc := ⟨.hbm, 444, rfl⟩
abbrev main_cst_43 : Ref sig .tc := ⟨.hbm, 445, rfl⟩
abbrev main_v257 : Ref sig .tc := ⟨.hbm, 446, rfl⟩
abbrev main_cst_44 : Ref sig .tc := ⟨.hbm, 447, rfl⟩
abbrev main_v258 : Ref sig .tc := ⟨.hbm, 448, rfl⟩
abbrev main_v259 : Ref sig .tc := ⟨.hbm, 449, rfl⟩
abbrev main_v260 : Ref sig .tc := ⟨.hbm, 450, rfl⟩
abbrev main_v261 : Ref sig .tc := ⟨.hbm, 451, rfl⟩
abbrev main_v262 : Ref sig .tc := ⟨.hbm, 452, rfl⟩
abbrev main_v263 : Ref sig .tc := ⟨.hbm, 453, rfl⟩
abbrev main_cst_45 : Ref sig .tc := ⟨.hbm, 454, rfl⟩
abbrev main_v264 : Ref sig .tc := ⟨.hbm, 455, rfl⟩
abbrev main_v265 : Ref sig .tc := ⟨.hbm, 456, rfl⟩
abbrev main_v266 : Ref sig .tc := ⟨.hbm, 457, rfl⟩
abbrev main_v267 : Ref sig .tc := ⟨.hbm, 458, rfl⟩
abbrev main_v268 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_v278 : Ref sig .tc := ⟨.hbm, 469, rfl⟩
abbrev main_v279 : Ref sig .tc := ⟨.hbm, 470, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v14 : BitVec 1 := Scalar.cmpi .eq arg0 c63_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S256x256x128_S65536x128 : S256x256x128.ShapeCasts S65536x128
  reducesTo_S65536x1024_S1024_d0 : S65536x1024.ReducesTo [0] S1024
  h_S_ : 0 < S_.numel
  reducesTo_S65536x2048_S2048_d0 : S65536x2048.ReducesTo [0] S2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  reducesTo_S1024x128_S128_d0 : S1024x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S1024x128_0_1 : S1x128.BroadcastsInDim S1024x128 (![0, 1] : Fin 2 → Fin S1024x128.rank)
  transposes_S256x128_S128x256_1_0 : S256x128.Transposes [1, 0] S128x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S1024x1024 : S_.BroadcastsInDim S1024x1024 (![] : Fin 0 → Fin S1024x1024.rank)
  reducesTo_S1024x1024_S1024_d1 : S1024x1024.ReducesTo [1] S1024
  bcast_S_S1024 : S_.BroadcastsInDim S1024 (![] : Fin 0 → Fin S1024.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  transposes_S128x128_S128x128_1_0 : S128x128.Transposes [1, 0] S128x128
  bcast_S_S1024x128 : S_.BroadcastsInDim S1024x128 (![] : Fin 0 → Fin S1024x128.rank)
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  reducesTo_S2048x128_S128_d0 : S2048x128.ReducesTo [0] S128
  bcast_S1x128_S2048x128_0_1 : S1x128.BroadcastsInDim S2048x128 (![0, 1] : Fin 2 → Fin S2048x128.rank)
  bcast_S1x256_S2048x256_0_1 : S1x256.BroadcastsInDim S2048x256 (![0, 1] : Fin 2 → Fin S2048x256.rank)
  transposes_S2048x256_S256x2048_1_0 : S2048x256.Transposes [1, 0] S256x2048
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x128 : S_.BroadcastsInDim S2048x128 (![] : Fin 0 → Fin S2048x128.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  concatenates_S65536x64_S65536x64_S65536x128_d1 : Shape.Concatenates [S65536x64, S65536x64] S65536x128 1
  bcast_S1_S1x1_1 : S1.BroadcastsInDim S1x1 (![1] : Fin 1 → Fin S1x1.rank)
  bcast_S1x1_S65536x128_0_1 : S1x1.BroadcastsInDim S65536x128 (![0, 1] : Fin 2 → Fin S65536x128.rank)
  bcast_S_S1 : S_.BroadcastsInDim S1 (![] : Fin 0 → Fin S1.rank)
  transposes_S16x128_S128x16_1_0 : S16x128.Transposes [1, 0] S128x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  reducesTo_S65536x16_S65536_d1 : S65536x16.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  transposes_S16x64_S64x16_1_0 : S16x64.Transposes [1, 0] S64x16
  dot_S2048x1024_S2048x128_S1024x128_0_0_1_1_n_n_wf : DotDims.WF S2048x1024 S2048x128 S1024x128 [0] [0] [1] [1] [] []
  dot_S1024x128_S128x256_S1024x256_1_0_0_1_n_n_wf : DotDims.WF S1024x128 S128x256 S1024x256 [1] [0] [0] [1] [] []
  dot_S1024x256_S256x1024_S1024x1024_1_0_0_1_n_n_wf : DotDims.WF S1024x256 S256x1024 S1024x1024 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S1024x2048_S1024x128_S2048x128_0_0_1_1_n_n_wf : DotDims.WF S1024x2048 S1024x128 S2048x128 [0] [0] [1] [1] [] []
  dot_S2048x128_S128x256_S2048x256_1_0_0_1_n_n_wf : DotDims.WF S2048x128 S128x256 S2048x256 [1] [0] [0] [1] [] []
  dot_S2048x256_S256x2048_S2048x2048_1_0_0_1_n_n_wf : DotDims.WF S2048x256 S256x2048 S2048x2048 [1] [0] [0] [1] [] []
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S2048x128_S128x64_S2048x64_1_0_0_1_n_n_wf : DotDims.WF S2048x128 S128x64 S2048x64 [1] [0] [0] [1] [] []
  dot_S2048x2048_S2048x64_S2048x64_1_0_0_1_n_n_wf : DotDims.WF S2048x2048 S2048x64 S2048x64 [1] [0] [0] [1] [] []
  dot_S1024x2048_S2048x64_S1024x64_1_0_0_1_n_n_wf : DotDims.WF S1024x2048 S2048x64 S1024x64 [1] [0] [0] [1] [] []
  dot_S65536x128_S128x16_S65536x16_1_0_0_1_n_n_wf : DotDims.WF S65536x128 S128x16 S65536x16 [1] [0] [0] [1] [] []
  dot_S65536x64_S64x16_S65536x16_1_0_0_1_n_n_wf : DotDims.WF S65536x64 S64x16 S65536x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S65536x1024.size a
  hwx1_0 : ∀ i : grid1.Coords, EltTy.bits .f32 = 32 ∨ (Rect.block (s := S65536x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S65536x64.size a
  hwx1_2 : ∀ i : grid1.Coords, EltTy.bits .f32 = 32 ∨ (Rect.block (s := S65536x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S65536x2048.size a
  hwx2_0 : ∀ i : grid2.Coords, EltTy.bits .f32 = 32 ∨ (Rect.block (s := S65536x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S65536x128.size a
  hwx2_1 : ∀ i : grid2.Coords, EltTy.bits .f32 = 32 ∨ (Rect.block (s := S65536x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S2048x128.size a
  hwx2_2 : ∀ i : grid2.Coords, EltTy.bits .f32 = 32 ∨ (Rect.block (s := S2048x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S65536x2048.size a
  hwx3_0 : ∀ i : grid3.Coords, EltTy.bits .f32 = 32 ∨ (Rect.block (s := S65536x2048) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S2048x64.size a
  hwx3_1 : ∀ i : grid3.Coords, EltTy.bits .f32 = 32 ∨ (Rect.block (s := S2048x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S65536x64.size a
  hwx3_2 : ∀ i : grid3.Coords, EltTy.bits .f32 = 32 ∨ (Rect.block (s := S65536x64) S1024x64.size (cc3_transform_2 i) (hinb3_2 i)).WholeWords (EltTy.packing .f32)

variable [Facts₀]

def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S65536x128_S128x16_S65536x16_1_0_0_1_n_n : DotDims S65536x128 S128x16 S65536x16 where
  lhsContracting := [1]
  rhsContracting := [0]
  lhsNonContracting := [0]
  rhsNonContracting := [1]
  lhsBatch := []
  rhsBatch := []
  wf := dot_S65536x128_S128x16_S65536x16_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf

abbrev win0_0 : Pipeline.Window sig grid0 :=
  Pipeline.Window.ofSpec (Memref.whole main_arg2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v122) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v123) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v124) S2048x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg4) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v239) S2048x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v240) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S256x256x128 : Shape := ⟨3, ![256, 256, 128]⟩
abbrev S65536x64 : Shape := ⟨2, ![65536, 64]⟩
abbrev S65536x1024 : Shape := ⟨2, ![65536, 1024]⟩
abbrev S1024x1024 : Shape := ⟨2, ![1024, 1024]⟩
abbrev S65536x2048 : Shape := ⟨2, ![65536, 2048]⟩
abbrev S2048x2048 : Shape := ⟨2, ![2048, 2048]⟩
abbrev S128 : Shape := ⟨1, ![128]⟩
abbrev S256x128 : Shape := ⟨2, ![256, 128]⟩
abbrev S256 : Shape := ⟨1, ![256]⟩
abbrev S128x128 : Shape := ⟨2, ![128, 128]⟩
abbrev S64x128 : Shape := ⟨2, ![64, 128]⟩
abbrev S64 : Shape := ⟨1, ![64]⟩
abbrev S16x128 : Shape := ⟨2, ![16, 128]⟩
abbrev S16 : Shape := ⟨1, ![16]⟩
abbrev S16x64 : Shape := ⟨2, ![16, 64]⟩
abbrev S1 : Shape := ⟨1, ![1]⟩
abbrev S65536x128 : Shape := ⟨2, ![65536, 128]⟩
abbrev S_ : Shape := ⟨0, ![]⟩
abbrev S1024 : Shape := ⟨1, ![1024]⟩
abbrev S1x1024 : Shape := ⟨2, ![1, 1024]⟩
abbrev S2048 : Shape := ⟨1, ![2048]⟩
abbrev S1x2048 : Shape := ⟨2, ![1, 2048]⟩
abbrev S1024x65536 : Shape := ⟨2, ![1024, 65536]⟩
abbrev S1024x128 : Shape := ⟨2, ![1024, 128]⟩
abbrev S1x128 : Shape := ⟨2, ![1, 128]⟩
abbrev S128x256 : Shape := ⟨2, ![128, 256]⟩
abbrev S1024x256 : Shape := ⟨2, ![1024, 256]⟩
abbrev S1x256 : Shape := ⟨2, ![1, 256]⟩
abbrev S256x1024 : Shape := ⟨2, ![256, 1024]⟩
abbrev S1024x1 : Shape := ⟨2, ![1024, 1]⟩
abbrev S128x64 : Shape := ⟨2, ![128, 64]⟩
abbrev S1024x64 : Shape := ⟨2, ![1024, 64]⟩
abbrev S1x64 : Shape := ⟨2, ![1, 64]⟩
abbrev S2048x65536 : Shape := ⟨2, ![2048, 65536]⟩
abbrev S2048x128 : Shape := ⟨2, ![2048, 128]⟩
abbrev S2048x256 : Shape := ⟨2, ![2048, 256]⟩
abbrev S256x2048 : Shape := ⟨2, ![256, 2048]⟩
abbrev S2048x1 : Shape := ⟨2, ![2048, 1]⟩
abbrev S2048x64 : Shape := ⟨2, ![2048, 64]⟩
abbrev S1x1 : Shape := ⟨2, ![1, 1]⟩
abbrev S128x16 : Shape := ⟨2, ![128, 16]⟩
abbrev S65536x16 : Shape := ⟨2, ![65536, 16]⟩
abbrev S1x16 : Shape := ⟨2, ![1, 16]⟩
abbrev S65536 : Shape := ⟨1, ![65536]⟩
abbrev S65536x1 : Shape := ⟨2, ![65536, 1]⟩
abbrev S64x16 : Shape := ⟨2, ![64, 16]⟩

abbrev nBuf : Space → Nat
  | .hbm => 473
  | .vmem => 0
  | .smem => 0
  | _ => 0

abbrev hbmTy0_0 (i : Nat) : BufTy := match i % 128 with
  | 0 => ⟨S256x256x128, .f32⟩
  | 1 => ⟨S65536x64, .f32⟩
  | 2 => ⟨S65536x1024, .f32⟩
  | 3 => ⟨S1024x1024, .f32⟩
  | 4 => ⟨S65536x2048, .f32⟩
  | 5 => ⟨S2048x2048, .f32⟩
  | 6 => ⟨S128, .f32⟩
  | 7 => ⟨S128, .f32⟩
  | 8 => ⟨S256x128, .f32⟩
  | 9 => ⟨S256, .f32⟩
  | 10 => ⟨S128x128, .f32⟩
  | 11 => ⟨S128, .f32⟩
  | 12 => ⟨S128, .f32⟩
  | 13 => ⟨S128, .f32⟩
  | 14 => ⟨S256x128, .f32⟩
  | 15 => ⟨S256, .f32⟩
  | 16 => ⟨S64x128, .f32⟩
  | 17 => ⟨S64, .f32⟩
  | 18 => ⟨S128, .f32⟩
  | 19 => ⟨S128, .f32⟩
  | 20 => ⟨S256x128, .f32⟩
  | 21 => ⟨S256, .f32⟩
  | 22 => ⟨S128x128, .f32⟩
  | 23 => ⟨S128, .f32⟩
  | 24 => ⟨S128, .f32⟩
  | 25 => ⟨S128, .f32⟩
  | 26 => ⟨S256x128, .f32⟩
  | 27 => ⟨S256, .f32⟩
  | 28 => ⟨S64x128, .f32⟩
  | 29 => ⟨S64, .f32⟩
  | 30 => ⟨S16x128, .f32⟩
  | 31 => ⟨S16, .f32⟩
  | 32 => ⟨S16x64, .f32⟩
  | 33 => ⟨S16, .f32⟩
  | 34 => ⟨S1, .f32⟩
  | 35 => ⟨S65536x128, .f32⟩
  | 36 => ⟨S_, .f32⟩
  | 37 => ⟨S1024, .f32⟩
  | 38 => ⟨S1x1024, .f32⟩
  | 39 => ⟨S65536x1024, .f32⟩
  | 40 => ⟨S65536x1024, .f32⟩
  | 41 => ⟨S_, .f32⟩
  | 42 => ⟨S2048, .f32⟩
  | 43 => ⟨S1x2048, .f32⟩
  | 44 => ⟨S65536x2048, .f32⟩
  | 45 => ⟨S65536x2048, .f32⟩
  | 46 => ⟨S1024x65536, .f32⟩
  | 47 => ⟨S1024x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S1024x128, .f32⟩
  | 61 => ⟨S1024x128, .f32⟩
  | 62 => ⟨S1024x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S1024x128, .f32⟩
  | 78 => ⟨S1024x128, .f32⟩
  | 79 => ⟨S_, .f32⟩
  | 80 => ⟨S128, .f32⟩
  | 81 => ⟨S128, .f32⟩
  | 82 => ⟨S128, .f32⟩
  | 83 => ⟨S1x128, .f32⟩
  | 84 => ⟨S1024x128, .f32⟩
  | 85 => ⟨S1024x128, .f32⟩
  | 86 => ⟨S1x128, .f32⟩
  | 87 => ⟨S1024x128, .f32⟩
  | 88 => ⟨S1024x128, .f32⟩
  | 89 => ⟨S1x128, .f32⟩
  | 90 => ⟨S1024x128, .f32⟩
  | 91 => ⟨S1024x128, .f32⟩
  | 92 => ⟨S128x256, .f32⟩
  | 93 => ⟨S1024x256, .f32⟩
  | 94 => ⟨S1x256, .f32⟩
  | 95 => ⟨S1024x256, .f32⟩
  | 96 => ⟨S1024x256, .f32⟩
  | 97 => ⟨S256x1024, .f32⟩
  | 98 => ⟨S1024x1024, .f32⟩
  | 99 => ⟨S1024x1024, .f32⟩
  | 100 => ⟨S1024x1024, .f32⟩
  | 101 => ⟨S_, .f32⟩
  | 102 => ⟨S1024x1024, .f32⟩
  | 103 => ⟨S1024x1024, .f32⟩
  | 104 => ⟨S_, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1024x1024, .f32⟩
  | 111 => ⟨S1024x1024, .i32⟩
  | 112 => ⟨S1024x1024, .i32⟩
  | 113 => ⟨S_, .i32⟩
  | 114 => ⟨S1024x1024, .i32⟩
  | 115 => ⟨S1024x1024, .i32⟩
  | 116 => ⟨S1024x1024, .i1⟩
  | 117 => ⟨S1024x1024, .f32⟩
  | 118 => ⟨S1024x1024, .f32⟩
  | 119 => ⟨S_, .f32⟩
  | 120 => ⟨S1024, .f32⟩
  | 121 => ⟨S_, .f32⟩
  | 122 => ⟨S1024, .f32⟩
  | 123 => ⟨S1024, .f32⟩
  | 124 => ⟨S1024x1, .f32⟩
  | 125 => ⟨S1024x1024, .f32⟩
  | 126 => ⟨S1024x1024, .f32⟩
  | 127 => ⟨S1x1024, .f32⟩
  | _ => ⟨S256x256x128, .f32⟩

abbrev hbmTy0_1 (i : Nat) : BufTy := match i % 128 with
  | 0 => ⟨S1024x1024, .f32⟩
  | 1 => ⟨S1024x1024, .f32⟩
  | 2 => ⟨S128x128, .f32⟩
  | 3 => ⟨S1024x128, .f32⟩
  | 4 => ⟨S1x128, .f32⟩
  | 5 => ⟨S1024x128, .f32⟩
  | 6 => ⟨S1024x128, .f32⟩
  | 7 => ⟨S1024x128, .f32⟩
  | 8 => ⟨S_, .f32⟩
  | 9 => ⟨S_, .f32⟩
  | 10 => ⟨S1024x128, .f32⟩
  | 11 => ⟨S1024x128, .i1⟩
  | 12 => ⟨S_, .f32⟩
  | 13 => ⟨S1024x128, .f32⟩
  | 14 => ⟨S1024x128, .f32⟩
  | 15 => ⟨S1024x128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S1024x128, .f32⟩
  | 29 => ⟨S1024x128, .f32⟩
  | 30 => ⟨S1024x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S1024x128, .f32⟩
  | 46 => ⟨S1024x128, .f32⟩
  | 47 => ⟨S_, .f32⟩
  | 48 => ⟨S128, .f32⟩
  | 49 => ⟨S128, .f32⟩
  | 50 => ⟨S128, .f32⟩
  | 51 => ⟨S1x128, .f32⟩
  | 52 => ⟨S1024x128, .f32⟩
  | 53 => ⟨S1024x128, .f32⟩
  | 54 => ⟨S1x128, .f32⟩
  | 55 => ⟨S1024x128, .f32⟩
  | 56 => ⟨S1024x128, .f32⟩
  | 57 => ⟨S1x128, .f32⟩
  | 58 => ⟨S1024x128, .f32⟩
  | 59 => ⟨S1024x128, .f32⟩
  | 60 => ⟨S128x256, .f32⟩
  | 61 => ⟨S1024x256, .f32⟩
  | 62 => ⟨S1x256, .f32⟩
  | 63 => ⟨S1024x256, .f32⟩
  | 64 => ⟨S1024x256, .f32⟩
  | 65 => ⟨S256x1024, .f32⟩
  | 66 => ⟨S1024x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S_, .f32⟩
  | 73 => ⟨S1024x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S1024x1024, .i1⟩
  | 85 => ⟨S1024x1024, .f32⟩
  | 86 => ⟨S1024x1024, .f32⟩
  | 87 => ⟨S_, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x1024, .f32⟩
  | 94 => ⟨S1024x1024, .f32⟩
  | 95 => ⟨S1x1024, .f32⟩
  | 96 => ⟨S1024x1024, .f32⟩
  | 97 => ⟨S1024x1024, .f32⟩
  | 98 => ⟨S128x64, .f32⟩
  | 99 => ⟨S1024x64, .f32⟩
  | 100 => ⟨S1x64, .f32⟩
  | 101 => ⟨S1024x64, .f32⟩
  | 102 => ⟨S1024x64, .f32⟩
  | 103 => ⟨S1024x64, .f32⟩
  | 104 => ⟨S_, .f32⟩
  | 105 => ⟨S_, .f32⟩
  | 106 => ⟨S1024x64, .f32⟩
  | 107 => ⟨S1024x64, .i1⟩
  | 108 => ⟨S_, .f32⟩
  | 109 => ⟨S1024x64, .f32⟩
  | 110 => ⟨S1024x64, .f32⟩
  | 111 => ⟨S1024x64, .f32⟩
  | 112 => ⟨S65536x64, .f32⟩
  | 113 => ⟨S2048x65536, .f32⟩
  | 114 => ⟨S2048x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S2048x128, .f32⟩
  | _ => ⟨S256x256x128, .f32⟩

abbrev hbmTy0_2 (i : Nat) : BufTy := match i % 128 with
  | 0 => ⟨S2048x128, .f32⟩
  | 1 => ⟨S2048x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S2048x128, .f32⟩
  | 17 => ⟨S2048x128, .f32⟩
  | 18 => ⟨S_, .f32⟩
  | 19 => ⟨S128, .f32⟩
  | 20 => ⟨S128, .f32⟩
  | 21 => ⟨S128, .f32⟩
  | 22 => ⟨S1x128, .f32⟩
  | 23 => ⟨S2048x128, .f32⟩
  | 24 => ⟨S2048x128, .f32⟩
  | 25 => ⟨S1x128, .f32⟩
  | 26 => ⟨S2048x128, .f32⟩
  | 27 => ⟨S2048x128, .f32⟩
  | 28 => ⟨S1x128, .f32⟩
  | 29 => ⟨S2048x128, .f32⟩
  | 30 => ⟨S2048x128, .f32⟩
  | 31 => ⟨S128x256, .f32⟩
  | 32 => ⟨S2048x256, .f32⟩
  | 33 => ⟨S1x256, .f32⟩
  | 34 => ⟨S2048x256, .f32⟩
  | 35 => ⟨S2048x256, .f32⟩
  | 36 => ⟨S256x2048, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .f32⟩
  | 43 => ⟨S_, .f32⟩
  | 44 => ⟨S2048x2048, .f32⟩
  | 45 => ⟨S2048x2048, .f32⟩
  | 46 => ⟨S2048x2048, .f32⟩
  | 47 => ⟨S2048x2048, .i32⟩
  | 48 => ⟨S2048x2048, .i32⟩
  | 49 => ⟨S_, .i32⟩
  | 50 => ⟨S2048x2048, .i32⟩
  | 51 => ⟨S2048x2048, .i32⟩
  | 52 => ⟨S2048x2048, .i1⟩
  | 53 => ⟨S2048x2048, .f32⟩
  | 54 => ⟨S2048x2048, .f32⟩
  | 55 => ⟨S_, .f32⟩
  | 56 => ⟨S2048, .f32⟩
  | 57 => ⟨S_, .f32⟩
  | 58 => ⟨S2048, .f32⟩
  | 59 => ⟨S2048, .f32⟩
  | 60 => ⟨S2048x1, .f32⟩
  | 61 => ⟨S2048x2048, .f32⟩
  | 62 => ⟨S2048x2048, .f32⟩
  | 63 => ⟨S1x2048, .f32⟩
  | 64 => ⟨S2048x2048, .f32⟩
  | 65 => ⟨S2048x2048, .f32⟩
  | 66 => ⟨S128x128, .f32⟩
  | 67 => ⟨S2048x128, .f32⟩
  | 68 => ⟨S1x128, .f32⟩
  | 69 => ⟨S2048x128, .f32⟩
  | 70 => ⟨S2048x128, .f32⟩
  | 71 => ⟨S2048x128, .f32⟩
  | 72 => ⟨S_, .f32⟩
  | 73 => ⟨S_, .f32⟩
  | 74 => ⟨S2048x128, .f32⟩
  | 75 => ⟨S2048x128, .i1⟩
  | 76 => ⟨S_, .f32⟩
  | 77 => ⟨S2048x128, .f32⟩
  | 78 => ⟨S2048x128, .f32⟩
  | 79 => ⟨S2048x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S2048x128, .f32⟩
  | 93 => ⟨S2048x128, .f32⟩
  | 94 => ⟨S2048x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S2048x128, .f32⟩
  | 110 => ⟨S2048x128, .f32⟩
  | 111 => ⟨S_, .f32⟩
  | 112 => ⟨S128, .f32⟩
  | 113 => ⟨S128, .f32⟩
  | 114 => ⟨S128, .f32⟩
  | 115 => ⟨S1x128, .f32⟩
  | 116 => ⟨S2048x128, .f32⟩
  | 117 => ⟨S2048x128, .f32⟩
  | 118 => ⟨S1x128, .f32⟩
  | 119 => ⟨S2048x128, .f32⟩
  | 120 => ⟨S2048x128, .f32⟩
  | 121 => ⟨S1x128, .f32⟩
  | 122 => ⟨S2048x128, .f32⟩
  | 123 => ⟨S2048x128, .f32⟩
  | 124 => ⟨S128x256, .f32⟩
  | 125 => ⟨S2048x256, .f32⟩
  | 126 => ⟨S1x256, .f32⟩
  | 127 => ⟨S2048x256, .f32⟩
  | _ => ⟨S256x256x128, .f32⟩

abbrev hbmTy0_3 (i : Nat) : BufTy := match i % 128 with
  | 0 => ⟨S2048x256, .f32⟩
  | 1 => ⟨S256x2048, .f32⟩
  | 2 => ⟨S2048x2048, .f32⟩
  | 3 => ⟨S2048x2048, .f32⟩
  | 4 => ⟨S2048x2048, .f32⟩
  | 5 => ⟨S_, .f32⟩
  | 6 => ⟨S2048x2048, .f32⟩
  | 7 => ⟨S2048x2048, .f32⟩
  | 8 => ⟨S_, .f32⟩
  | 9 => ⟨S2048x2048, .f32⟩
  | 10 => ⟨S2048x2048, .f32⟩
  | 11 => ⟨S2048x2048, .f32⟩
  | 12 => ⟨S2048x2048, .i32⟩
  | 13 => ⟨S2048x2048, .i32⟩
  | 14 => ⟨S_, .i32⟩
  | 15 => ⟨S2048x2048, .i32⟩
  | 16 => ⟨S2048x2048, .i32⟩
  | 17 => ⟨S2048x2048, .i1⟩
  | 18 => ⟨S2048x2048, .f32⟩
  | 19 => ⟨S2048x2048, .f32⟩
  | 20 => ⟨S_, .f32⟩
  | 21 => ⟨S2048, .f32⟩
  | 22 => ⟨S_, .f32⟩
  | 23 => ⟨S2048, .f32⟩
  | 24 => ⟨S2048, .f32⟩
  | 25 => ⟨S2048x1, .f32⟩
  | 26 => ⟨S2048x2048, .f32⟩
  | 27 => ⟨S2048x2048, .f32⟩
  | 28 => ⟨S1x2048, .f32⟩
  | 29 => ⟨S2048x2048, .f32⟩
  | 30 => ⟨S2048x2048, .f32⟩
  | 31 => ⟨S128x64, .f32⟩
  | 32 => ⟨S2048x64, .f32⟩
  | 33 => ⟨S1x64, .f32⟩
  | 34 => ⟨S2048x64, .f32⟩
  | 35 => ⟨S2048x64, .f32⟩
  | 36 => ⟨S2048x64, .f32⟩
  | 37 => ⟨S_, .f32⟩
  | 38 => ⟨S_, .f32⟩
  | 39 => ⟨S2048x64, .f32⟩
  | 40 => ⟨S2048x64, .i1⟩
  | 41 => ⟨S_, .f32⟩
  | 42 => ⟨S2048x64, .f32⟩
  | 43 => ⟨S2048x64, .f32⟩
  | 44 => ⟨S2048x64, .f32⟩
  | 45 => ⟨S65536x64, .f32⟩
  | 46 => ⟨S65536x128, .f32⟩
  | 47 => ⟨S65536x128, .f32⟩
  | 48 => ⟨S1x1, .f32⟩
  | 49 => ⟨S65536x128, .f32⟩
  | 50 => ⟨S65536x128, .f32⟩
  | 51 => ⟨S_, .f32⟩
  | 52 => ⟨S1, .f32⟩
  | 53 => ⟨S1, .f32⟩
  | 54 => ⟨S1x1, .f32⟩
  | 55 => ⟨S65536x128, .f32⟩
  | 56 => ⟨S65536x128, .f32⟩
  | 57 => ⟨S65536x128, .f32⟩
  | 58 => ⟨S128x16, .f32⟩
  | 59 => ⟨S65536x16, .f32⟩
  | 60 => ⟨S1x16, .f32⟩
  | 61 => ⟨S65536x16, .f32⟩
  | 62 => ⟨S65536x16, .f32⟩
  | 63 => ⟨S_, .f32⟩
  | 64 => ⟨S65536, .f32⟩
  | 65 => ⟨S_, .f32⟩
  | 66 => ⟨S65536, .f32⟩
  | 67 => ⟨S65536, .f32⟩
  | 68 => ⟨S65536x1, .f32⟩
  | 69 => ⟨S65536x16, .f32⟩
  | 70 => ⟨S65536x16, .f32⟩
  | 71 => ⟨S65536x16, .f32⟩
  | 72 => ⟨S_, .f32⟩
  | 73 => ⟨S65536, .f32⟩
  | 74 => ⟨S65536x1, .f32⟩
  | 75 => ⟨S65536x16, .f32⟩
  | 76 => ⟨S65536x16, .f32⟩
  | 77 => ⟨S64x16, .f32⟩
  | 78 => ⟨S65536x16, .f32⟩
  | 79 => ⟨S1x16, .f32⟩
  | 80 => ⟨S65536x16, .f32⟩
  | 81 => ⟨S65536x16, .f32⟩
  | 82 => ⟨S64x16, .f32⟩
  | 83 => ⟨S65536x16, .f32⟩
  | 84 => ⟨S1x16, .f32⟩
  | 85 => ⟨S65536x16, .f32⟩
  | 86 => ⟨S65536x16, .f32⟩
  | 87 => ⟨S65536x16, .f32⟩
  | 88 => ⟨S65536x16, .f32⟩
  | _ => ⟨S256x256x128, .f32⟩

abbrev hbmTy (i : Nat) : BufTy := match i / 128 with
  | 0 => hbmTy0_0 i
  | 1 => hbmTy0_1 i
  | 2 => hbmTy0_2 i
  | 3 => hbmTy0_3 i
  | _ => ⟨S256x256x128, .f32⟩

abbrev bufTy : (tb : Table) → Fin (tcTables nBuf tb) → BufTy
  | .hbm, ⟨i, _⟩ => hbmTy i
  | _, _ => ⟨S256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_cst : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_cst_0 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_cst_2 : Ref sig .tc := ⟨.hbm, 50, rfl⟩
abbrev main_v12 : Ref sig .tc := ⟨.hbm, 51, rfl⟩
abbrev main_v13 : Ref sig .tc := ⟨.hbm, 52, rfl⟩
abbrev main_c : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_3 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_4 : Ref sig .tc := ⟨.hbm, 101, rfl⟩
abbrev main_v39 : Ref sig .tc := ⟨.hbm, 102, rfl⟩
abbrev main_v40 : Ref sig .tc := ⟨.hbm, 103, rfl⟩
abbrev main_cst_5 : Ref sig .tc := ⟨.hbm, 104, rfl⟩
abbrev main_v41 : Ref sig .tc := ⟨.hbm, 105, rfl⟩
abbrev main_v42 : Ref sig .tc := ⟨.hbm, 106, rfl⟩
abbrev main_cst_6 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_c_7 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_8 : Ref sig .tc := ⟨.hbm, 119, rfl⟩
abbrev main_v53 : Ref sig .tc := ⟨.hbm, 120, rfl⟩
abbrev main_cst_9 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_cst_10 : Ref sig .tc := ⟨.hbm, 136, rfl⟩
abbrev main_call1_cst : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_v68 : Ref sig .tc := ⟨.hbm, 143, rfl⟩
abbrev main_cst_11 : Ref sig .tc := ⟨.hbm, 144, rfl⟩
abbrev main_v69 : Ref sig .tc := ⟨.hbm, 145, rfl⟩
abbrev main_cst_12 : Ref sig .tc := ⟨.hbm, 146, rfl⟩
abbrev main_v70 : Ref sig .tc := ⟨.hbm, 147, rfl⟩
abbrev main_v71 : Ref sig .tc := ⟨.hbm, 148, rfl⟩
abbrev main_c_13 : Ref sig .tc := ⟨.hbm, 149, rfl⟩
abbrev main_call2_cst : Ref sig .tc := ⟨.hbm, 150, rfl⟩
abbrev main_call2_v0 : Ref sig .tc := ⟨.hbm, 151, rfl⟩
abbrev main_call2_v1 : Ref sig .tc := ⟨.hbm, 152, rfl⟩
abbrev main_call2_cst_0 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_v7 : Ref sig .tc := ⟨.hbm, 159, rfl⟩
abbrev main_call2_cst_1 : Ref sig .tc := ⟨.hbm, 160, rfl⟩
abbrev main_call2_v8 : Ref sig .tc := ⟨.hbm, 161, rfl⟩
abbrev main_call2_cst_2 : Ref sig .tc := ⟨.hbm, 162, rfl⟩
abbrev main_call2_v9 : Ref sig .tc := ⟨.hbm, 163, rfl⟩
abbrev main_call2_v10 : Ref sig .tc := ⟨.hbm, 164, rfl⟩
abbrev main_call2_v11 : Ref sig .tc := ⟨.hbm, 165, rfl⟩
abbrev main_call2_cst_3 : Ref sig .tc := ⟨.hbm, 166, rfl⟩
abbrev main_call2_v12 : Ref sig .tc := ⟨.hbm, 167, rfl⟩
abbrev main_call2_cst_4 : Ref sig .tc := ⟨.hbm, 168, rfl⟩
abbrev main_call2_call0_v0 : Ref sig .tc := ⟨.hbm, 169, rfl⟩
abbrev main_call2_call0_v1 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_cst_14 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_15 : Ref sig .tc := ⟨.hbm, 197, rfl⟩
abbrev main_v97 : Ref sig .tc := ⟨.hbm, 198, rfl⟩
abbrev main_v98 : Ref sig .tc := ⟨.hbm, 199, rfl⟩
abbrev main_cst_16 : Ref sig .tc := ⟨.hbm, 200, rfl⟩
abbrev main_v99 : Ref sig .tc := ⟨.hbm, 201, rfl⟩
abbrev main_v100 : Ref sig .tc := ⟨.hbm, 202, rfl⟩
abbrev main_cst_17 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_c_18 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_cst_19 : Ref sig .tc := ⟨.hbm, 215, rfl⟩
abbrev main_v111 : Ref sig .tc := ⟨.hbm, 216, rfl⟩
abbrev main_cst_20 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_cst_21 : Ref sig .tc := ⟨.hbm, 232, rfl⟩
abbrev main_call3_cst : Ref sig .tc := ⟨.hbm, 233, rfl⟩
abbrev main_call3_v0 : Ref sig .tc := ⟨.hbm, 234, rfl⟩
abbrev main_call3_v1 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_cst_22 : Ref sig .tc := ⟨.hbm, 243, rfl⟩
abbrev main_v130 : Ref sig .tc := ⟨.hbm, 244, rfl⟩
abbrev main_cst_23 : Ref sig .tc := ⟨.hbm, 245, rfl⟩
abbrev main_v131 : Ref sig .tc := ⟨.hbm, 246, rfl⟩
abbrev main_v132 : Ref sig .tc := ⟨.hbm, 247, rfl⟩
abbrev main_c_24 : Ref sig .tc := ⟨.hbm, 248, rfl⟩
abbrev main_call4_cst : Ref sig .tc := ⟨.hbm, 249, rfl⟩
abbrev main_call4_v0 : Ref sig .tc := ⟨.hbm, 250, rfl⟩
abbrev main_call4_v1 : Ref sig .tc := ⟨.hbm, 251, rfl⟩
abbrev main_call4_cst_0 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_call4_v5 : Ref sig .tc := ⟨.hbm, 256, rfl⟩
abbrev main_call4_v6 : Ref sig .tc := ⟨.hbm, 257, rfl⟩
abbrev main_call4_v7 : Ref sig .tc := ⟨.hbm, 258, rfl⟩
abbrev main_call4_cst_1 : Ref sig .tc := ⟨.hbm, 259, rfl⟩
abbrev main_call4_v8 : Ref sig .tc := ⟨.hbm, 260, rfl⟩
abbrev main_call4_cst_2 : Ref sig .tc := ⟨.hbm, 261, rfl⟩
abbrev main_call4_v9 : Ref sig .tc := ⟨.hbm, 262, rfl⟩
abbrev main_call4_v10 : Ref sig .tc := ⟨.hbm, 263, rfl⟩
abbrev main_call4_v11 : Ref sig .tc := ⟨.hbm, 264, rfl⟩
abbrev main_call4_cst_3 : Ref sig .tc := ⟨.hbm, 265, rfl⟩
abbrev main_call4_v12 : Ref sig .tc := ⟨.hbm, 266, rfl⟩
abbrev main_call4_cst_4 : Ref sig .tc := ⟨.hbm, 267, rfl⟩
abbrev main_call4_call0_v0 : Ref sig .tc := ⟨.hbm, 268, rfl⟩
abbrev main_call4_call0_v1 : Ref sig .tc := ⟨.hbm, 269, rfl⟩
abbrev main_v133 : Ref sig .tc := ⟨.hbm, 270, rfl⟩
abbrev main_v134 : Ref sig .tc := ⟨.hbm, 271, rfl⟩
abbrev main_v135 : Ref sig .tc := ⟨.hbm, 272, rfl⟩
abbrev main_v136 : Ref sig .tc := ⟨.hbm, 273, rfl⟩
abbrev main_cst_25 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_cst_26 : Ref sig .tc := ⟨.hbm, 296, rfl⟩
abbrev main_v158 : Ref sig .tc := ⟨.hbm, 297, rfl⟩
abbrev main_v159 : Ref sig .tc := ⟨.hbm, 298, rfl⟩
abbrev main_cst_27 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_c_28 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_v168 : Ref sig .tc := ⟨.hbm, 309, rfl⟩
abbrev main_v169 : Ref sig .tc := ⟨.hbm, 310, rfl⟩
abbrev main_cst_29 : Ref sig .tc := ⟨.hbm, 311, rfl⟩
abbrev main_v170 : Ref sig .tc := ⟨.hbm, 312, rfl⟩
abbrev main_cst_30 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_cst_31 : Ref sig .tc := ⟨.hbm, 328, rfl⟩
abbrev main_call5_cst : Ref sig .tc := ⟨.hbm, 329, rfl⟩
abbrev main_call5_v0 : Ref sig .tc := ⟨.hbm, 330, rfl⟩
abbrev main_call5_v1 : Ref sig .tc := ⟨.hbm, 331, rfl⟩
abbrev main_call5_v2 : Ref sig .tc := ⟨.hbm, 332, rfl⟩
abbrev main_call5_v3 : Ref sig .tc := ⟨.hbm, 333, rfl⟩
abbrev main_call5_v4 : Ref sig .tc := ⟨.hbm, 334, rfl⟩
abbrev main_v185 : Ref sig .tc := ⟨.hbm, 335, rfl⟩
abbrev main_cst_32 : Ref sig .tc := ⟨.hbm, 336, rfl⟩
abbrev main_v186 : Ref sig .tc := ⟨.hbm, 337, rfl⟩
abbrev main_cst_33 : Ref sig .tc := ⟨.hbm, 338, rfl⟩
abbrev main_v187 : Ref sig .tc := ⟨.hbm, 339, rfl⟩
abbrev main_v188 : Ref sig .tc := ⟨.hbm, 340, rfl⟩
abbrev main_c_34 : Ref sig .tc := ⟨.hbm, 341, rfl⟩
abbrev main_call6_cst : Ref sig .tc := ⟨.hbm, 342, rfl⟩
abbrev main_call6_v0 : Ref sig .tc := ⟨.hbm, 343, rfl⟩
abbrev main_call6_v1 : Ref sig .tc := ⟨.hbm, 344, rfl⟩
abbrev main_call6_cst_0 : Ref sig .tc := ⟨.hbm, 345, rfl⟩
abbrev main_call6_v2 : Ref sig .tc := ⟨.hbm, 346, rfl⟩
abbrev main_call6_v3 : Ref sig .tc := ⟨.hbm, 347, rfl⟩
abbrev main_call6_v4 : Ref sig .tc := ⟨.hbm, 348, rfl⟩
abbrev main_call6_v5 : Ref sig .tc := ⟨.hbm, 349, rfl⟩
abbrev main_call6_v6 : Ref sig .tc := ⟨.hbm, 350, rfl⟩
abbrev main_call6_v7 : Ref sig .tc := ⟨.hbm, 351, rfl⟩
abbrev main_call6_cst_1 : Ref sig .tc := ⟨.hbm, 352, rfl⟩
abbrev main_call6_v8 : Ref sig .tc := ⟨.hbm, 353, rfl⟩
abbrev main_call6_cst_2 : Ref sig .tc := ⟨.hbm, 354, rfl⟩
abbrev main_call6_v9 : Ref sig .tc := ⟨.hbm, 355, rfl⟩
abbrev main_call6_v10 : Ref sig .tc := ⟨.hbm, 356, rfl⟩
abbrev main_call6_v11 : Ref sig .tc := ⟨.hbm, 357, rfl⟩
abbrev main_call6_cst_3 : Ref sig .tc := ⟨.hbm, 358, rfl⟩
abbrev main_call6_v12 : Ref sig .tc := ⟨.hbm, 359, rfl⟩
abbrev main_call6_cst_4 : Ref sig .tc := ⟨.hbm, 360, rfl⟩
abbrev main_call6_call0_v0 : Ref sig .tc := ⟨.hbm, 361, rfl⟩
abbrev main_call6_call0_v1 : Ref sig .tc := ⟨.hbm, 362, rfl⟩
abbrev main_v189 : Ref sig .tc := ⟨.hbm, 363, rfl⟩
abbrev main_v190 : Ref sig .tc := ⟨.hbm, 364, rfl⟩
abbrev main_v191 : Ref sig .tc := ⟨.hbm, 365, rfl⟩
abbrev main_v192 : Ref sig .tc := ⟨.hbm, 366, rfl⟩
abbrev main_cst_35 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_v213 : Ref sig .tc := ⟨.hbm, 388, rfl⟩
abbrev main_cst_36 : Ref sig .tc := ⟨.hbm, 389, rfl⟩
abbrev main_v214 : Ref sig .tc := ⟨.hbm, 390, rfl⟩
abbrev main_v215 : Ref sig .tc := ⟨.hbm, 391, rfl⟩
abbrev main_cst_37 : Ref sig .tc := ⟨.hbm, 392, rfl⟩
abbrev main_v216 : Ref sig .tc := ⟨.hbm, 393, rfl⟩
abbrev main_v217 : Ref sig .tc := ⟨.hbm, 394, rfl⟩
abbrev main_v218 : Ref sig .tc := ⟨.hbm, 395, rfl⟩
abbrev main_v219 : Ref sig .tc := ⟨.hbm, 396, rfl⟩
abbrev main_v220 : Ref sig .tc := ⟨.hbm, 397, rfl⟩
abbrev main_c_38 : Ref sig .tc := ⟨.hbm, 398, rfl⟩
abbrev main_v221 : Ref sig .tc := ⟨.hbm, 399, rfl⟩
abbrev main_v222 : Ref sig .tc := ⟨.hbm, 400, rfl⟩
abbrev main_v223 : Ref sig .tc := ⟨.hbm, 401, rfl⟩
abbrev main_v224 : Ref sig .tc := ⟨.hbm, 402, rfl⟩
abbrev main_v225 : Ref sig .tc := ⟨.hbm, 403, rfl⟩
abbrev main_cst_39 : Ref sig .tc := ⟨.hbm, 404, rfl⟩
abbrev main_v226 : Ref sig .tc := ⟨.hbm, 405, rfl⟩
abbrev main_cst_40 : Ref sig .tc := ⟨.hbm, 406, rfl⟩
abbrev main_v227 : Ref sig .tc := ⟨.hbm, 407, rfl⟩
abbrev main_v228 : Ref sig .tc := ⟨.hbm, 408, rfl⟩
abbrev main_v229 : Ref sig .tc := ⟨.hbm, 409, rfl⟩
abbrev main_v230 : Ref sig .tc := ⟨.hbm, 410, rfl⟩
abbrev main_v231 : Ref sig .tc := ⟨.hbm, 411, rfl⟩
abbrev main_v232 : Ref sig .tc := ⟨.hbm, 412, rfl⟩
abbrev main_v233 : Ref sig .tc := ⟨.hbm, 413, rfl⟩
abbrev main_v234 : Ref sig .tc := ⟨.hbm, 414, rfl⟩
abbrev main_v235 : Ref sig .tc := ⟨.hbm, 415, rfl⟩
abbrev main_v236 : Ref sig .tc := ⟨.hbm, 416, rfl⟩
abbrev main_v237 : Ref sig .tc := ⟨.hbm, 417, rfl⟩
abbrev main_v238 : Ref sig .tc := ⟨.hbm, 418, rfl⟩
abbrev main_v239 : Ref sig .tc := ⟨.hbm, 419, rfl⟩
abbrev main_v240 : Ref sig .tc := ⟨.hbm, 420, rfl⟩
abbrev main_cst_41 : Ref sig .tc := ⟨.hbm, 421, rfl⟩
abbrev main_call7_cst : Ref sig .tc := ⟨.hbm, 422, rfl⟩
abbrev main_call7_v0 : Ref sig .tc := ⟨.hbm, 423, rfl⟩
abbrev main_call7_v1 : Ref sig .tc := ⟨.hbm, 424, rfl⟩
abbrev main_call7_v2 : Ref sig .tc := ⟨.hbm, 425, rfl⟩
abbrev main_call7_v3 : Ref sig .tc := ⟨.hbm, 426, rfl⟩
abbrev main_call7_v4 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_v247 : Ref sig .tc := ⟨.hbm, 434, rfl⟩
abbrev main_cst_42 : Ref sig .tc := ⟨.hbm, 435, rfl⟩
abbrev main_v248 : Ref sig .tc := ⟨.hbm, 436, rfl⟩
abbrev main_v249 : Ref sig .tc := ⟨.hbm, 437, rfl⟩
abbrev main_v250 : Ref sig .tc := ⟨.hbm, 438, rfl⟩
abbrev main_v251 : Ref sig .tc := ⟨.hbm, 439, rfl⟩
abbrev main_v252 : Ref sig .tc := ⟨.hbm, 440, rfl⟩
abbrev main_v253 : Ref sig .tc := ⟨.hbm, 441, rfl⟩
abbrev main_v254 : Ref sig .tc := ⟨.hbm, 442, rfl⟩
abbrev main_v255 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_cst_43 : Ref sig .tc := ⟨.hbm, 447, rfl⟩
abbrev main_v259 : Ref sig .tc := ⟨.hbm, 448, rfl⟩
abbrev main_cst_44 : Ref sig .tc := ⟨.hbm, 449, rfl⟩
abbrev main_v260 : Ref sig .tc := ⟨.hbm, 450, rfl⟩
abbrev main_v261 : Ref sig .tc := ⟨.hbm, 451, rfl⟩
abbrev main_v262 : Ref sig .tc := ⟨.hbm, 452, rfl⟩
abbrev main_v263 : Ref sig .tc := ⟨.hbm, 453, rfl⟩
abbrev main_v264 : Ref sig .tc := ⟨.hbm, 454, rfl⟩
abbrev main_v265 : Ref sig .tc := ⟨.hbm, 455, rfl⟩
abbrev main_cst_45 : Ref sig .tc := ⟨.hbm, 456, rfl⟩
abbrev main_v266 : Ref sig .tc := ⟨.hbm, 457, rfl⟩
abbrev main_v267 : Ref sig .tc := ⟨.hbm, 458, rfl⟩
abbrev main_v268 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_v278 : Ref sig .tc := ⟨.hbm, 469, rfl⟩
abbrev main_v279 : Ref sig .tc := ⟨.hbm, 470, rfl⟩
abbrev main_v280 : Ref sig .tc := ⟨.hbm, 471, rfl⟩
abbrev main_v281 : Ref sig .tc := ⟨.hbm, 472, rfl⟩

abbrev nD : Nat := 1
abbrev τ : Topo := Topo.v7x

variable {F : FTy → Type} [FloatOps F]

class Facts₀ : Prop where
  shapeCasts_S256x256x128_S65536x128 : S256x256x128.ShapeCasts S65536x128
  reducesTo_S65536x1024_S1024_d0 : S65536x1024.ReducesTo [0] S1024
  h_S_ : 0 < S_.numel
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x2048_S2048_d0 : S65536x2048.ReducesTo [0] S2048
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  transposes_S65536x1024_S1024x65536_1_0 : S65536x1024.Transposes [1, 0] S1024x65536
  reducesTo_S1024x128_S128_d0 : S1024x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S1024x128_0_1 : S1x128.BroadcastsInDim S1024x128 (![0, 1] : Fin 2 → Fin S1024x128.rank)
  transposes_S256x128_S128x256_1_0 : S256x128.Transposes [1, 0] S128x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S1024x1024 : S_.BroadcastsInDim S1024x1024 (![] : Fin 0 → Fin S1024x1024.rank)
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S128x128_S128x128_1_0 : S128x128.Transposes [1, 0] S128x128
  bcast_S_S1024x128 : S_.BroadcastsInDim S1024x128 (![] : Fin 0 → Fin S1024x128.rank)
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S65536x2048_S2048x65536_1_0 : S65536x2048.Transposes [1, 0] S2048x65536
  reducesTo_S2048x128_S128_d0 : S2048x128.ReducesTo [0] S128
  bcast_S1x128_S2048x128_0_1 : S1x128.BroadcastsInDim S2048x128 (![0, 1] : Fin 2 → Fin S2048x128.rank)
  bcast_S1x256_S2048x256_0_1 : S1x256.BroadcastsInDim S2048x256 (![0, 1] : Fin 2 → Fin S2048x256.rank)
  transposes_S2048x256_S256x2048_1_0 : S2048x256.Transposes [1, 0] S256x2048
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x128 : S_.BroadcastsInDim S2048x128 (![] : Fin 0 → Fin S2048x128.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  concatenates_S65536x64_S65536x64_S65536x128_d1 : Shape.Concatenates [S65536x64, S65536x64] S65536x128 1
  bcast_S1_S1x1_1 : S1.BroadcastsInDim S1x1 (![1] : Fin 1 → Fin S1x1.rank)
  bcast_S1x1_S65536x128_0_1 : S1x1.BroadcastsInDim S65536x128 (![0, 1] : Fin 2 → Fin S65536x128.rank)
  bcast_S_S1 : S_.BroadcastsInDim S1 (![] : Fin 0 → Fin S1.rank)
  transposes_S16x128_S128x16_1_0 : S16x128.Transposes [1, 0] S128x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  reducesTo_S65536x16_S65536_d1 : S65536x16.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  transposes_S16x64_S64x16_1_0 : S16x64.Transposes [1, 0] S64x16
  dot_S1024x65536_S65536x128_S1024x128_1_0_0_1_n_n_wf : DotDims.WF S1024x65536 S65536x128 S1024x128 [1] [0] [0] [1] [] []
  dot_S1024x128_S128x256_S1024x256_1_0_0_1_n_n_wf : DotDims.WF S1024x128 S128x256 S1024x256 [1] [0] [0] [1] [] []
  dot_S1024x256_S256x1024_S1024x1024_1_0_0_1_n_n_wf : DotDims.WF S1024x256 S256x1024 S1024x1024 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S65536x1024_S1024x64_S65536x64_1_0_0_1_n_n_wf : DotDims.WF S65536x1024 S1024x64 S65536x64 [1] [0] [0] [1] [] []
  dot_S2048x65536_S65536x128_S2048x128_1_0_0_1_n_n_wf : DotDims.WF S2048x65536 S65536x128 S2048x128 [1] [0] [0] [1] [] []
  dot_S2048x128_S128x256_S2048x256_1_0_0_1_n_n_wf : DotDims.WF S2048x128 S128x256 S2048x256 [1] [0] [0] [1] [] []
  dot_S2048x256_S256x2048_S2048x2048_1_0_0_1_n_n_wf : DotDims.WF S2048x256 S256x2048 S2048x2048 [1] [0] [0] [1] [] []
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S2048x128_S128x64_S2048x64_1_0_0_1_n_n_wf : DotDims.WF S2048x128 S128x64 S2048x64 [1] [0] [0] [1] [] []
  dot_S2048x2048_S2048x64_S2048x64_1_0_0_1_n_n_wf : DotDims.WF S2048x2048 S2048x64 S2048x64 [1] [0] [0] [1] [] []
  dot_S65536x2048_S2048x64_S65536x64_1_0_0_1_n_n_wf : DotDims.WF S65536x2048 S2048x64 S65536x64 [1] [0] [0] [1] [] []
  dot_S65536x128_S128x16_S65536x16_1_0_0_1_n_n_wf : DotDims.WF S65536x128 S128x16 S65536x16 [1] [0] [0] [1] [] []
  dot_S65536x64_S64x16_S65536x16_1_0_0_1_n_n_wf : DotDims.WF S65536x64 S64x16 S65536x16 [1] [0] [0] [1] [] []

variable [Facts₀]

def dot_S1024x65536_S65536x128_S1024x128_1_0_0_1_n_n : DotDims S1024x65536 S65536x128 S1024x128 where
  lhsContracting := [1]
  rhsContracting := [0]
  lhsNonContracting := [0]
  rhsNonContracting := [1]
  lhsBatch := []
  rhsBatch := []
  wf := dot_S1024x65536_S65536x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf
def dot_S2048x65536_S65536x128_S2048x128_1_0_0_1_n_n : DotDims S2048x65536 S65536x128 S2048x128 where
  lhsContracting := [1]
  rhsContracting := [0]
  lhsNonContracting := [0]
  rhsNonContracting := [1]
  lhsBatch := []
  rhsBatch := []
  wf := dot_S2048x65536_S65536x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf
def dot_S65536x128_S128x16_S65536x16_1_0_0_1_n_n : DotDims S65536x128 S128x16 S65536x16 where
  lhsContracting := [1]
  rhsContracting := [0]
  lhsNonContracting := [0]
  rhsNonContracting := [1]
  lhsBatch := []
  rhsBatch := []
  wf := dot_S65536x128_S128x16_S65536x16_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf

class Facts : Prop extends Facts₀ where

variable [Facts]
-- ==== Proof.K.Body1.lean ====
/-
  Region 1 of the kernel program: the row-tiled product  out[i·1024 + r, :] = A[i·1024 + r, :] · B
  (A the 65536×1024 assignment matrix, B the 1024×64 node features of the big branch), one 1024-row tile per grid
  point.  At a point the body reads the point's tile of A and the whole of B from their staging buffers and stores
  the product of the two (both rounded to bf16 on the way into the matrix unit, accumulated from zero) over the whole
  output tile.  This file states what the output tile holds after the body as a function of the two tiles read and
  runs the body once on arbitrary whole buffers.
-/
import proofs.«120736_j30030411334238_1_alg».proof.Proof.Gen.Kernel.Launch
import proofs.«120736_j30030411334238_1_alg».proof.Proof.Gen.Kernel.Skeleton
import proofs.«120736_j30030411334238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The A-tile's staging buffer holds the point's tile whenever the body is called, for any proof data over `V`
    whose body leaves that tile in place. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- B is fetched once, at the first point; its block index never moves, so its buffer holds B at every point. -/
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

abbrev whole1_a : Rect S1024x1024 := Rect.unit (s := S1024x1024) ![0, 0] S1024x1024.size inb_S1024x1024_S1024x1024_0_0
abbrev whole1_b : Rect S1024x64 := Rect.unit (s := S1024x64) ![0, 0] S1024x64.size inb_S1024x64_S1024x64_0_0
abbrev whole1_o : Rect S1024x64 := Rect.unit (s := S1024x64) ![0, 0] S1024x64.size inb_S1024x64_S1024x64_0_0

/-- The output tile after the body: the one store of the product of the two tiles read, over the whole tile. -/
def prod1 (a : Vec F S1024x1024 .f32) (b : Vec F S1024x64 .f32) : Vec F S1024x64 .f32 :=
  View.canon [⟨whole1_o, k1_pay1 (View.ld a whole1_a) (View.ld b whole1_b)⟩]

theorem prod1_covers (p0 : Vec F S1024x64 .f32) (y : S1024x64.Idx) :
    ∃ pc ∈ ([⟨whole1_o, p0⟩] : List (View.Piece (Elt F) S1024x64 .f32)), y ∈ pc.1.set :=
  View.cover_of_tiled [⟨whole1_o, p0⟩] S1024x64.size (by rfl) y

set_option maxHeartbeats 1000000 in
/-- One run of the body on whole staging buffers: the two inputs come back as read, the output holds `prod1`. -/
theorem run_body1 (c : Dev nD) (E : Set ℕ) (i : grid1.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (a : Vec F S1024x1024 .f32) (b : Vec F S1024x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod1 a b)) -∗ K ⟨⟩))
      ⊢ wp frame (wpE (defs₀ (F := F)) Variants.none c none) E (cc1__a_b_kernel i arg1 harg1 arg2 harg2 arg3 harg3) K := by
  simp only [cc1__a_b_kernel_eq_skeleton]; unfold cc1__a_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_covers _)

end Cert.Kernel.Gen

end
-- ==== Proof.K.Dat1.lean ====
/-
  Region 1, continued: the pipeline's proof data for the row-tiled product and the body's obligation at every grid
  point, at an arbitrary valuation V of the buffers on entry to the region.  After the body at point t the A-tile's
  buffer and B's buffer hold what they held (their tiles of the arrays as the region found them) and the output
  tile's buffer holds the product of the two; the invariant is the scoped rest, untouched; no core owes anything.
-/
import proofs.«120736_j30030411334238_1_alg».proof.Proof.K.Body1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the row-tiled product on core `c`, over the buffers' contents `V` on entry. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => prod1 (tile1 V c 0 t) (tile1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = prod1 (tile1 V c 0 t) (tile1 V c 1 t) := by dsimp only [dat1]

theorem found1_0 (c : Dev nD) (t : Fin cfg1.N) (d) : (dat1 V c).before 0 t d = tile1 V c 0 t :=
  found1_0_of V (dat1 V c) (A_eq1 V c 0) (after1_0 V c) t d
theorem found1_1 (c : Dev nD) (t : Fin cfg1.N) (d) : (dat1 V c).before 1 t d = tile1 V c 1 t :=
  found1_1_of V (dat1 V c) (A_eq1 V c 1) (after1_1 V c) t d

/-- What the body is called with at point `t`: the invariant, the core's dues, and the three staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_body1 c Set.univ _ _ _ _ _ _ _ (tile1 V c 0 t) (tile1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Body3.lean ====
/-
  Region 3 of the kernel program: the row-tiled product  out[i·1024 + r, :] = A[i·1024 + r, :] · B
  (A the 65536×2048 assignment matrix, B the 2048×64 node features of the small branch), one 1024-row tile per grid
  point.  At a point the body reads the point's tile of A and the whole of B from their staging buffers and stores
  the product of the two (both rounded to bf16 on the way into the matrix unit, accumulated from zero) over the whole
  output tile.  This file states what the output tile holds after the body as a function of the two tiles read and
  runs the body once on arbitrary whole buffers.
-/
import proofs.«120736_j30030411334238_1_alg».proof.Proof.Gen.Kernel.Launch
import proofs.«120736_j30030411334238_1_alg».proof.Proof.Gen.Kernel.Skeleton
import proofs.«120736_j30030411334238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the array as the region finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The A-tile's staging buffer holds the point's tile whenever the body is called, for any proof data over `V`
    whose body leaves that tile in place. -/
theorem found3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- B is fetched once, at the first point; its block index never moves, so its buffer holds B at every point. -/
theorem found3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

abbrev whole3_a : Rect S1024x2048 := Rect.unit (s := S1024x2048) ![0, 0] S1024x2048.size inb_S1024x2048_S1024x2048_0_0
abbrev whole3_b : Rect S2048x64 := Rect.unit (s := S2048x64) ![0, 0] S2048x64.size inb_S2048x64_S2048x64_0_0
abbrev whole3_o : Rect S1024x64 := Rect.unit (s := S1024x64) ![0, 0] S1024x64.size inb_S1024x64_S1024x64_0_0

/-- The output tile after the body: the one store of the product of the two tiles read, over the whole tile. -/
def prod3 (a : Vec F S1024x2048 .f32) (b : Vec F S2048x64 .f32) : Vec F S1024x64 .f32 :=
  View.canon [⟨whole3_o, k3_pay1 (View.ld a whole3_a) (View.ld b whole3_b)⟩]

theorem prod3_covers (p0 : Vec F S1024x64 .f32) (y : S1024x64.Idx) :
    ∃ pc ∈ ([⟨whole3_o, p0⟩] : List (View.Piece (Elt F) S1024x64 .f32)), y ∈ pc.1.set :=
  View.cover_of_tiled [⟨whole3_o, p0⟩] S1024x64.size (by rfl) y

set_option maxHeartbeats 1000000 in
/-- One run of the body on whole staging buffers: the two inputs come back as read, the output holds `prod3`. -/
theorem run_body3 (c : Dev nD) (E : Set ℕ) (i : grid3.Coords) (arg1 : Memref sig .tc .vmem S1024x2048 .f32) (harg1 : arg1.IsWhole)
    (arg2 : Memref sig .tc .vmem S2048x64 .f32) (harg2 : arg2.IsWhole) (arg3 : Memref sig .tc .vmem S1024x64 .f32) (harg3 : arg3.IsWhole)
    (a : Vec F S1024x2048 .f32) (b : Vec F S2048x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod3 a b)) -∗ K ⟨⟩))
      ⊢ wp frame (wpE (defs₀ (F := F)) Variants.none c none) E (cc3__a_b_kernel i arg1 harg1 arg2 harg2 arg3 harg3) K := by
  simp only [cc3__a_b_kernel_eq_skeleton]; unfold cc3__a_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod3_covers _)

end Cert.Kernel.Gen

end
-- ==== Proof.K.Dat3.lean ====
/-
  Region 3, continued: the pipeline's proof data for the row-tiled product and the body's obligation at every grid
  point, at an arbitrary valuation V of the buffers on entry to the region.  After the body at point t the A-tile's
  buffer and B's buffer hold what they held (their tiles of the arrays as the region found them) and the output
  tile's buffer holds the product of the two; the invariant is the scoped rest, untouched; no core owes anything.
-/
import proofs.«120736_j30030411334238_1_alg».proof.Proof.K.Body3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the row-tiled product on core `c`, over the buffers' contents `V` on entry. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => prod3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = prod3 (tile3 V c 0 t) (tile3 V c 1 t) := by dsimp only [dat3]

theorem found3_0 (c : Dev nD) (t : Fin cfg3.N) (d) : (dat3 V c).before 0 t d = tile3 V c 0 t :=
  found3_0_of V (dat3 V c) (A_eq3 V c 0) (after3_0 V c) t d
theorem found3_1 (c : Dev nD) (t : Fin cfg3.N) (d) : (dat3 V c).before 1 t d = tile3 V c 1 t :=
  found3_1_of V (dat3 V c) (A_eq3 V c 1) (after3_1 V c) t d

/-- What the body is called with at point `t`: the invariant, the core's dues, and the three staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (run_body3 c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Body0.lean ====
/-
  Region 0 of the kernel program: out = Σ over the 32 grid points of (left tile)ᵀ · (right tile), accumulated
  in a scratch buffer of the kernel's own that is zeroed at the first point, added to at every point, and copied to the
  output tile at the last point.  This file holds what the three control cases of the body share, at an arbitrary
  valuation `V` of the buffers on entry to the region: the tiles the points read, the two conditions over the grid,
  where the output window is idle, the memrefs the body is called with, the launch invariant with the accumulator
  singled out, and the accumulator's contents after the zeroing store and after an accumulating store.
-/
import proofs.«120736_j30030411334238_1_alg».proof.Proof.Gen.Kernel.Launch
import proofs.«120736_j30030411334238_1_alg».proof.Proof.Gen.Kernel.Skeleton
import proofs.«120736_j30030411334238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the points read -/

/-- The tile of window `w`'s array that grid point `t` works on, read off the array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's tile whenever the body is called (it is fetched at every point),
    for any proof data over `V` whose body leaves that tile in place. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The same for the right operand's staging buffer. -/
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## The two conditions of the body, over the grid -/

/-- The body zeroes its accumulator under this condition on the grid coordinate: at the first point. -/
abbrev atFirst0 (i : grid0.Coords) : Prop := (Scalar.cmpi .ne (Scalar.extui (Scalar.cmpi .eq (BitVec.ofNat 32 (i 0).val) 0#32)) 0#32) = 1#1
theorem atFirst0_iff : ∀ t : Fin cfg0.N, atFirst0 (grid0.coords t) ↔ t.val % 32 = 0 :=
  (by decide +kernel : ∀ t : Fin grid0.N, atFirst0 (grid0.coords t) ↔ t.val % 32 = 0)

/-- It copies the accumulator to the output tile under this one: at the last point. -/
abbrev atLast0 (i : grid0.Coords) : Prop := k0_cond2 i = 1#1
theorem atLast0_iff : ∀ t : Fin cfg0.N, atLast0 (grid0.coords t) ↔ t.val % 32 = 31 :=
  (by decide +kernel : ∀ t : Fin grid0.N, atLast0 (grid0.coords t) ↔ t.val % 32 = 31)

/-- The two operand windows are never idle; the output window is idle, and not written back, off the last point. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬atLast0 (grid0.coords t) → cfg0.idle 2 (grid0.coords t) = true := by decide +kernel
theorem noFlush0_2 : ∀ t : Fin cfg0.N, ¬atLast0 (grid0.coords t) → (cfg0.win 2).flush t = false := by decide +kernel
theorem live0_2 : ∀ t : Fin cfg0.N, atLast0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev accM0 : Memref sig .tc .vmem S1024x128 .f32 := Memref.whole cc0_scratch0

/-- The core's other scoped buffers that are no staging buffer of this region, each whole at some contents: the body
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- What the launch hands the region: the accumulator at some contents, the other scoped buffers, the generator register. -/
theorem PhiA0_eq (c : Dev nD) :
    (Pipeline.ΦA spec0 c : sProp 𝕄)
      = iprop(((∃ d, owns (c : Thread nD τ) accM0 fullShare d) ∗ others0 (F := F) c) ∗ (∃ r, prngReg c r)) := by
  unfold Pipeline.ΦA; rw [scopedRest0_eq]; unfold others0; simp only [accM0, owns_whole]; try rfl

/-! ## What one point does to the accumulator -/

abbrev whole0_q : Rect S2048x1024 := Rect.unit (s := S2048x1024) ![0, 0] S2048x1024.size inb_S2048x1024_S2048x1024_0_0
abbrev whole0_f : Rect S2048x128 := Rect.unit (s := S2048x128) ![0, 0] S2048x128.size inb_S2048x128_S2048x128_0_0
abbrev whole0_o : Rect S1024x128 := Rect.unit (s := S1024x128) ![0, 0] S1024x128.size inb_S1024x128_S1024x128_0_0

/-- The accumulator after the zeroing store of the first point. -/
def accZero0 : Vec F S1024x128 .f32 := View.canon [⟨whole0_o, k0_pay1 (F := F)⟩]

/-- The accumulator after a point's accumulating store, from the two tiles read and what it held: what it held plus
    the transposed left tile times the right tile (both rounded to bf16 on the way into the matrix unit). -/
def accStep0 (a : Vec F S2048x1024 .f32) (b : Vec F S2048x128 .f32) (s : Vec F S1024x128 .f32) : Vec F S1024x128 .f32 :=
  View.canon [⟨whole0_o, k0_pay2 (View.ld a whole0_q) (View.ld b whole0_f) (View.ld s whole0_o)⟩]

theorem whole0_o_covers (p0 : Vec F S1024x128 .f32) (y : S1024x128.Idx) :
    ∃ pc ∈ ([⟨whole0_o, p0⟩] : List (View.Piece (Elt F) S1024x128 .f32)), y ∈ pc.1.set :=
  View.cover_of_tiled [⟨whole0_o, p0⟩] S1024x128.size (by rfl) y

theorem whole0_o_all (y : S1024x128.Idx) : y ∈ (whole0_o).set := by
  obtain ⟨pc, hpc, hy⟩ := View.cover_of_tiled (Val := fun _ => Unit) (e := .f32) [⟨whole0_o, fun _ => ()⟩] S1024x128.size (by rfl) y
  simp only [List.mem_cons, List.mem_nil_iff, or_false] at hpc
  subst hpc; exact hy

/-- A whole-tile store of what a whole-tile load of `X` read leaves `X`. -/
theorem canon_ld_whole0_o (X : Vec F S1024x128 .f32) : View.canon [⟨whole0_o, View.ld X whole0_o⟩] = X := by
  funext y
  obtain ⟨x, rfl⟩ := (whole0_o).exists_idx_of_mem (whole0_o_all y)
  exact View.canon_cons_emb whole0_o (View.ld X whole0_o) [] x

/-- A whole-tile store leaves its payload, index by index. -/
theorem canon_whole0_o_apply (p : (whole0_o).shape.Idx → Elt F .f32) (x : (whole0_o).shape.Idx) :
    View.canon [⟨whole0_o, p⟩] ((whole0_o).idx x) = p x :=
  View.canon_cons_emb whole0_o p [] x

end Cert.Kernel.Gen

end
-- ==== Proof.K.Body0A.lean ====
/-
  Region 0, one run of the body at the first point (zeroing, not copying out): on whole buffers, the two operand tiles and the
  output tile come back as found, the accumulator — whatever it held — holds one accumulating step over zero.
-/
import proofs.«120736_j30030411334238_1_alg».proof.Proof.K.Body0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole-tile load reads after the zeroing store: the zeroed accumulator. -/
theorem readCov_zero0 {sig' : RefSig} {κ : Kind} {sp : Space} (v : View sig' κ sp S1024x128 .f32) :
    v.readCov [⟨whole0_o, k0_pay1 (F := F)⟩] (whole0_o).toLoadRect = View.ld (accZero0 (F := F)) whole0_o :=
  View.readCov_eq_canon_ld v _ whole0_o (whole0_o_covers _)

/-- Two whole-tile stores in a row leave what the later one stored. -/
theorem read_two_whole0_o {sig' : RefSig} {κ : Kind} {sp : Space} (v : View sig' κ sp S1024x128 .f32) (f : v.ty.Contents (Elt F))
    (p2 p1 : (whole0_o).shape.Idx → Elt F .f32) :
    v.read (Elt F) (v.writes (Elt F) f [⟨whole0_o, p2⟩, ⟨whole0_o, p1⟩]) = View.canon [⟨whole0_o, p2⟩] :=
  (View.read_writes_of_cover_last v f v f ⟨whole0_o, p2⟩ [⟨whole0_o, p1⟩] [] whole0_o_all).trans
    (View.read_writes_eq_canon v f [⟨whole0_o, p2⟩] (whole0_o_covers p2))

set_option maxHeartbeats 1000000 in
theorem run_body0_A (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : atFirst0 i) (hlst : ¬atLast0 i)
    (a : Vec F S2048x1024 .f32) (b : Vec F S2048x128 .f32) (o : Vec F S1024x128 .f32) (K : PUnit → sProp 𝕄) :
    iprop(owns (c : Thread nD τ) arg1 fullShare a ∗ owns (c : Thread nD τ) arg2 fullShare b ∗ owns (c : Thread nD τ) arg3 fullShare o ∗ (∃ d, owns (c : Thread nD τ) arg4 fullShare d)
        ∗ (iprop(owns (c : Thread nD τ) arg1 fullShare a ∗ owns (c : Thread nD τ) arg2 fullShare b ∗ owns (c : Thread nD τ) arg3 fullShare o ∗ owns (c : Thread nD τ) arg4 fullShare (accStep0 a b (accZero0 (F := F)))) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold run_body0_A.sl.v8 run_body0_A.sl.H4_1
  rw [readCov_zero0 arg4.view]
  exact read_two_whole0_o arg4.view f4 _ _

end Cert.Kernel.Gen

end
-- ==== Proof.K.Body0B.lean ====
/-
  Region 0, one run of the body at a middle point (neither zeroing nor copying out): on whole buffers, the two operand tiles
  and the output tile come back as found, the accumulator holds one accumulating step over what it held.
-/
import proofs.«120736_j30030411334238_1_alg».proof.Proof.K.Body0A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body0_B (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : ¬atFirst0 i) (hlst : ¬atLast0 i)
    (a : Vec F S2048x1024 .f32) (b : Vec F S2048x128 .f32) (o : Vec F S1024x128 .f32) (s : Vec F S1024x128 .f32) (K : PUnit → sProp 𝕄) :
    iprop(owns (c : Thread nD τ) arg1 fullShare a ∗ owns (c : Thread nD τ) arg2 fullShare b ∗ owns (c : Thread nD τ) arg3 fullShare o ∗ owns (c : Thread nD τ) arg4 fullShare s
        ∗ (iprop(owns (c : Thread nD τ) arg1 fullShare a ∗ owns (c : Thread nD τ) arg2 fullShare b ∗ owns (c : Thread nD τ) arg3 fullShare o ∗ owns (c : Thread nD τ) arg4 fullShare (accStep0 a b s)) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole0_o_covers _)

end Cert.Kernel.Gen

end
-- ==== Proof.K.Body0C.lean ====
/-
  Region 0, one run of the body at the last point (not zeroing, copying out): on whole buffers, the two operand tiles come back
  as found, the accumulator holds one accumulating step over what it held, and the output tile — whatever it held — holds the same.
-/
import proofs.«120736_j30030411334238_1_alg».proof.Proof.K.Body0B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body0_C (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : ¬atFirst0 i) (hlst : atLast0 i)
    (a : Vec F S2048x1024 .f32) (b : Vec F S2048x128 .f32) (s : Vec F S1024x128 .f32) (K : PUnit → sProp 𝕄) :
    iprop(owns (c : Thread nD τ) arg1 fullShare a ∗ owns (c : Thread nD τ) arg2 fullShare b ∗ (∃ d, owns (c : Thread nD τ) arg3 fullShare d) ∗ owns (c : Thread nD τ) arg4 fullShare s
        ∗ (iprop(owns (c : Thread nD τ) arg1 fullShare a ∗ owns (c : Thread nD τ) arg2 fullShare b ∗ owns (c : Thread nD τ) arg3 fullShare (accStep0 a b s) ∗ owns (c : Thread nD τ) arg4 fullShare (accStep0 a b s)) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold run_body0_C.sl.v17 run_body0_C.sl.H4_1
    rw [View.readCov_eq_canon_ld arg4.view _ whole0_o (whole0_o_covers _)]
    exact (View.read_writes_eq_canon _ _ _ (whole0_o_covers _)).trans (canon_ld_whole0_o _)
  iexists _; isplitr
  swap; · iexact H4
  ipureintro
  unfold run_body0_C.sl.H4_1
  exact View.read_writes_eq_canon _ _ _ (whole0_o_covers _)

end Cert.Kernel.Gen

end
-- ==== Proof.K.Body0Frame.lean ====
/-
  Region 0 of the kernel program, the rest of its half of the frame at an arbitrary valuation `V` of the buffers
  on entry: what the accumulator holds after each point (a fold of the accumulating step over the points' tiles, from
  zero), the invariant that carries it between points, the pipeline's proof data, the body obligation at every point
  from the three runs of the body, the invariant's two ends, and the values a later step reads off.
-/
import proofs.«120736_j30030411334238_1_alg».proof.Proof.K.Body0C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at point `n`: one accumulating step over the point's two
    tiles, from zero at the first point and from what the point before left at the others. -/
def acc0 (c : Dev nD) : (n : ℕ) → n < cfg0.N → Vec F S1024x128 .f32
  | 0, hn => accStep0 (tile0 V c 0 ⟨0, hn⟩) (tile0 V c 1 ⟨0, hn⟩) (accZero0 (F := F))
  | n + 1, hn => accStep0 (tile0 V c 0 ⟨n + 1, hn⟩) (tile0 V c 1 ⟨n + 1, hn⟩) (acc0 c n (Nat.lt_of_succ_lt hn))

theorem acc0_zero (c : Dev nD) (h : 0 < cfg0.N) :
    acc0 V c 0 h = accStep0 (tile0 V c 0 ⟨0, h⟩) (tile0 V c 1 ⟨0, h⟩) (accZero0 (F := F)) := rfl

theorem acc0_succ (c : Dev nD) (n : ℕ) (h : n + 1 < cfg0.N) :
    acc0 V c (n + 1) h = accStep0 (tile0 V c 0 ⟨n + 1, h⟩) (tile0 V c 1 ⟨n + 1, h⟩) (acc0 V c n (Nat.lt_of_succ_lt h)) := rfl

/-- At the first point: a step from zero. -/
theorem acc0_first (c : Dev nD) (t : Fin cfg0.N) (hz : t.val = 0) :
    acc0 V c t.val t.isLt = accStep0 (tile0 V c 0 t) (tile0 V c 1 t) (accZero0 (F := F)) := by
  obtain ⟨n, hn⟩ := t
  cases n with
  | zero => rfl
  | succ n => exact absurd hz (Nat.succ_ne_zero n)

/-- At any other point: a step from what the point before left. -/
theorem acc0_pos (c : Dev nD) (t : Fin cfg0.N) (hz : t.val ≠ 0) :
    acc0 V c t.val t.isLt = accStep0 (tile0 V c 0 t) (tile0 V c 1 t) (acc0 V c (t.val - 1) (Nat.lt_of_le_of_lt (Nat.sub_le _ _) t.isLt)) := by
  obtain ⟨n, hn⟩ := t
  cases n with
  | zero => exact absurd rfl hz
  | succ n => rfl

/-! ## The invariant: the accumulator carried between points -/

/-- The region invariant before position `n`: before the first point what the launch hands over (the accumulator at
    anything); afterwards the accumulator at what the point before left, the other scoped buffers and the generator
    register as they were. -/
def Inv0 (c : Dev nD) : (n : ℕ) → n ≤ cfg0.N → sProp 𝕄
  | 0, _ => Pipeline.ΦA spec0 c
  | n + 1, hn => iprop((owns (c : Thread nD τ) accM0 fullShare (acc0 V c n hn) ∗ others0 (F := F) c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop((owns (c : Thread nD τ) accM0 fullShare (acc0 V c n hn) ∗ others0 (F := F) c) ∗ (∃ r, prngReg c r)) := rfl

theorem Inv0_pos (c : Dev nD) (n : ℕ) (h : n ≤ cfg0.N) (hz : n ≠ 0) :
    Inv0 V c n h = iprop((owns (c : Thread nD τ) accM0 fullShare (acc0 V c (n - 1) (by omega)) ∗ others0 (F := F) c) ∗ (∃ r, prngReg c r)) := by
  cases n with
  | zero => exact absurd rfl hz
  | succ n => rfl

/-! ## The pipeline's proof data -/

/-- The proof data of the region on core `c`: the arrays as the region finds them (`V`); after the body at point `t`
    each operand's buffer at its tile and the output's at the accumulator's contents (consulted at the last point only:
    elsewhere the output window is idle and not written back); the invariant carries the accumulator; nothing owed;
    full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = tile0 V c 0 t :=
  found0_0_of V (dat0 V c) (A_eq0 V c 0) (after0_0 V c) t d
theorem before0_1 (c : Dev nD) (t : Fin cfg0.N) (d) : (dat0 V c).before 1 t d = tile0 V c 1 t :=
  found0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold the point's tiles; the grid position says which of the three
    control cases the point is in; the invariant hands the body the accumulator at what the point before left (at
    anything at the first point) and takes it back at this point's contents; off the last point the output's buffer is
    handed back as found, at the last point it holds the accumulator's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 32 = 0
  · have hz : t.val = 0 := by omega
    have hfst : atFirst0 (grid0.coords t) := (atFirst0_iff t).mpr h0
    have hlst : ¬atLast0 (grid0.coords t) := fun h => by have := (atLast0_iff t).mp h; omega
    rw [Dat.leavesExact_idle (dat0 V c) 2 t (idle0_2 t hlst) (noFlush0_2 t hlst)]
    rw [acc0_first V c t hz]
    rw [Inv0_castSucc V c t, Inv0_zero V c _ _ hz, PhiA0_eq]
    iintro ⟨⟨⟨HS, Hoth⟩, Hg⟩, Ho, ⟨%d0, H0⟩, ⟨%d1, H1⟩, ⟨%d2, H2⟩⟩
    iapply (run_body0_A c Set.univ (grid0.coords t) _ _ _ _ _ _ _ _ hfst hlst (tile0 V c 0 t) (tile0 V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    have hfst : ¬atFirst0 (grid0.coords t) := fun h => h0 ((atFirst0_iff t).mp h)
    rw [acc0_pos V c t hz]
    rw [Inv0_castSucc V c t, Inv0_pos V c _ _ hz]
    by_cases h1 : t.val % 32 = 31
    · have hlst : atLast0 (grid0.coords t) := (atLast0_iff t).mpr h1
      rw [show (dat0 V c).leavesExact 2 t = owns (c : Thread nD τ) (ms0_2 t) fullShare ((dat0 V c).after 2 t) from by
        unfold Dat.leavesExact; rw [live0_2 t hlst], after0_2, acc0_pos V c t hz]
      iintro ⟨⟨⟨HS, Hoth⟩, Hg⟩, Ho, ⟨%d0, H0⟩, ⟨%d1, H1⟩, ⟨%d2, H2⟩⟩
      iapply (run_body0_C c Set.univ (grid0.coords t) _ _ _ _ _ _ _ _ hfst hlst (tile0 V c 0 t) (tile0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hlst : ¬atLast0 (grid0.coords t) := fun h => h1 ((atLast0_iff t).mp h)
      rw [Dat.leavesExact_idle (dat0 V c) 2 t (idle0_2 t hlst) (noFlush0_2 t hlst)]
      iintro ⟨⟨⟨HS, Hoth⟩, Hg⟩, Ho, ⟨%d0, H0⟩, ⟨%d1, H1⟩, ⟨%d2, H2⟩⟩
      iapply (run_body0_B c Set.univ (grid0.coords t) _ _ _ _ _ _ _ _ hfst hlst (tile0 V c 0 t) (tile0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After any point but the first the invariant gives the launch's back: the accumulator's contents are forgotten. -/
theorem Inv0_out (c : Dev nD) (t : Fin (cfg0.N + 1)) (ht : t.val ≠ 0) : (dat0 V c).Φ t ⊢ Pipeline.ΦA spec0 c := by
  rw [show (dat0 V c).Φ t = Inv0 V c t.val (Nat.le_of_lt_succ t.isLt) from rfl, Inv0_pos V c _ _ ht, PhiA0_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Inv0_out V c _ (by rw [Fin.val_last]; have : cfg0.N = 32 := N_0; omega)

/-! ## The values -/

/-- The accumulator after point `t`, as the proof data's invariant after that point states it (`Inv0_succ`), is the
    fold `acc0`: from `accZero0` (the zeroing payload stored whole) one `accStep0` (the accumulating payload over the
    point's two tiles, stored whole) per point up to `t`; and the output tile the last point leaves is that fold at the
    last point. -/
theorem acc0_after (c : Dev nD) (t : Fin cfg0.N) :
    (dat0 V c).Φ t.succ = iprop((owns (c : Thread nD τ) accM0 fullShare (acc0 V c t.val t.isLt) ∗ others0 (F := F) c) ∗ (∃ r, prngReg c r)) := rfl

theorem out0_last (c : Dev nD) (h : 31 < cfg0.N) : (dat0 V c).after 2 ⟨31, h⟩ = acc0 V c 31 h := by
  dsimp only [dat0]

/-- One accumulating step, index by index of the tile: the accumulating payload on the whole-tile reads. -/
theorem accStep0_apply (a : Vec F S2048x1024 .f32) (b : Vec F S2048x128 .f32) (s : Vec F S1024x128 .f32) (x : (whole0_o).shape.Idx) :
    accStep0 a b s ((whole0_o).idx x) = k0_pay2 (View.ld a whole0_q) (View.ld b whole0_f) (View.ld s whole0_o) x :=
  canon_whole0_o_apply _ x

/-- The zeroed accumulator, index by index: the zeroing payload. -/
theorem accZero0_apply (x : (whole0_o).shape.Idx) : accZero0 (F := F) ((whole0_o).idx x) = k0_pay1 (F := F) x :=
  canon_whole0_o_apply _ x

end Cert.Kernel.Gen

end
-- ==== Proof.K.Body2.lean ====
/-
  Region 2 of the kernel program: out = Σ over the 64 grid points of (left tile)ᵀ · (right tile), accumulated
  in a scratch buffer of the kernel's own that is zeroed at the first point, added to at every point, and copied to the
  output tile at the last point.  This file holds what the three control cases of the body share, at an arbitrary
  valuation `V` of the buffers on entry to the region: the tiles the points read, the two conditions over the grid,
  where the output window is idle, the memrefs the body is called with, the launch invariant with the accumulator
  singled out, and the accumulator's contents after the zeroing store and after an accumulating store.
-/
import proofs.«120736_j30030411334238_1_alg».proof.Proof.Gen.Kernel.Launch
import proofs.«120736_j30030411334238_1_alg».proof.Proof.Gen.Kernel.Skeleton
import proofs.«120736_j30030411334238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the points read -/

/-- The tile of window `w`'s array that grid point `t` works on, read off the array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's tile whenever the body is called (it is fetched at every point),
    for any proof data over `V` whose body leaves that tile in place. -/
theorem found2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The same for the right operand's staging buffer. -/
theorem found2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## The two conditions of the body, over the grid -/

/-- The body zeroes its accumulator under this condition on the grid coordinate: at the first point. -/
abbrev atFirst2 (i : grid2.Coords) : Prop := (Scalar.cmpi .ne (Scalar.extui (Scalar.cmpi .eq (BitVec.ofNat 32 (i 0).val) 0#32)) 0#32) = 1#1
theorem atFirst2_iff : ∀ t : Fin cfg2.N, atFirst2 (grid2.coords t) ↔ t.val % 64 = 0 :=
  (by decide +kernel : ∀ t : Fin grid2.N, atFirst2 (grid2.coords t) ↔ t.val % 64 = 0)

/-- It copies the accumulator to the output tile under this one: at the last point. -/
abbrev atLast2 (i : grid2.Coords) : Prop := k2_cond2 i = 1#1
theorem atLast2_iff : ∀ t : Fin cfg2.N, atLast2 (grid2.coords t) ↔ t.val % 64 = 63 :=
  (by decide +kernel : ∀ t : Fin grid2.N, atLast2 (grid2.coords t) ↔ t.val % 64 = 63)

/-- The two operand windows are never idle; the output window is idle, and not written back, off the last point. -/
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬atLast2 (grid2.coords t) → cfg2.idle 2 (grid2.coords t) = true := by decide +kernel
theorem noFlush2_2 : ∀ t : Fin cfg2.N, ¬atLast2 (grid2.coords t) → (cfg2.win 2).flush t = false := by decide +kernel
theorem live2_2 : ∀ t : Fin cfg2.N, atLast2 (grid2.coords t) → cfg2.idle 2 (grid2.coords t) = false := by decide +kernel

/-! ## The memrefs the body is called with -/

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev accM2 : Memref sig .tc .vmem S2048x128 .f32 := Memref.whole cc2_scratch0

/-- The core's other scoped buffers that are no staging buffer of this region, each whole at some contents: the body
    never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- What the launch hands the region: the accumulator at some contents (singled out of the scoped buffers, which the
    launch lists in their own order), the other scoped buffers, the generator register. -/
theorem PhiA2_eq (c : Dev nD) :
    (Pipeline.ΦA spec2 c : sProp 𝕄)
      = iprop(((∃ d, owns (c : Thread nD τ) accM2 fullShare d) ∗ others2 (F := F) c) ∗ (∃ r, prngReg c r)) := by
  unfold Pipeline.ΦA; rw [scopedRest2_eq]; unfold others2
  simp only [accM2, owns_whole]
  refine BI.equiv_iff.mp ⟨?_, ?_⟩
  · show (_ : sProp 𝕄) ⊢ (_ : sProp 𝕄)
    iintro ⟨⟨H0, H1, H2, H3, H4, H5, H6, H7, H8, H9, H10, HS, H12, H13, H14, H15, H16⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      isplitl [H15]; · iexact H15
      iexact H16
    · iexact Hg
  · show (_ : sProp 𝕄) ⊢ (_ : sProp 𝕄)
    iintro ⟨⟨HS, H0, H1, H2, H3, H4, H5, H6, H7, H8, H9, H10, H12, H13, H14, H15, H16⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      isplitl [H12]; · iexact H12
      isplitl [H13]; · iexact H13
      isplitl [H14]; · iexact H14
      isplitl [H15]; · iexact H15
      iexact H16
    · iexact Hg

/-! ## What one point does to the accumulator -/

abbrev whole2_q : Rect S1024x2048 := Rect.unit (s := S1024x2048) ![0, 0] S1024x2048.size inb_S1024x2048_S1024x2048_0_0
abbrev whole2_f : Rect S1024x128 := Rect.unit (s := S1024x128) ![0, 0] S1024x128.size inb_S1024x128_S1024x128_0_0
abbrev whole2_o : Rect S2048x128 := Rect.unit (s := S2048x128) ![0, 0] S2048x128.size inb_S2048x128_S2048x128_0_0

/-- The accumulator after the zeroing store of the first point. -/
def accZero2 : Vec F S2048x128 .f32 := View.canon [⟨whole2_o, k2_pay1 (F := F)⟩]

/-- The accumulator after a point's accumulating store, from the two tiles read and what it held: what it held plus
    the transposed left tile times the right tile (both rounded to bf16 on the way into the matrix unit). -/
def accStep2 (a : Vec F S1024x2048 .f32) (b : Vec F S1024x128 .f32) (s : Vec F S2048x128 .f32) : Vec F S2048x128 .f32 :=
  View.canon [⟨whole2_o, k2_pay2 (View.ld a whole2_q) (View.ld b whole2_f) (View.ld s whole2_o)⟩]

theorem whole2_o_covers (p0 : Vec F S2048x128 .f32) (y : S2048x128.Idx) :
    ∃ pc ∈ ([⟨whole2_o, p0⟩] : List (View.Piece (Elt F) S2048x128 .f32)), y ∈ pc.1.set :=
  View.cover_of_tiled [⟨whole2_o, p0⟩] S2048x128.size (by rfl) y

theorem whole2_o_all (y : S2048x128.Idx) : y ∈ (whole2_o).set := by
  obtain ⟨pc, hpc, hy⟩ := View.cover_of_tiled (Val := fun _ => Unit) (e := .f32) [⟨whole2_o, fun _ => ()⟩] S2048x128.size (by rfl) y
  simp only [List.mem_cons, List.mem_nil_iff, or_false] at hpc
  subst hpc; exact hy

/-- A whole-tile store of what a whole-tile load of `X` read leaves `X`. -/
theorem canon_ld_whole2_o (X : Vec F S2048x128 .f32) : View.canon [⟨whole2_o, View.ld X whole2_o⟩] = X := by
  funext y
  obtain ⟨x, rfl⟩ := (whole2_o).exists_idx_of_mem (whole2_o_all y)
  exact View.canon_cons_emb whole2_o (View.ld X whole2_o) [] x

/-- A whole-tile store leaves its payload, index by index. -/
theorem canon_whole2_o_apply (p : (whole2_o).shape.Idx → Elt F .f32) (x : (whole2_o).shape.Idx) :
    View.canon [⟨whole2_o, p⟩] ((whole2_o).idx x) = p x :=
  View.canon_cons_emb whole2_o p [] x

end Cert.Kernel.Gen

end
-- ==== Proof.K.Body2A.lean ====
/-
  Region 2, one run of the body at the first point (zeroing, not copying out): on whole buffers, the two operand tiles and the
  output tile come back as found, the accumulator — whatever it held — holds one accumulating step over zero.
-/
import proofs.«120736_j30030411334238_1_alg».proof.Proof.K.Body2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole-tile load reads after the zeroing store: the zeroed accumulator. -/
theorem readCov_zero2 {sig' : RefSig} {κ : Kind} {sp : Space} (v : View sig' κ sp S2048x128 .f32) :
    v.readCov [⟨whole2_o, k2_pay1 (F := F)⟩] (whole2_o).toLoadRect = View.ld (accZero2 (F := F)) whole2_o :=
  View.readCov_eq_canon_ld v _ whole2_o (whole2_o_covers _)

/-- Two whole-tile stores in a row leave what the later one stored. -/
theorem read_two_whole2_o {sig' : RefSig} {κ : Kind} {sp : Space} (v : View sig' κ sp S2048x128 .f32) (f : v.ty.Contents (Elt F))
    (p2 p1 : (whole2_o).shape.Idx → Elt F .f32) :
    v.read (Elt F) (v.writes (Elt F) f [⟨whole2_o, p2⟩, ⟨whole2_o, p1⟩]) = View.canon [⟨whole2_o, p2⟩] :=
  (View.read_writes_of_cover_last v f v f ⟨whole2_o, p2⟩ [⟨whole2_o, p1⟩] [] whole2_o_all).trans
    (View.read_writes_eq_canon v f [⟨whole2_o, p2⟩] (whole2_o_covers p2))

set_option maxHeartbeats 1000000 in
theorem run_body2_A (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : atFirst2 i) (hlst : ¬atLast2 i)
    (a : Vec F S1024x2048 .f32) (b : Vec F S1024x128 .f32) (o : Vec F S2048x128 .f32) (K : PUnit → sProp 𝕄) :
    iprop(owns (c : Thread nD τ) arg1 fullShare a ∗ owns (c : Thread nD τ) arg2 fullShare b ∗ owns (c : Thread nD τ) arg3 fullShare o ∗ (∃ d, owns (c : Thread nD τ) arg4 fullShare d)
        ∗ (iprop(owns (c : Thread nD τ) arg1 fullShare a ∗ owns (c : Thread nD τ) arg2 fullShare b ∗ owns (c : Thread nD τ) arg3 fullShare o ∗ owns (c : Thread nD τ) arg4 fullShare (accStep2 a b (accZero2 (F := F)))) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold run_body2_A.sl.v8 run_body2_A.sl.H4_1
  rw [readCov_zero2 arg4.view]
  exact read_two_whole2_o arg4.view f4 _ _

end Cert.Kernel.Gen

end
-- ==== Proof.K.Body2B.lean ====
/-
  Region 2, one run of the body at a middle point (neither zeroing nor copying out): on whole buffers, the two operand tiles
  and the output tile come back as found, the accumulator holds one accumulating step over what it held.
-/
import proofs.«120736_j30030411334238_1_alg».proof.Proof.K.Body2A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body2_B (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : ¬atFirst2 i) (hlst : ¬atLast2 i)
    (a : Vec F S1024x2048 .f32) (b : Vec F S1024x128 .f32) (o : Vec F S2048x128 .f32) (s : Vec F S2048x128 .f32) (K : PUnit → sProp 𝕄) :
    iprop(owns (c : Thread nD τ) arg1 fullShare a ∗ owns (c : Thread nD τ) arg2 fullShare b ∗ owns (c : Thread nD τ) arg3 fullShare o ∗ owns (c : Thread nD τ) arg4 fullShare s
        ∗ (iprop(owns (c : Thread nD τ) arg1 fullShare a ∗ owns (c : Thread nD τ) arg2 fullShare b ∗ owns (c : Thread nD τ) arg3 fullShare o ∗ owns (c : Thread nD τ) arg4 fullShare (accStep2 a b s)) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole2_o_covers _)

end Cert.Kernel.Gen

end
-- ==== Proof.K.Body2C.lean ====
/-
  Region 2, one run of the body at the last point (not zeroing, copying out): on whole buffers, the two operand tiles come back
  as found, the accumulator holds one accumulating step over what it held, and the output tile — whatever it held — holds the same.
-/
import proofs.«120736_j30030411334238_1_alg».proof.Proof.K.Body2B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body2_C (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : ¬atFirst2 i) (hlst : atLast2 i)
    (a : Vec F S1024x2048 .f32) (b : Vec F S1024x128 .f32) (s : Vec F S2048x128 .f32) (K : PUnit → sProp 𝕄) :
    iprop(owns (c : Thread nD τ) arg1 fullShare a ∗ owns (c : Thread nD τ) arg2 fullShare b ∗ (∃ d, owns (c : Thread nD τ) arg3 fullShare d) ∗ owns (c : Thread nD τ) arg4 fullShare s
        ∗ (iprop(owns (c : Thread nD τ) arg1 fullShare a ∗ owns (c : Thread nD τ) arg2 fullShare b ∗ owns (c : Thread nD τ) arg3 fullShare (accStep2 a b s) ∗ owns (c : Thread nD τ) arg4 fullShare (accStep2 a b s)) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold run_body2_C.sl.v17 run_body2_C.sl.H4_1
    rw [View.readCov_eq_canon_ld arg4.view _ whole2_o (whole2_o_covers _)]
    exact (View.read_writes_eq_canon _ _ _ (whole2_o_covers _)).trans (canon_ld_whole2_o _)
  iexists _; isplitr
  swap; · iexact H4
  ipureintro
  unfold run_body2_C.sl.H4_1
  exact View.read_writes_eq_canon _ _ _ (whole2_o_covers _)

end Cert.Kernel.Gen

end
-- ==== Proof.K.Body2Frame.lean ====
/-
  Region 2 of the kernel program, the rest of its half of the frame at an arbitrary valuation `V` of the buffers
  on entry: what the accumulator holds after each point (a fold of the accumulating step over the points' tiles, from
  zero), the invariant that carries it between points, the pipeline's proof data, the body obligation at every point
  from the three runs of the body, the invariant's two ends, and the values a later step reads off.
-/
import proofs.«120736_j30030411334238_1_alg».proof.Proof.K.Body2C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at point `n`: one accumulating step over the point's two
    tiles, from zero at the first point and from what the point before left at the others. -/
def acc2 (c : Dev nD) : (n : ℕ) → n < cfg2.N → Vec F S2048x128 .f32
  | 0, hn => accStep2 (tile2 V c 0 ⟨0, hn⟩) (tile2 V c 1 ⟨0, hn⟩) (accZero2 (F := F))
  | n + 1, hn => accStep2 (tile2 V c 0 ⟨n + 1, hn⟩) (tile2 V c 1 ⟨n + 1, hn⟩) (acc2 c n (Nat.lt_of_succ_lt hn))

theorem acc2_zero (c : Dev nD) (h : 0 < cfg2.N) :
    acc2 V c 0 h = accStep2 (tile2 V c 0 ⟨0, h⟩) (tile2 V c 1 ⟨0, h⟩) (accZero2 (F := F)) := rfl

theorem acc2_succ (c : Dev nD) (n : ℕ) (h : n + 1 < cfg2.N) :
    acc2 V c (n + 1) h = accStep2 (tile2 V c 0 ⟨n + 1, h⟩) (tile2 V c 1 ⟨n + 1, h⟩) (acc2 V c n (Nat.lt_of_succ_lt h)) := rfl

/-- At the first point: a step from zero. -/
theorem acc2_first (c : Dev nD) (t : Fin cfg2.N) (hz : t.val = 0) :
    acc2 V c t.val t.isLt = accStep2 (tile2 V c 0 t) (tile2 V c 1 t) (accZero2 (F := F)) := by
  obtain ⟨n, hn⟩ := t
  cases n with
  | zero => rfl
  | succ n => exact absurd hz (Nat.succ_ne_zero n)

/-- At any other point: a step from what the point before left. -/
theorem acc2_pos (c : Dev nD) (t : Fin cfg2.N) (hz : t.val ≠ 0) :
    acc2 V c t.val t.isLt = accStep2 (tile2 V c 0 t) (tile2 V c 1 t) (acc2 V c (t.val - 1) (Nat.lt_of_le_of_lt (Nat.sub_le _ _) t.isLt)) := by
  obtain ⟨n, hn⟩ := t
  cases n with
  | zero => exact absurd rfl hz
  | succ n => rfl

/-! ## The invariant: the accumulator carried between points -/

/-- The region invariant before position `n`: before the first point what the launch hands over (the accumulator at
    anything); afterwards the accumulator at what the point before left, the other scoped buffers and the generator
    register as they were. -/
def Inv2 (c : Dev nD) : (n : ℕ) → n ≤ cfg2.N → sProp 𝕄
  | 0, _ => Pipeline.ΦA spec2 c
  | n + 1, hn => iprop((owns (c : Thread nD τ) accM2 fullShare (acc2 V c n hn) ∗ others2 (F := F) c) ∗ (∃ r, prngReg c r))

theorem Inv2_zero (c : Dev nD) (n : ℕ) (h : n ≤ cfg2.N) (hz : n = 0) : Inv2 V c n h = Pipeline.ΦA spec2 c := by
  subst hz; rfl

theorem Inv2_succ (c : Dev nD) (n : ℕ) (hn : n < cfg2.N) :
    Inv2 V c (n + 1) hn = iprop((owns (c : Thread nD τ) accM2 fullShare (acc2 V c n hn) ∗ others2 (F := F) c) ∗ (∃ r, prngReg c r)) := rfl

theorem Inv2_pos (c : Dev nD) (n : ℕ) (h : n ≤ cfg2.N) (hz : n ≠ 0) :
    Inv2 V c n h = iprop((owns (c : Thread nD τ) accM2 fullShare (acc2 V c (n - 1) (by omega)) ∗ others2 (F := F) c) ∗ (∃ r, prngReg c r)) := by
  cases n with
  | zero => exact absurd rfl hz
  | succ n => rfl

/-! ## The pipeline's proof data -/

/-- The proof data of the region on core `c`: the arrays as the region finds them (`V`); after the body at point `t`
    each operand's buffer at its tile and the output's at the accumulator's contents (consulted at the last point only:
    elsewhere the output window is idle and not written back); the invariant carries the accumulator; nothing owed;
    full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => acc2 V c t.val t.isLt
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Inv2_castSucc (c : Dev nD) (t : Fin cfg2.N) :
    (dat2 V c).Φ t.castSucc = Inv2 V c t.val (Nat.le_of_lt t.isLt) := by
  dsimp only [dat2]; simp only [Fin.coe_castSucc]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = tile2 V c 0 t :=
  found2_0_of V (dat2 V c) (A_eq2 V c 0) (after2_0 V c) t d
theorem before2_1 (c : Dev nD) (t : Fin cfg2.N) (d) : (dat2 V c).before 1 t d = tile2 V c 1 t :=
  found2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold the point's tiles; the grid position says which of the three
    control cases the point is in; the invariant hands the body the accumulator at what the point before left (at
    anything at the first point) and takes it back at this point's contents; off the last point the output's buffer is
    handed back as found, at the last point it holds the accumulator's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Inv2 V c (t.val + 1) t.isLt from rfl, Inv2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 64 = 0
  · have hz : t.val = 0 := by omega
    have hfst : atFirst2 (grid2.coords t) := (atFirst2_iff t).mpr h0
    have hlst : ¬atLast2 (grid2.coords t) := fun h => by have := (atLast2_iff t).mp h; omega
    rw [Dat.leavesExact_idle (dat2 V c) 2 t (idle2_2 t hlst) (noFlush2_2 t hlst)]
    rw [acc2_first V c t hz]
    rw [Inv2_castSucc V c t, Inv2_zero V c _ _ hz, PhiA2_eq]
    iintro ⟨⟨⟨HS, Hoth⟩, Hg⟩, Ho, ⟨%d0, H0⟩, ⟨%d1, H1⟩, ⟨%d2, H2⟩⟩
    iapply (run_body2_A c Set.univ (grid2.coords t) _ _ _ _ _ _ _ _ hfst hlst (tile2 V c 0 t) (tile2 V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    have hfst : ¬atFirst2 (grid2.coords t) := fun h => h0 ((atFirst2_iff t).mp h)
    rw [acc2_pos V c t hz]
    rw [Inv2_castSucc V c t, Inv2_pos V c _ _ hz]
    by_cases h1 : t.val % 64 = 63
    · have hlst : atLast2 (grid2.coords t) := (atLast2_iff t).mpr h1
      rw [show (dat2 V c).leavesExact 2 t = owns (c : Thread nD τ) (ms2_2 t) fullShare ((dat2 V c).after 2 t) from by
        unfold Dat.leavesExact; rw [live2_2 t hlst], after2_2, acc2_pos V c t hz]
      iintro ⟨⟨⟨HS, Hoth⟩, Hg⟩, Ho, ⟨%d0, H0⟩, ⟨%d1, H1⟩, ⟨%d2, H2⟩⟩
      iapply (run_body2_C c Set.univ (grid2.coords t) _ _ _ _ _ _ _ _ hfst hlst (tile2 V c 0 t) (tile2 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hlst : ¬atLast2 (grid2.coords t) := fun h => h1 ((atLast2_iff t).mp h)
      rw [Dat.leavesExact_idle (dat2 V c) 2 t (idle2_2 t hlst) (noFlush2_2 t hlst)]
      iintro ⟨⟨⟨HS, Hoth⟩, Hg⟩, Ho, ⟨%d0, H0⟩, ⟨%d1, H1⟩, ⟨%d2, H2⟩⟩
      iapply (run_body2_B c Set.univ (grid2.coords t) _ _ _ _ _ _ _ _ hfst hlst (tile2 V c 0 t) (tile2 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After any point but the first the invariant gives the launch's back: the accumulator's contents are forgotten. -/
theorem Inv2_out (c : Dev nD) (t : Fin (cfg2.N + 1)) (ht : t.val ≠ 0) : (dat2 V c).Φ t ⊢ Pipeline.ΦA spec2 c := by
  rw [show (dat2 V c).Φ t = Inv2 V c t.val (Nat.le_of_lt_succ t.isLt) from rfl, Inv2_pos V c _ _ ht, PhiA2_eq]
  iintro ⟨⟨HS, Hoth⟩, Hg⟩
  isplitl [HS Hoth]
  · isplitl [HS]
    · iexists _; iexact HS
    iexact Hoth
  iexact Hg

/-- The same after the last point. -/
theorem hout2 (c : Dev nD) : (dat2 V c).Φ (Fin.last cfg2.N) ⊢ Pipeline.ΦA spec2 c :=
  Inv2_out V c _ (by rw [Fin.val_last]; have : cfg2.N = 64 := N_2; omega)

/-! ## The values -/

/-- The accumulator after point `t`, as the proof data's invariant after that point states it (`Inv2_succ`), is the
    fold `acc2`: from `accZero2` (the zeroing payload stored whole) one `accStep2` (the accumulating payload over the
    point's two tiles, stored whole) per point up to `t`; and the output tile the last point leaves is that fold at the
    last point. -/
theorem acc2_after (c : Dev nD) (t : Fin cfg2.N) :
    (dat2 V c).Φ t.succ = iprop((owns (c : Thread nD τ) accM2 fullShare (acc2 V c t.val t.isLt) ∗ others2 (F := F) c) ∗ (∃ r, prngReg c r)) := rfl

theorem out2_last (c : Dev nD) (h : 63 < cfg2.N) : (dat2 V c).after 2 ⟨63, h⟩ = acc2 V c 63 h := by
  dsimp only [dat2]

/-- One accumulating step, index by index of the tile: the accumulating payload on the whole-tile reads. -/
theorem accStep2_apply (a : Vec F S1024x2048 .f32) (b : Vec F S1024x128 .f32) (s : Vec F S2048x128 .f32) (x : (whole2_o).shape.Idx) :
    accStep2 a b s ((whole2_o).idx x) = k2_pay2 (View.ld a whole2_q) (View.ld b whole2_f) (View.ld s whole2_o) x :=
  canon_whole2_o_apply _ x

/-- The zeroed accumulator, index by index: the zeroing payload. -/
theorem accZero2_apply (x : (whole2_o).shape.Idx) : accZero2 (F := F) ((whole2_o).idx x) = k2_pay1 (F := F) x :=
  canon_whole2_o_apply _ x

end Cert.Kernel.Gen

end
-- ==== Proof.K.RunCond.lean ====
/-
  The whole program, conditionally on its four kernel regions: the program is a line of host stretches and four
  regions; between two items every unscoped buffer of a core holds the contents named by the valuations V0 … V22 of
  the generated region module (the launch memory, then each host stretch applied in turn, a region changing only its
  output array).  GIVEN one segment record per region, entered from the state before it and left at the state after
  it, every weakly fair execution from memory `m` with zero counters terminates and EVERY unscoped buffer ends at the
  last valuation V22.  The frame claim and the values of the two results are both read off this.
-/
import proofs.«120736_j30030411334238_1_alg».proof.Proof.Gen.Kernel.Regions

set_option maxRecDepth 2484

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V20 m outs c) ∗ E 3 c) ⊢ R3.pre c)
    (hpost3 : ∀ c : Dev nD, R3.post c ⊢ iprop(StableHlo.held (c : Thread nD τ) (Pipeline.ucRefs τ sig) (V21 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V22 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, hpre0 c, hpost0 c, .rfl, .rfl, .rfl, .rfl, .rfl, .rfl, .rfl, hpre1 c, (hpost1 c).trans (hpre2 c), hpost2 c, .rfl, .rfl, .rfl, .rfl, .rfl, .rfl, .rfl, hpre3 c, hpost3 c, sep_mono .rfl (hE4 c)⟩)
    (hinit := ?_) (QY := fun c s => ∀ b ∈ Pipeline.ucRefs τ sig, s.mem ((c : Thread nD τ).1, b) = V22 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro; exact h
    · iexact HSI

end Cert.Kernel.Gen

end
-- ==== Proof.K.Regs.lean ====
/-
  The four kernel regions as segments of the whole program.  Between two items of the program every unscoped buffer
  of a core holds the contents named by the valuations V0 … V22 of the generated region module, which leave open
  what the regions write (the unknowns `outs`).  Here each region's proof data is placed at the valuation the region
  is entered from, and the unknowns are tied to what the pipelines really leave (`Good`): a region's output array
  after the region is the fold of its write-backs.  Under that tie each region is a segment entered from "every
  unscoped buffer at the valuation before, the generator register at some state, nothing owed" and left at the same
  with the valuation after: its arrays are split out of the unscoped buffers on entry and put back, at their final
  contents, on exit; the generator register passes through the region's invariant; the kernels have no semaphores of
  their own and owe nothing.  For the two accumulating products the invariant starts and ends as the untouched scoped
  rest and carries the accumulator in between.
-/
import proofs.«120736_j30030411334238_1_alg».proof.Proof.K.Dat1
import proofs.«120736_j30030411334238_1_alg».proof.Proof.K.Dat3
import proofs.«120736_j30030411334238_1_alg».proof.Proof.K.Body0Frame
import proofs.«120736_j30030411334238_1_alg».proof.Proof.K.Body2Frame
import proofs.«120736_j30030411334238_1_alg».proof.Proof.K.RunCond

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation of a core's buffers read at the TensorCore's references. -/
abbrev atTc (W : Dev nD → Valuation τ sig (Elt F)) : (c : Dev nD) → (b : Ref sig .tc) → Buf (Elt F) ((c : Thread nD τ).loc b) :=
  fun c b => W c b

/-- Every pipeline's proof data, each at the valuation its region is entered from. -/
def pdatsOf : (p : Fin 4) → (c : Dev nD) → Dat τ (Elt F) Unit ℕ (UR sig nD τ) ℕ (cfgs p) c
  | ⟨0, _⟩ => fun c => dat0 (atTc (V1 m)) c
  | ⟨1, _⟩ => fun c => dat1 (atTc (V10 m outs)) c
  | ⟨2, _⟩ => fun c => dat2 (atTc (V11 m outs)) c
  | ⟨3, _⟩ => fun c => dat3 (atTc (V20 m outs)) c

/-- The unknowns are what the pipelines leave: each region's output array after the region is the fold of its
    write-backs over the array as the region found it. -/
def Good : Prop := ∀ c : Dev nD,
  outs 2 main_v3 c = (pdatsOf m outs 0 c).arrAt 2 cfg0.N
  ∧ outs 11 main_v123 c = (pdatsOf m outs 1 c).arrAt 2 cfg1.N
  ∧ outs 12 main_v124 c = (pdatsOf m outs 2 c).arrAt 2 cfg2.N
  ∧ outs 21 main_v240 c = (pdatsOf m outs 3 c).arrAt 2 cfg3.N

abbrev noVariants : Variants := Variants.none
abbrev noLevels : GSem nD τ sig → Finset Unit := fun _ => ∅
abbrev levelZero : GSem nD τ sig → Unit → ℕ := fun _ _ => 0

/-- What rides beside the buffers through every item: the generator register at some state and nothing owed. -/
abbrev beside (c : Dev nD) : sProp 𝕄 := iprop((∃ r, prngReg c r) ∗ ∃ W, owes (c : Thread nD τ) (0 : CellTallies nD τ sig Unit) W)
abbrev besideAll : Fin 5 → Dev nD → sProp 𝕄 := fun _ c => beside c

/-! ## Region 0 -/

theorem exit0_arr0 (c : Dev nD) : (pdatsOf m outs 0 c).arrAt 0 cfg0.N = atTc (V2 m outs) c (Pipeline.arrRef spec0 0) :=
  ((pdatsOf m outs 0 c).arrAt_in 0 rfl _).trans (V2_of m outs c (Pipeline.arrRef spec0 0) (by decide)).symm
theorem exit0_arr1 (c : Dev nD) : (pdatsOf m outs 0 c).arrAt 1 cfg0.N = atTc (V2 m outs) c (Pipeline.arrRef spec0 1) :=
  ((pdatsOf m outs 0 c).arrAt_in 1 rfl _).trans (V2_of m outs c (Pipeline.arrRef spec0 1) (by decide)).symm
theorem exit0_arr2 (hg : Good m outs) (c : Dev nD) : (pdatsOf m outs 0 c).arrAt 2 cfg0.N = atTc (V2 m outs) c (Pipeline.arrRef spec0 2) :=
  ((hg c).1).symm.trans (Function.update_self (Proc.devRef .tc main_v3 : DevRef τ sig) (outs 2 main_v3 c) (V1 m c)).symm

theorem exit0_arr (hg : Good m outs) (c : Dev nD) : ∀ w : Fin cfg0.W,
    (pdatsOf m outs 0 c).arrAt w cfg0.N = atTc (V2 m outs) c (Pipeline.arrRef spec0 w) := fun
  | 0 => exit0_arr0 m outs c
  | 1 => exit0_arr1 m outs c
  | 2 => exit0_arr2 m outs hg c
  | ⟨_ + 3, h⟩ => absurd h (Nat.not_lt.2 (Nat.le_add_left _ _))

theorem exit0_rest (c : Dev nD) : ∀ b, b ∉ Finset.univ.image (Pipeline.arrRef spec0) → atTc (V2 m outs) c b = atTc (V1 m) c b :=
  fun b hb => V2_of m outs c b (fun hmem => hb (Finset.mem_image.mpr ⟨2, Finset.mem_univ _, (List.mem_singleton.mp hmem).symm⟩))

theorem enter0_inv (c : Dev nD) :
    (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
      ⊢ Pipeline.ΦA spec0 c := by
  unfold Pipeline.ΦA
  iintro ⟨Hp, -, Hr⟩
  isplitl [Hr]; · iexact Hr
  iexact Hp

theorem leave0_inv (c : Dev nD) :
    (Pipeline.ΦA spec0 c : sProp 𝕄)
      ⊢ iprop((∃ r, prngReg c r) ∗ (BI.emp : sProp 𝕄) ∗ Pipeline.scopedRest (Pipeline.pin (pcfgs (F := F)) adm 0).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg0 (hg : Good m outs) : Pipeline.RegionSeg (pcfgs (F := F)) adm (pdatsOf m outs) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m outs c) ∗ beside c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdatsOf m outs) launch0.win launch0.arr_whole c
      ((pdatsOf m outs 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter0_inv c).trans (hin0 (atTc (V1 m)) c)
  hout c := by
    rw [Pipeline.ownSems0_none]
    exact (hout0 (atTc (V1 m)) c).trans (leave0_inv c)
  hexit c := by
    have hjoin := Pipeline.unscopedBufs_of_arrays (p := 0) (pcfgs (F := F)) adm (Ix := Unit) (Name := ℕ) (U := UR sig nD τ) (Lvl := ℕ)
      launch0.win launch0.arr_whole c (pdatsOf m outs) ((pdatsOf m outs 0 c).share_full fun _ => rfl)
      (atTc (V1 m) c) (atTc (V2 m outs) c) ((pdatsOf m outs 0 c).arrAt · cfg0.N) (exit0_arr m outs hg c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem exit1_arr0 (c : Dev nD) : (pdatsOf m outs 1 c).arrAt 0 cfg1.N = atTc (V11 m outs) c (Pipeline.arrRef spec1 0) :=
  ((pdatsOf m outs 1 c).arrAt_in 0 rfl _).trans (V11_of m outs c (Pipeline.arrRef spec1 0) (by decide)).symm
theorem exit1_arr1 (c : Dev nD) : (pdatsOf m outs 1 c).arrAt 1 cfg1.N = atTc (V11 m outs) c (Pipeline.arrRef spec1 1) :=
  ((pdatsOf m outs 1 c).arrAt_in 1 rfl _).trans (V11_of m outs c (Pipeline.arrRef spec1 1) (by decide)).symm
theorem exit1_arr2 (hg : Good m outs) (c : Dev nD) : (pdatsOf m outs 1 c).arrAt 2 cfg1.N = atTc (V11 m outs) c (Pipeline.arrRef spec1 2) :=
  ((hg c).2.1).symm.trans (Function.update_self (Proc.devRef .tc main_v123 : DevRef τ sig) (outs 11 main_v123 c) (V10 m outs c)).symm

theorem exit1_arr (hg : Good m outs) (c : Dev nD) : ∀ w : Fin cfg1.W,
    (pdatsOf m outs 1 c).arrAt w cfg1.N = atTc (V11 m outs) c (Pipeline.arrRef spec1 w) := fun
  | 0 => exit1_arr0 m outs c
  | 1 => exit1_arr1 m outs c
  | 2 => exit1_arr2 m outs hg c
  | ⟨_ + 3, h⟩ => absurd h (Nat.not_lt.2 (Nat.le_add_left _ _))

theorem exit1_rest (c : Dev nD) : ∀ b, b ∉ Finset.univ.image (Pipeline.arrRef spec1) → atTc (V11 m outs) c b = atTc (V10 m outs) c b :=
  fun b hb => V11_of m outs c b (fun hmem => hb (Finset.mem_image.mpr ⟨2, Finset.mem_univ _, (List.mem_singleton.mp hmem).symm⟩))

theorem enter1_inv (c : Dev nD) :
    (iprop((∃ r, prngReg c r) ∗ Pipeline.prefHeld (pcfgs (F := F) 1).pre c (fun _ => fullShare) (adm (F := F) 1).1 ∗ Pipeline.scopedRest (Pipeline.pin (pcfgs (F := F)) adm 1).spec c) : sProp 𝕄)
      ⊢ Pipeline.ΦA spec1 c := by
  unfold Pipeline.ΦA
  iintro ⟨Hp, -, Hr⟩
  isplitl [Hr]; · iexact Hr
  iexact Hp

theorem leave1_inv (c : Dev nD) :
    (Pipeline.ΦA spec1 c : sProp 𝕄)
      ⊢ iprop((∃ r, prngReg c r) ∗ (BI.emp : sProp 𝕄) ∗ Pipeline.scopedRest (Pipeline.pin (pcfgs (F := F)) adm 1).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg1 (hg : Good m outs) : Pipeline.RegionSeg (pcfgs (F := F)) adm (pdatsOf m outs) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (atTc (V10 m outs)) c).loose
  hwaits := Pipeline.hwaits_of_owed_zero _ _ _ _ noLevels levelZero 1 fun _ _ => rfl
  pre c := iprop(StableHlo.held (c : Thread nD τ) (Pipeline.ucRefs τ sig) (V10 m outs c) ∗ beside c)
  post c := iprop(StableHlo.held (c : Thread nD τ) (Pipeline.ucRefs τ sig) (V11 m outs c) ∗ beside c)
  X c := iprop(∃ r, prngReg c r)
  Y c := iprop(∃ r, prngReg c r)
  Z c := Pipeline.unscopedRest (Ix := Unit) (Name := ℕ) (U := UR sig nD τ) (Lvl := ℕ) spec1 c (atTc (V10 m outs) c)
  hentry c := by
    rw [Pipeline.ownSems0_none]
    have hsplit := Pipeline.arrays_of_unscopedBufs (p := 1) (pcfgs (F := F)) adm (pdatsOf m outs) launch1.win launch1.arr_whole c
      ((pdatsOf m outs 1 c).share_full fun _ => rfl) (atTc (V10 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsOf m outs 1 c).Φ 0 = Pipeline.ΦA spec1 c from rfl]
    exact enter1_inv c
  hout c := by
    rw [Pipeline.ownSems0_none]
    rw [show (pdatsOf m outs 1 c).Φ (Fin.last _) = Pipeline.ΦA spec1 c from rfl]
    exact leave1_inv c
  hexit c := by
    have hjoin := Pipeline.unscopedBufs_of_arrays (p := 1) (pcfgs (F := F)) adm (Ix := Unit) (Name := ℕ) (U := UR sig nD τ) (Lvl := ℕ)
      launch1.win launch1.arr_whole c (pdatsOf m outs) ((pdatsOf m outs 1 c).share_full fun _ => rfl)
      (atTc (V10 m outs) c) (atTc (V11 m outs) c) ((pdatsOf m outs 1 c).arrAt · cfg1.N) (exit1_arr m outs hg c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem exit2_arr0 (c : Dev nD) : (pdatsOf m outs 2 c).arrAt 0 cfg2.N = atTc (V12 m outs) c (Pipeline.arrRef spec2 0) :=
  ((pdatsOf m outs 2 c).arrAt_in 0 rfl _).trans (V12_of m outs c (Pipeline.arrRef spec2 0) (by decide)).symm
theorem exit2_arr1 (c : Dev nD) : (pdatsOf m outs 2 c).arrAt 1 cfg2.N = atTc (V12 m outs) c (Pipeline.arrRef spec2 1) :=
  ((pdatsOf m outs 2 c).arrAt_in 1 rfl _).trans (V12_of m outs c (Pipeline.arrRef spec2 1) (by decide)).symm
theorem exit2_arr2 (hg : Good m outs) (c : Dev nD) : (pdatsOf m outs 2 c).arrAt 2 cfg2.N = atTc (V12 m outs) c (Pipeline.arrRef spec2 2) :=
  ((hg c).2.2.1).symm.trans (Function.update_self (Proc.devRef .tc main_v124 : DevRef τ sig) (outs 12 main_v124 c) (V11 m outs c)).symm

theorem exit2_arr (hg : Good m outs) (c : Dev nD) : ∀ w : Fin cfg2.W,
    (pdatsOf m outs 2 c).arrAt w cfg2.N = atTc (V12 m outs) c (Pipeline.arrRef spec2 w) := fun
  | 0 => exit2_arr0 m outs c
  | 1 => exit2_arr1 m outs c
  | 2 => exit2_arr2 m outs hg c
  | ⟨_ + 3, h⟩ => absurd h (Nat.not_lt.2 (Nat.le_add_left _ _))

theorem exit2_rest (c : Dev nD) : ∀ b, b ∉ Finset.univ.image (Pipeline.arrRef spec2) → atTc (V12 m outs) c b = atTc (V11 m outs) c b :=
  fun b hb => V12_of m outs c b (fun hmem => hb (Finset.mem_image.mpr ⟨2, Finset.mem_univ _, (List.mem_singleton.mp hmem).symm⟩))

theorem enter2_inv (c : Dev nD) :
    (iprop((∃ r, prngReg c r) ∗ Pipeline.prefHeld (pcfgs (F := F) 2).pre c (fun _ => fullShare) (adm (F := F) 2).1 ∗ Pipeline.scopedRest (Pipeline.pin (pcfgs (F := F)) adm 2).spec c) : sProp 𝕄)
      ⊢ Pipeline.ΦA spec2 c := by
  unfold Pipeline.ΦA
  iintro ⟨Hp, -, Hr⟩
  isplitl [Hr]; · iexact Hr
  iexact Hp

theorem leave2_inv (c : Dev nD) :
    (Pipeline.ΦA spec2 c : sProp 𝕄)
      ⊢ iprop((∃ r, prngReg c r) ∗ (BI.emp : sProp 𝕄) ∗ Pipeline.scopedRest (Pipeline.pin (pcfgs (F := F)) adm 2).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg2 (hg : Good m outs) : Pipeline.RegionSeg (pcfgs (F := F)) adm (pdatsOf m outs) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (atTc (V11 m outs)) c).loose
  hwaits := Pipeline.hwaits_of_owed_zero _ _ _ _ noLevels levelZero 2 fun _ _ => rfl
  pre c := iprop(StableHlo.held (c : Thread nD τ) (Pipeline.ucRefs τ sig) (V11 m outs c) ∗ beside c)
  post c := iprop(StableHlo.held (c : Thread nD τ) (Pipeline.ucRefs τ sig) (V12 m outs c) ∗ beside c)
  X c := iprop(∃ r, prngReg c r)
  Y c := iprop(∃ r, prngReg c r)
  Z c := Pipeline.unscopedRest (Ix := Unit) (Name := ℕ) (U := UR sig nD τ) (Lvl := ℕ) spec2 c (atTc (V11 m outs) c)
  hentry c := by
    rw [Pipeline.ownSems0_none]
    have hsplit := Pipeline.arrays_of_unscopedBufs (p := 2) (pcfgs (F := F)) adm (pdatsOf m outs) launch2.win launch2.arr_whole c
      ((pdatsOf m outs 2 c).share_full fun _ => rfl) (atTc (V11 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter2_inv c).trans (hin2 (atTc (V11 m outs)) c)
  hout c := by
    rw [Pipeline.ownSems0_none]
    exact (hout2 (atTc (V11 m outs)) c).trans (leave2_inv c)
  hexit c := by
    have hjoin := Pipeline.unscopedBufs_of_arrays (p := 2) (pcfgs (F := F)) adm (Ix := Unit) (Name := ℕ) (U := UR sig nD τ) (Lvl := ℕ)
      launch2.win launch2.arr_whole c (pdatsOf m outs) ((pdatsOf m outs 2 c).share_full fun _ => rfl)
      (atTc (V11 m outs) c) (atTc (V12 m outs) c) ((pdatsOf m outs 2 c).arrAt · cfg2.N) (exit2_arr m outs hg c) (exit2_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem exit3_arr0 (c : Dev nD) : (pdatsOf m outs 3 c).arrAt 0 cfg3.N = atTc (V21 m outs) c (Pipeline.arrRef spec3 0) :=
  ((pdatsOf m outs 3 c).arrAt_in 0 rfl _).trans (V21_of m outs c (Pipeline.arrRef spec3 0) (by decide)).symm
theorem exit3_arr1 (c : Dev nD) : (pdatsOf m outs 3 c).arrAt 1 cfg3.N = atTc (V21 m outs) c (Pipeline.arrRef spec3 1) :=
  ((pdatsOf m outs 3 c).arrAt_in 1 rfl _).trans (V21_of m outs c (Pipeline.arrRef spec3 1) (by decide)).symm
theorem exit3_arr2 (hg : Good m outs) (c : Dev nD) : (pdatsOf m outs 3 c).arrAt 2 cfg3.N = atTc (V21 m outs) c (Pipeline.arrRef spec3 2) :=
  ((hg c).2.2.2).symm.trans (Function.update_self (Proc.devRef .tc main_v240 : DevRef τ sig) (outs 21 main_v240 c) (V20 m outs c)).symm

theorem exit3_arr (hg : Good m outs) (c : Dev nD) : ∀ w : Fin cfg3.W,
    (pdatsOf m outs 3 c).arrAt w cfg3.N = atTc (V21 m outs) c (Pipeline.arrRef spec3 w) := fun
  | 0 => exit3_arr0 m outs c
  | 1 => exit3_arr1 m outs c
  | 2 => exit3_arr2 m outs hg c
  | ⟨_ + 3, h⟩ => absurd h (Nat.not_lt.2 (Nat.le_add_left _ _))

theorem exit3_rest (c : Dev nD) : ∀ b, b ∉ Finset.univ.image (Pipeline.arrRef spec3) → atTc (V21 m outs) c b = atTc (V20 m outs) c b :=
  fun b hb => V21_of m outs c b (fun hmem => hb (Finset.mem_image.mpr ⟨2, Finset.mem_univ _, (List.mem_singleton.mp hmem).symm⟩))

theorem enter3_inv (c : Dev nD) :
    (iprop((∃ r, prngReg c r) ∗ Pipeline.prefHeld (pcfgs (F := F) 3).pre c (fun _ => fullShare) (adm (F := F) 3).1 ∗ Pipeline.scopedRest (Pipeline.pin (pcfgs (F := F)) adm 3).spec c) : sProp 𝕄)
      ⊢ Pipeline.ΦA spec3 c := by
  unfold Pipeline.ΦA
  iintro ⟨Hp, -, Hr⟩
  isplitl [Hr]; · iexact Hr
  iexact Hp

theorem leave3_inv (c : Dev nD) :
    (Pipeline.ΦA spec3 c : sProp 𝕄)
      ⊢ iprop((∃ r, prngReg c r) ∗ (BI.emp : sProp 𝕄) ∗ Pipeline.scopedRest (Pipeline.pin (pcfgs (F := F)) adm 3).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg3 (hg : Good m outs) : Pipeline.RegionSeg (pcfgs (F := F)) adm (pdatsOf m outs) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (atTc (V20 m outs)) c).loose
  hwaits := Pipeline.hwaits_of_owed_zero _ _ _ _ noLevels levelZero 3 fun _ _ => rfl
  pre c := iprop(StableHlo.held (c : Thread nD τ) (Pipeline.ucRefs τ sig) (V20 m outs c) ∗ beside c)
  post c := iprop(StableHlo.held (c : Thread nD τ) (Pipeline.ucRefs τ sig) (V21 m outs c) ∗ beside c)
  X c := iprop(∃ r, prngReg c r)
  Y c := iprop(∃ r, prngReg c r)
  Z c := Pipeline.unscopedRest (Ix := Unit) (Name := ℕ) (U := UR sig nD τ) (Lvl := ℕ) spec3 c (atTc (V20 m outs) c)
  hentry c := by
    rw [Pipeline.ownSems0_none]
    have hsplit := Pipeline.arrays_of_unscopedBufs (p := 3) (pcfgs (F := F)) adm (pdatsOf m outs) launch3.win launch3.arr_whole c
      ((pdatsOf m outs 3 c).share_full fun _ => rfl) (atTc (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsOf m outs 3 c).Φ 0 = Pipeline.ΦA spec3 c from rfl]
    exact enter3_inv c
  hout c := by
    rw [Pipeline.ownSems0_none]
    rw [show (pdatsOf m outs 3 c).Φ (Fin.last _) = Pipeline.ΦA spec3 c from rfl]
    exact leave3_inv c
  hexit c := by
    have hjoin := Pipeline.unscopedBufs_of_arrays (p := 3) (pcfgs (F := F)) adm (Ix := Unit) (Name := ℕ) (U := UR sig nD τ) (Lvl := ℕ)
      launch3.win launch3.arr_whole c (pdatsOf m outs) ((pdatsOf m outs 3 c).share_full fun _ => rfl)
      (atTc (V20 m outs) c) (atTc (V21 m outs) c) ((pdatsOf m outs 3 c).arrAt · cfg3.N) (exit3_arr m outs hg c) (exit3_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Main.lean ====
/-
  The whole kernel program run.  The unknown contents the regions leave are fixed in program order — each region's
  output array is the fold of that region's write-backs over the contents found on entry, and the valuation a later
  region is entered from only looks at the outputs of the earlier ones — and with that choice the four region
  segments chain through the host stretches: every weakly fair execution terminates, nothing faults, and every
  unscoped buffer of a core ends at the last valuation, in which each argument array still has its launch contents
  and the two results are the last host stretch applied to what the regions and the earlier stretches left.
-/
import proofs.«120736_j30030411334238_1_alg».proof.Proof.K.Regs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuation before a region only looks at the earlier regions' outputs -/

theorem V10_congr (o o' : Outs (F := F)) (c : Dev nD) (h : o 2 main_v3 c = o' 2 main_v3 c) : V10 m o c = V10 m o' c := by
  simp only [V10, V9, V8, V7, V6, V5, V4, V3, V2, h]

theorem V11_congr (o o' : Outs (F := F)) (c : Dev nD) (h : o 2 main_v3 c = o' 2 main_v3 c) (h' : o 11 main_v123 c = o' 11 main_v123 c) :
    V11 m o c = V11 m o' c := by
  simp only [V11, V10_congr m o o' c h, h']

theorem V20_congr (o o' : Outs (F := F)) (c : Dev nD) (h : o 2 main_v3 c = o' 2 main_v3 c) (h' : o 11 main_v123 c = o' 11 main_v123 c)
    (h'' : o 12 main_v124 c = o' 12 main_v124 c) : V20 m o c = V20 m o' c := by
  simp only [V20, V19, V18, V17, V16, V15, V14, V13, V12, V11_congr m o o' c h h', h'']

/-! ## The regions' outputs, fixed in program order -/

def left0 (c : Dev nD) : Buf (Elt F) ((c : Thread nD τ).loc main_v3) := (dat0 (atTc (V1 m)) c).arrAt 2 cfg0.N
def outsA : Outs (F := F) := fun _ r c => Function.update (V1 m c) main_v3 (left0 m c) r
def left1 (c : Dev nD) : Buf (Elt F) ((c : Thread nD τ).loc main_v123) := (dat1 (atTc (V10 m (outsA m))) c).arrAt 2 cfg1.N
def outsB : Outs (F := F) := fun J r c => if J = 2 then outsA m J r c else Function.update (V10 m (outsA m) c) main_v123 (left1 m c) r
def left2 (c : Dev nD) : Buf (Elt F) ((c : Thread nD τ).loc main_v124) := (dat2 (atTc (V11 m (outsB m))) c).arrAt 2 cfg2.N
def outsC : Outs (F := F) := fun J r c => if J = 2 ∨ J = 11 then outsB m J r c else Function.update (V11 m (outsB m) c) main_v124 (left2 m c) r
def left3 (c : Dev nD) : Buf (Elt F) ((c : Thread nD τ).loc main_v240) := (dat3 (atTc (V20 m (outsC m))) c).arrAt 2 cfg3.N
def outsD : Outs (F := F) := fun J r c => if J = 2 ∨ J = 11 ∨ J = 12 then outsC m J r c else Function.update (V20 m (outsC m) c) main_v240 (left3 m c) r

theorem outsD_2 (c : Dev nD) : outsD m 2 main_v3 c = left0 m c := by
  simp only [outsD, outsC, outsB, outsA, Function.update_self, if_true, true_or]
theorem outsD_11 (c : Dev nD) : outsD m 11 main_v123 c = left1 m c := by
  simp only [outsD, outsC, outsB, Function.update_self, if_true, true_or, or_true, if_false, show ¬ ((11 : ℕ) = 2) by decide]
theorem outsD_12 (c : Dev nD) : outsD m 12 main_v124 c = left2 m c := by
  simp only [outsD, outsC, Function.update_self, if_true, true_or, or_true, if_false, show ¬ ((12 : ℕ) = 2) by decide, show ¬ ((12 : ℕ) = 11) by decide, or_self, or_false, false_or]
theorem outsD_21 (c : Dev nD) : outsD m 21 main_v240 c = left3 m c := by
  simp only [outsD, Function.update_self, if_false, show ¬ ((21 : ℕ) = 2) by decide, show ¬ ((21 : ℕ) = 11) by decide, show ¬ ((21 : ℕ) = 12) by decide, or_self]

theorem outsC_2 (c : Dev nD) : outsC m 2 main_v3 c = left0 m c := by
  simp only [outsC, outsB, outsA, Function.update_self, if_true, true_or]
theorem outsC_11 (c : Dev nD) : outsC m 11 main_v123 c = left1 m c := by
  simp only [outsC, outsB, Function.update_self, if_true, or_true, if_false, show ¬ ((11 : ℕ) = 2) by decide]
theorem outsC_12 (c : Dev nD) : outsC m 12 main_v124 c = left2 m c := by
  simp only [outsC, Function.update_self, if_false, show ¬ ((12 : ℕ) = 2) by decide, show ¬ ((12 : ℕ) = 11) by decide, or_self]
theorem outsB_2 (c : Dev nD) : outsB m 2 main_v3 c = left0 m c := by
  simp only [outsB, outsA, Function.update_self, if_true]
theorem outsB_11 (c : Dev nD) : outsB m 11 main_v123 c = left1 m c := by
  simp only [outsB, Function.update_self, if_false, show ¬ ((11 : ℕ) = 2) by decide]
theorem outsA_2 (c : Dev nD) : outsA m 2 main_v3 c = left0 m c := by
  simp only [outsA, Function.update_self]

theorem good : Good m (outsD m) := fun c => by
  refine ⟨outsD_2 m c, ?_, ?_, ?_⟩
  · rw [outsD_11]
    show (dat1 (atTc (V10 m (outsA m))) c).arrAt 2 cfg1.N = (dat1 (atTc (V10 m (outsD m))) c).arrAt 2 cfg1.N
    have e : atTc (V10 m (outsA m)) = atTc (V10 m (outsD m)) := by
      funext c' b; exact congrFun (V10_congr m _ _ c' ((outsA_2 m c').trans (outsD_2 m c').symm)) _
    rw [e]
  · rw [outsD_12]
    show (dat2 (atTc (V11 m (outsB m))) c).arrAt 2 cfg2.N = (dat2 (atTc (V11 m (outsD m))) c).arrAt 2 cfg2.N
    have e : atTc (V11 m (outsB m)) = atTc (V11 m (outsD m)) := by
      funext c' b; exact congrFun (V11_congr m _ _ c' ((outsB_2 m c').trans (outsD_2 m c').symm) ((outsB_11 m c').trans (outsD_11 m c').symm)) _
    rw [e]
  · rw [outsD_21]
    show (dat3 (atTc (V20 m (outsC m))) c).arrAt 2 cfg3.N = (dat3 (atTc (V20 m (outsD m))) c).arrAt 2 cfg3.N
    have e : atTc (V20 m (outsC m)) = atTc (V20 m (outsD m)) := by
      funext c' b; exact congrFun (V20_congr m _ _ c' ((outsC_2 m c').trans (outsD_2 m c').symm) ((outsC_11 m c').trans (outsD_11 m c').symm) ((outsC_12 m c').trans (outsD_12 m c').symm)) _
    rw [e]

/-! ## The run -/

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V22 m (outsD m) c b) :=
  run_cond m emb₁ () noVariants noLevels levelZero (fun _ _ => rfl) ρ (outsD m) (pdatsOf m (outsD m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := besideAll)
    (hE0 := by
      refine Pipeline.initEach noLevels levelZero fun c => ?_
      iintro ⟨⟨-, HO, -, Hp, -⟩, -⟩
      imodintro
      isplitl [Hp]; · iexists _; iexact Hp
      iexists ∅; iexact HO)
    (hE4 := fun c => by
      iintro ⟨-, HO⟩; iexact HO)
    (R0 := reg0 m (outsD m) (good m)) (hpre0 := fun _ => .rfl) (hpost0 := fun _ => .rfl)
    (R1 := reg1 m (outsD m) (good m)) (hpre1 := fun _ => .rfl) (hpost1 := fun _ => .rfl)
    (R2 := reg2 m (outsD m) (good m)) (hpre2 := fun _ => .rfl) (hpost2 := fun _ => .rfl)
    (R3 := reg3 m (outsD m) (good m)) (hpre3 := fun _ => .rfl) (hpost3 := fun _ => .rfl)

end Cert.Kernel.Gen

end
-- ==== Proof.K.Frame.lean ====
/-
  The frame of the kernel program, and the two results: from the whole run, each argument array is read back through
  the last valuation to its launch contents (no host stretch writes an argument and no region may change one), and
  each result buffer holds the last valuation's contents there.
-/
import proofs.«120736_j30030411334238_1_alg».proof.Proof.K.Main

set_option maxRecDepth 16384

noncomputable section

namespace Cert.Kernel.Gen

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem ucRef_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates, nothing faulting, with the two results at the last valuation and every
    argument array as launched. -/
theorem run_results : θ_run defs (onTc (τ := τ) (main (F := F))) ⟨m, fun _ => 0, ρ⟩ (fun r => ∀ c : Dev nD,
      r.2.mem ((c.tc : Thread nD τ).loc main_v267) = V22 m (outsD m) c main_v267
      ∧ r.2.mem ((c.tc : Thread nD τ).loc main_v279) = V22 m (outsD m) c main_v279
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun r h c =>
    ⟨h c (Proc.devRef .tc main_v267) (ucRef_mem main_v267 (by decide)),
     h c (Proc.devRef .tc main_v279) (ucRef_mem main_v279 (by decide)),
     (h c (Proc.devRef .tc main_arg0) (ucRef_mem main_arg0 (by decide))).trans (V22_main_arg0 m (outsD m) c),
     (h c (Proc.devRef .tc main_arg1) (ucRef_mem main_arg1 (by decide))).trans (V22_main_arg1 m (outsD m) c),
     (h c (Proc.devRef .tc main_arg2) (ucRef_mem main_arg2 (by decide))).trans (V22_main_arg2 m (outsD m) c),
     (h c (Proc.devRef .tc main_arg3) (ucRef_mem main_arg3 (by decide))).trans (V22_main_arg3 m (outsD m) c),
     (h c (Proc.devRef .tc main_arg4) (ucRef_mem main_arg4 (by decide))).trans (V22_main_arg4 m (outsD m) c),
     (h c (Proc.devRef .tc main_arg5) (ucRef_mem main_arg5 (by decide))).trans (V22_main_arg5 m (outsD m) c),
     (h c (Proc.devRef .tc main_arg6) (ucRef_mem main_arg6 (by decide))).trans (V22_main_arg6 m (outsD m) c),
     (h c (Proc.devRef .tc main_arg7) (ucRef_mem main_arg7 (by decide))).trans (V22_main_arg7 m (outsD m) c),
     (h c (Proc.devRef .tc main_arg8) (ucRef_mem main_arg8 (by decide))).trans (V22_main_arg8 m (outsD m) c),
     (h c (Proc.devRef .tc main_arg9) (ucRef_mem main_arg9 (by decide))).trans (V22_main_arg9 m (outsD m) c),
     (h c (Proc.devRef .tc main_arg10) (ucRef_mem main_arg10 (by decide))).trans (V22_main_arg10 m (outsD m) c),
     (h c (Proc.devRef .tc main_arg11) (ucRef_mem main_arg11 (by decide))).trans (V22_main_arg11 m (outsD m) c),
     (h c (Proc.devRef .tc main_arg12) (ucRef_mem main_arg12 (by decide))).trans (V22_main_arg12 m (outsD m) c),
     (h c (Proc.devRef .tc main_arg13) (ucRef_mem main_arg13 (by decide))).trans (V22_main_arg13 m (outsD m) c),
     (h c (Proc.devRef .tc main_arg14) (ucRef_mem main_arg14 (by decide))).trans (V22_main_arg14 m (outsD m) c),
     (h c (Proc.devRef .tc main_arg15) (ucRef_mem main_arg15 (by decide))).trans (V22_main_arg15 m (outsD m) c),
     (h c (Proc.devRef .tc main_arg16) (ucRef_mem main_arg16 (by decide))).trans (V22_main_arg16 m (outsD m) c),
     (h c (Proc.devRef .tc main_arg17) (ucRef_mem main_arg17 (by decide))).trans (V22_main_arg17 m (outsD m) c),
     (h c (Proc.devRef .tc main_arg18) (ucRef_mem main_arg18 (by decide))).trans (V22_main_arg18 m (outsD m) c),
     (h c (Proc.devRef .tc main_arg19) (ucRef_mem main_arg19 (by decide))).trans (V22_main_arg19 m (outsD m) c),
     (h c (Proc.devRef .tc main_arg20) (ucRef_mem main_arg20 (by decide))).trans (V22_main_arg20 m (outsD m) c),
     (h c (Proc.devRef .tc main_arg21) (ucRef_mem main_arg21 (by decide))).trans (V22_main_arg21 m (outsD m) c),
     (h c (Proc.devRef .tc main_arg22) (ucRef_mem main_arg22 (by decide))).trans (V22_main_arg22 m (outsD m) c),
     (h c (Proc.devRef .tc main_arg23) (ucRef_mem main_arg23 (by decide))).trans (V22_main_arg23 m (outsD m) c),
     (h c (Proc.devRef .tc main_arg24) (ucRef_mem main_arg24 (by decide))).trans (V22_main_arg24 m (outsD m) c),
     (h c (Proc.devRef .tc main_arg25) (ucRef_mem main_arg25 (by decide))).trans (V22_main_arg25 m (outsD m) c),
     (h c (Proc.devRef .tc main_arg26) (ucRef_mem main_arg26 (by decide))).trans (V22_main_arg26 m (outsD m) c),
     (h c (Proc.devRef .tc main_arg27) (ucRef_mem main_arg27 (by decide))).trans (V22_main_arg27 m (outsD m) c),
     (h c (Proc.devRef .tc main_arg28) (ucRef_mem main_arg28 (by decide))).trans (V22_main_arg28 m (outsD m) c),
     (h c (Proc.devRef .tc main_arg29) (ucRef_mem main_arg29 (by decide))).trans (V22_main_arg29 m (outsD m) c),
     (h c (Proc.devRef .tc main_arg30) (ucRef_mem main_arg30 (by decide))).trans (V22_main_arg30 m (outsD m) c),
     (h c (Proc.devRef .tc main_arg31) (ucRef_mem main_arg31 (by decide))).trans (V22_main_arg31 m (outsD m) c),
     (h c (Proc.devRef .tc main_arg32) (ucRef_mem main_arg32 (by decide))).trans (V22_main_arg32 m (outsD m) c),
     (h c (Proc.devRef .tc main_arg33) (ucRef_mem main_arg33 (by decide))).trans (V22_main_arg33 m (outsD m) c),
     (h c (Proc.devRef .tc main_arg34) (ucRef_mem main_arg34 (by decide))).trans (V22_main_arg34 m (outsD m) c)⟩)
    (run_all m ρ)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun r h c => (h c).2.2) (run_results m ρ)

end Cert.Kernel.Gen

end
-- ==== Proof.KI.Body1.lean ====
/-
  Region 1 of the kernel program: the row-tiled product  out[i·1024 + r, :] = A[i·1024 + r, :] · B
  (A the 65536×1024 assignment matrix, B the 1024×64 node features of the big branch), one 1024-row tile per grid
  point.  At a point the body reads the point's tile of A and the whole of B from their staging buffers and stores
  the product of the two (both rounded to bf16 on the way into the matrix unit, accumulated from zero) over the whole
  output tile.  This file states what the output tile holds after the body as a function of the two tiles read and
  runs the body once on arbitrary whole buffers.
-/
import proofs.«120736_j30030411334238_1_alg».proof.Proof.Gen.KernelIdeal.Launch
import proofs.«120736_j30030411334238_1_alg».proof.Proof.Gen.KernelIdeal.Skeleton
import proofs.«120736_j30030411334238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The A-tile's staging buffer holds the point's tile whenever the body is called, for any proof data over `V`
    whose body leaves that tile in place. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- B is fetched once, at the first point; its block index never moves, so its buffer holds B at every point. -/
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

abbrev whole1_a : Rect S1024x1024 := Rect.unit (s := S1024x1024) ![0, 0] S1024x1024.size inb_S1024x1024_S1024x1024_0_0
abbrev whole1_b : Rect S1024x64 := Rect.unit (s := S1024x64) ![0, 0] S1024x64.size inb_S1024x64_S1024x64_0_0
abbrev whole1_o : Rect S1024x64 := Rect.unit (s := S1024x64) ![0, 0] S1024x64.size inb_S1024x64_S1024x64_0_0

/-- The output tile after the body: the one store of the product of the two tiles read, over the whole tile. -/
def prod1 (a : Vec F S1024x1024 .f32) (b : Vec F S1024x64 .f32) : Vec F S1024x64 .f32 :=
  View.canon [⟨whole1_o, k1_pay1 (View.ld a whole1_a) (View.ld b whole1_b)⟩]

theorem prod1_covers (p0 : Vec F S1024x64 .f32) (y : S1024x64.Idx) :
    ∃ pc ∈ ([⟨whole1_o, p0⟩] : List (View.Piece (Elt F) S1024x64 .f32)), y ∈ pc.1.set :=
  View.cover_of_tiled [⟨whole1_o, p0⟩] S1024x64.size (by rfl) y

set_option maxHeartbeats 1000000 in
/-- One run of the body on whole staging buffers: the two inputs come back as read, the output holds `prod1`. -/
theorem run_body1 (c : Dev nD) (E : Set ℕ) (i : grid1.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (a : Vec F S1024x1024 .f32) (b : Vec F S1024x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod1 a b)) -∗ K ⟨⟩))
      ⊢ wp frame (wpE (defs₀ (F := F)) Variants.none c none) E (cc1__a_b_kernel i arg1 harg1 arg2 harg2 arg3 harg3) K := by
  simp only [cc1__a_b_kernel_eq_skeleton]; unfold cc1__a_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_covers _)

end Cert.KernelIdeal.Gen

end
-- ==== Proof.KI.Dat1.lean ====
/-
  Region 1, continued: the pipeline's proof data for the row-tiled product and the body's obligation at every grid
  point, at an arbitrary valuation V of the buffers on entry to the region.  After the body at point t the A-tile's
  buffer and B's buffer hold what they held (their tiles of the arrays as the region found them) and the output
  tile's buffer holds the product of the two; the invariant is the scoped rest, untouched; no core owes anything.
-/
import proofs.«120736_j30030411334238_1_alg».proof.Proof.KI.Body1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the row-tiled product on core `c`, over the buffers' contents `V` on entry. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => prod1 (tile1 V c 0 t) (tile1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = prod1 (tile1 V c 0 t) (tile1 V c 1 t) := by dsimp only [dat1]

theorem found1_0 (c : Dev nD) (t : Fin cfg1.N) (d) : (dat1 V c).before 0 t d = tile1 V c 0 t :=
  found1_0_of V (dat1 V c) (A_eq1 V c 0) (after1_0 V c) t d
theorem found1_1 (c : Dev nD) (t : Fin cfg1.N) (d) : (dat1 V c).before 1 t d = tile1 V c 1 t :=
  found1_1_of V (dat1 V c) (A_eq1 V c 1) (after1_1 V c) t d

/-- What the body is called with at point `t`: the invariant, the core's dues, and the three staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_body1 c Set.univ _ _ _ _ _ _ _ (tile1 V c 0 t) (tile1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Body3.lean ====
/-
  Region 3 of the kernel program: the row-tiled product  out[i·1024 + r, :] = A[i·1024 + r, :] · B
  (A the 65536×2048 assignment matrix, B the 2048×64 node features of the small branch), one 1024-row tile per grid
  point.  At a point the body reads the point's tile of A and the whole of B from their staging buffers and stores
  the product of the two (both rounded to bf16 on the way into the matrix unit, accumulated from zero) over the whole
  output tile.  This file states what the output tile holds after the body as a function of the two tiles read and
  runs the body once on arbitrary whole buffers.
-/
import proofs.«120736_j30030411334238_1_alg».proof.Proof.Gen.KernelIdeal.Launch
import proofs.«120736_j30030411334238_1_alg».proof.Proof.Gen.KernelIdeal.Skeleton
import proofs.«120736_j30030411334238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w`'s array that grid point `t` works on, read off the array as the region finds it. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The A-tile's staging buffer holds the point's tile whenever the body is called, for any proof data over `V`
    whose body leaves that tile in place. -/
theorem found3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- B is fetched once, at the first point; its block index never moves, so its buffer holds B at every point. -/
theorem found3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

abbrev whole3_a : Rect S1024x2048 := Rect.unit (s := S1024x2048) ![0, 0] S1024x2048.size inb_S1024x2048_S1024x2048_0_0
abbrev whole3_b : Rect S2048x64 := Rect.unit (s := S2048x64) ![0, 0] S2048x64.size inb_S2048x64_S2048x64_0_0
abbrev whole3_o : Rect S1024x64 := Rect.unit (s := S1024x64) ![0, 0] S1024x64.size inb_S1024x64_S1024x64_0_0

/-- The output tile after the body: the one store of the product of the two tiles read, over the whole tile. -/
def prod3 (a : Vec F S1024x2048 .f32) (b : Vec F S2048x64 .f32) : Vec F S1024x64 .f32 :=
  View.canon [⟨whole3_o, k3_pay1 (View.ld a whole3_a) (View.ld b whole3_b)⟩]

theorem prod3_covers (p0 : Vec F S1024x64 .f32) (y : S1024x64.Idx) :
    ∃ pc ∈ ([⟨whole3_o, p0⟩] : List (View.Piece (Elt F) S1024x64 .f32)), y ∈ pc.1.set :=
  View.cover_of_tiled [⟨whole3_o, p0⟩] S1024x64.size (by rfl) y

set_option maxHeartbeats 1000000 in
/-- One run of the body on whole staging buffers: the two inputs come back as read, the output holds `prod3`. -/
theorem run_body3 (c : Dev nD) (E : Set ℕ) (i : grid3.Coords) (arg1 : Memref sig .tc .vmem S1024x2048 .f32) (harg1 : arg1.IsWhole)
    (arg2 : Memref sig .tc .vmem S2048x64 .f32) (harg2 : arg2.IsWhole) (arg3 : Memref sig .tc .vmem S1024x64 .f32) (harg3 : arg3.IsWhole)
    (a : Vec F S1024x2048 .f32) (b : Vec F S2048x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod3 a b)) -∗ K ⟨⟩))
      ⊢ wp frame (wpE (defs₀ (F := F)) Variants.none c none) E (cc3__a_b_kernel i arg1 harg1 arg2 harg2 arg3 harg3) K := by
  simp only [cc3__a_b_kernel_eq_skeleton]; unfold cc3__a_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod3_covers _)

end Cert.KernelIdeal.Gen

end
-- ==== Proof.KI.Dat3.lean ====
/-
  Region 3, continued: the pipeline's proof data for the row-tiled product and the body's obligation at every grid
  point, at an arbitrary valuation V of the buffers on entry to the region.  After the body at point t the A-tile's
  buffer and B's buffer hold what they held (their tiles of the arrays as the region found them) and the output
  tile's buffer holds the product of the two; the invariant is the scoped rest, untouched; no core owes anything.
-/
import proofs.«120736_j30030411334238_1_alg».proof.Proof.KI.Body3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the row-tiled product on core `c`, over the buffers' contents `V` on entry. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => prod3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = prod3 (tile3 V c 0 t) (tile3 V c 1 t) := by dsimp only [dat3]

theorem found3_0 (c : Dev nD) (t : Fin cfg3.N) (d) : (dat3 V c).before 0 t d = tile3 V c 0 t :=
  found3_0_of V (dat3 V c) (A_eq3 V c 0) (after3_0 V c) t d
theorem found3_1 (c : Dev nD) (t : Fin cfg3.N) (d) : (dat3 V c).before 1 t d = tile3 V c 1 t :=
  found3_1_of V (dat3 V c) (A_eq3 V c 1) (after3_1 V c) t d

/-- What the body is called with at point `t`: the invariant, the core's dues, and the three staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (run_body3 c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Body0.lean ====
/-
  Region 0 of the idealized kernel program: out = Σ over the 32 grid points of (left tile)ᵀ · (right tile), accumulated
  in a scratch buffer of the kernel's own that is zeroed at the first point, added to at every point, and copied to the
  output tile at the last point.  This file holds what the three control cases of the body share, at an arbitrary
  valuation `V` of the buffers on entry to the region: the tiles the points read, the two conditions over the grid,
  where the output window is idle, the memrefs the body is called with, the launch invariant with the accumulator
  singled out, and the accumulator's contents after the zeroing store and after an accumulating store.
-/
import proofs.«120736_j30030411334238_1_alg».proof.Proof.Gen.KernelIdeal.Launch
import proofs.«120736_j30030411334238_1_alg».proof.Proof.Gen.KernelIdeal.Skeleton
import proofs.«120736_j30030411334238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the points read -/

/-- The tile of window `w`'s array that grid point `t` works on, read off the array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's tile whenever the body is called (it is fetched at every point),
    for any proof data over `V` whose body leaves that tile in place. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The same for the right operand's staging buffer. -/
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## The two conditions of the body, over the grid -/

/-- The body zeroes its accumulator under this condition on the grid coordinate: at the first point. -/
abbrev atFirst0 (i : grid0.Coords) : Prop := (Scalar.cmpi .ne (Scalar.extui (Scalar.cmpi .eq (BitVec.ofNat 32 (i 0).val) 0#32)) 0#32) = 1#1
theorem atFirst0_iff : ∀ t : Fin cfg0.N, atFirst0 (grid0.coords t) ↔ t.val % 32 = 0 :=
  (by decide +kernel : ∀ t : Fin grid0.N, atFirst0 (grid0.coords t) ↔ t.val % 32 = 0)

/-- It copies the accumulator to the output tile under this one: at the last point. -/
abbrev atLast0 (i : grid0.Coords) : Prop := k0_cond2 i = 1#1
theorem atLast0_iff : ∀ t : Fin cfg0.N, atLast0 (grid0.coords t) ↔ t.val % 32 = 31 :=
  (by decide +kernel : ∀ t : Fin grid0.N, atLast0 (grid0.coords t) ↔ t.val % 32 = 31)

/-- The two operand windows are never idle; the output window is idle, and not written back, off the last point. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬atLast0 (grid0.coords t) → cfg0.idle 2 (grid0.coords t) = true := by decide +kernel
theorem noFlush0_2 : ∀ t : Fin cfg0.N, ¬atLast0 (grid0.coords t) → (cfg0.win 2).flush t = false := by decide +kernel
theorem live0_2 : ∀ t : Fin cfg0.N, atLast0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev accM0 : Memref sig .tc .vmem S1024x128 .f32 := Memref.whole cc0_scratch0

/-- The core's other scoped buffers that are no staging buffer of this region, each whole at some contents: the body
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- What the launch hands the region: the accumulator at some contents, the other scoped buffers, the generator register. -/
theorem PhiA0_eq (c : Dev nD) :
    (Pipeline.ΦA spec0 c : sProp 𝕄)
      = iprop(((∃ d, owns (c : Thread nD τ) accM0 fullShare d) ∗ others0 (F := F) c) ∗ (∃ r, prngReg c r)) := by
  unfold Pipeline.ΦA; rw [scopedRest0_eq]; unfold others0; simp only [accM0, owns_whole]; try rfl

/-! ## What one point does to the accumulator -/

abbrev whole0_q : Rect S2048x1024 := Rect.unit (s := S2048x1024) ![0, 0] S2048x1024.size inb_S2048x1024_S2048x1024_0_0
abbrev whole0_f : Rect S2048x128 := Rect.unit (s := S2048x128) ![0, 0] S2048x128.size inb_S2048x128_S2048x128_0_0
abbrev whole0_o : Rect S1024x128 := Rect.unit (s := S1024x128) ![0, 0] S1024x128.size inb_S1024x128_S1024x128_0_0

/-- The accumulator after the zeroing store of the first point. -/
def accZero0 : Vec F S1024x128 .f32 := View.canon [⟨whole0_o, k0_pay1 (F := F)⟩]

/-- The accumulator after a point's accumulating store, from the two tiles read and what it held: what it held plus
    the transposed left tile times the right tile (both rounded to bf16 on the way into the matrix unit). -/
def accStep0 (a : Vec F S2048x1024 .f32) (b : Vec F S2048x128 .f32) (s : Vec F S1024x128 .f32) : Vec F S1024x128 .f32 :=
  View.canon [⟨whole0_o, k0_pay2 (View.ld a whole0_q) (View.ld b whole0_f) (View.ld s whole0_o)⟩]

theorem whole0_o_covers (p0 : Vec F S1024x128 .f32) (y : S1024x128.Idx) :
    ∃ pc ∈ ([⟨whole0_o, p0⟩] : List (View.Piece (Elt F) S1024x128 .f32)), y ∈ pc.1.set :=
  View.cover_of_tiled [⟨whole0_o, p0⟩] S1024x128.size (by rfl) y

theorem whole0_o_all (y : S1024x128.Idx) : y ∈ (whole0_o).set := by
  obtain ⟨pc, hpc, hy⟩ := View.cover_of_tiled (Val := fun _ => Unit) (e := .f32) [⟨whole0_o, fun _ => ()⟩] S1024x128.size (by rfl) y
  simp only [List.mem_cons, List.mem_nil_iff, or_false] at hpc
  subst hpc; exact hy

/-- A whole-tile store of what a whole-tile load of `X` read leaves `X`. -/
theorem canon_ld_whole0_o (X : Vec F S1024x128 .f32) : View.canon [⟨whole0_o, View.ld X whole0_o⟩] = X := by
  funext y
  obtain ⟨x, rfl⟩ := (whole0_o).exists_idx_of_mem (whole0_o_all y)
  exact View.canon_cons_emb whole0_o (View.ld X whole0_o) [] x

/-- A whole-tile store leaves its payload, index by index. -/
theorem canon_whole0_o_apply (p : (whole0_o).shape.Idx → Elt F .f32) (x : (whole0_o).shape.Idx) :
    View.canon [⟨whole0_o, p⟩] ((whole0_o).idx x) = p x :=
  View.canon_cons_emb whole0_o p [] x

end Cert.KernelIdeal.Gen

end
-- ==== Proof.KI.Body0A.lean ====
/-
  Region 0, one run of the body at the first point (zeroing, not copying out): on whole buffers, the two operand tiles and the
  output tile come back as found, the accumulator — whatever it held — holds one accumulating step over zero.
-/
import proofs.«120736_j30030411334238_1_alg».proof.Proof.KI.Body0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole-tile load reads after the zeroing store: the zeroed accumulator. -/
theorem readCov_zero0 {sig' : RefSig} {κ : Kind} {sp : Space} (v : View sig' κ sp S1024x128 .f32) :
    v.readCov [⟨whole0_o, k0_pay1 (F := F)⟩] (whole0_o).toLoadRect = View.ld (accZero0 (F := F)) whole0_o :=
  View.readCov_eq_canon_ld v _ whole0_o (whole0_o_covers _)

/-- Two whole-tile stores in a row leave what the later one stored. -/
theorem read_two_whole0_o {sig' : RefSig} {κ : Kind} {sp : Space} (v : View sig' κ sp S1024x128 .f32) (f : v.ty.Contents (Elt F))
    (p2 p1 : (whole0_o).shape.Idx → Elt F .f32) :
    v.read (Elt F) (v.writes (Elt F) f [⟨whole0_o, p2⟩, ⟨whole0_o, p1⟩]) = View.canon [⟨whole0_o, p2⟩] :=
  (View.read_writes_of_cover_last v f v f ⟨whole0_o, p2⟩ [⟨whole0_o, p1⟩] [] whole0_o_all).trans
    (View.read_writes_eq_canon v f [⟨whole0_o, p2⟩] (whole0_o_covers p2))

set_option maxHeartbeats 1000000 in
theorem run_body0_A (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : atFirst0 i) (hlst : ¬atLast0 i)
    (a : Vec F S2048x1024 .f32) (b : Vec F S2048x128 .f32) (o : Vec F S1024x128 .f32) (K : PUnit → sProp 𝕄) :
    iprop(owns (c : Thread nD τ) arg1 fullShare a ∗ owns (c : Thread nD τ) arg2 fullShare b ∗ owns (c : Thread nD τ) arg3 fullShare o ∗ (∃ d, owns (c : Thread nD τ) arg4 fullShare d)
        ∗ (iprop(owns (c : Thread nD τ) arg1 fullShare a ∗ owns (c : Thread nD τ) arg2 fullShare b ∗ owns (c : Thread nD τ) arg3 fullShare o ∗ owns (c : Thread nD τ) arg4 fullShare (accStep0 a b (accZero0 (F := F)))) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold run_body0_A.sl.v8 run_body0_A.sl.H4_1
  rw [readCov_zero0 arg4.view]
  exact read_two_whole0_o arg4.view f4 _ _

end Cert.KernelIdeal.Gen

end
-- ==== Proof.KI.Body0B.lean ====
/-
  Region 0, one run of the body at a middle point (neither zeroing nor copying out): on whole buffers, the two operand tiles
  and the output tile come back as found, the accumulator holds one accumulating step over what it held.
-/
import proofs.«120736_j30030411334238_1_alg».proof.Proof.KI.Body0A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body0_B (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : ¬atFirst0 i) (hlst : ¬atLast0 i)
    (a : Vec F S2048x1024 .f32) (b : Vec F S2048x128 .f32) (o : Vec F S1024x128 .f32) (s : Vec F S1024x128 .f32) (K : PUnit → sProp 𝕄) :
    iprop(owns (c : Thread nD τ) arg1 fullShare a ∗ owns (c : Thread nD τ) arg2 fullShare b ∗ owns (c : Thread nD τ) arg3 fullShare o ∗ owns (c : Thread nD τ) arg4 fullShare s
        ∗ (iprop(owns (c : Thread nD τ) arg1 fullShare a ∗ owns (c : Thread nD τ) arg2 fullShare b ∗ owns (c : Thread nD τ) arg3 fullShare o ∗ owns (c : Thread nD τ) arg4 fullShare (accStep0 a b s)) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole0_o_covers _)

end Cert.KernelIdeal.Gen

end
-- ==== Proof.KI.Body0C.lean ====
/-
  Region 0, one run of the body at the last point (not zeroing, copying out): on whole buffers, the two operand tiles come back
  as found, the accumulator holds one accumulating step over what it held, and the output tile — whatever it held — holds the same.
-/
import proofs.«120736_j30030411334238_1_alg».proof.Proof.KI.Body0B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body0_C (c : Dev nD) (E : Set ℕ) (i : grid0.Coords) (arg1 : Memref sig .tc .vmem S2048x1024 .f32) (harg1 : arg1.IsWhole)
    (arg2 : Memref sig .tc .vmem S2048x128 .f32) (harg2 : arg2.IsWhole) (arg3 : Memref sig .tc .vmem S1024x128 .f32) (harg3 : arg3.IsWhole)
    (arg4 : Memref sig .tc .vmem S1024x128 .f32) (harg4 : arg4.IsWhole) (hfst : ¬atFirst0 i) (hlst : atLast0 i)
    (a : Vec F S2048x1024 .f32) (b : Vec F S2048x128 .f32) (s : Vec F S1024x128 .f32) (K : PUnit → sProp 𝕄) :
    iprop(owns (c : Thread nD τ) arg1 fullShare a ∗ owns (c : Thread nD τ) arg2 fullShare b ∗ (∃ d, owns (c : Thread nD τ) arg3 fullShare d) ∗ owns (c : Thread nD τ) arg4 fullShare s
        ∗ (iprop(owns (c : Thread nD τ) arg1 fullShare a ∗ owns (c : Thread nD τ) arg2 fullShare b ∗ owns (c : Thread nD τ) arg3 fullShare (accStep0 a b s) ∗ owns (c : Thread nD τ) arg4 fullShare (accStep0 a b s)) -∗ K ⟨⟩))
      ⊢ wp frame (wpE (defs₀ (F := F)) Variants.none c none) E (cc0__at_b_kernel i arg1 harg1 arg2 harg2 arg3 harg3 arg4 harg4) K := by
  simp only [cc0__at_b_kernel_eq_skeleton]; unfold cc0__at_b_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold run_body0_C.sl.v17 run_body0_C.sl.H4_1
    rw [View.readCov_eq_canon_ld arg4.view _ whole0_o (whole0_o_covers _)]
    exact (View.read_writes_eq_canon _ _ _ (whole0_o_covers _)).trans (canon_ld_whole0_o _)
  iexists _; isplitr
  swap; · iexact H4
  ipureintro
  unfold run_body0_C.sl.H4_1
  exact View.read_writes_eq_canon _ _ _ (whole0_o_covers _)

end Cert.KernelIdeal.Gen

end
-- ==== Proof.KI.Body0Frame.lean ====
/-
  Region 0 of the idealized kernel program, the rest of its half of the frame at an arbitrary valuation `V` of the buffers
  on entry: what the accumulator holds after each point (a fold of the accumulating step over the points' tiles, from
  zero), the invariant that carries it between points, the pipeline's proof data, the body obligation at every point
  from the three runs of the body, the invariant's two ends, and the values a later step reads off.
-/
import proofs.«120736_j30030411334238_1_alg».proof.Proof.KI.Body0C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at point `n`: one accumulating step over the point's two
    tiles, from zero at the first point and from what the point before left at the others. -/
def acc0 (c : Dev nD) : (n : ℕ) → n < cfg0.N → Vec F S1024x128 .f32
  | 0, hn => accStep0 (tile0 V c 0 ⟨0, hn⟩) (tile0 V c 1 ⟨0, hn⟩) (accZero0 (F := F))
  | n + 1, hn => accStep0 (tile0 V c 0 ⟨n + 1, hn⟩) (tile0 V c 1 ⟨n + 1, hn⟩) (acc0 c n (Nat.lt_of_succ_lt hn))

theorem acc0_zero (c : Dev nD) (h : 0 < cfg0.N) :
    acc0 V c 0 h = accStep0 (tile0 V c 0 ⟨0, h⟩) (tile0 V c 1 ⟨0, h⟩) (accZero0 (F := F)) := rfl

theorem acc0_succ (c : Dev nD) (n : ℕ) (h : n + 1 < cfg0.N) :
    acc0 V c (n + 1) h = accStep0 (tile0 V c 0 ⟨n + 1, h⟩) (tile0 V c 1 ⟨n + 1, h⟩) (acc0 V c n (Nat.lt_of_succ_lt h)) := rfl

/-- At the first point: a step from zero. -/
theorem acc0_first (c : Dev nD) (t : Fin cfg0.N) (hz : t.val = 0) :
    acc0 V c t.val t.isLt = accStep0 (tile0 V c 0 t) (tile0 V c 1 t) (accZero0 (F := F)) := by
  obtain ⟨n, hn⟩ := t
  cases n with
  | zero => rfl
  | succ n => exact absurd hz (Nat.succ_ne_zero n)

/-- At any other point: a step from what the point before left. -/
theorem acc0_pos (c : Dev nD) (t : Fin cfg0.N) (hz : t.val ≠ 0) :
    acc0 V c t.val t.isLt = accStep0 (tile0 V c 0 t) (tile0 V c 1 t) (acc0 V c (t.val - 1) (Nat.lt_of_le_of_lt (Nat.sub_le _ _) t.isLt)) := by
  obtain ⟨n, hn⟩ := t
  cases n with
  | zero => exact absurd rfl hz
  | succ n => rfl

/-! ## The invariant: the accumulator carried between points -/

/-- The region invariant before position `n`: before the first point what the launch hands over (the accumulator at
    anything); afterwards the accumulator at what the point before left, the other scoped buffers and the generator
    register as they were. -/
def Inv0 (c : Dev nD) : (n : ℕ) → n ≤ cfg0.N → sProp 𝕄
  | 0, _ => Pipeline.ΦA spec0 c
  | n + 1, hn => iprop((owns (c : Thread nD τ) accM0 fullShare (acc0 V c n hn) ∗ others0 (F := F) c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop((owns (c : Thread nD τ) accM0 fullShare (acc0 V c n hn) ∗ others0 (F := F) c) ∗ (∃ r, prngReg c r)) := rfl

theorem Inv0_pos (c : Dev nD) (n : ℕ) (h : n ≤ cfg0.N) (hz : n ≠ 0) :
    Inv0 V c n h = iprop((owns (c : Thread nD τ) accM0 fullShare (acc0 V c (n - 1) (by omega)) ∗ others0 (F := F) c) ∗ (∃ r, prngReg c r)) := by
  cases n with
  | zero => exact absurd rfl hz
  | succ n => rfl

/-! ## The pipeline's proof data -/

/-- The proof data of the region on core `c`: the arrays as the region finds them (`V`); after the body at point `t`
    each operand's buffer at its tile and the output's at the accumulator's contents (consulted at the last point only:
    elsewhere the output window is idle and not written back); the invariant carries the accumulator; nothing owed;
    full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = tile0 V c 0 t :=
  found0_0_of V (dat0 V c) (A_eq0 V c 0) (after0_0 V c) t d
theorem before0_1 (c : Dev nD) (t : Fin cfg0.N) (d) : (dat0 V c).before 1 t d = tile0 V c 1 t :=
  found0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold the point's tiles; the grid position says which of the three
    control cases the point is in; the invariant hands the body the accumulator at what the point before left (at
    anything at the first point) and takes it back at this point's contents; off the last point the output's buffer is
    handed back as found, at the last point it holds the accumulator's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 32 = 0
  · have hz : t.val = 0 := by omega
    have hfst : atFirst0 (grid0.coords t) := (atFirst0_iff t).mpr h0
    have hlst : ¬atLast0 (grid0.coords t) := fun h => by have := (atLast0_iff t).mp h; omega
    rw [Dat.leavesExact_idle (dat0 V c) 2 t (idle0_2 t hlst) (noFlush0_2 t hlst)]
    rw [acc0_first V c t hz]
    rw [Inv0_castSucc V c t, Inv0_zero V c _ _ hz, PhiA0_eq]
    iintro ⟨⟨⟨HS, Hoth⟩, Hg⟩, Ho, ⟨%d0, H0⟩, ⟨%d1, H1⟩, ⟨%d2, H2⟩⟩
    iapply (run_body0_A c Set.univ (grid0.coords t) _ _ _ _ _ _ _ _ hfst hlst (tile0 V c 0 t) (tile0 V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    have hfst : ¬atFirst0 (grid0.coords t) := fun h => h0 ((atFirst0_iff t).mp h)
    rw [acc0_pos V c t hz]
    rw [Inv0_castSucc V c t, Inv0_pos V c _ _ hz]
    by_cases h1 : t.val % 32 = 31
    · have hlst : atLast0 (grid0.coords t) := (atLast0_iff t).mpr h1
      rw [show (dat0 V c).leavesExact 2 t = owns (c : Thread nD τ) (ms0_2 t) fullShare ((dat0 V c).after 2 t) from by
        unfold Dat.leavesExact; rw [live0_2 t hlst], after0_2, acc0_pos V c t hz]
      iintro ⟨⟨⟨HS, Hoth⟩, Hg⟩, Ho, ⟨%d0, H0⟩, ⟨%d1, H1⟩, ⟨%d2, H2⟩⟩
      iapply (run_body0_C c Set.univ (grid0.coords t) _ _ _ _ _ _ _ _ hfst hlst (tile0 V c 0 t) (tile0 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hlst : ¬atLast0 (grid0.coords t) := fun h => h1 ((atLast0_iff t).mp h)
      rw [Dat.leavesExact_idle (dat0 V c) 2 t (idle0_2 t hlst) (noFlush0_2 t hlst)]
      iintro ⟨⟨⟨HS, Hoth⟩, Hg⟩, Ho, ⟨%d0, H0⟩, ⟨%d1, H1⟩, ⟨%d2, H2⟩⟩
      iapply (run_body0_B c Set.univ (grid0.coords t) _ _ _ _ _ _ _ _ hfst hlst (tile0 V c 0 t) (tile0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After any point but the first the invariant gives the launch's back: the accumulator's contents are forgotten. -/
theorem Inv0_out (c : Dev nD) (t : Fin (cfg0.N + 1)) (ht : t.val ≠ 0) : (dat0 V c).Φ t ⊢ Pipeline.ΦA spec0 c := by
  rw [show (dat0 V c).Φ t = Inv0 V c t.val (Nat.le_of_lt_succ t.isLt) from rfl, Inv0_pos V c _ _ ht, PhiA0_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Inv0_out V c _ (by rw [Fin.val_last]; have : cfg0.N = 32 := N_0; omega)

/-! ## The values -/

/-- The accumulator after point `t`, as the proof data's invariant after that point states it (`Inv0_succ`), is the
    fold `acc0`: from `accZero0` (the zeroing payload stored whole) one `accStep0` (the accumulating payload over the
    point's two tiles, stored whole) per point up to `t`; and the output tile the last point leaves is that fold at the
    last point. -/
theorem acc0_after (c : Dev nD) (t : Fin cfg0.N) :
    (dat0 V c).Φ t.succ = iprop((owns (c : Thread nD τ) accM0 fullShare (acc0 V c t.val t.isLt) ∗ others0 (F := F) c) ∗ (∃ r, prngReg c r)) := rfl

theorem out0_last (c : Dev nD) (h : 31 < cfg0.N) : (dat0 V c).after 2 ⟨31, h⟩ = acc0 V c 31 h := by
  dsimp only [dat0]

/-- One accumulating step, index by index of the tile: the accumulating payload on the whole-tile reads. -/
theorem accStep0_apply (a : Vec F S2048x1024 .f32) (b : Vec F S2048x128 .f32) (s : Vec F S1024x128 .f32) (x : (whole0_o).shape.Idx) :
    accStep0 a b s ((whole0_o).idx x) = k0_pay2 (View.ld a whole0_q) (View.ld b whole0_f) (View.ld s whole0_o) x :=
  canon_whole0_o_apply _ x

/-- The zeroed accumulator, index by index: the zeroing payload. -/
theorem accZero0_apply (x : (whole0_o).shape.Idx) : accZero0 (F := F) ((whole0_o).idx x) = k0_pay1 (F := F) x :=
  canon_whole0_o_apply _ x

end Cert.KernelIdeal.Gen

end
-- ==== Proof.KI.Body2.lean ====
/-
  Region 2 of the idealized kernel program: out = Σ over the 64 grid points of (left tile)ᵀ · (right tile), accumulated
  in a scratch buffer of the kernel's own that is zeroed at the first point, added to at every point, and copied to the
  output tile at the last point.  This file holds what the three control cases of the body share, at an arbitrary
  valuation `V` of the buffers on entry to the region: the tiles the points read, the two conditions over the grid,
  where the output window is idle, the memrefs the body is called with, the launch invariant with the accumulator
  singled out, and the accumulator's contents after the zeroing store and after an accumulating store.
-/
import proofs.«120736_j30030411334238_1_alg».proof.Proof.Gen.KernelIdeal.Launch
import proofs.«120736_j30030411334238_1_alg».proof.Proof.Gen.KernelIdeal.Skeleton
import proofs.«120736_j30030411334238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the points read -/

/-- The tile of window `w`'s array that grid point `t` works on, read off the array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's tile whenever the body is called (it is fetched at every point),
    for any proof data over `V` whose body leaves that tile in place. -/
theorem found2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The same for the right operand's staging buffer. -/
theorem found2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## The two conditions of the body, over the grid -/

/-- The body zeroes its accumulator under this condition on the grid coordinate: at the first point. -/
abbrev atFirst2 (i : grid2.Coords) : Prop := (Scalar.cmpi .ne (Scalar.extui (Scalar.cmpi .eq (BitVec.ofNat 32 (i 0).val) 0#32)) 0#32) = 1#1
theorem atFirst2_iff : ∀ t : Fin cfg2.N, atFirst2 (grid2.coords t) ↔ t.val % 64 = 0 :=
  (by decide +kernel : ∀ t : Fin grid2.N, atFirst2 (grid2.coords t) ↔ t.val % 64 = 0)

/-- It copies the accumulator to the output tile under this one: at the last point. -/
abbrev atLast2 (i : grid2.Coords) : Prop := k2_cond2 i = 1#1
theorem atLast2_iff : ∀ t : Fin cfg2.N, atLast2 (grid2.coords t) ↔ t.val % 64 = 63 :=
  (by decide +kernel : ∀ t : Fin grid2.N, atLast2 (grid2.coords t) ↔ t.val % 64 = 63)

/-- The two operand windows are never idle; the output window is idle, and not written back, off the last point. -/
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬atLast2 (grid2.coords t) → cfg2.idle 2 (grid2.coords t) = true := by decide +kernel
theorem noFlush2_2 : ∀ t : Fin cfg2.N, ¬atLast2 (grid2.coords t) → (cfg2.win 2).flush t = false := by decide +kernel
theorem live2_2 : ∀ t : Fin cfg2.N, atLast2 (grid2.coords t) → cfg2.idle 2 (grid2.coords t) = false := by decide +kernel

/-! ## The memrefs the body is called with -/

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev accM2 : Memref sig .tc .vmem S2048x128 .f32 := Memref.whole cc2_scratch0

/-- The core's other scoped buffers that are no staging buffer of this region, each whole at some contents: the body
    never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- What the launch hands the region: the accumulator at some contents (singled out of the scoped buffers, which the
    launch lists in their own order), the other scoped buffers, the generator register. -/
theorem PhiA2_eq (c : Dev nD) :
    (Pipeline.ΦA spec2 c : sProp 𝕄)
      = iprop(((∃ d, owns (c : Thread nD τ) accM2 fullShare d) ∗ others2 (F := F) c) ∗ (∃ r, prngReg c r)) := by
  unfold Pipeline.ΦA; rw [scopedRest2_eq]; unfold others2
  simp only [accM2, owns_whole]
  refine BI.equiv_iff.mp ⟨?_, ?_⟩
  · show (_ : sProp 𝕄) ⊢ (_ : sProp 𝕄)
    iintro ⟨⟨H0, H1, H2, H3, H4, H5, H6, H7, H8, H9, H10, HS, H12, H13, H14, H15, H16⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]; · iexact H14
      isplitl [H15]; · iexact H15
      iexact H16
    · iexact Hg
  · show (_ : sProp 𝕄) ⊢ (_ : sProp 𝕄)
    iintro ⟨⟨HS, H0, H1, H2, H3, H4, H5, H6, H7, H8, H9, H10, H12, H13, H14, H15, H16⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      isplitl [H12]; · iexact H12
      isplitl [H13]; · iexact H13
      isplitl [H14]; · iexact H14
      isplitl [H15]; · iexact H15
      iexact H16
    · iexact Hg

/-! ## What one point does to the accumulator -/

abbrev whole2_q : Rect S1024x2048 := Rect.unit (s := S1024x2048) ![0, 0] S1024x2048.size inb_S1024x2048_S1024x2048_0_0
abbrev whole2_f : Rect S1024x128 := Rect.unit (s := S1024x128) ![0, 0] S1024x128.size inb_S1024x128_S1024x128_0_0
abbrev whole2_o : Rect S2048x128 := Rect.unit (s := S2048x128) ![0, 0] S2048x128.size inb_S2048x128_S2048x128_0_0

/-- The accumulator after the zeroing store of the first point. -/
def accZero2 : Vec F S2048x128 .f32 := View.canon [⟨whole2_o, k2_pay1 (F := F)⟩]

/-- The accumulator after a point's accumulating store, from the two tiles read and what it held: what it held plus
    the transposed left tile times the right tile (both rounded to bf16 on the way into the matrix unit). -/
def accStep2 (a : Vec F S1024x2048 .f32) (b : Vec F S1024x128 .f32) (s : Vec F S2048x128 .f32) : Vec F S2048x128 .f32 :=
  View.canon [⟨whole2_o, k2_pay2 (View.ld a whole2_q) (View.ld b whole2_f) (View.ld s whole2_o)⟩]

theorem whole2_o_covers (p0 : Vec F S2048x128 .f32) (y : S2048x128.Idx) :
    ∃ pc ∈ ([⟨whole2_o, p0⟩] : List (View.Piece (Elt F) S2048x128 .f32)), y ∈ pc.1.set :=
  View.cover_of_tiled [⟨whole2_o, p0⟩] S2048x128.size (by rfl) y

theorem whole2_o_all (y : S2048x128.Idx) : y ∈ (whole2_o).set := by
  obtain ⟨pc, hpc, hy⟩ := View.cover_of_tiled (Val := fun _ => Unit) (e := .f32) [⟨whole2_o, fun _ => ()⟩] S2048x128.size (by rfl) y
  simp only [List.mem_cons, List.mem_nil_iff, or_false] at hpc
  subst hpc; exact hy

/-- A whole-tile store of what a whole-tile load of `X` read leaves `X`. -/
theorem canon_ld_whole2_o (X : Vec F S2048x128 .f32) : View.canon [⟨whole2_o, View.ld X whole2_o⟩] = X := by
  funext y
  obtain ⟨x, rfl⟩ := (whole2_o).exists_idx_of_mem (whole2_o_all y)
  exact View.canon_cons_emb whole2_o (View.ld X whole2_o) [] x

/-- A whole-tile store leaves its payload, index by index. -/
theorem canon_whole2_o_apply (p : (whole2_o).shape.Idx → Elt F .f32) (x : (whole2_o).shape.Idx) :
    View.canon [⟨whole2_o, p⟩] ((whole2_o).idx x) = p x :=
  View.canon_cons_emb whole2_o p [] x

end Cert.KernelIdeal.Gen

end
-- ==== Proof.KI.Body2A.lean ====
/-
  Region 2, one run of the body at the first point (zeroing, not copying out): on whole buffers, the two operand tiles and the
  output tile come back as found, the accumulator — whatever it held — holds one accumulating step over zero.
-/
import proofs.«120736_j30030411334238_1_alg».proof.Proof.KI.Body2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole-tile load reads after the zeroing store: the zeroed accumulator. -/
theorem readCov_zero2 {sig' : RefSig} {κ : Kind} {sp : Space} (v : View sig' κ sp S2048x128 .f32) :
    v.readCov [⟨whole2_o, k2_pay1 (F := F)⟩] (whole2_o).toLoadRect = View.ld (accZero2 (F := F)) whole2_o :=
  View.readCov_eq_canon_ld v _ whole2_o (whole2_o_covers _)

/-- Two whole-tile stores in a row leave what the later one stored. -/
theorem read_two_whole2_o {sig' : RefSig} {κ : Kind} {sp : Space} (v : View sig' κ sp S2048x128 .f32) (f : v.ty.Contents (Elt F))
    (p2 p1 : (whole2_o).shape.Idx → Elt F .f32) :
    v.read (Elt F) (v.writes (Elt F) f [⟨whole2_o, p2⟩, ⟨whole2_o, p1⟩]) = View.canon [⟨whole2_o, p2⟩] :=
  (View.read_writes_of_cover_last v f v f ⟨whole2_o, p2⟩ [⟨whole2_o, p1⟩] [] whole2_o_all).trans
    (View.read_writes_eq_canon v f [⟨whole2_o, p2⟩] (whole2_o_covers p2))

set_option maxHeartbeats 1000000 in
theorem run_body2_A (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : atFirst2 i) (hlst : ¬atLast2 i)
    (a : Vec F S1024x2048 .f32) (b : Vec F S1024x128 .f32) (o : Vec F S2048x128 .f32) (K : PUnit → sProp 𝕄) :
    iprop(owns (c : Thread nD τ) arg1 fullShare a ∗ owns (c : Thread nD τ) arg2 fullShare b ∗ owns (c : Thread nD τ) arg3 fullShare o ∗ (∃ d, owns (c : Thread nD τ) arg4 fullShare d)
        ∗ (iprop(owns (c : Thread nD τ) arg1 fullShare a ∗ owns (c : Thread nD τ) arg2 fullShare b ∗ owns (c : Thread nD τ) arg3 fullShare o ∗ owns (c : Thread nD τ) arg4 fullShare (accStep2 a b (accZero2 (F := F)))) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold run_body2_A.sl.v8 run_body2_A.sl.H4_1
  rw [readCov_zero2 arg4.view]
  exact read_two_whole2_o arg4.view f4 _ _

end Cert.KernelIdeal.Gen

end
-- ==== Proof.KI.Body2B.lean ====
/-
  Region 2, one run of the body at a middle point (neither zeroing nor copying out): on whole buffers, the two operand tiles
  and the output tile come back as found, the accumulator holds one accumulating step over what it held.
-/
import proofs.«120736_j30030411334238_1_alg».proof.Proof.KI.Body2A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body2_B (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : ¬atFirst2 i) (hlst : ¬atLast2 i)
    (a : Vec F S1024x2048 .f32) (b : Vec F S1024x128 .f32) (o : Vec F S2048x128 .f32) (s : Vec F S2048x128 .f32) (K : PUnit → sProp 𝕄) :
    iprop(owns (c : Thread nD τ) arg1 fullShare a ∗ owns (c : Thread nD τ) arg2 fullShare b ∗ owns (c : Thread nD τ) arg3 fullShare o ∗ owns (c : Thread nD τ) arg4 fullShare s
        ∗ (iprop(owns (c : Thread nD τ) arg1 fullShare a ∗ owns (c : Thread nD τ) arg2 fullShare b ∗ owns (c : Thread nD τ) arg3 fullShare o ∗ owns (c : Thread nD τ) arg4 fullShare (accStep2 a b s)) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole2_o_covers _)

end Cert.KernelIdeal.Gen

end
-- ==== Proof.KI.Body2C.lean ====
/-
  Region 2, one run of the body at the last point (not zeroing, copying out): on whole buffers, the two operand tiles come back
  as found, the accumulator holds one accumulating step over what it held, and the output tile — whatever it held — holds the same.
-/
import proofs.«120736_j30030411334238_1_alg».proof.Proof.KI.Body2B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_body2_C (c : Dev nD) (E : Set ℕ) (i : grid2.Coords) (arg1 : Memref sig .tc .vmem S1024x2048 .f32) (harg1 : arg1.IsWhole)
    (arg2 : Memref sig .tc .vmem S1024x128 .f32) (harg2 : arg2.IsWhole) (arg3 : Memref sig .tc .vmem S2048x128 .f32) (harg3 : arg3.IsWhole)
    (arg4 : Memref sig .tc .vmem S2048x128 .f32) (harg4 : arg4.IsWhole) (hfst : ¬atFirst2 i) (hlst : atLast2 i)
    (a : Vec F S1024x2048 .f32) (b : Vec F S1024x128 .f32) (s : Vec F S2048x128 .f32) (K : PUnit → sProp 𝕄) :
    iprop(owns (c : Thread nD τ) arg1 fullShare a ∗ owns (c : Thread nD τ) arg2 fullShare b ∗ (∃ d, owns (c : Thread nD τ) arg3 fullShare d) ∗ owns (c : Thread nD τ) arg4 fullShare s
        ∗ (iprop(owns (c : Thread nD τ) arg1 fullShare a ∗ owns (c : Thread nD τ) arg2 fullShare b ∗ owns (c : Thread nD τ) arg3 fullShare (accStep2 a b s) ∗ owns (c : Thread nD τ) arg4 fullShare (accStep2 a b s)) -∗ K ⟨⟩))
      ⊢ wp frame (wpE (defs₀ (F := F)) Variants.none c none) E (cc2__at_b_kernel i arg1 harg1 arg2 harg2 arg3 harg3 arg4 harg4) K := by
  simp only [cc2__at_b_kernel_eq_skeleton]; unfold cc2__at_b_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hfst | exact hlst)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold run_body2_C.sl.v17 run_body2_C.sl.H4_1
    rw [View.readCov_eq_canon_ld arg4.view _ whole2_o (whole2_o_covers _)]
    exact (View.read_writes_eq_canon _ _ _ (whole2_o_covers _)).trans (canon_ld_whole2_o _)
  iexists _; isplitr
  swap; · iexact H4
  ipureintro
  unfold run_body2_C.sl.H4_1
  exact View.read_writes_eq_canon _ _ _ (whole2_o_covers _)

end Cert.KernelIdeal.Gen

end
-- ==== Proof.KI.Body2Frame.lean ====
/-
  Region 2 of the idealized kernel program, the rest of its half of the frame at an arbitrary valuation `V` of the buffers
  on entry: what the accumulator holds after each point (a fold of the accumulating step over the points' tiles, from
  zero), the invariant that carries it between points, the pipeline's proof data, the body obligation at every point
  from the three runs of the body, the invariant's two ends, and the values a later step reads off.
-/
import proofs.«120736_j30030411334238_1_alg».proof.Proof.KI.Body2C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- THE ACCUMULATION. What the accumulator holds after the body at point `n`: one accumulating step over the point's two
    tiles, from zero at the first point and from what the point before left at the others. -/
def acc2 (c : Dev nD) : (n : ℕ) → n < cfg2.N → Vec F S2048x128 .f32
  | 0, hn => accStep2 (tile2 V c 0 ⟨0, hn⟩) (tile2 V c 1 ⟨0, hn⟩) (accZero2 (F := F))
  | n + 1, hn => accStep2 (tile2 V c 0 ⟨n + 1, hn⟩) (tile2 V c 1 ⟨n + 1, hn⟩) (acc2 c n (Nat.lt_of_succ_lt hn))

theorem acc2_zero (c : Dev nD) (h : 0 < cfg2.N) :
    acc2 V c 0 h = accStep2 (tile2 V c 0 ⟨0, h⟩) (tile2 V c 1 ⟨0, h⟩) (accZero2 (F := F)) := rfl

theorem acc2_succ (c : Dev nD) (n : ℕ) (h : n + 1 < cfg2.N) :
    acc2 V c (n + 1) h = accStep2 (tile2 V c 0 ⟨n + 1, h⟩) (tile2 V c 1 ⟨n + 1, h⟩) (acc2 V c n (Nat.lt_of_succ_lt h)) := rfl

/-- At the first point: a step from zero. -/
theorem acc2_first (c : Dev nD) (t : Fin cfg2.N) (hz : t.val = 0) :
    acc2 V c t.val t.isLt = accStep2 (tile2 V c 0 t) (tile2 V c 1 t) (accZero2 (F := F)) := by
  obtain ⟨n, hn⟩ := t
  cases n with
  | zero => rfl
  | succ n => exact absurd hz (Nat.succ_ne_zero n)

/-- At any other point: a step from what the point before left. -/
theorem acc2_pos (c : Dev nD) (t : Fin cfg2.N) (hz : t.val ≠ 0) :
    acc2 V c t.val t.isLt = accStep2 (tile2 V c 0 t) (tile2 V c 1 t) (acc2 V c (t.val - 1) (Nat.lt_of_le_of_lt (Nat.sub_le _ _) t.isLt)) := by
  obtain ⟨n, hn⟩ := t
  cases n with
  | zero => exact absurd rfl hz
  | succ n => rfl

/-! ## The invariant: the accumulator carried between points -/

/-- The region invariant before position `n`: before the first point what the launch hands over (the accumulator at
    anything); afterwards the accumulator at what the point before left, the other scoped buffers and the generator
    register as they were. -/
def Inv2 (c : Dev nD) : (n : ℕ) → n ≤ cfg2.N → sProp 𝕄
  | 0, _ => Pipeline.ΦA spec2 c
  | n + 1, hn => iprop((owns (c : Thread nD τ) accM2 fullShare (acc2 V c n hn) ∗ others2 (F := F) c) ∗ (∃ r, prngReg c r))

theorem Inv2_zero (c : Dev nD) (n : ℕ) (h : n ≤ cfg2.N) (hz : n = 0) : Inv2 V c n h = Pipeline.ΦA spec2 c := by
  subst hz; rfl

theorem Inv2_succ (c : Dev nD) (n : ℕ) (hn : n < cfg2.N) :
    Inv2 V c (n + 1) hn = iprop((owns (c : Thread nD τ) accM2 fullShare (acc2 V c n hn) ∗ others2 (F := F) c) ∗ (∃ r, prngReg c r)) := rfl

theorem Inv2_pos (c : Dev nD) (n : ℕ) (h : n ≤ cfg2.N) (hz : n ≠ 0) :
    Inv2 V c n h = iprop((owns (c : Thread nD τ) accM2 fullShare (acc2 V c (n - 1) (by omega)) ∗ others2 (F := F) c) ∗ (∃ r, prngReg c r)) := by
  cases n with
  | zero => exact absurd rfl hz
  | succ n => rfl

/-! ## The pipeline's proof data -/

/-- The proof data of the region on core `c`: the arrays as the region finds them (`V`); after the body at point `t`
    each operand's buffer at its tile and the output's at the accumulator's contents (consulted at the last point only:
    elsewhere the output window is idle and not written back); the invariant carries the accumulator; nothing owed;
    full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => acc2 V c t.val t.isLt
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Inv2_castSucc (c : Dev nD) (t : Fin cfg2.N) :
    (dat2 V c).Φ t.castSucc = Inv2 V c t.val (Nat.le_of_lt t.isLt) := by
  dsimp only [dat2]; simp only [Fin.coe_castSucc]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = tile2 V c 0 t :=
  found2_0_of V (dat2 V c) (A_eq2 V c 0) (after2_0 V c) t d
theorem before2_1 (c : Dev nD) (t : Fin cfg2.N) (d) : (dat2 V c).before 1 t d = tile2 V c 1 t :=
  found2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the operands' buffers hold the point's tiles; the grid position says which of the three
    control cases the point is in; the invariant hands the body the accumulator at what the point before left (at
    anything at the first point) and takes it back at this point's contents; off the last point the output's buffer is
    handed back as found, at the last point it holds the accumulator's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Inv2 V c (t.val + 1) t.isLt from rfl, Inv2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 64 = 0
  · have hz : t.val = 0 := by omega
    have hfst : atFirst2 (grid2.coords t) := (atFirst2_iff t).mpr h0
    have hlst : ¬atLast2 (grid2.coords t) := fun h => by have := (atLast2_iff t).mp h; omega
    rw [Dat.leavesExact_idle (dat2 V c) 2 t (idle2_2 t hlst) (noFlush2_2 t hlst)]
    rw [acc2_first V c t hz]
    rw [Inv2_castSucc V c t, Inv2_zero V c _ _ hz, PhiA2_eq]
    iintro ⟨⟨⟨HS, Hoth⟩, Hg⟩, Ho, ⟨%d0, H0⟩, ⟨%d1, H1⟩, ⟨%d2, H2⟩⟩
    iapply (run_body2_A c Set.univ (grid2.coords t) _ _ _ _ _ _ _ _ hfst hlst (tile2 V c 0 t) (tile2 V c 1 t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    have hfst : ¬atFirst2 (grid2.coords t) := fun h => h0 ((atFirst2_iff t).mp h)
    rw [acc2_pos V c t hz]
    rw [Inv2_castSucc V c t, Inv2_pos V c _ _ hz]
    by_cases h1 : t.val % 64 = 63
    · have hlst : atLast2 (grid2.coords t) := (atLast2_iff t).mpr h1
      rw [show (dat2 V c).leavesExact 2 t = owns (c : Thread nD τ) (ms2_2 t) fullShare ((dat2 V c).after 2 t) from by
        unfold Dat.leavesExact; rw [live2_2 t hlst], after2_2, acc2_pos V c t hz]
      iintro ⟨⟨⟨HS, Hoth⟩, Hg⟩, Ho, ⟨%d0, H0⟩, ⟨%d1, H1⟩, ⟨%d2, H2⟩⟩
      iapply (run_body2_C c Set.univ (grid2.coords t) _ _ _ _ _ _ _ _ hfst hlst (tile2 V c 0 t) (tile2 V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hlst : ¬atLast2 (grid2.coords t) := fun h => h1 ((atLast2_iff t).mp h)
      rw [Dat.leavesExact_idle (dat2 V c) 2 t (idle2_2 t hlst) (noFlush2_2 t hlst)]
      iintro ⟨⟨⟨HS, Hoth⟩, Hg⟩, Ho, ⟨%d0, H0⟩, ⟨%d1, H1⟩, ⟨%d2, H2⟩⟩
      iapply (run_body2_B c Set.univ (grid2.coords t) _ _ _ _ _ _ _ _ hfst hlst (tile2 V c 0 t) (tile2 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After any point but the first the invariant gives the launch's back: the accumulator's contents are forgotten. -/
theorem Inv2_out (c : Dev nD) (t : Fin (cfg2.N + 1)) (ht : t.val ≠ 0) : (dat2 V c).Φ t ⊢ Pipeline.ΦA spec2 c := by
  rw [show (dat2 V c).Φ t = Inv2 V c t.val (Nat.le_of_lt_succ t.isLt) from rfl, Inv2_pos V c _ _ ht, PhiA2_eq]
  iintro ⟨⟨HS, Hoth⟩, Hg⟩
  isplitl [HS Hoth]
  · isplitl [HS]
    · iexists _; iexact HS
    iexact Hoth
  iexact Hg

/-- The same after the last point. -/
theorem hout2 (c : Dev nD) : (dat2 V c).Φ (Fin.last cfg2.N) ⊢ Pipeline.ΦA spec2 c :=
  Inv2_out V c _ (by rw [Fin.val_last]; have : cfg2.N = 64 := N_2; omega)

/-! ## The values -/

/-- The accumulator after point `t`, as the proof data's invariant after that point states it (`Inv2_succ`), is the
    fold `acc2`: from `accZero2` (the zeroing payload stored whole) one `accStep2` (the accumulating payload over the
    point's two tiles, stored whole) per point up to `t`; and the output tile the last point leaves is that fold at the
    last point. -/
theorem acc2_after (c : Dev nD) (t : Fin cfg2.N) :
    (dat2 V c).Φ t.succ = iprop((owns (c : Thread nD τ) accM2 fullShare (acc2 V c t.val t.isLt) ∗ others2 (F := F) c) ∗ (∃ r, prngReg c r)) := rfl

theorem out2_last (c : Dev nD) (h : 63 < cfg2.N) : (dat2 V c).after 2 ⟨63, h⟩ = acc2 V c 63 h := by
  dsimp only [dat2]

/-- One accumulating step, index by index of the tile: the accumulating payload on the whole-tile reads. -/
theorem accStep2_apply (a : Vec F S1024x2048 .f32) (b : Vec F S1024x128 .f32) (s : Vec F S2048x128 .f32) (x : (whole2_o).shape.Idx) :
    accStep2 a b s ((whole2_o).idx x) = k2_pay2 (View.ld a whole2_q) (View.ld b whole2_f) (View.ld s whole2_o) x :=
  canon_whole2_o_apply _ x

/-- The zeroed accumulator, index by index: the zeroing payload. -/
theorem accZero2_apply (x : (whole2_o).shape.Idx) : accZero2 (F := F) ((whole2_o).idx x) = k2_pay1 (F := F) x :=
  canon_whole2_o_apply _ x

end Cert.KernelIdeal.Gen

end
-- ==== Proof.KI.RunCond.lean ====
/-
  The whole program, conditionally on its four kernel regions: the program is a line of host stretches and four
  regions; between two items every unscoped buffer of a core holds the contents named by the valuations V0 … V22 of
  the generated region module (the launch memory, then each host stretch applied in turn, a region changing only its
  output array).  GIVEN one segment record per region, entered from the state before it and left at the state after
  it, every weakly fair execution from memory `m` with zero counters terminates and EVERY unscoped buffer ends at the
  last valuation V22.  The frame claim and the values of the two results are both read off this.
-/
import proofs.«120736_j30030411334238_1_alg».proof.Proof.Gen.KernelIdeal.Regions

set_option maxRecDepth 2484

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V20 m outs c) ∗ E 3 c) ⊢ R3.pre c)
    (hpost3 : ∀ c : Dev nD, R3.post c ⊢ iprop(StableHlo.held (c : Thread nD τ) (Pipeline.ucRefs τ sig) (V21 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V22 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, hpre0 c, hpost0 c, .rfl, .rfl, .rfl, .rfl, .rfl, .rfl, .rfl, hpre1 c, (hpost1 c).trans (hpre2 c), hpost2 c, .rfl, .rfl, .rfl, .rfl, .rfl, .rfl, .rfl, hpre3 c, hpost3 c, sep_mono .rfl (hE4 c)⟩)
    (hinit := ?_) (QY := fun c s => ∀ b ∈ Pipeline.ucRefs τ sig, s.mem ((c : Thread nD τ).1, b) = V22 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro; exact h
    · iexact HSI

end Cert.KernelIdeal.Gen

end
-- ==== Proof.KI.Regs.lean ====
/-
  The four kernel regions as segments of the whole program.  Between two items of the program every unscoped buffer
  of a core holds the contents named by the valuations V0 … V22 of the generated region module, which leave open
  what the regions write (the unknowns `outs`).  Here each region's proof data is placed at the valuation the region
  is entered from, and the unknowns are tied to what the pipelines really leave (`Good`): a region's output array
  after the region is the fold of its write-backs.  Under that tie each region is a segment entered from "every
  unscoped buffer at the valuation before, the generator register at some state, nothing owed" and left at the same
  with the valuation after: its arrays are split out of the unscoped buffers on entry and put back, at their final
  contents, on exit; the generator register passes through the region's invariant; the kernels have no semaphores of
  their own and owe nothing.  For the two accumulating products the invariant starts and ends as the untouched scoped
  rest and carries the accumulator in between.
-/
import proofs.«120736_j30030411334238_1_alg».proof.Proof.KI.Dat1
import proofs.«120736_j30030411334238_1_alg».proof.Proof.KI.Dat3
import proofs.«120736_j30030411334238_1_alg».proof.Proof.KI.Body0Frame
import proofs.«120736_j30030411334238_1_alg».proof.Proof.KI.Body2Frame
import proofs.«120736_j30030411334238_1_alg».proof.Proof.KI.RunCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation of a core's buffers read at the TensorCore's references. -/
abbrev atTc (W : Dev nD → Valuation τ sig (Elt F)) : (c : Dev nD) → (b : Ref sig .tc) → Buf (Elt F) ((c : Thread nD τ).loc b) :=
  fun c b => W c b

/-- Every pipeline's proof data, each at the valuation its region is entered from. -/
def pdatsOf : (p : Fin 4) → (c : Dev nD) → Dat τ (Elt F) Unit ℕ (UR sig nD τ) ℕ (cfgs p) c
  | ⟨0, _⟩ => fun c => dat0 (atTc (V1 m)) c
  | ⟨1, _⟩ => fun c => dat1 (atTc (V10 m outs)) c
  | ⟨2, _⟩ => fun c => dat2 (atTc (V11 m outs)) c
  | ⟨3, _⟩ => fun c => dat3 (atTc (V20 m outs)) c

/-- The unknowns are what the pipelines leave: each region's output array after the region is the fold of its
    write-backs over the array as the region found it. -/
def Good : Prop := ∀ c : Dev nD,
  outs 2 main_v3 c = (pdatsOf m outs 0 c).arrAt 2 cfg0.N
  ∧ outs 11 main_v123 c = (pdatsOf m outs 1 c).arrAt 2 cfg1.N
  ∧ outs 12 main_v124 c = (pdatsOf m outs 2 c).arrAt 2 cfg2.N
  ∧ outs 21 main_v240 c = (pdatsOf m outs 3 c).arrAt 2 cfg3.N

abbrev noVariants : Variants := Variants.none
abbrev noLevels : GSem nD τ sig → Finset Unit := fun _ => ∅
abbrev levelZero : GSem nD τ sig → Unit → ℕ := fun _ _ => 0

/-- What rides beside the buffers through every item: the generator register at some state and nothing owed. -/
abbrev beside (c : Dev nD) : sProp 𝕄 := iprop((∃ r, prngReg c r) ∗ ∃ W, owes (c : Thread nD τ) (0 : CellTallies nD τ sig Unit) W)
abbrev besideAll : Fin 5 → Dev nD → sProp 𝕄 := fun _ c => beside c

/-! ## Region 0 -/

theorem exit0_arr0 (c : Dev nD) : (pdatsOf m outs 0 c).arrAt 0 cfg0.N = atTc (V2 m outs) c (Pipeline.arrRef spec0 0) :=
  ((pdatsOf m outs 0 c).arrAt_in 0 rfl _).trans (V2_of m outs c (Pipeline.arrRef spec0 0) (by decide)).symm
theorem exit0_arr1 (c : Dev nD) : (pdatsOf m outs 0 c).arrAt 1 cfg0.N = atTc (V2 m outs) c (Pipeline.arrRef spec0 1) :=
  ((pdatsOf m outs 0 c).arrAt_in 1 rfl _).trans (V2_of m outs c (Pipeline.arrRef spec0 1) (by decide)).symm
theorem exit0_arr2 (hg : Good m outs) (c : Dev nD) : (pdatsOf m outs 0 c).arrAt 2 cfg0.N = atTc (V2 m outs) c (Pipeline.arrRef spec0 2) :=
  ((hg c).1).symm.trans (Function.update_self (Proc.devRef .tc main_v3 : DevRef τ sig) (outs 2 main_v3 c) (V1 m c)).symm

theorem exit0_arr (hg : Good m outs) (c : Dev nD) : ∀ w : Fin cfg0.W,
    (pdatsOf m outs 0 c).arrAt w cfg0.N = atTc (V2 m outs) c (Pipeline.arrRef spec0 w) := fun
  | 0 => exit0_arr0 m outs c
  | 1 => exit0_arr1 m outs c
  | 2 => exit0_arr2 m outs hg c
  | ⟨_ + 3, h⟩ => absurd h (Nat.not_lt.2 (Nat.le_add_left _ _))

theorem exit0_rest (c : Dev nD) : ∀ b, b ∉ Finset.univ.image (Pipeline.arrRef spec0) → atTc (V2 m outs) c b = atTc (V1 m) c b :=
  fun b hb => V2_of m outs c b (fun hmem => hb (Finset.mem_image.mpr ⟨2, Finset.mem_univ _, (List.mem_singleton.mp hmem).symm⟩))

theorem enter0_inv (c : Dev nD) :
    (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
      ⊢ Pipeline.ΦA spec0 c := by
  unfold Pipeline.ΦA
  iintro ⟨Hp, -, Hr⟩
  isplitl [Hr]; · iexact Hr
  iexact Hp

theorem leave0_inv (c : Dev nD) :
    (Pipeline.ΦA spec0 c : sProp 𝕄)
      ⊢ iprop((∃ r, prngReg c r) ∗ (BI.emp : sProp 𝕄) ∗ Pipeline.scopedRest (Pipeline.pin (pcfgs (F := F)) adm 0).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg0 (hg : Good m outs) : Pipeline.RegionSeg (pcfgs (F := F)) adm (pdatsOf m outs) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m outs c) ∗ beside c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdatsOf m outs) launch0.win launch0.arr_whole c
      ((pdatsOf m outs 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter0_inv c).trans (hin0 (atTc (V1 m)) c)
  hout c := by
    rw [Pipeline.ownSems0_none]
    exact (hout0 (atTc (V1 m)) c).trans (leave0_inv c)
  hexit c := by
    have hjoin := Pipeline.unscopedBufs_of_arrays (p := 0) (pcfgs (F := F)) adm (Ix := Unit) (Name := ℕ) (U := UR sig nD τ) (Lvl := ℕ)
      launch0.win launch0.arr_whole c (pdatsOf m outs) ((pdatsOf m outs 0 c).share_full fun _ => rfl)
      (atTc (V1 m) c) (atTc (V2 m outs) c) ((pdatsOf m outs 0 c).arrAt · cfg0.N) (exit0_arr m outs hg c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem exit1_arr0 (c : Dev nD) : (pdatsOf m outs 1 c).arrAt 0 cfg1.N = atTc (V11 m outs) c (Pipeline.arrRef spec1 0) :=
  ((pdatsOf m outs 1 c).arrAt_in 0 rfl _).trans (V11_of m outs c (Pipeline.arrRef spec1 0) (by decide)).symm
theorem exit1_arr1 (c : Dev nD) : (pdatsOf m outs 1 c).arrAt 1 cfg1.N = atTc (V11 m outs) c (Pipeline.arrRef spec1 1) :=
  ((pdatsOf m outs 1 c).arrAt_in 1 rfl _).trans (V11_of m outs c (Pipeline.arrRef spec1 1) (by decide)).symm
theorem exit1_arr2 (hg : Good m outs) (c : Dev nD) : (pdatsOf m outs 1 c).arrAt 2 cfg1.N = atTc (V11 m outs) c (Pipeline.arrRef spec1 2) :=
  ((hg c).2.1).symm.trans (Function.update_self (Proc.devRef .tc main_v123 : DevRef τ sig) (outs 11 main_v123 c) (V10 m outs c)).symm

theorem exit1_arr (hg : Good m outs) (c : Dev nD) : ∀ w : Fin cfg1.W,
    (pdatsOf m outs 1 c).arrAt w cfg1.N = atTc (V11 m outs) c (Pipeline.arrRef spec1 w) := fun
  | 0 => exit1_arr0 m outs c
  | 1 => exit1_arr1 m outs c
  | 2 => exit1_arr2 m outs hg c
  | ⟨_ + 3, h⟩ => absurd h (Nat.not_lt.2 (Nat.le_add_left _ _))

theorem exit1_rest (c : Dev nD) : ∀ b, b ∉ Finset.univ.image (Pipeline.arrRef spec1) → atTc (V11 m outs) c b = atTc (V10 m outs) c b :=
  fun b hb => V11_of m outs c b (fun hmem => hb (Finset.mem_image.mpr ⟨2, Finset.mem_univ _, (List.mem_singleton.mp hmem).symm⟩))

theorem enter1_inv (c : Dev nD) :
    (iprop((∃ r, prngReg c r) ∗ Pipeline.prefHeld (pcfgs (F := F) 1).pre c (fun _ => fullShare) (adm (F := F) 1).1 ∗ Pipeline.scopedRest (Pipeline.pin (pcfgs (F := F)) adm 1).spec c) : sProp 𝕄)
      ⊢ Pipeline.ΦA spec1 c := by
  unfold Pipeline.ΦA
  iintro ⟨Hp, -, Hr⟩
  isplitl [Hr]; · iexact Hr
  iexact Hp

theorem leave1_inv (c : Dev nD) :
    (Pipeline.ΦA spec1 c : sProp 𝕄)
      ⊢ iprop((∃ r, prngReg c r) ∗ (BI.emp : sProp 𝕄) ∗ Pipeline.scopedRest (Pipeline.pin (pcfgs (F := F)) adm 1).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg1 (hg : Good m outs) : Pipeline.RegionSeg (pcfgs (F := F)) adm (pdatsOf m outs) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (atTc (V10 m outs)) c).loose
  hwaits := Pipeline.hwaits_of_owed_zero _ _ _ _ noLevels levelZero 1 fun _ _ => rfl
  pre c := iprop(StableHlo.held (c : Thread nD τ) (Pipeline.ucRefs τ sig) (V10 m outs c) ∗ beside c)
  post c := iprop(StableHlo.held (c : Thread nD τ) (Pipeline.ucRefs τ sig) (V11 m outs c) ∗ beside c)
  X c := iprop(∃ r, prngReg c r)
  Y c := iprop(∃ r, prngReg c r)
  Z c := Pipeline.unscopedRest (Ix := Unit) (Name := ℕ) (U := UR sig nD τ) (Lvl := ℕ) spec1 c (atTc (V10 m outs) c)
  hentry c := by
    rw [Pipeline.ownSems0_none]
    have hsplit := Pipeline.arrays_of_unscopedBufs (p := 1) (pcfgs (F := F)) adm (pdatsOf m outs) launch1.win launch1.arr_whole c
      ((pdatsOf m outs 1 c).share_full fun _ => rfl) (atTc (V10 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsOf m outs 1 c).Φ 0 = Pipeline.ΦA spec1 c from rfl]
    exact enter1_inv c
  hout c := by
    rw [Pipeline.ownSems0_none]
    rw [show (pdatsOf m outs 1 c).Φ (Fin.last _) = Pipeline.ΦA spec1 c from rfl]
    exact leave1_inv c
  hexit c := by
    have hjoin := Pipeline.unscopedBufs_of_arrays (p := 1) (pcfgs (F := F)) adm (Ix := Unit) (Name := ℕ) (U := UR sig nD τ) (Lvl := ℕ)
      launch1.win launch1.arr_whole c (pdatsOf m outs) ((pdatsOf m outs 1 c).share_full fun _ => rfl)
      (atTc (V10 m outs) c) (atTc (V11 m outs) c) ((pdatsOf m outs 1 c).arrAt · cfg1.N) (exit1_arr m outs hg c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem exit2_arr0 (c : Dev nD) : (pdatsOf m outs 2 c).arrAt 0 cfg2.N = atTc (V12 m outs) c (Pipeline.arrRef spec2 0) :=
  ((pdatsOf m outs 2 c).arrAt_in 0 rfl _).trans (V12_of m outs c (Pipeline.arrRef spec2 0) (by decide)).symm
theorem exit2_arr1 (c : Dev nD) : (pdatsOf m outs 2 c).arrAt 1 cfg2.N = atTc (V12 m outs) c (Pipeline.arrRef spec2 1) :=
  ((pdatsOf m outs 2 c).arrAt_in 1 rfl _).trans (V12_of m outs c (Pipeline.arrRef spec2 1) (by decide)).symm
theorem exit2_arr2 (hg : Good m outs) (c : Dev nD) : (pdatsOf m outs 2 c).arrAt 2 cfg2.N = atTc (V12 m outs) c (Pipeline.arrRef spec2 2) :=
  ((hg c).2.2.1).symm.trans (Function.update_self (Proc.devRef .tc main_v124 : DevRef τ sig) (outs 12 main_v124 c) (V11 m outs c)).symm

theorem exit2_arr (hg : Good m outs) (c : Dev nD) : ∀ w : Fin cfg2.W,
    (pdatsOf m outs 2 c).arrAt w cfg2.N = atTc (V12 m outs) c (Pipeline.arrRef spec2 w) := fun
  | 0 => exit2_arr0 m outs c
  | 1 => exit2_arr1 m outs c
  | 2 => exit2_arr2 m outs hg c
  | ⟨_ + 3, h⟩ => absurd h (Nat.not_lt.2 (Nat.le_add_left _ _))

theorem exit2_rest (c : Dev nD) : ∀ b, b ∉ Finset.univ.image (Pipeline.arrRef spec2) → atTc (V12 m outs) c b = atTc (V11 m outs) c b :=
  fun b hb => V12_of m outs c b (fun hmem => hb (Finset.mem_image.mpr ⟨2, Finset.mem_univ _, (List.mem_singleton.mp hmem).symm⟩))

theorem enter2_inv (c : Dev nD) :
    (iprop((∃ r, prngReg c r) ∗ Pipeline.prefHeld (pcfgs (F := F) 2).pre c (fun _ => fullShare) (adm (F := F) 2).1 ∗ Pipeline.scopedRest (Pipeline.pin (pcfgs (F := F)) adm 2).spec c) : sProp 𝕄)
      ⊢ Pipeline.ΦA spec2 c := by
  unfold Pipeline.ΦA
  iintro ⟨Hp, -, Hr⟩
  isplitl [Hr]; · iexact Hr
  iexact Hp

theorem leave2_inv (c : Dev nD) :
    (Pipeline.ΦA spec2 c : sProp 𝕄)
      ⊢ iprop((∃ r, prngReg c r) ∗ (BI.emp : sProp 𝕄) ∗ Pipeline.scopedRest (Pipeline.pin (pcfgs (F := F)) adm 2).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg2 (hg : Good m outs) : Pipeline.RegionSeg (pcfgs (F := F)) adm (pdatsOf m outs) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (atTc (V11 m outs)) c).loose
  hwaits := Pipeline.hwaits_of_owed_zero _ _ _ _ noLevels levelZero 2 fun _ _ => rfl
  pre c := iprop(StableHlo.held (c : Thread nD τ) (Pipeline.ucRefs τ sig) (V11 m outs c) ∗ beside c)
  post c := iprop(StableHlo.held (c : Thread nD τ) (Pipeline.ucRefs τ sig) (V12 m outs c) ∗ beside c)
  X c := iprop(∃ r, prngReg c r)
  Y c := iprop(∃ r, prngReg c r)
  Z c := Pipeline.unscopedRest (Ix := Unit) (Name := ℕ) (U := UR sig nD τ) (Lvl := ℕ) spec2 c (atTc (V11 m outs) c)
  hentry c := by
    rw [Pipeline.ownSems0_none]
    have hsplit := Pipeline.arrays_of_unscopedBufs (p := 2) (pcfgs (F := F)) adm (pdatsOf m outs) launch2.win launch2.arr_whole c
      ((pdatsOf m outs 2 c).share_full fun _ => rfl) (atTc (V11 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter2_inv c).trans (hin2 (atTc (V11 m outs)) c)
  hout c := by
    rw [Pipeline.ownSems0_none]
    exact (hout2 (atTc (V11 m outs)) c).trans (leave2_inv c)
  hexit c := by
    have hjoin := Pipeline.unscopedBufs_of_arrays (p := 2) (pcfgs (F := F)) adm (Ix := Unit) (Name := ℕ) (U := UR sig nD τ) (Lvl := ℕ)
      launch2.win launch2.arr_whole c (pdatsOf m outs) ((pdatsOf m outs 2 c).share_full fun _ => rfl)
      (atTc (V11 m outs) c) (atTc (V12 m outs) c) ((pdatsOf m outs 2 c).arrAt · cfg2.N) (exit2_arr m outs hg c) (exit2_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem exit3_arr0 (c : Dev nD) : (pdatsOf m outs 3 c).arrAt 0 cfg3.N = atTc (V21 m outs) c (Pipeline.arrRef spec3 0) :=
  ((pdatsOf m outs 3 c).arrAt_in 0 rfl _).trans (V21_of m outs c (Pipeline.arrRef spec3 0) (by decide)).symm
theorem exit3_arr1 (c : Dev nD) : (pdatsOf m outs 3 c).arrAt 1 cfg3.N = atTc (V21 m outs) c (Pipeline.arrRef spec3 1) :=
  ((pdatsOf m outs 3 c).arrAt_in 1 rfl _).trans (V21_of m outs c (Pipeline.arrRef spec3 1) (by decide)).symm
theorem exit3_arr2 (hg : Good m outs) (c : Dev nD) : (pdatsOf m outs 3 c).arrAt 2 cfg3.N = atTc (V21 m outs) c (Pipeline.arrRef spec3 2) :=
  ((hg c).2.2.2).symm.trans (Function.update_self (Proc.devRef .tc main_v240 : DevRef τ sig) (outs 21 main_v240 c) (V20 m outs c)).symm

theorem exit3_arr (hg : Good m outs) (c : Dev nD) : ∀ w : Fin cfg3.W,
    (pdatsOf m outs 3 c).arrAt w cfg3.N = atTc (V21 m outs) c (Pipeline.arrRef spec3 w) := fun
  | 0 => exit3_arr0 m outs c
  | 1 => exit3_arr1 m outs c
  | 2 => exit3_arr2 m outs hg c
  | ⟨_ + 3, h⟩ => absurd h (Nat.not_lt.2 (Nat.le_add_left _ _))

theorem exit3_rest (c : Dev nD) : ∀ b, b ∉ Finset.univ.image (Pipeline.arrRef spec3) → atTc (V21 m outs) c b = atTc (V20 m outs) c b :=
  fun b hb => V21_of m outs c b (fun hmem => hb (Finset.mem_image.mpr ⟨2, Finset.mem_univ _, (List.mem_singleton.mp hmem).symm⟩))

theorem enter3_inv (c : Dev nD) :
    (iprop((∃ r, prngReg c r) ∗ Pipeline.prefHeld (pcfgs (F := F) 3).pre c (fun _ => fullShare) (adm (F := F) 3).1 ∗ Pipeline.scopedRest (Pipeline.pin (pcfgs (F := F)) adm 3).spec c) : sProp 𝕄)
      ⊢ Pipeline.ΦA spec3 c := by
  unfold Pipeline.ΦA
  iintro ⟨Hp, -, Hr⟩
  isplitl [Hr]; · iexact Hr
  iexact Hp

theorem leave3_inv (c : Dev nD) :
    (Pipeline.ΦA spec3 c : sProp 𝕄)
      ⊢ iprop((∃ r, prngReg c r) ∗ (BI.emp : sProp 𝕄) ∗ Pipeline.scopedRest (Pipeline.pin (pcfgs (F := F)) adm 3).spec c) := by
  unfold Pipeline.ΦA
  iintro ⟨Hr, Hp⟩
  isplitl [Hp]; · iexact Hp
  isplitr; · iempintro
  iexact Hr

set_option maxHeartbeats 2000000 in
set_option backward.isDefEq.respectTransparency.types false in
def reg3 (hg : Good m outs) : Pipeline.RegionSeg (pcfgs (F := F)) adm (pdatsOf m outs) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (atTc (V20 m outs)) c).loose
  hwaits := Pipeline.hwaits_of_owed_zero _ _ _ _ noLevels levelZero 3 fun _ _ => rfl
  pre c := iprop(StableHlo.held (c : Thread nD τ) (Pipeline.ucRefs τ sig) (V20 m outs c) ∗ beside c)
  post c := iprop(StableHlo.held (c : Thread nD τ) (Pipeline.ucRefs τ sig) (V21 m outs c) ∗ beside c)
  X c := iprop(∃ r, prngReg c r)
  Y c := iprop(∃ r, prngReg c r)
  Z c := Pipeline.unscopedRest (Ix := Unit) (Name := ℕ) (U := UR sig nD τ) (Lvl := ℕ) spec3 c (atTc (V20 m outs) c)
  hentry c := by
    rw [Pipeline.ownSems0_none]
    have hsplit := Pipeline.arrays_of_unscopedBufs (p := 3) (pcfgs (F := F)) adm (pdatsOf m outs) launch3.win launch3.arr_whole c
      ((pdatsOf m outs 3 c).share_full fun _ => rfl) (atTc (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsOf m outs 3 c).Φ 0 = Pipeline.ΦA spec3 c from rfl]
    exact enter3_inv c
  hout c := by
    rw [Pipeline.ownSems0_none]
    rw [show (pdatsOf m outs 3 c).Φ (Fin.last _) = Pipeline.ΦA spec3 c from rfl]
    exact leave3_inv c
  hexit c := by
    have hjoin := Pipeline.unscopedBufs_of_arrays (p := 3) (pcfgs (F := F)) adm (Ix := Unit) (Name := ℕ) (U := UR sig nD τ) (Lvl := ℕ)
      launch3.win launch3.arr_whole c (pdatsOf m outs) ((pdatsOf m outs 3 c).share_full fun _ => rfl)
      (atTc (V20 m outs) c) (atTc (V21 m outs) c) ((pdatsOf m outs 3 c).arrAt · cfg3.N) (exit3_arr m outs hg c) (exit3_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Main.lean ====
/-
  The whole kernel program run.  The unknown contents the regions leave are fixed in program order — each region's
  output array is the fold of that region's write-backs over the contents found on entry, and the valuation a later
  region is entered from only looks at the outputs of the earlier ones — and with that choice the four region
  segments chain through the host stretches: every weakly fair execution terminates, nothing faults, and every
  unscoped buffer of a core ends at the last valuation, in which each argument array still has its launch contents
  and the two results are the last host stretch applied to what the regions and the earlier stretches left.
-/
import proofs.«120736_j30030411334238_1_alg».proof.Proof.KI.Regs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuation before a region only looks at the earlier regions' outputs -/

theorem V10_congr (o o' : Outs (F := F)) (c : Dev nD) (h : o 2 main_v3 c = o' 2 main_v3 c) : V10 m o c = V10 m o' c := by
  simp only [V10, V9, V8, V7, V6, V5, V4, V3, V2, h]

theorem V11_congr (o o' : Outs (F := F)) (c : Dev nD) (h : o 2 main_v3 c = o' 2 main_v3 c) (h' : o 11 main_v123 c = o' 11 main_v123 c) :
    V11 m o c = V11 m o' c := by
  simp only [V11, V10_congr m o o' c h, h']

theorem V20_congr (o o' : Outs (F := F)) (c : Dev nD) (h : o 2 main_v3 c = o' 2 main_v3 c) (h' : o 11 main_v123 c = o' 11 main_v123 c)
    (h'' : o 12 main_v124 c = o' 12 main_v124 c) : V20 m o c = V20 m o' c := by
  simp only [V20, V19, V18, V17, V16, V15, V14, V13, V12, V11_congr m o o' c h h', h'']

/-! ## The regions' outputs, fixed in program order -/

def left0 (c : Dev nD) : Buf (Elt F) ((c : Thread nD τ).loc main_v3) := (dat0 (atTc (V1 m)) c).arrAt 2 cfg0.N
def outsA : Outs (F := F) := fun _ r c => Function.update (V1 m c) main_v3 (left0 m c) r
def left1 (c : Dev nD) : Buf (Elt F) ((c : Thread nD τ).loc main_v123) := (dat1 (atTc (V10 m (outsA m))) c).arrAt 2 cfg1.N
def outsB : Outs (F := F) := fun J r c => if J = 2 then outsA m J r c else Function.update (V10 m (outsA m) c) main_v123 (left1 m c) r
def left2 (c : Dev nD) : Buf (Elt F) ((c : Thread nD τ).loc main_v124) := (dat2 (atTc (V11 m (outsB m))) c).arrAt 2 cfg2.N
def outsC : Outs (F := F) := fun J r c => if J = 2 ∨ J = 11 then outsB m J r c else Function.update (V11 m (outsB m) c) main_v124 (left2 m c) r
def left3 (c : Dev nD) : Buf (Elt F) ((c : Thread nD τ).loc main_v240) := (dat3 (atTc (V20 m (outsC m))) c).arrAt 2 cfg3.N
def outsD : Outs (F := F) := fun J r c => if J = 2 ∨ J = 11 ∨ J = 12 then outsC m J r c else Function.update (V20 m (outsC m) c) main_v240 (left3 m c) r

theorem outsD_2 (c : Dev nD) : outsD m 2 main_v3 c = left0 m c := by
  simp only [outsD, outsC, outsB, outsA, Function.update_self, if_true, true_or]
theorem outsD_11 (c : Dev nD) : outsD m 11 main_v123 c = left1 m c := by
  simp only [outsD, outsC, outsB, Function.update_self, if_true, true_or, or_true, if_false, show ¬ ((11 : ℕ) = 2) by decide]
theorem outsD_12 (c : Dev nD) : outsD m 12 main_v124 c = left2 m c := by
  simp only [outsD, outsC, Function.update_self, if_true, true_or, or_true, if_false, show ¬ ((12 : ℕ) = 2) by decide, show ¬ ((12 : ℕ) = 11) by decide, or_self, or_false, false_or]
theorem outsD_21 (c : Dev nD) : outsD m 21 main_v240 c = left3 m c := by
  simp only [outsD, Function.update_self, if_false, show ¬ ((21 : ℕ) = 2) by decide, show ¬ ((21 : ℕ) = 11) by decide, show ¬ ((21 : ℕ) = 12) by decide, or_self]

theorem outsC_2 (c : Dev nD) : outsC m 2 main_v3 c = left0 m c := by
  simp only [outsC, outsB, outsA, Function.update_self, if_true, true_or]
theorem outsC_11 (c : Dev nD) : outsC m 11 main_v123 c = left1 m c := by
  simp only [outsC, outsB, Function.update_self, if_true, or_true, if_false, show ¬ ((11 : ℕ) = 2) by decide]
theorem outsC_12 (c : Dev nD) : outsC m 12 main_v124 c = left2 m c := by
  simp only [outsC, Function.update_self, if_false, show ¬ ((12 : ℕ) = 2) by decide, show ¬ ((12 : ℕ) = 11) by decide, or_self]
theorem outsB_2 (c : Dev nD) : outsB m 2 main_v3 c = left0 m c := by
  simp only [outsB, outsA, Function.update_self, if_true]
theorem outsB_11 (c : Dev nD) : outsB m 11 main_v123 c = left1 m c := by
  simp only [outsB, Function.update_self, if_false, show ¬ ((11 : ℕ) = 2) by decide]
theorem outsA_2 (c : Dev nD) : outsA m 2 main_v3 c = left0 m c := by
  simp only [outsA, Function.update_self]

theorem good : Good m (outsD m) := fun c => by
  refine ⟨outsD_2 m c, ?_, ?_, ?_⟩
  · rw [outsD_11]
    show (dat1 (atTc (V10 m (outsA m))) c).arrAt 2 cfg1.N = (dat1 (atTc (V10 m (outsD m))) c).arrAt 2 cfg1.N
    have e : atTc (V10 m (outsA m)) = atTc (V10 m (outsD m)) := by
      funext c' b; exact congrFun (V10_congr m _ _ c' ((outsA_2 m c').trans (outsD_2 m c').symm)) _
    rw [e]
  · rw [outsD_12]
    show (dat2 (atTc (V11 m (outsB m))) c).arrAt 2 cfg2.N = (dat2 (atTc (V11 m (outsD m))) c).arrAt 2 cfg2.N
    have e : atTc (V11 m (outsB m)) = atTc (V11 m (outsD m)) := by
      funext c' b; exact congrFun (V11_congr m _ _ c' ((outsB_2 m c').trans (outsD_2 m c').symm) ((outsB_11 m c').trans (outsD_11 m c').symm)) _
    rw [e]
  · rw [outsD_21]
    show (dat3 (atTc (V20 m (outsC m))) c).arrAt 2 cfg3.N = (dat3 (atTc (V20 m (outsD m))) c).arrAt 2 cfg3.N
    have e : atTc (V20 m (outsC m)) = atTc (V20 m (outsD m)) := by
      funext c' b; exact congrFun (V20_congr m _ _ c' ((outsC_2 m c').trans (outsD_2 m c').symm) ((outsC_11 m c').trans (outsD_11 m c').symm) ((outsC_12 m c').trans (outsD_12 m c').symm)) _
    rw [e]

/-! ## The run -/

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V22 m (outsD m) c b) :=
  run_cond m emb₁ () noVariants noLevels levelZero (fun _ _ => rfl) ρ (outsD m) (pdatsOf m (outsD m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := besideAll)
    (hE0 := by
      refine Pipeline.initEach noLevels levelZero fun c => ?_
      iintro ⟨⟨-, HO, -, Hp, -⟩, -⟩
      imodintro
      isplitl [Hp]; · iexists _; iexact Hp
      iexists ∅; iexact HO)
    (hE4 := fun c => by
      iintro ⟨-, HO⟩; iexact HO)
    (R0 := reg0 m (outsD m) (good m)) (hpre0 := fun _ => .rfl) (hpost0 := fun _ => .rfl)
    (R1 := reg1 m (outsD m) (good m)) (hpre1 := fun _ => .rfl) (hpost1 := fun _ => .rfl)
    (R2 := reg2 m (outsD m) (good m)) (hpre2 := fun _ => .rfl) (hpost2 := fun _ => .rfl)
    (R3 := reg3 m (outsD m) (good m)) (hpre3 := fun _ => .rfl) (hpost3 := fun _ => .rfl)

end Cert.KernelIdeal.Gen

end
-- ==== Proof.KI.Frame.lean ====
/-
  The frame of the kernel program, and the two results: from the whole run, each argument array is read back through
  the last valuation to its launch contents (no host stretch writes an argument and no region may change one), and
  each result buffer holds the last valuation's contents there.
-/
import proofs.«120736_j30030411334238_1_alg».proof.Proof.KI.Main

set_option maxRecDepth 16384

noncomputable section

namespace Cert.KernelIdeal.Gen

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem ucRef_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates, nothing faulting, with the two results at the last valuation and every
    argument array as launched. -/
theorem run_results : θ_run defs (onTc (τ := τ) (main (F := F))) ⟨m, fun _ => 0, ρ⟩ (fun r => ∀ c : Dev nD,
      r.2.mem ((c.tc : Thread nD τ).loc main_v267) = V22 m (outsD m) c main_v267
      ∧ r.2.mem ((c.tc : Thread nD τ).loc main_v279) = V22 m (outsD m) c main_v279
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun r h c =>
    ⟨h c (Proc.devRef .tc main_v267) (ucRef_mem main_v267 (by decide)),
     h c (Proc.devRef .tc main_v279) (ucRef_mem main_v279 (by decide)),
     (h c (Proc.devRef .tc main_arg0) (ucRef_mem main_arg0 (by decide))).trans (V22_main_arg0 m (outsD m) c),
     (h c (Proc.devRef .tc main_arg1) (ucRef_mem main_arg1 (by decide))).trans (V22_main_arg1 m (outsD m) c),
     (h c (Proc.devRef .tc main_arg2) (ucRef_mem main_arg2 (by decide))).trans (V22_main_arg2 m (outsD m) c),
     (h c (Proc.devRef .tc main_arg3) (ucRef_mem main_arg3 (by decide))).trans (V22_main_arg3 m (outsD m) c),
     (h c (Proc.devRef .tc main_arg4) (ucRef_mem main_arg4 (by decide))).trans (V22_main_arg4 m (outsD m) c),
     (h c (Proc.devRef .tc main_arg5) (ucRef_mem main_arg5 (by decide))).trans (V22_main_arg5 m (outsD m) c),
     (h c (Proc.devRef .tc main_arg6) (ucRef_mem main_arg6 (by decide))).trans (V22_main_arg6 m (outsD m) c),
     (h c (Proc.devRef .tc main_arg7) (ucRef_mem main_arg7 (by decide))).trans (V22_main_arg7 m (outsD m) c),
     (h c (Proc.devRef .tc main_arg8) (ucRef_mem main_arg8 (by decide))).trans (V22_main_arg8 m (outsD m) c),
     (h c (Proc.devRef .tc main_arg9) (ucRef_mem main_arg9 (by decide))).trans (V22_main_arg9 m (outsD m) c),
     (h c (Proc.devRef .tc main_arg10) (ucRef_mem main_arg10 (by decide))).trans (V22_main_arg10 m (outsD m) c),
     (h c (Proc.devRef .tc main_arg11) (ucRef_mem main_arg11 (by decide))).trans (V22_main_arg11 m (outsD m) c),
     (h c (Proc.devRef .tc main_arg12) (ucRef_mem main_arg12 (by decide))).trans (V22_main_arg12 m (outsD m) c),
     (h c (Proc.devRef .tc main_arg13) (ucRef_mem main_arg13 (by decide))).trans (V22_main_arg13 m (outsD m) c),
     (h c (Proc.devRef .tc main_arg14) (ucRef_mem main_arg14 (by decide))).trans (V22_main_arg14 m (outsD m) c),
     (h c (Proc.devRef .tc main_arg15) (ucRef_mem main_arg15 (by decide))).trans (V22_main_arg15 m (outsD m) c),
     (h c (Proc.devRef .tc main_arg16) (ucRef_mem main_arg16 (by decide))).trans (V22_main_arg16 m (outsD m) c),
     (h c (Proc.devRef .tc main_arg17) (ucRef_mem main_arg17 (by decide))).trans (V22_main_arg17 m (outsD m) c),
     (h c (Proc.devRef .tc main_arg18) (ucRef_mem main_arg18 (by decide))).trans (V22_main_arg18 m (outsD m) c),
     (h c (Proc.devRef .tc main_arg19) (ucRef_mem main_arg19 (by decide))).trans (V22_main_arg19 m (outsD m) c),
     (h c (Proc.devRef .tc main_arg20) (ucRef_mem main_arg20 (by decide))).trans (V22_main_arg20 m (outsD m) c),
     (h c (Proc.devRef .tc main_arg21) (ucRef_mem main_arg21 (by decide))).trans (V22_main_arg21 m (outsD m) c),
     (h c (Proc.devRef .tc main_arg22) (ucRef_mem main_arg22 (by decide))).trans (V22_main_arg22 m (outsD m) c),
     (h c (Proc.devRef .tc main_arg23) (ucRef_mem main_arg23 (by decide))).trans (V22_main_arg23 m (outsD m) c),
     (h c (Proc.devRef .tc main_arg24) (ucRef_mem main_arg24 (by decide))).trans (V22_main_arg24 m (outsD m) c),
     (h c (Proc.devRef .tc main_arg25) (ucRef_mem main_arg25 (by decide))).trans (V22_main_arg25 m (outsD m) c),
     (h c (Proc.devRef .tc main_arg26) (ucRef_mem main_arg26 (by decide))).trans (V22_main_arg26 m (outsD m) c),
     (h c (Proc.devRef .tc main_arg27) (ucRef_mem main_arg27 (by decide))).trans (V22_main_arg27 m (outsD m) c),
     (h c (Proc.devRef .tc main_arg28) (ucRef_mem main_arg28 (by decide))).trans (V22_main_arg28 m (outsD m) c),
     (h c (Proc.devRef .tc main_arg29) (ucRef_mem main_arg29 (by decide))).trans (V22_main_arg29 m (outsD m) c),
     (h c (Proc.devRef .tc main_arg30) (ucRef_mem main_arg30 (by decide))).trans (V22_main_arg30 m (outsD m) c),
     (h c (Proc.devRef .tc main_arg31) (ucRef_mem main_arg31 (by decide))).trans (V22_main_arg31 m (outsD m) c),
     (h c (Proc.devRef .tc main_arg32) (ucRef_mem main_arg32 (by decide))).trans (V22_main_arg32 m (outsD m) c),
     (h c (Proc.devRef .tc main_arg33) (ucRef_mem main_arg33 (by decide))).trans (V22_main_arg33 m (outsD m) c),
     (h c (Proc.devRef .tc main_arg34) (ucRef_mem main_arg34 (by decide))).trans (V22_main_arg34 m (outsD m) c)⟩)
    (run_all m ρ)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun r h c => (h c).2.2) (run_results m ρ)

end Cert.KernelIdeal.Gen

end
-- ==== Proof.Ref.Ops.lean ====
/-
   The reference program's @main read as a straight line of host operations.  @main calls module-local functions
   (the variance `_var`, which itself calls the select `_where`; the leaky rectifier, which calls a select): a call
   executes the function's body on the operands, each value of the body in the buffer the call's record names, so
   the line of operations of @main is its own statements in order with each call replaced, at its place, by the
   function's operations at that record's buffers (and, inside, the nested call by its own).  The line is cut into
   21 stages `rseg0 … rseg4`, one per step of the computation; `ops` is their concatenation, 438 operations.  Beside
   each stage `rsegJ_W` lists, in the same order, the buffer each operation writes (every operation writes one). -/
import proofs.«120736_j30030411334238_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- 13 operations (statements 1 … 13 of @main): the image flattened to 65536×128; the two assignment matrices Q (65536×1024) and Qsmall (65536×2048) each divided by its column sums; the big branch's pooled features H1 = norm_Qᵀ · flat (1024×128). -/
abbrev rseg0 : List (HloOp τ sig (Elt F)) :=
  [ StableHlo.reshape main_arg0 main_v0 rfl shapeCasts_S256x256x128_S65536x128,
    StableHlo.nullary main_cst (constant S_ .f32 0x00000000#32),
    StableHlo.binary main_arg2 main_cst main_v1 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    StableHlo.unary main_v1 main_v2 (broadcastInDim S1x1024 ![1] bcast_S1024_S1x1024_1 : (⟨S1024, .f32⟩ : BufTy).Contents (Elt F) → (⟨S1x1024, .f32⟩ : BufTy).Contents (Elt F)),
    StableHlo.unary main_v2 main_v3 (broadcastInDim S65536x1024 ![0, 1] bcast_S1x1024_S65536x1024_0_1 : (⟨S1x1024, .f32⟩ : BufTy).Contents (Elt F) → (⟨S65536x1024, .f32⟩ : BufTy).Contents (Elt F)),
    StableHlo.binary main_arg2 main_v3 main_v4 (Host.divf : (⟨S65536x1024, .f32⟩ : BufTy).Contents (Elt F) → (⟨S65536x1024, .f32⟩ : BufTy).Contents (Elt F) → (⟨S65536x1024, .f32⟩ : BufTy).Contents (Elt F)),
    StableHlo.nullary main_cst_0 (constant S_ .f32 0x00000000#32),
    StableHlo.binary main_arg4 main_cst_0 main_v5 ((fun x v => Host.reduceAdd x v reducesTo_S65536x2048_S2048_d0 h_S_) : (⟨S65536x2048, .f32⟩ : BufTy).Contents (Elt F) → (⟨S_, .f32⟩ : BufTy).Contents (Elt F) → (⟨S2048, .f32⟩ : BufTy).Contents (Elt F)),
    StableHlo.unary main_v5 main_v6 (broadcastInDim S1x2048 ![1] bcast_S2048_S1x2048_1 : (⟨S2048, .f32⟩ : BufTy).Contents (Elt F) → (⟨S1x2048, .f32⟩ : BufTy).Contents (Elt F)),
    StableHlo.unary main_v6 main_v7 (broadcastInDim S65536x2048 ![0, 1] bcast_S1x2048_S65536x2048_0_1 : (⟨S1x2048, .f32⟩ : BufTy).Contents (Elt F) → (⟨S65536x2048, .f32⟩ : BufTy).Contents (Elt F)),
    StableHlo.binary main_arg4 main_v7 main_v8 (Host.divf : (⟨S65536x2048, .f32⟩ : BufTy).Contents (Elt F) → (⟨S65536x2048, .f32⟩ : BufTy).Contents (Elt F) → (⟨S65536x2048, .f32⟩ : BufTy).Contents (Elt F)),
    StableHlo.unary main_v4 main_v9 ((transpose S1024x65536 [1, 0] · transposes_S65536x1024_S1024x65536_1_0) : (⟨S65536x1024, .f32⟩ : BufTy).Contents (Elt F) → (⟨S1024x65536, .f32⟩ : BufTy).Contents (Elt F)),
    StableHlo.binary main_v9 main_v0 main_v10 ((fun l r => Host.dotGeneral dot_S1024x65536_S65536x128_S1024x128_1_0_0_1_n_n none l r) : (⟨S1024x65536, .f32⟩ : BufTy).Contents (Elt F) → (⟨S65536x128, .f32⟩ : BufTy).Contents (Elt F) → (⟨S1024x128, .f32⟩ : BufTy).Contents (Elt F)) ]
/-- What `rseg0`'s operations write, in order. -/
abbrev rseg0_W : List (Ref sig .tc) := [main_v0, main_cst, main_v1, main_v2, main_v3, main_v4, main_cst_0, main_v5, main_v6, main_v7, main_v8, main_v9, main_v10]

/-- 6 operations (statements 14 … 19 of @main): big branch, first layer: the batch-norm's column mean of H1 (and the zero degrees-of-freedom correction handed to the variance). -/
abbrev rseg1 : List (HloOp τ sig (Elt F)) :=
  [ StableHlo.nullary main_cst_1 (constant S_ .f32 0x00000000#32),
    StableHlo.binary main_v10 main_cst_1 main_v11 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    StableHlo.nullary main_cst_2 (constant S_ .f32 0x44800000#32),
    StableHlo.unary main_cst_2 main_v12 (broadcastInDim S128 ![] bcast_S_S128 : (⟨S_, .f32⟩ : BufTy).Contents (Elt F) → (⟨S128, .f32⟩ : BufTy).Contents (Elt F)),
    StableHlo.binary main_v11 main_v12 main_v13 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32) ]
/-- What `rseg1`'s operations write, in order. -/
abbrev rseg1_W : List (Ref sig .tc) := [main_cst_1, main_v11, main_cst_2, main_v12, main_v13, main_c]

/-- 22 operations (statement 20 of @main): big branch, first layer: the column variance of H1 (the call of _var, its select through _where, over record main_call0). -/
abbrev rseg1_1 : List (HloOp τ sig (Elt F)) :=
  [ StableHlo.TRef.nullary (.of main_call0_cst : StableHlo.TRef sig ⟨S_, .f32⟩) (constant S_ .f32 0x00000000#32),
    StableHlo.TRef.binary (.of main_v10 : StableHlo.TRef sig ⟨S1024x128, .f32⟩) (.of main_call0_cst : StableHlo.TRef sig ⟨S_, .f32⟩) (.of main_call0_v0 : StableHlo.TRef sig ⟨S128, .f32⟩) (fun x v => Host.reduceAdd x v reducesTo_S1024x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x44800000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S1024x128, .f32⟩) (broadcastInDim S1024x128 ![0, 1] bcast_S1x128_S1024x128_0_1),
    StableHlo.TRef.binary (.of main_v10 : StableHlo.TRef sig ⟨S1024x128, .f32⟩) (.of main_call0_v4 : StableHlo.TRef sig ⟨S1024x128, .f32⟩) (.of main_call0_v5 : StableHlo.TRef sig ⟨S1024x128, .f32⟩) subf,
    StableHlo.TRef.binary (.of main_call0_v5 : StableHlo.TRef sig ⟨S1024x128, .f32⟩) (.of main_call0_v5 : StableHlo.TRef sig ⟨S1024x128, .f32⟩) (.of main_call0_v6 : StableHlo.TRef sig ⟨S1024x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x44800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S1024x128, .f32⟩) (.of main_call0_cst_2 : StableHlo.TRef sig ⟨S_, .f32⟩) (.of main_call0_v9 : StableHlo.TRef sig ⟨S128, .f32⟩) (fun x v => Host.reduceAdd x v reducesTo_S1024x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v14 : StableHlo.TRef sig ⟨S128, .f32⟩) (fun p a b => select (broadcastInDim S128 ![] bcast_S_S128 p) a b) ]
/-- What `rseg1_1`'s operations write, in order. -/
abbrev rseg1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v14]

/-- 61 operations (statements 21 … 81 of @main): big branch, first layer, the rest: normalise, scale and shift; the 256 similarity features, their sigmoid Gram matrix clamped below at 0.03, masked by A plus the identity, normalised by D^{-1/2} on both sides; times the 128 output features (and the slope 0.01). -/
abbrev rseg1_2 : List (HloOp τ sig (Elt F)) :=
  [ StableHlo.unary main_v13 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S1024x128 ![0, 1] bcast_S1x128_S1024x128_0_1 : (⟨S1x128, .f32⟩ : BufTy).Contents (Elt F) → (⟨S1024x128, .f32⟩ : BufTy).Contents (Elt F)),
    StableHlo.binary main_v10 main_v16 main_v17 (subf : (⟨S1024x128, .f32⟩ : BufTy).Contents (Elt F) → (⟨S1024x128, .f32⟩ : BufTy).Contents (Elt F) → (⟨S1024x128, .f32⟩ : BufTy).Contents (Elt F)),
    StableHlo.nullary main_cst_3 (constant S_ .f32 0x3727C5AC#32),
    StableHlo.unary main_cst_3 main_v18 (broadcastInDim S128 ![] bcast_S_S128 : (⟨S_, .f32⟩ : BufTy).Contents (Elt F) → (⟨S128, .f32⟩ : BufTy).Contents (Elt F)),
    StableHlo.binary main_v14 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.sqrt : (⟨S128, .f32⟩ : BufTy).Contents (Elt F) → (⟨S128, .f32⟩ : BufTy).Contents (Elt F)),
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S1024x128 ![0, 1] bcast_S1x128_S1024x128_0_1 : (⟨S1x128, .f32⟩ : BufTy).Contents (Elt F) → (⟨S1024x128, .f32⟩ : BufTy).Contents (Elt F)),
    StableHlo.binary main_v17 main_v22 main_v23 (Host.divf : (⟨S1024x128, .f32⟩ : BufTy).Contents (Elt F) → (⟨S1024x128, .f32⟩ : BufTy).Contents (Elt F) → (⟨S1024x128, .f32⟩ : BufTy).Contents (Elt F)),
    StableHlo.unary main_arg6 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S1024x128 ![0, 1] bcast_S1x128_S1024x128_0_1 : (⟨S1x128, .f32⟩ : BufTy).Contents (Elt F) → (⟨S1024x128, .f32⟩ : BufTy).Contents (Elt F)),
    StableHlo.binary main_v23 main_v25 main_v26 (mulf : (⟨S1024x128, .f32⟩ : BufTy).Contents (Elt F) → (⟨S1024x128, .f32⟩ : BufTy).Contents (Elt F) → (⟨S1024x128, .f32⟩ : BufTy).Contents (Elt F)),
    StableHlo.unary main_arg7 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S1024x128 ![0, 1] bcast_S1x128_S1024x128_0_1 : (⟨S1x128, .f32⟩ : BufTy).Contents (Elt F) → (⟨S1024x128, .f32⟩ : BufTy).Contents (Elt F)),
    StableHlo.binary main_v26 main_v28 main_v29 (addf : (⟨S1024x128, .f32⟩ : BufTy).Contents (Elt F) → (⟨S1024x128, .f32⟩ : BufTy).Contents (Elt F) → (⟨S1024x128, .f32⟩ : BufTy).Contents (Elt F)),
    StableHlo.unary main_arg8 main_v30 ((transpose S128x256 [1, 0] · transposes_S256x128_S128x256_1_0) : (⟨S256x128, .f32⟩ : BufTy).Contents (Elt F) → (⟨S128x256, .f32⟩ : BufTy).Contents (Elt F)),
    StableHlo.binary main_v29 main_v30 main_v31 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    StableHlo.unary main_arg9 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S1024x256 ![0, 1] bcast_S1x256_S1024x256_0_1 : (⟨S1x256, .f32⟩ : BufTy).Contents (Elt F) → (⟨S1024x256, .f32⟩ : BufTy).Contents (Elt F)),
    StableHlo.binary main_v31 main_v33 main_v34 (addf : (⟨S1024x256, .f32⟩ : BufTy).Contents (Elt F) → (⟨S1024x256, .f32⟩ : BufTy).Contents (Elt F) → (⟨S1024x256, .f32⟩ : BufTy).Contents (Elt F)),
    StableHlo.unary main_v34 main_v35 ((transpose S256x1024 [1, 0] · transposes_S1024x256_S256x1024_1_0) : (⟨S1024x256, .f32⟩ : BufTy).Contents (Elt F) → (⟨S256x1024, .f32⟩ : BufTy).Contents (Elt F)),
    StableHlo.binary main_v34 main_v35 main_v36 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    StableHlo.unary main_v36 main_v37 (Host.negf : (⟨S1024x1024, .f32⟩ : BufTy).Contents (Elt F) → (⟨S1024x1024, .f32⟩ : BufTy).Contents (Elt F)),
    StableHlo.unary main_v37 main_v38 (Host.exp : (⟨S1024x1024, .f32⟩ : BufTy).Contents (Elt F) → (⟨S1024x1024, .f32⟩ : BufTy).Contents (Elt F)),
    StableHlo.nullary main_cst_4 (constant S_ .f32 0x3F800000#32),
    StableHlo.unary main_cst_4 main_v39 (broadcastInDim S1024x1024 ![] bcast_S_S1024x1024 : (⟨S_, .f32⟩ : BufTy).Contents (Elt F) → (⟨S1024x1024, .f32⟩ : BufTy).Contents (Elt F)),
    StableHlo.binary main_v39 main_v38 main_v40 (addf : (⟨S1024x1024, .f32⟩ : BufTy).Contents (Elt F) → (⟨S1024x1024, .f32⟩ : BufTy).Contents (Elt F) → (⟨S1024x1024, .f32⟩ : BufTy).Contents (Elt F)),
    StableHlo.nullary main_cst_5 (constant S_ .f32 0x3F800000#32),
    StableHlo.unary main_cst_5 main_v41 (broadcastInDim S1024x1024 ![] bcast_S_S1024x1024 : (⟨S_, .f32⟩ : BufTy).Contents (Elt F) → (⟨S1024x1024, .f32⟩ : BufTy).Contents (Elt F)),
    StableHlo.binary main_v41 main_v40 main_v42 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_6 (constant S_ .f32 0x3CF5C28F#32),
    StableHlo.unary main_cst_6 main_v43 (broadcastInDim S1024x1024 ![] bcast_S_S1024x1024 : (⟨S_, .f32⟩ : BufTy).Contents (Elt F) → (⟨S1024x1024, .f32⟩ : BufTy).Contents (Elt F)),
    StableHlo.binary main_v42 main_v43 main_v44 (maximumf : (⟨S1024x1024, .f32⟩ : BufTy).Contents (Elt F) → (⟨S1024x1024, .f32⟩ : BufTy).Contents (Elt F) → (⟨S1024x1024, .f32⟩ : BufTy).Contents (Elt F)),
    StableHlo.binary main_v44 main_arg3 main_v45 (mulf : (⟨S1024x1024, .f32⟩ : BufTy).Contents (Elt F) → (⟨S1024x1024, .f32⟩ : BufTy).Contents (Elt F) → (⟨S1024x1024, .f32⟩ : BufTy).Contents (Elt F)),
    StableHlo.nullary main_v46 (iotaInDim S1024x1024 32 0),
    StableHlo.nullary main_v47 (iotaInDim S1024x1024 32 1),
    StableHlo.nullary main_c_7 (constantI S_ 32 0#32),
    StableHlo.unary main_c_7 main_v48 (broadcastInDim S1024x1024 ![] bcast_S_S1024x1024 : (⟨S_, .i32⟩ : BufTy).Contents (Elt F) → (⟨S1024x1024, .i32⟩ : BufTy).Contents (Elt F)),
    StableHlo.binary main_v46 main_v48 main_v49 (addi : (⟨S1024x1024, .i32⟩ : BufTy).Contents (Elt F) → (⟨S1024x1024, .i32⟩ : BufTy).Contents (Elt F) → (⟨S1024x1024, .i32⟩ : BufTy).Contents (Elt F)),
    StableHlo.binary main_v49 main_v47 main_v50 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v50 main_v51 (uitofp .f32 : (⟨S1024x1024, .i1⟩ : BufTy).Contents (Elt F) → (⟨S1024x1024, .f32⟩ : BufTy).Contents (Elt F)),
    StableHlo.binary main_v45 main_v51 main_v52 (addf : (⟨S1024x1024, .f32⟩ : BufTy).Contents (Elt F) → (⟨S1024x1024, .f32⟩ : BufTy).Contents (Elt F) → (⟨S1024x1024, .f32⟩ : BufTy).Contents (Elt F)),
    StableHlo.nullary main_cst_8 (constant S_ .f32 0x00000000#32),
    StableHlo.binary main_v52 main_cst_8 main_v53 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_9 (constant S_ .f32 0xBF000000#32),
    StableHlo.unary main_cst_9 main_v54 (broadcastInDim S1024 ![] bcast_S_S1024 : (⟨S_, .f32⟩ : BufTy).Contents (Elt F) → (⟨S1024, .f32⟩ : BufTy).Contents (Elt F)),
    StableHlo.binary main_v53 main_v54 main_v55 (Host.powf : (⟨S1024, .f32⟩ : BufTy).Contents (Elt F) → (⟨S1024, .f32⟩ : BufTy).Contents (Elt F) → (⟨S1024, .f32⟩ : BufTy).Contents (Elt F)),
    StableHlo.unary main_v55 main_v56 (broadcastInDim S1024x1 ![0] bcast_S1024_S1024x1_0 : (⟨S1024, .f32⟩ : BufTy).Contents (Elt F) → (⟨S1024x1, .f32⟩ : BufTy).Contents (Elt F)),
    StableHlo.unary main_v56 main_v57 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v57 main_v52 main_v58 (mulf : (⟨S1024x1024, .f32⟩ : BufTy).Contents (Elt F) → (⟨S1024x1024, .f32⟩ : BufTy).Contents (Elt F) → (⟨S1024x1024, .f32⟩ : BufTy).Contents (Elt F)),
    StableHlo.unary main_v55 main_v59 (broadcastInDim S1x1024 ![1] bcast_S1024_S1x1024_1 : (⟨S1024, .f32⟩ : BufTy).Contents (Elt F) → (⟨S1x1024, .f32⟩ : BufTy).Contents (Elt F)),
    StableHlo.unary main_v59 main_v60 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v58 main_v60 main_v61 (mulf : (⟨S1024x1024, .f32⟩ : BufTy).Contents (Elt F) → (⟨S1024x1024, .f32⟩ : BufTy).Contents (Elt F) → (⟨S1024x1024, .f32⟩ : BufTy).Contents (Elt F)),
    StableHlo.unary main_arg10 main_v62 ((transpose S128x128 [1, 0] · transposes_S128x128_S128x128_1_0) : (⟨S128x128, .f32⟩ : BufTy).Contents (Elt F) → (⟨S128x128, .f32⟩ : BufTy).Contents (Elt F)),
    StableHlo.binary main_v29 main_v62 main_v63 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S1024x128 ![0, 1] bcast_S1x128_S1024x128_0_1 : (⟨S1x128, .f32⟩ : BufTy).Contents (Elt F) → (⟨S1024x128, .f32⟩ : BufTy).Contents (Elt F)),
    StableHlo.binary main_v63 main_v65 main_v66 (addf : (⟨S1024x128, .f32⟩ : BufTy).Contents (Elt F) → (⟨S1024x128, .f32⟩ : BufTy).Contents (Elt F) → (⟨S1024x128, .f32⟩ : BufTy).Contents (Elt F)),
    StableHlo.binary main_v61 main_v66 main_v67 ((fun l r => Host.dotGeneral dot_S1024x1024_S1024x128_S1024x128_1_0_0_1_n_n none l r) : (⟨S1024x1024, .f32⟩ : BufTy).Contents (Elt F) → (⟨S1024x128, .f32⟩ : BufTy).Contents (Elt F) → (⟨S1024x128, .f32⟩ : BufTy).Contents (Elt F)),
    StableHlo.nullary main_cst_10 (constant S_ .f32 0x3C23D70A#32) ]
/-- What `rseg1_2`'s operations write, in order. -/
abbrev rseg1_2_W : List (Ref sig .tc) := [main_v15, main_v16, main_v17, main_cst_3, main_v18, main_v19, main_v20, main_v21, main_v22, main_v23, main_v24, main_v25, main_v26, main_v27, main_v28, main_v29, main_v30, main_v31, main_v32, main_v33, main_v34, main_v35, main_v36, main_v37, main_v38, main_cst_4, main_v39, main_v40, main_cst_5, main_v41, main_v42, main_cst_6, main_v43, main_v44, main_v45, main_v46, main_v47, main_c_7, main_v48, main_v49, main_v50, main_v51, main_v52, main_cst_8, main_v53, main_cst_9, main_v54, main_v55, main_v56, main_v57, main_v58, main_v59, main_v60, main_v61, main_v62, main_v63, main_v64, main_v65, main_v66, main_v67, main_cst_10]

/-- 7 operations (statement 82 of @main): big branch, first layer: the leaky rectifier (the call of leaky_relu, its select through _where_0, over record main_call1). -/
abbrev rseg1_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S1024x128, .f32⟩) (broadcastInDim S1024x128 ![] bcast_S_S1024x128),
    StableHlo.TRef.binary (.of main_v67 : StableHlo.TRef sig ⟨S1024x128, .f32⟩) (.of main_call1_v0 : StableHlo.TRef sig ⟨S1024x128, .f32⟩) (.of main_call1_v1 : StableHlo.TRef sig ⟨S1024x128, .i1⟩) (cmpf .oge),
    StableHlo.TRef.unary (.of main_cst_10 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S1024x128, .f32⟩) (broadcastInDim S1024x128 ![] bcast_S_S1024x128),
    StableHlo.TRef.binary (.of main_call1_v3 : StableHlo.TRef sig ⟨S1024x128, .f32⟩) (.of main_v67 : StableHlo.TRef sig ⟨S1024x128, .f32⟩) (.of main_call1_v4 : StableHlo.TRef sig ⟨S1024x128, .f32⟩) mulf,
    StableHlo.TRef.ternary (.of main_call1_v1 : StableHlo.TRef sig ⟨S1024x128, .i1⟩) (.of main_v67 : StableHlo.TRef sig ⟨S1024x128, .f32⟩) (.of main_call1_v4 : StableHlo.TRef sig ⟨S1024x128, .f32⟩) (.of main_v68 : StableHlo.TRef sig ⟨S1024x128, .f32⟩) select ]
/-- What `rseg1_3`'s operations write, in order. -/
abbrev rseg1_3_W : List (Ref sig .tc) := [main_call1_cst, main_call1_v0, main_call1_v1, main_call1_v2, main_call1_v3, main_call1_v4, main_v68]

/-- 6 operations (statements 83 … 88 of @main): big branch, second layer: the batch-norm's column mean (and the zero correction). -/
abbrev rseg1_4 : List (HloOp τ sig (Elt F)) :=
  [ StableHlo.nullary main_cst_11 (constant S_ .f32 0x00000000#32),
    StableHlo.binary main_v68 main_cst_11 main_v69 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    StableHlo.nullary main_cst_12 (constant S_ .f32 0x44800000#32),
    StableHlo.unary main_cst_12 main_v70 (broadcastInDim S128 ![] bcast_S_S128 : (⟨S_, .f32⟩ : BufTy).Contents (Elt F) → (⟨S128, .f32⟩ : BufTy).Contents (Elt F)),
    StableHlo.binary main_v69 main_v70 main_v71 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32) ]
/-- What `rseg1_4`'s operations write, in order. -/
abbrev rseg1_4_W : List (Ref sig .tc) := [main_cst_11, main_v69, main_cst_12, main_v70, main_v71, main_c_13]

/-- 22 operations (statement 89 of @main): big branch, second layer: the column variance (the call of _var over record main_call2). -/
abbrev rseg1_5 : List (HloOp τ sig (Elt F)) :=
  [ StableHlo.TRef.nullary (.of main_call2_cst : StableHlo.TRef sig ⟨S_, .f32⟩) (constant S_ .f32 0x00000000#32),
    StableHlo.TRef.binary (.of main_v68 : StableHlo.TRef sig ⟨S1024x128, .f32⟩) (.of main_call2_cst : StableHlo.TRef sig ⟨S_, .f32⟩) (.of main_call2_v0 : StableHlo.TRef sig ⟨S128, .f32⟩) (fun x v => Host.reduceAdd x v reducesTo_S1024x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x44800000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S1024x128, .f32⟩) (broadcastInDim S1024x128 ![0, 1] bcast_S1x128_S1024x128_0_1),
    StableHlo.TRef.binary (.of main_v68 : StableHlo.TRef sig ⟨S1024x128, .f32⟩) (.of main_call2_v4 : StableHlo.TRef sig ⟨S1024x128, .f32⟩) (.of main_call2_v5 : StableHlo.TRef sig ⟨S1024x128, .f32⟩) subf,
    StableHlo.TRef.binary (.of main_call2_v5 : StableHlo.TRef sig ⟨S1024x128, .f32⟩) (.of main_call2_v5 : StableHlo.TRef sig ⟨S1024x128, .f32⟩) (.of main_call2_v6 : StableHlo.TRef sig ⟨S1024x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x44800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S1024x128, .f32⟩) (.of main_call2_cst_2 : StableHlo.TRef sig ⟨S_, .f32⟩) (.of main_call2_v9 : StableHlo.TRef sig ⟨S128, .f32⟩) (fun x v => Host.reduceAdd x v reducesTo_S1024x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v72 : StableHlo.TRef sig ⟨S128, .f32⟩) (fun p a b => select (broadcastInDim S128 ![] bcast_S_S128 p) a b) ]
/-- What `rseg1_5`'s operations write, in order. -/
abbrev rseg1_5_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v72]

/-- 61 operations (statements 90 … 150 of @main): big branch, second layer, the rest: as the first, with 64 output features (and the slope). -/
abbrev rseg1_6 : List (HloOp τ sig (Elt F)) :=
  [ StableHlo.unary main_v71 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S1024x128 ![0, 1] bcast_S1x128_S1024x128_0_1 : (⟨S1x128, .f32⟩ : BufTy).Contents (Elt F) → (⟨S1024x128, .f32⟩ : BufTy).Contents (Elt F)),
    StableHlo.binary main_v68 main_v74 main_v75 (subf : (⟨S1024x128, .f32⟩ : BufTy).Contents (Elt F) → (⟨S1024x128, .f32⟩ : BufTy).Contents (Elt F) → (⟨S1024x128, .f32⟩ : BufTy).Contents (Elt F)),
    StableHlo.nullary main_cst_14 (constant S_ .f32 0x3727C5AC#32),
    StableHlo.unary main_cst_14 main_v76 (broadcastInDim S128 ![] bcast_S_S128 : (⟨S_, .f32⟩ : BufTy).Contents (Elt F) → (⟨S128, .f32⟩ : BufTy).Contents (Elt F)),
    StableHlo.binary main_v72 main_v76 main_v77 (addf : (⟨S128, .f32⟩ : BufTy).Contents (Elt F) → (⟨S128, .f32⟩ : BufTy).Contents (Elt F) → (⟨S128, .f32⟩ : BufTy).Contents (Elt F)),
    StableHlo.unary main_v77 main_v78 (Host.sqrt : (⟨S128, .f32⟩ : BufTy).Contents (Elt F) → (⟨S128, .f32⟩ : BufTy).Contents (Elt F)),
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S1024x128 ![0, 1] bcast_S1x128_S1024x128_0_1 : (⟨S1x128, .f32⟩ : BufTy).Contents (Elt F) → (⟨S1024x128, .f32⟩ : BufTy).Contents (Elt F)),
    StableHlo.binary main_v75 main_v80 main_v81 (Host.divf : (⟨S1024x128, .f32⟩ : BufTy).Contents (Elt F) → (⟨S1024x128, .f32⟩ : BufTy).Contents (Elt F) → (⟨S1024x128, .f32⟩ : BufTy).Contents (Elt F)),
    StableHlo.unary main_arg12 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S1024x128 ![0, 1] bcast_S1x128_S1024x128_0_1 : (⟨S1x128, .f32⟩ : BufTy).Contents (Elt F) → (⟨S1024x128, .f32⟩ : BufTy).Contents (Elt F)),
    StableHlo.binary main_v81 main_v83 main_v84 (mulf : (⟨S1024x128, .f32⟩ : BufTy).Contents (Elt F) → (⟨S1024x128, .f32⟩ : BufTy).Contents (Elt F) → (⟨S1024x128, .f32⟩ : BufTy).Contents (Elt F)),
    StableHlo.unary main_arg13 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S1024x128 ![0, 1] bcast_S1x128_S1024x128_0_1 : (⟨S1x128, .f32⟩ : BufTy).Contents (Elt F) → (⟨S1024x128, .f32⟩ : BufTy).Contents (Elt F)),
    StableHlo.binary main_v84 main_v86 main_v87 (addf : (⟨S1024x128, .f32⟩ : BufTy).Contents (Elt F) → (⟨S1024x128, .f32⟩ : BufTy).Contents (Elt F) → (⟨S1024x128, .f32⟩ : BufTy).Contents (Elt F)),
    StableHlo.unary main_arg14 main_v88 ((transpose S128x256 [1, 0] · transposes_S256x128_S128x256_1_0) : (⟨S256x128, .f32⟩ : BufTy).Contents (Elt F) → (⟨S128x256, .f32⟩ : BufTy).Contents (Elt F)),
    StableHlo.binary main_v87 main_v88 main_v89 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    StableHlo.unary main_arg15 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S1024x256 ![0, 1] bcast_S1x256_S1024x256_0_1 : (⟨S1x256, .f32⟩ : BufTy).Contents (Elt F) → (⟨S1024x256, .f32⟩ : BufTy).Contents (Elt F)),
    StableHlo.binary main_v89 main_v91 main_v92 (addf : (⟨S1024x256, .f32⟩ : BufTy).Contents (Elt F) → (⟨S1024x256, .f32⟩ : BufTy).Contents (Elt F) → (⟨S1024x256, .f32⟩ : BufTy).Contents (Elt F)),
    StableHlo.unary main_v92 main_v93 ((transpose S256x1024 [1, 0] · transposes_S1024x256_S256x1024_1_0) : (⟨S1024x256, .f32⟩ : BufTy).Contents (Elt F) → (⟨S256x1024, .f32⟩ : BufTy).Contents (Elt F)),
    StableHlo.binary main_v92 main_v93 main_v94 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    StableHlo.unary main_v94 main_v95 (Host.negf : (⟨S1024x1024, .f32⟩ : BufTy).Contents (Elt F) → (⟨S1024x1024, .f32⟩ : BufTy).Contents (Elt F)),
    StableHlo.unary main_v95 main_v96 (Host.exp : (⟨S1024x1024, .f32⟩ : BufTy).Contents (Elt F) → (⟨S1024x1024, .f32⟩ : BufTy).Contents (Elt F)),
    StableHlo.nullary main_cst_15 (constant S_ .f32 0x3F800000#32),
    StableHlo.unary main_cst_15 main_v97 (broadcastInDim S1024x1024 ![] bcast_S_S1024x1024 : (⟨S_, .f32⟩ : BufTy).Contents (Elt F) → (⟨S1024x1024, .f32⟩ : BufTy).Contents (Elt F)),
    StableHlo.binary main_v97 main_v96 main_v98 (addf : (⟨S1024x1024, .f32⟩ : BufTy).Contents (Elt F) → (⟨S1024x1024, .f32⟩ : BufTy).Contents (Elt F) → (⟨S1024x1024, .f32⟩ : BufTy).Contents (Elt F)),
    StableHlo.nullary main_cst_16 (constant S_ .f32 0x3F800000#32),
    StableHlo.unary main_cst_16 main_v99 (broadcastInDim S1024x1024 ![] bcast_S_S1024x1024 : (⟨S_, .f32⟩ : BufTy).Contents (Elt F) → (⟨S1024x1024, .f32⟩ : BufTy).Contents (Elt F)),
    StableHlo.binary main_v99 main_v98 main_v100 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_17 (constant S_ .f32 0x3CF5C28F#32),
    StableHlo.unary main_cst_17 main_v101 (broadcastInDim S1024x1024 ![] bcast_S_S1024x1024 : (⟨S_, .f32⟩ : BufTy).Contents (Elt F) → (⟨S1024x1024, .f32⟩ : BufTy).Contents (Elt F)),
    StableHlo.binary main_v100 main_v101 main_v102 (maximumf : (⟨S1024x1024, .f32⟩ : BufTy).Contents (Elt F) → (⟨S1024x1024, .f32⟩ : BufTy).Contents (Elt F) → (⟨S1024x1024, .f32⟩ : BufTy).Contents (Elt F)),
    StableHlo.binary main_v102 main_arg3 main_v103 (mulf : (⟨S1024x1024, .f32⟩ : BufTy).Contents (Elt F) → (⟨S1024x1024, .f32⟩ : BufTy).Contents (Elt F) → (⟨S1024x1024, .f32⟩ : BufTy).Contents (Elt F)),
    StableHlo.nullary main_v104 (iotaInDim S1024x1024 32 0),
    StableHlo.nullary main_v105 (iotaInDim S1024x1024 32 1),
    StableHlo.nullary main_c_18 (constantI S_ 32 0#32),
    StableHlo.unary main_c_18 main_v106 (broadcastInDim S1024x1024 ![] bcast_S_S1024x1024 : (⟨S_, .i32⟩ : BufTy).Contents (Elt F) → (⟨S1024x1024, .i32⟩ : BufTy).Contents (Elt F)),
    StableHlo.binary main_v104 main_v106 main_v107 (addi : (⟨S1024x1024, .i32⟩ : BufTy).Contents (Elt F) → (⟨S1024x1024, .i32⟩ : BufTy).Contents (Elt F) → (⟨S1024x1024, .i32⟩ : BufTy).Contents (Elt F)),
    StableHlo.binary main_v107 main_v105 main_v108 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v108 main_v109 (uitofp .f32 : (⟨S1024x1024, .i1⟩ : BufTy).Contents (Elt F) → (⟨S1024x1024, .f32⟩ : BufTy).Contents (Elt F)),
    StableHlo.binary main_v103 main_v109 main_v110 (addf : (⟨S1024x1024, .f32⟩ : BufTy).Contents (Elt F) → (⟨S1024x1024, .f32⟩ : BufTy).Contents (Elt F) → (⟨S1024x1024, .f32⟩ : BufTy).Contents (Elt F)),
    StableHlo.nullary main_cst_19 (constant S_ .f32 0x00000000#32),
    StableHlo.binary main_v110 main_cst_19 main_v111 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_20 (constant S_ .f32 0xBF000000#32),
    StableHlo.unary main_cst_20 main_v112 (broadcastInDim S1024 ![] bcast_S_S1024 : (⟨S_, .f32⟩ : BufTy).Contents (Elt F) → (⟨S1024, .f32⟩ : BufTy).Contents (Elt F)),
    StableHlo.binary main_v111 main_v112 main_v113 (Host.powf : (⟨S1024, .f32⟩ : BufTy).Contents (Elt F) → (⟨S1024, .f32⟩ : BufTy).Contents (Elt F) → (⟨S1024, .f32⟩ : BufTy).Contents (Elt F)),
    StableHlo.unary main_v113 main_v114 (broadcastInDim S1024x1 ![0] bcast_S1024_S1024x1_0 : (⟨S1024, .f32⟩ : BufTy).Contents (Elt F) → (⟨S1024x1, .f32⟩ : BufTy).Contents (Elt F)),
    StableHlo.unary main_v114 main_v115 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v115 main_v110 main_v116 (mulf : (⟨S1024x1024, .f32⟩ : BufTy).Contents (Elt F) → (⟨S1024x1024, .f32⟩ : BufTy).Contents (Elt F) → (⟨S1024x1024, .f32⟩ : BufTy).Contents (Elt F)),
    StableHlo.unary main_v113 main_v117 (broadcastInDim S1x1024 ![1] bcast_S1024_S1x1024_1 : (⟨S1024, .f32⟩ : BufTy).Contents (Elt F) → (⟨S1x1024, .f32⟩ : BufTy).Contents (Elt F)),
    StableHlo.unary main_v117 main_v118 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v116 main_v118 main_v119 (mulf : (⟨S1024x1024, .f32⟩ : BufTy).Contents (Elt F) → (⟨S1024x1024, .f32⟩ : BufTy).Contents (Elt F) → (⟨S1024x1024, .f32⟩ : BufTy).Contents (Elt F)),
    StableHlo.unary main_arg16 main_v120 ((transpose S128x64 [1, 0] · transposes_S64x128_S128x64_1_0) : (⟨S64x128, .f32⟩ : BufTy).Contents (Elt F) → (⟨S128x64, .f32⟩ : BufTy).Contents (Elt F)),
    StableHlo.binary main_v87 main_v120 main_v121 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    StableHlo.unary main_arg17 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S1024x64 ![0, 1] bcast_S1x64_S1024x64_0_1 : (⟨S1x64, .f32⟩ : BufTy).Contents (Elt F) → (⟨S1024x64, .f32⟩ : BufTy).Contents (Elt F)),
    StableHlo.binary main_v121 main_v123 main_v124 (addf : (⟨S1024x64, .f32⟩ : BufTy).Contents (Elt F) → (⟨S1024x64, .f32⟩ : BufTy).Contents (Elt F) → (⟨S1024x64, .f32⟩ : BufTy).Contents (Elt F)),
    StableHlo.binary main_v119 main_v124 main_v125 ((fun l r => Host.dotGeneral dot_S1024x1024_S1024x64_S1024x64_1_0_0_1_n_n none l r) : (⟨S1024x1024, .f32⟩ : BufTy).Contents (Elt F) → (⟨S1024x64, .f32⟩ : BufTy).Contents (Elt F) → (⟨S1024x64, .f32⟩ : BufTy).Contents (Elt F)),
    StableHlo.nullary main_cst_21 (constant S_ .f32 0x3C23D70A#32) ]
/-- What `rseg1_6`'s operations write, in order. -/
abbrev rseg1_6_W : List (Ref sig .tc) := [main_v73, main_v74, main_v75, main_cst_14, main_v76, main_v77, main_v78, main_v79, main_v80, main_v81, main_v82, main_v83, main_v84, main_v85, main_v86, main_v87, main_v88, main_v89, main_v90, main_v91, main_v92, main_v93, main_v94, main_v95, main_v96, main_cst_15, main_v97, main_v98, main_cst_16, main_v99, main_v100, main_cst_17, main_v101, main_v102, main_v103, main_v104, main_v105, main_c_18, main_v106, main_v107, main_v108, main_v109, main_v110, main_cst_19, main_v111, main_cst_20, main_v112, main_v113, main_v114, main_v115, main_v116, main_v117, main_v118, main_v119, main_v120, main_v121, main_v122, main_v123, main_v124, main_v125, main_cst_21]

/-- 7 operations (statement 151 of @main): big branch, second layer: the leaky rectifier (the call of leaky_relu_1 over record main_call3). -/
abbrev rseg1_7 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1024x64, .f32⟩) (broadcastInDim S1024x64 ![] bcast_S_S1024x64),
    StableHlo.TRef.binary (.of main_v125 : StableHlo.TRef sig ⟨S1024x64, .f32⟩) (.of main_call3_v0 : StableHlo.TRef sig ⟨S1024x64, .f32⟩) (.of main_call3_v1 : StableHlo.TRef sig ⟨S1024x64, .i1⟩) (cmpf .oge),
    StableHlo.TRef.unary (.of main_cst_21 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S1024x64, .f32⟩) (broadcastInDim S1024x64 ![] bcast_S_S1024x64),
    StableHlo.TRef.binary (.of main_call3_v3 : StableHlo.TRef sig ⟨S1024x64, .f32⟩) (.of main_v125 : StableHlo.TRef sig ⟨S1024x64, .f32⟩) (.of main_call3_v4 : StableHlo.TRef sig ⟨S1024x64, .f32⟩) mulf,
    StableHlo.TRef.ternary (.of main_call3_v1 : StableHlo.TRef sig ⟨S1024x64, .i1⟩) (.of main_v125 : StableHlo.TRef sig ⟨S1024x64, .f32⟩) (.of main_call3_v4 : StableHlo.TRef sig ⟨S1024x64, .f32⟩) (.of main_v126 : StableHlo.TRef sig ⟨S1024x64, .f32⟩) select ]
/-- What `rseg1_7`'s operations write, in order. -/
abbrev rseg1_7_W : List (Ref sig .tc) := [main_call3_cst, main_call3_v0, main_call3_v1, main_call3_v2, main_call3_v3, main_call3_v4, main_v126]

/-- 1 operation (statement 152 of @main): the big branch spread back over the pixels: res_big = Q · H1 (65536×64). -/
abbrev rsegBig : List (HloOp τ sig (Elt F)) :=
  [ StableHlo.binary main_arg2 main_v126 main_v127 ((fun l r => Host.dotGeneral dot_S65536x1024_S1024x64_S65536x64_1_0_0_1_n_n none l r) : (⟨S65536x1024, .f32⟩ : BufTy).Contents (Elt F) → (⟨S1024x64, .f32⟩ : BufTy).Contents (Elt F) → (⟨S65536x64, .f32⟩ : BufTy).Contents (Elt F)) ]
/-- What `rsegBig`'s operations write, in order. -/
abbrev rsegBig_W : List (Ref sig .tc) := [main_v127]

/-- 2 operations (statements 153 … 154 of @main): the small branch's pooled features H2 = norm_Qsmallᵀ · flat (2048×128). -/
abbrev rseg2 : List (HloOp τ sig (Elt F)) :=
  [ StableHlo.unary main_v8 main_v128 ((transpose S2048x65536 [1, 0] · transposes_S65536x2048_S2048x65536_1_0) : (⟨S65536x2048, .f32⟩ : BufTy).Contents (Elt F) → (⟨S2048x65536, .f32⟩ : BufTy).Contents (Elt F)),
    StableHlo.binary main_v128 main_v0 main_v129 ((fun l r => Host.dotGeneral dot_S2048x65536_S65536x128_S2048x128_1_0_0_1_n_n none l r) : (⟨S2048x65536, .f32⟩ : BufTy).Contents (Elt F) → (⟨S65536x128, .f32⟩ : BufTy).Contents (Elt F) → (⟨S2048x128, .f32⟩ : BufTy).Contents (Elt F)) ]
/-- What `rseg2`'s operations write, in order. -/
abbrev rseg2_W : List (Ref sig .tc) := [main_v128, main_v129]

/-- 6 operations (statements 155 … 160 of @main): small branch, first layer: the batch-norm's column mean of H2 (and the zero correction). -/
abbrev rseg3 : List (HloOp τ sig (Elt F)) :=
  [ StableHlo.nullary main_cst_22 (constant S_ .f32 0x00000000#32),
    StableHlo.binary main_v129 main_cst_22 main_v130 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_23 (constant S_ .f32 0x45000000#32),
    StableHlo.unary main_cst_23 main_v131 (broadcastInDim S128 ![] bcast_S_S128 : (⟨S_, .f32⟩ : BufTy).Contents (Elt F) → (⟨S128, .f32⟩ : BufTy).Contents (Elt F)),
    StableHlo.binary main_v130 main_v131 main_v132 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32) ]
/-- What `rseg3`'s operations write, in order. -/
abbrev rseg3_W : List (Ref sig .tc) := [main_cst_22, main_v130, main_cst_23, main_v131, main_v132, main_c_24]

/-- 22 operations (statement 161 of @main): small branch, first layer: the column variance (the call of _var_3 over record main_call4). -/
abbrev rseg3_1 : List (HloOp τ sig (Elt F)) :=
  [ StableHlo.TRef.nullary (.of main_call4_cst : StableHlo.TRef sig ⟨S_, .f32⟩) (constant S_ .f32 0x00000000#32),
    StableHlo.TRef.binary (.of main_v129 : StableHlo.TRef sig ⟨S2048x128, .f32⟩) (.of main_call4_cst : StableHlo.TRef sig ⟨S_, .f32⟩) (.of main_call4_v0 : StableHlo.TRef sig ⟨S128, .f32⟩) (fun x v => Host.reduceAdd x v reducesTo_S2048x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x45000000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S2048x128, .f32⟩) (broadcastInDim S2048x128 ![0, 1] bcast_S1x128_S2048x128_0_1),
    StableHlo.TRef.binary (.of main_v129 : StableHlo.TRef sig ⟨S2048x128, .f32⟩) (.of main_call4_v4 : StableHlo.TRef sig ⟨S2048x128, .f32⟩) (.of main_call4_v5 : StableHlo.TRef sig ⟨S2048x128, .f32⟩) subf,
    StableHlo.TRef.binary (.of main_call4_v5 : StableHlo.TRef sig ⟨S2048x128, .f32⟩) (.of main_call4_v5 : StableHlo.TRef sig ⟨S2048x128, .f32⟩) (.of main_call4_v6 : StableHlo.TRef sig ⟨S2048x128, .f32⟩) mulf,
    StableHlo.TRef.unary (.of main_c_24 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x45000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S2048x128, .f32⟩) (.of main_call4_cst_2 : StableHlo.TRef sig ⟨S_, .f32⟩) (.of main_call4_v9 : StableHlo.TRef sig ⟨S128, .f32⟩) (fun x v => Host.reduceAdd x v reducesTo_S2048x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v133 : StableHlo.TRef sig ⟨S128, .f32⟩) (fun p a b => select (broadcastInDim S128 ![] bcast_S_S128 p) a b) ]
/-- What `rseg3_1`'s operations write, in order. -/
abbrev rseg3_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v133]

/-- 58 operations (statements 162 … 219 of @main): small branch, first layer, the rest: as the big branch's without the clamp, masked by Asmall (and the slope). -/
abbrev rseg3_2 : List (HloOp τ sig (Elt F)) :=
  [ StableHlo.unary main_v132 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S2048x128 ![0, 1] bcast_S1x128_S2048x128_0_1 : (⟨S1x128, .f32⟩ : BufTy).Contents (Elt F) → (⟨S2048x128, .f32⟩ : BufTy).Contents (Elt F)),
    StableHlo.binary main_v129 main_v135 main_v136 (subf : (⟨S2048x128, .f32⟩ : BufTy).Contents (Elt F) → (⟨S2048x128, .f32⟩ : BufTy).Contents (Elt F) → (⟨S2048x128, .f32⟩ : BufTy).Contents (Elt F)),
    StableHlo.nullary main_cst_25 (constant S_ .f32 0x3727C5AC#32),
    StableHlo.unary main_cst_25 main_v137 (broadcastInDim S128 ![] bcast_S_S128 : (⟨S_, .f32⟩ : BufTy).Contents (Elt F) → (⟨S128, .f32⟩ : BufTy).Contents (Elt F)),
    StableHlo.binary main_v133 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.sqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S2048x128 ![0, 1] bcast_S1x128_S2048x128_0_1 : (⟨S1x128, .f32⟩ : BufTy).Contents (Elt F) → (⟨S2048x128, .f32⟩ : BufTy).Contents (Elt F)),
    StableHlo.binary main_v136 main_v141 main_v142 (Host.divf : (⟨S2048x128, .f32⟩ : BufTy).Contents (Elt F) → (⟨S2048x128, .f32⟩ : BufTy).Contents (Elt F) → (⟨S2048x128, .f32⟩ : BufTy).Contents (Elt F)),
    StableHlo.unary main_arg18 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S2048x128 ![0, 1] bcast_S1x128_S2048x128_0_1 : (⟨S1x128, .f32⟩ : BufTy).Contents (Elt F) → (⟨S2048x128, .f32⟩ : BufTy).Contents (Elt F)),
    StableHlo.binary main_v142 main_v144 main_v145 (mulf : (⟨S2048x128, .f32⟩ : BufTy).Contents (Elt F) → (⟨S2048x128, .f32⟩ : BufTy).Contents (Elt F) → (⟨S2048x128, .f32⟩ : BufTy).Contents (Elt F)),
    StableHlo.unary main_arg19 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S2048x128 ![0, 1] bcast_S1x128_S2048x128_0_1 : (⟨S1x128, .f32⟩ : BufTy).Contents (Elt F) → (⟨S2048x128, .f32⟩ : BufTy).Contents (Elt F)),
    StableHlo.binary main_v145 main_v147 main_v148 (addf : (⟨S2048x128, .f32⟩ : BufTy).Contents (Elt F) → (⟨S2048x128, .f32⟩ : BufTy).Contents (Elt F) → (⟨S2048x128, .f32⟩ : BufTy).Contents (Elt F)),
    StableHlo.unary main_arg20 main_v149 ((transpose S128x256 [1, 0] · transposes_S256x128_S128x256_1_0) : (⟨S256x128, .f32⟩ : BufTy).Contents (Elt F) → (⟨S128x256, .f32⟩ : BufTy).Contents (Elt F)),
    StableHlo.binary main_v148 main_v149 main_v150 ((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F)),
    StableHlo.unary main_arg21 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S2048x256 ![0, 1] bcast_S1x256_S2048x256_0_1 : (⟨S1x256, .f32⟩ : BufTy).Contents (Elt F) → (⟨S2048x256, .f32⟩ : BufTy).Contents (Elt F)),
    StableHlo.binary main_v150 main_v152 main_v153 (addf : (⟨S2048x256, .f32⟩ : BufTy).Contents (Elt F) → (⟨S2048x256, .f32⟩ : BufTy).Contents (Elt F) → (⟨S2048x256, .f32⟩ : BufTy).Contents (Elt F)),
    StableHlo.unary main_v153 main_v154 ((transpose S256x2048 [1, 0] · transposes_S2048x256_S256x2048_1_0) : (⟨S2048x256, .f32⟩ : BufTy).Contents (Elt F) → (⟨S256x2048, .f32⟩ : BufTy).Contents (Elt F)),
    StableHlo.binary main_v153 main_v154 main_v155 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v155 main_v156 (Host.negf : (⟨S2048x2048, .f32⟩ : BufTy).Contents (Elt F) → (⟨S2048x2048, .f32⟩ : BufTy).Contents (Elt F)),
    StableHlo.unary main_v156 main_v157 (Host.exp : (⟨S2048x2048, .f32⟩ : BufTy).Contents (Elt F) → (⟨S2048x2048, .f32⟩ : BufTy).Contents (Elt F)),
    StableHlo.nullary main_cst_26 (constant S_ .f32 0x3F800000#32),
    StableHlo.unary main_cst_26 main_v158 (broadcastInDim S2048x2048 ![] bcast_S_S2048x2048 : (⟨S_, .f32⟩ : BufTy).Contents (Elt F) → (⟨S2048x2048, .f32⟩ : BufTy).Contents (Elt F)),
    StableHlo.binary main_v158 main_v157 main_v159 (addf : (⟨S2048x2048, .f32⟩ : BufTy).Contents (Elt F) → (⟨S2048x2048, .f32⟩ : BufTy).Contents (Elt F) → (⟨S2048x2048, .f32⟩ : BufTy).Contents (Elt F)),
    StableHlo.nullary main_cst_27 (constant S_ .f32 0x3F800000#32),
    StableHlo.unary main_cst_27 main_v160 (broadcastInDim S2048x2048 ![] bcast_S_S2048x2048 : (⟨S_, .f32⟩ : BufTy).Contents (Elt F) → (⟨S2048x2048, .f32⟩ : BufTy).Contents (Elt F)),
    StableHlo.binary main_v160 main_v159 main_v161 (Host.divf : (⟨S2048x2048, .f32⟩ : BufTy).Contents (Elt F) → (⟨S2048x2048, .f32⟩ : BufTy).Contents (Elt F) → (⟨S2048x2048, .f32⟩ : BufTy).Contents (Elt F)),
    StableHlo.binary main_v161 main_arg5 main_v162 (mulf : (⟨S2048x2048, .f32⟩ : BufTy).Contents (Elt F) → (⟨S2048x2048, .f32⟩ : BufTy).Contents (Elt F) → (⟨S2048x2048, .f32⟩ : BufTy).Contents (Elt F)),
    StableHlo.nullary main_v163 (iotaInDim S2048x2048 32 0),
    StableHlo.nullary main_v164 (iotaInDim S2048x2048 32 1),
    StableHlo.nullary main_c_28 (constantI S_ 32 0#32),
    StableHlo.unary main_c_28 main_v165 (broadcastInDim S2048x2048 ![] bcast_S_S2048x2048 : (⟨S_, .i32⟩ : BufTy).Contents (Elt F) → (⟨S2048x2048, .i32⟩ : BufTy).Contents (Elt F)),
    StableHlo.binary main_v163 main_v165 main_v166 (addi : (⟨S2048x2048, .i32⟩ : BufTy).Contents (Elt F) → (⟨S2048x2048, .i32⟩ : BufTy).Contents (Elt F) → (⟨S2048x2048, .i32⟩ : BufTy).Contents (Elt F)),
    StableHlo.binary main_v166 main_v164 main_v167 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v167 main_v168 (uitofp .f32 : (⟨S2048x2048, .i1⟩ : BufTy).Contents (Elt F) → (⟨S2048x2048, .f32⟩ : BufTy).Contents (Elt F)),
    StableHlo.binary main_v162 main_v168 main_v169 (addf : (⟨S2048x2048, .f32⟩ : BufTy).Contents (Elt F) → (⟨S2048x2048, .f32⟩ : BufTy).Contents (Elt F) → (⟨S2048x2048, .f32⟩ : BufTy).Contents (Elt F)),
    StableHlo.nullary main_cst_29 (constant S_ .f32 0x00000000#32),
    StableHlo.binary main_v169 main_cst_29 main_v170 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_30 (constant S_ .f32 0xBF000000#32),
    StableHlo.unary main_cst_30 main_v171 (broadcastInDim S2048 ![] bcast_S_S2048 : (⟨S_, .f32⟩ : BufTy).Contents (Elt F) → (⟨S2048, .f32⟩ : BufTy).Contents (Elt F)),
    StableHlo.binary main_v170 main_v171 main_v172 (Host.powf : (⟨S2048, .f32⟩ : BufTy).Contents (Elt F) → (⟨S2048, .f32⟩ : BufTy).Contents (Elt F) → (⟨S2048, .f32⟩ : BufTy).Contents (Elt F)),
    StableHlo.unary main_v172 main_v173 (broadcastInDim S2048x1 ![0] bcast_S2048_S2048x1_0 : (⟨S2048, .f32⟩ : BufTy).Contents (Elt F) → (⟨S2048x1, .f32⟩ : BufTy).Contents (Elt F)),
    StableHlo.unary main_v173 main_v174 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v174 main_v169 main_v175 (mulf : (⟨S2048x2048, .f32⟩ : BufTy).Contents (Elt F) → (⟨S2048x2048, .f32⟩ : BufTy).Contents (Elt F) → (⟨S2048x2048, .f32⟩ : BufTy).Contents (Elt F)),
    StableHlo.unary main_v172 main_v176 (broadcastInDim S1x2048 ![1] bcast_S2048_S1x2048_1 : (⟨S2048, .f32⟩ : BufTy).Contents (Elt F) → (⟨S1x2048, .f32⟩ : BufTy).Contents (Elt F)),
    StableHlo.unary main_v176 main_v177 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v175 main_v177 main_v178 (mulf : (⟨S2048x2048, .f32⟩ : BufTy).Contents (Elt F) → (⟨S2048x2048, .f32⟩ : BufTy).Contents (Elt F) → (⟨S2048x2048, .f32⟩ : BufTy).Contents (Elt F)),
    StableHlo.unary main_arg22 main_v179 ((transpose S128x128 [1, 0] · transposes_S128x128_S128x128_1_0) : (⟨S128x128, .f32⟩ : BufTy).Contents (Elt F) → (⟨S128x128, .f32⟩ : BufTy).Contents (Elt F)),
    StableHlo.binary main_v148 main_v179 main_v180 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg23 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S2048x128 ![0, 1] bcast_S1x128_S2048x128_0_1 : (⟨S1x128, .f32⟩ : BufTy).Contents (Elt F) → (⟨S2048x128, .f32⟩ : BufTy).Contents (Elt F)),
    StableHlo.binary main_v180 main_v182 main_v183 (addf : (⟨S2048x128, .f32⟩ : BufTy).Contents (Elt F) → (⟨S2048x128, .f32⟩ : BufTy).Contents (Elt F) → (⟨S2048x128, .f32⟩ : BufTy).Contents (Elt F)),
    StableHlo.binary main_v178 main_v183 main_v184 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    StableHlo.nullary main_cst_31 (constant S_ .f32 0x3C23D70A#32) ]
/-- What `rseg3_2`'s operations write, in order. -/
abbrev rseg3_2_W : List (Ref sig .tc) := [main_v134, main_v135, main_v136, main_cst_25, main_v137, main_v138, main_v139, main_v140, main_v141, main_v142, main_v143, main_v144, main_v145, main_v146, main_v147, main_v148, main_v149, main_v150, main_v151, main_v152, main_v153, main_v154, main_v155, main_v156, main_v157, main_cst_26, main_v158, main_v159, main_cst_27, main_v160, main_v161, main_v162, main_v163, main_v164, main_c_28, main_v165, main_v166, main_v167, main_v168, main_v169, main_cst_29, main_v170, main_cst_30, main_v171, main_v172, main_v173, main_v174, main_v175, main_v176, main_v177, main_v178, main_v179, main_v180, main_v181, main_v182, main_v183, main_v184, main_cst_31]

/-- 7 operations (statement 220 of @main): small branch, first layer: the leaky rectifier (the call of leaky_relu_4 over record main_call5). -/
abbrev rseg3_3 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S2048x128, .f32⟩) (broadcastInDim S2048x128 ![] bcast_S_S2048x128),
    StableHlo.TRef.binary (.of main_v184 : StableHlo.TRef sig ⟨S2048x128, .f32⟩) (.of main_call5_v0 : StableHlo.TRef sig ⟨S2048x128, .f32⟩) (.of main_call5_v1 : StableHlo.TRef sig ⟨S2048x128, .i1⟩) (cmpf .oge),
    StableHlo.TRef.unary (.of main_cst_31 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S2048x128, .f32⟩) (broadcastInDim S2048x128 ![] bcast_S_S2048x128),
    StableHlo.TRef.binary (.of main_call5_v3 : StableHlo.TRef sig ⟨S2048x128, .f32⟩) (.of main_v184 : StableHlo.TRef sig ⟨S2048x128, .f32⟩) (.of main_call5_v4 : StableHlo.TRef sig ⟨S2048x128, .f32⟩) mulf,
    StableHlo.TRef.ternary (.of main_call5_v1 : StableHlo.TRef sig ⟨S2048x128, .i1⟩) (.of main_v184 : StableHlo.TRef sig ⟨S2048x128, .f32⟩) (.of main_call5_v4 : StableHlo.TRef sig ⟨S2048x128, .f32⟩) (.of main_v185 : StableHlo.TRef sig ⟨S2048x128, .f32⟩) select ]
/-- What `rseg3_3`'s operations write, in order. -/
abbrev rseg3_3_W : List (Ref sig .tc) := [main_call5_cst, main_call5_v0, main_call5_v1, main_call5_v2, main_call5_v3, main_call5_v4, main_v185]

/-- 6 operations (statements 221 … 226 of @main): small branch, second layer: the batch-norm's column mean (and the zero correction). -/
abbrev rseg3_4 : List (HloOp τ sig (Elt F)) :=
  [ StableHlo.nullary main_cst_32 (constant S_ .f32 0x00000000#32),
    StableHlo.binary main_v185 main_cst_32 main_v186 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_33 (constant S_ .f32 0x45000000#32),
    StableHlo.unary main_cst_33 main_v187 (broadcastInDim S128 ![] bcast_S_S128 : (⟨S_, .f32⟩ : BufTy).Contents (Elt F) → (⟨S128, .f32⟩ : BufTy).Contents (Elt F)),
    StableHlo.binary main_v186 main_v187 main_v188 (Host.divf : (⟨S128, .f32⟩ : BufTy).Contents (Elt F) → (⟨S128, .f32⟩ : BufTy).Contents (Elt F) → (⟨S128, .f32⟩ : BufTy).Contents (Elt F)),
    StableHlo.nullary main_c_34 (constantI S_ 32 0#32) ]
/-- What `rseg3_4`'s operations write, in order. -/
abbrev rseg3_4_W : List (Ref sig .tc) := [main_cst_32, main_v186, main_cst_33, main_v187, main_v188, main_c_34]

/-- 22 operations (statement 227 of @main): small branch, second layer: the column variance (the call of _var_3 over record main_call6). -/
abbrev rseg3_5 : List (HloOp τ sig (Elt F)) :=
  [ StableHlo.TRef.nullary (.of main_call6_cst : StableHlo.TRef sig ⟨S_, .f32⟩) (constant S_ .f32 0x00000000#32),
    StableHlo.TRef.binary (.of main_v185 : StableHlo.TRef sig ⟨S2048x128, .f32⟩) (.of main_call6_cst : StableHlo.TRef sig ⟨S_, .f32⟩) (.of main_call6_v0 : StableHlo.TRef sig ⟨S128, .f32⟩) (fun x v => Host.reduceAdd x v reducesTo_S2048x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x45000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S2048x128, .f32⟩) (broadcastInDim S2048x128 ![0, 1] bcast_S1x128_S2048x128_0_1),
    StableHlo.TRef.binary (.of main_v185 : StableHlo.TRef sig ⟨S2048x128, .f32⟩) (.of main_call6_v4 : StableHlo.TRef sig ⟨S2048x128, .f32⟩) (.of main_call6_v5 : StableHlo.TRef sig ⟨S2048x128, .f32⟩) subf,
    StableHlo.TRef.binary (.of main_call6_v5 : StableHlo.TRef sig ⟨S2048x128, .f32⟩) (.of main_call6_v5 : StableHlo.TRef sig ⟨S2048x128, .f32⟩) (.of main_call6_v6 : StableHlo.TRef sig ⟨S2048x128, .f32⟩) mulf,
    StableHlo.TRef.unary (.of main_c_34 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x45000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S2048x128, .f32⟩) (.of main_call6_cst_2 : StableHlo.TRef sig ⟨S_, .f32⟩) (.of main_call6_v9 : StableHlo.TRef sig ⟨S128, .f32⟩) (fun x v => Host.reduceAdd x v reducesTo_S2048x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v189 : StableHlo.TRef sig ⟨S128, .f32⟩) (fun p a b => select (broadcastInDim S128 ![] bcast_S_S128 p) a b) ]
/-- What `rseg3_5`'s operations write, in order. -/
abbrev rseg3_5_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v189]

/-- 58 operations (statements 228 … 285 of @main): small branch, second layer, the rest: with 64 output features (and the slope). -/
abbrev rseg3_6 : List (HloOp τ sig (Elt F)) :=
  [ StableHlo.unary main_v188 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S2048x128 ![0, 1] bcast_S1x128_S2048x128_0_1 : (⟨S1x128, .f32⟩ : BufTy).Contents (Elt F) → (⟨S2048x128, .f32⟩ : BufTy).Contents (Elt F)),
    StableHlo.binary main_v185 main_v191 main_v192 (subf : (⟨S2048x128, .f32⟩ : BufTy).Contents (Elt F) → (⟨S2048x128, .f32⟩ : BufTy).Contents (Elt F) → (⟨S2048x128, .f32⟩ : BufTy).Contents (Elt F)),
    StableHlo.nullary main_cst_35 (constant S_ .f32 0x3727C5AC#32),
    StableHlo.unary main_cst_35 main_v193 (broadcastInDim S128 ![] bcast_S_S128 : (⟨S_, .f32⟩ : BufTy).Contents (Elt F) → (⟨S128, .f32⟩ : BufTy).Contents (Elt F)),
    StableHlo.binary main_v189 main_v193 main_v194 (addf : (⟨S128, .f32⟩ : BufTy).Contents (Elt F) → (⟨S128, .f32⟩ : BufTy).Contents (Elt F) → (⟨S128, .f32⟩ : BufTy).Contents (Elt F)),
    StableHlo.unary main_v194 main_v195 (Host.sqrt : (⟨S128, .f32⟩ : BufTy).Contents (Elt F) → (⟨S128, .f32⟩ : BufTy).Contents (Elt F)),
    StableHlo.unary main_v195 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S2048x128 ![0, 1] bcast_S1x128_S2048x128_0_1 : (⟨S1x128, .f32⟩ : BufTy).Contents (Elt F) → (⟨S2048x128, .f32⟩ : BufTy).Contents (Elt F)),
    StableHlo.binary main_v192 main_v197 main_v198 (Host.divf : (⟨S2048x128, .f32⟩ : BufTy).Contents (Elt F) → (⟨S2048x128, .f32⟩ : BufTy).Contents (Elt F) → (⟨S2048x128, .f32⟩ : BufTy).Contents (Elt F)),
    StableHlo.unary main_arg24 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S2048x128 ![0, 1] bcast_S1x128_S2048x128_0_1 : (⟨S1x128, .f32⟩ : BufTy).Contents (Elt F) → (⟨S2048x128, .f32⟩ : BufTy).Contents (Elt F)),
    StableHlo.binary main_v198 main_v200 main_v201 (mulf : (⟨S2048x128, .f32⟩ : BufTy).Contents (Elt F) → (⟨S2048x128, .f32⟩ : BufTy).Contents (Elt F) → (⟨S2048x128, .f32⟩ : BufTy).Contents (Elt F)),
    StableHlo.unary main_arg25 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S2048x128 ![0, 1] bcast_S1x128_S2048x128_0_1 : (⟨S1x128, .f32⟩ : BufTy).Contents (Elt F) → (⟨S2048x128, .f32⟩ : BufTy).Contents (Elt F)),
    StableHlo.binary main_v201 main_v203 main_v204 (addf : (⟨S2048x128, .f32⟩ : BufTy).Contents (Elt F) → (⟨S2048x128, .f32⟩ : BufTy).Contents (Elt F) → (⟨S2048x128, .f32⟩ : BufTy).Contents (Elt F)),
    StableHlo.unary main_arg26 main_v205 ((transpose S128x256 [1, 0] · transposes_S256x128_S128x256_1_0) : (⟨S256x128, .f32⟩ : BufTy).Contents (Elt F) → (⟨S128x256, .f32⟩ : BufTy).Contents (Elt F)),
    StableHlo.binary main_v204 main_v205 main_v206 ((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F)),
    StableHlo.unary main_arg27 main_v207 (broadcastInDim S1x256 ![1] bcast_S256_S1x256_1 : (⟨S256, .f32⟩ : BufTy).Contents (Elt F) → (⟨S1x256, .f32⟩ : BufTy).Contents (Elt F)),
    StableHlo.unary main_v207 main_v208 (broadcastInDim S2048x256 ![0, 1] bcast_S1x256_S2048x256_0_1 : (⟨S1x256, .f32⟩ : BufTy).Contents (Elt F) → (⟨S2048x256, .f32⟩ : BufTy).Contents (Elt F)),
    StableHlo.binary main_v206 main_v208 main_v209 (addf : (⟨S2048x256, .f32⟩ : BufTy).Contents (Elt F) → (⟨S2048x256, .f32⟩ : BufTy).Contents (Elt F) → (⟨S2048x256, .f32⟩ : BufTy).Contents (Elt F)),
    StableHlo.unary main_v209 main_v210 ((transpose S256x2048 [1, 0] · transposes_S2048x256_S256x2048_1_0) : (⟨S2048x256, .f32⟩ : BufTy).Contents (Elt F) → (⟨S256x2048, .f32⟩ : BufTy).Contents (Elt F)),
    StableHlo.binary main_v209 main_v210 main_v211 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v211 main_v212 (Host.negf : (⟨S2048x2048, .f32⟩ : BufTy).Contents (Elt F) → (⟨S2048x2048, .f32⟩ : BufTy).Contents (Elt F)),
    StableHlo.unary main_v212 main_v213 (Host.exp : (⟨S2048x2048, .f32⟩ : BufTy).Contents (Elt F) → (⟨S2048x2048, .f32⟩ : BufTy).Contents (Elt F)),
    StableHlo.nullary main_cst_36 (constant S_ .f32 0x3F800000#32),
    StableHlo.unary main_cst_36 main_v214 (broadcastInDim S2048x2048 ![] bcast_S_S2048x2048 : (⟨S_, .f32⟩ : BufTy).Contents (Elt F) → (⟨S2048x2048, .f32⟩ : BufTy).Contents (Elt F)),
    StableHlo.binary main_v214 main_v213 main_v215 (addf : (⟨S2048x2048, .f32⟩ : BufTy).Contents (Elt F) → (⟨S2048x2048, .f32⟩ : BufTy).Contents (Elt F) → (⟨S2048x2048, .f32⟩ : BufTy).Contents (Elt F)),
    StableHlo.nullary main_cst_37 (constant S_ .f32 0x3F800000#32),
    StableHlo.unary main_cst_37 main_v216 (broadcastInDim S2048x2048 ![] bcast_S_S2048x2048 : (⟨S_, .f32⟩ : BufTy).Contents (Elt F) → (⟨S2048x2048, .f32⟩ : BufTy).Contents (Elt F)),
    StableHlo.binary main_v216 main_v215 main_v217 (Host.divf : (⟨S2048x2048, .f32⟩ : BufTy).Contents (Elt F) → (⟨S2048x2048, .f32⟩ : BufTy).Contents (Elt F) → (⟨S2048x2048, .f32⟩ : BufTy).Contents (Elt F)),
    StableHlo.binary main_v217 main_arg5 main_v218 (mulf : (⟨S2048x2048, .f32⟩ : BufTy).Contents (Elt F) → (⟨S2048x2048, .f32⟩ : BufTy).Contents (Elt F) → (⟨S2048x2048, .f32⟩ : BufTy).Contents (Elt F)),
    StableHlo.nullary main_v219 (iotaInDim S2048x2048 32 0),
    StableHlo.nullary main_v220 (iotaInDim S2048x2048 32 1),
    StableHlo.nullary main_c_38 (constantI S_ 32 0#32),
    StableHlo.unary main_c_38 main_v221 (broadcastInDim S2048x2048 ![] bcast_S_S2048x2048 : (⟨S_, .i32⟩ : BufTy).Contents (Elt F) → (⟨S2048x2048, .i32⟩ : BufTy).Contents (Elt F)),
    StableHlo.binary main_v219 main_v221 main_v222 (addi : (⟨S2048x2048, .i32⟩ : BufTy).Contents (Elt F) → (⟨S2048x2048, .i32⟩ : BufTy).Contents (Elt F) → (⟨S2048x2048, .i32⟩ : BufTy).Contents (Elt F)),
    StableHlo.binary main_v222 main_v220 main_v223 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v223 main_v224 (uitofp .f32 : (⟨S2048x2048, .i1⟩ : BufTy).Contents (Elt F) → (⟨S2048x2048, .f32⟩ : BufTy).Contents (Elt F)),
    StableHlo.binary main_v218 main_v224 main_v225 (addf : (⟨S2048x2048, .f32⟩ : BufTy).Contents (Elt F) → (⟨S2048x2048, .f32⟩ : BufTy).Contents (Elt F) → (⟨S2048x2048, .f32⟩ : BufTy).Contents (Elt F)),
    StableHlo.nullary main_cst_39 (constant S_ .f32 0x00000000#32),
    StableHlo.binary main_v225 main_cst_39 main_v226 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_40 (constant S_ .f32 0xBF000000#32),
    StableHlo.unary main_cst_40 main_v227 (broadcastInDim S2048 ![] bcast_S_S2048 : (⟨S_, .f32⟩ : BufTy).Contents (Elt F) → (⟨S2048, .f32⟩ : BufTy).Contents (Elt F)),
    StableHlo.binary main_v226 main_v227 main_v228 (Host.powf : (⟨S2048, .f32⟩ : BufTy).Contents (Elt F) → (⟨S2048, .f32⟩ : BufTy).Contents (Elt F) → (⟨S2048, .f32⟩ : BufTy).Contents (Elt F)),
    StableHlo.unary main_v228 main_v229 (broadcastInDim S2048x1 ![0] bcast_S2048_S2048x1_0 : (⟨S2048, .f32⟩ : BufTy).Contents (Elt F) → (⟨S2048x1, .f32⟩ : BufTy).Contents (Elt F)),
    StableHlo.unary main_v229 main_v230 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v230 main_v225 main_v231 (mulf : (⟨S2048x2048, .f32⟩ : BufTy).Contents (Elt F) → (⟨S2048x2048, .f32⟩ : BufTy).Contents (Elt F) → (⟨S2048x2048, .f32⟩ : BufTy).Contents (Elt F)),
    StableHlo.unary main_v228 main_v232 (broadcastInDim S1x2048 ![1] bcast_S2048_S1x2048_1 : (⟨S2048, .f32⟩ : BufTy).Contents (Elt F) → (⟨S1x2048, .f32⟩ : BufTy).Contents (Elt F)),
    StableHlo.unary main_v232 main_v233 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v231 main_v233 main_v234 (mulf : (⟨S2048x2048, .f32⟩ : BufTy).Contents (Elt F) → (⟨S2048x2048, .f32⟩ : BufTy).Contents (Elt F) → (⟨S2048x2048, .f32⟩ : BufTy).Contents (Elt F)),
    StableHlo.unary main_arg28 main_v235 ((transpose S128x64 [1, 0] · transposes_S64x128_S128x64_1_0) : (⟨S64x128, .f32⟩ : BufTy).Contents (Elt F) → (⟨S128x64, .f32⟩ : BufTy).Contents (Elt F)),
    StableHlo.binary main_v204 main_v235 main_v236 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg29 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S2048x64 ![0, 1] bcast_S1x64_S2048x64_0_1 : (⟨S1x64, .f32⟩ : BufTy).Contents (Elt F) → (⟨S2048x64, .f32⟩ : BufTy).Contents (Elt F)),
    StableHlo.binary main_v236 main_v238 main_v239 (addf : (⟨S2048x64, .f32⟩ : BufTy).Contents (Elt F) → (⟨S2048x64, .f32⟩ : BufTy).Contents (Elt F) → (⟨S2048x64, .f32⟩ : BufTy).Contents (Elt F)),
    StableHlo.binary main_v234 main_v239 main_v240 ((fun l r => Host.dotGeneral dot_S2048x2048_S2048x64_S2048x64_1_0_0_1_n_n none l r) : (⟨S2048x2048, .f32⟩ : BufTy).Contents (Elt F) → (⟨S2048x64, .f32⟩ : BufTy).Contents (Elt F) → (⟨S2048x64, .f32⟩ : BufTy).Contents (Elt F)),
    StableHlo.nullary main_cst_41 (constant S_ .f32 0x3C23D70A#32) ]
/-- What `rseg3_6`'s operations write, in order. -/
abbrev rseg3_6_W : List (Ref sig .tc) := [main_v190, main_v191, main_v192, main_cst_35, main_v193, main_v194, main_v195, main_v196, main_v197, main_v198, main_v199, main_v200, main_v201, main_v202, main_v203, main_v204, main_v205, main_v206, main_v207, main_v208, main_v209, main_v210, main_v211, main_v212, main_v213, main_cst_36, main_v214, main_v215, main_cst_37, main_v216, main_v217, main_v218, main_v219, main_v220, main_c_38, main_v221, main_v222, main_v223, main_v224, main_v225, main_cst_39, main_v226, main_cst_40, main_v227, main_v228, main_v229, main_v230, main_v231, main_v232, main_v233, main_v234, main_v235, main_v236, main_v237, main_v238, main_v239, main_v240, main_cst_41]

/-- 7 operations (statement 286 of @main): small branch, second layer: the leaky rectifier (the call of leaky_relu_6 over record main_call7). -/
abbrev rseg3_7 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S2048x64, .f32⟩) (broadcastInDim S2048x64 ![] bcast_S_S2048x64),
    StableHlo.TRef.binary (.of main_v240 : StableHlo.TRef sig ⟨S2048x64, .f32⟩) (.of main_call7_v0 : StableHlo.TRef sig ⟨S2048x64, .f32⟩) (.of main_call7_v1 : StableHlo.TRef sig ⟨S2048x64, .i1⟩) (cmpf .oge),
    StableHlo.TRef.unary (.of main_cst_41 : StableHlo.TRef sig ⟨S_, .f32⟩) (.of main_call7_v2 : StableHlo.TRef sig ⟨S_, .f32⟩) id,
    StableHlo.TRef.unary (.of main_call7_v2 : StableHlo.TRef sig ⟨S_, .f32⟩) (.of main_call7_v3 : StableHlo.TRef sig ⟨S2048x64, .f32⟩) (broadcastInDim S2048x64 ![] bcast_S_S2048x64),
    StableHlo.TRef.binary (.of main_call7_v3 : StableHlo.TRef sig ⟨S2048x64, .f32⟩) (.of main_v240 : StableHlo.TRef sig ⟨S2048x64, .f32⟩) (.of main_call7_v4 : StableHlo.TRef sig ⟨S2048x64, .f32⟩) mulf,
    StableHlo.TRef.ternary (.of main_call7_v1 : StableHlo.TRef sig ⟨S2048x64, .i1⟩) (.of main_v240 : StableHlo.TRef sig ⟨S2048x64, .f32⟩) (.of main_call7_v4 : StableHlo.TRef sig ⟨S2048x64, .f32⟩) (.of main_v241 : StableHlo.TRef sig ⟨S2048x64, .f32⟩) select ]
/-- What `rseg3_7`'s operations write, in order. -/
abbrev rseg3_7_W : List (Ref sig .tc) := [main_call7_cst, main_call7_v0, main_call7_v1, main_call7_v2, main_call7_v3, main_call7_v4, main_v241]

/-- 1 operation (statement 287 of @main): the small branch spread back over the pixels: res_small = Qsmall · H2 (65536×64). -/
abbrev rsegSmall : List (HloOp τ sig (Elt F)) :=
  [ StableHlo.binary main_arg4 main_v241 main_v242 ((fun l r => Host.dotGeneral dot_S65536x2048_S2048x64_S65536x64_1_0_0_1_n_n none l r) : (⟨S65536x2048, .f32⟩ : BufTy).Contents (Elt F) → (⟨S2048x64, .f32⟩ : BufTy).Contents (Elt F) → (⟨S65536x64, .f32⟩ : BufTy).Contents (Elt F)) ]
/-- What `rsegSmall`'s operations write, in order. -/
abbrev rsegSmall_W : List (Ref sig .tc) := [main_v242]

/-- 43 operations (statements 288 … 330 of @main): the tail: both results concatenated with y, mixed by sigma2, the 16 class logits and their row softmax (first result); the two 16-wide projections of res_big and res_small, the square of their difference (second result). -/
abbrev rseg4 : List (HloOp τ sig (Elt F)) :=
  [ StableHlo.binary main_v127 main_arg1 main_v243 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)),
    StableHlo.binary main_v242 main_arg1 main_v244 ((fun a b => concatenate S65536x128 1 [⟨S65536x64, a⟩, ⟨S65536x64, b⟩] concatenates_S65536x64_S65536x64_S65536x128_d1) : (⟨S65536x64, .f32⟩ : BufTy).Contents (Elt F) → (⟨S65536x64, .f32⟩ : BufTy).Contents (Elt F) → (⟨S65536x128, .f32⟩ : BufTy).Contents (Elt F)),
    StableHlo.unary main_arg34 main_v245 (broadcastInDim S1x1 ![1] bcast_S1_S1x1_1 : (⟨S1, .f32⟩ : BufTy).Contents (Elt F) → (⟨S1x1, .f32⟩ : BufTy).Contents (Elt F)),
    StableHlo.unary main_v245 main_v246 (broadcastInDim S65536x128 ![0, 1] bcast_S1x1_S65536x128_0_1 : (⟨S1x1, .f32⟩ : BufTy).Contents (Elt F) → (⟨S65536x128, .f32⟩ : BufTy).Contents (Elt F)),
    StableHlo.binary main_v246 main_v243 main_v247 (mulf : (⟨S65536x128, .f32⟩ : BufTy).Contents (Elt F) → (⟨S65536x128, .f32⟩ : BufTy).Contents (Elt F) → (⟨S65536x128, .f32⟩ : BufTy).Contents (Elt F)),
    StableHlo.nullary main_cst_42 (constant S_ .f32 0x3F800000#32),
    StableHlo.unary main_cst_42 main_v248 (broadcastInDim S1 ![] bcast_S_S1 : (⟨S_, .f32⟩ : BufTy).Contents (Elt F) → (⟨S1, .f32⟩ : BufTy).Contents (Elt F)),
    StableHlo.binary main_v248 main_arg34 main_v249 (subf : (⟨S1, .f32⟩ : BufTy).Contents (Elt F) → (⟨S1, .f32⟩ : BufTy).Contents (Elt F) → (⟨S1, .f32⟩ : BufTy).Contents (Elt F)),
    StableHlo.unary main_v249 main_v250 (broadcastInDim S1x1 ![1] bcast_S1_S1x1_1 : (⟨S1, .f32⟩ : BufTy).Contents (Elt F) → (⟨S1x1, .f32⟩ : BufTy).Contents (Elt F)),
    StableHlo.unary main_v250 main_v251 (broadcastInDim S65536x128 ![0, 1] bcast_S1x1_S65536x128_0_1 : (⟨S1x1, .f32⟩ : BufTy).Contents (Elt F) → (⟨S65536x128, .f32⟩ : BufTy).Contents (Elt F)),
    StableHlo.binary main_v251 main_v244 main_v252 (mulf : (⟨S65536x128, .f32⟩ : BufTy).Contents (Elt F) → (⟨S65536x128, .f32⟩ : BufTy).Contents (Elt F) → (⟨S65536x128, .f32⟩ : BufTy).Contents (Elt F)),
    StableHlo.binary main_v247 main_v252 main_v253 (addf : (⟨S65536x128, .f32⟩ : BufTy).Contents (Elt F) → (⟨S65536x128, .f32⟩ : BufTy).Contents (Elt F) → (⟨S65536x128, .f32⟩ : BufTy).Contents (Elt F)),
    StableHlo.unary main_arg30 main_v254 ((transpose S128x16 [1, 0] · transposes_S16x128_S128x16_1_0) : (⟨S16x128, .f32⟩ : BufTy).Contents (Elt F) → (⟨S128x16, .f32⟩ : BufTy).Contents (Elt F)),
    StableHlo.binary main_v253 main_v254 main_v255 ((fun l r => Host.dotGeneral dot_S65536x128_S128x16_S65536x16_1_0_0_1_n_n none l r) : (⟨S65536x128, .f32⟩ : BufTy).Contents (Elt F) → (⟨S128x16, .f32⟩ : BufTy).Contents (Elt F) → (⟨S65536x16, .f32⟩ : BufTy).Contents (Elt F)),
    StableHlo.unary main_arg31 main_v256 (broadcastInDim S1x16 ![1] bcast_S16_S1x16_1 : (⟨S16, .f32⟩ : BufTy).Contents (Elt F) → (⟨S1x16, .f32⟩ : BufTy).Contents (Elt F)),
    StableHlo.unary main_v256 main_v257 (broadcastInDim S65536x16 ![0, 1] bcast_S1x16_S65536x16_0_1 : (⟨S1x16, .f32⟩ : BufTy).Contents (Elt F) → (⟨S65536x16, .f32⟩ : BufTy).Contents (Elt F)),
    StableHlo.binary main_v255 main_v257 main_v258 (addf : (⟨S65536x16, .f32⟩ : BufTy).Contents (Elt F) → (⟨S65536x16, .f32⟩ : BufTy).Contents (Elt F) → (⟨S65536x16, .f32⟩ : BufTy).Contents (Elt F)),
    StableHlo.nullary main_cst_43 (constant S_ .f32 0xFF800000#32),
    StableHlo.binary main_v258 main_cst_43 main_v259 ((fun x v => Host.reduce FloatOps.maximumf x v reducesTo_S65536x16_S65536_d1 h_S_) : (⟨S65536x16, .f32⟩ : BufTy).Contents (Elt F) → (⟨S_, .f32⟩ : BufTy).Contents (Elt F) → (⟨S65536, .f32⟩ : BufTy).Contents (Elt F)),
    StableHlo.nullary main_cst_44 (constant S_ .f32 0xFF800000#32),
    StableHlo.unary main_cst_44 main_v260 (broadcastInDim S65536 ![] bcast_S_S65536 : (⟨S_, .f32⟩ : BufTy).Contents (Elt F) → (⟨S65536, .f32⟩ : BufTy).Contents (Elt F)),
    StableHlo.binary main_v260 main_v259 main_v261 (maximumf : (⟨S65536, .f32⟩ : BufTy).Contents (Elt F) → (⟨S65536, .f32⟩ : BufTy).Contents (Elt F) → (⟨S65536, .f32⟩ : BufTy).Contents (Elt F)),
    StableHlo.unary main_v261 main_v262 (broadcastInDim S65536x1 ![0] bcast_S65536_S65536x1_0 : (⟨S65536, .f32⟩ : BufTy).Contents (Elt F) → (⟨S65536x1, .f32⟩ : BufTy).Contents (Elt F)),
    StableHlo.unary main_v262 main_v263 (broadcastInDim S65536x16 ![0, 1] bcast_S65536x1_S65536x16_0_1 : (⟨S65536x1, .f32⟩ : BufTy).Contents (Elt F) → (⟨S65536x16, .f32⟩ : BufTy).Contents (Elt F)),
    StableHlo.binary main_v258 main_v263 main_v264 (subf : (⟨S65536x16, .f32⟩ : BufTy).Contents (Elt F) → (⟨S65536x16, .f32⟩ : BufTy).Contents (Elt F) → (⟨S65536x16, .f32⟩ : BufTy).Contents (Elt F)),
    StableHlo.unary main_v264 main_v265 (Host.exp : (⟨S65536x16, .f32⟩ : BufTy).Contents (Elt F) → (⟨S65536x16, .f32⟩ : BufTy).Contents (Elt F)),
    StableHlo.nullary main_cst_45 (constant S_ .f32 0x00000000#32),
    StableHlo.binary main_v265 main_cst_45 main_v266 ((fun x v => Host.reduceAdd x v reducesTo_S65536x16_S65536_d1 h_S_) : (⟨S65536x16, .f32⟩ : BufTy).Contents (Elt F) → (⟨S_, .f32⟩ : BufTy).Contents (Elt F) → (⟨S65536, .f32⟩ : BufTy).Contents (Elt F)),
    StableHlo.unary main_v266 main_v267 (broadcastInDim S65536x1 ![0] bcast_S65536_S65536x1_0 : (⟨S65536, .f32⟩ : BufTy).Contents (Elt F) → (⟨S65536x1, .f32⟩ : BufTy).Contents (Elt F)),
    StableHlo.unary main_v267 main_v268 (broadcastInDim S65536x16 ![0, 1] bcast_S65536x1_S65536x16_0_1 : (⟨S65536x1, .f32⟩ : BufTy).Contents (Elt F) → (⟨S65536x16, .f32⟩ : BufTy).Contents (Elt F)),
    StableHlo.binary main_v265 main_v268 main_v269 (Host.divf : (⟨S65536x16, .f32⟩ : BufTy).Contents (Elt F) → (⟨S65536x16, .f32⟩ : BufTy).Contents (Elt F) → (⟨S65536x16, .f32⟩ : BufTy).Contents (Elt F)),
    StableHlo.unary main_arg32 main_v270 ((transpose S64x16 [1, 0] · transposes_S16x64_S64x16_1_0) : (⟨S16x64, .f32⟩ : BufTy).Contents (Elt F) → (⟨S64x16, .f32⟩ : BufTy).Contents (Elt F)),
    StableHlo.binary main_v127 main_v270 main_v271 ((fun l r => Host.dotGeneral dot_S65536x64_S64x16_S65536x16_1_0_0_1_n_n none l r) : (⟨S65536x64, .f32⟩ : BufTy).Contents (Elt F) → (⟨S64x16, .f32⟩ : BufTy).Contents (Elt F) → (⟨S65536x16, .f32⟩ : BufTy).Contents (Elt F)),
    StableHlo.unary main_arg33 main_v272 (broadcastInDim S1x16 ![1] bcast_S16_S1x16_1 : (⟨S16, .f32⟩ : BufTy).Contents (Elt F) → (⟨S1x16, .f32⟩ : BufTy).Contents (Elt F)),
    StableHlo.unary main_v272 main_v273 (broadcastInDim S65536x16 ![0, 1] bcast_S1x16_S65536x16_0_1 : (⟨S1x16, .f32⟩ : BufTy).Contents (Elt F) → (⟨S65536x16, .f32⟩ : BufTy).Contents (Elt F)),
    StableHlo.binary main_v271 main_v273 main_v274 (addf : (⟨S65536x16, .f32⟩ : BufTy).Contents (Elt F) → (⟨S65536x16, .f32⟩ : BufTy).Contents (Elt F) → (⟨S65536x16, .f32⟩ : BufTy).Contents (Elt F)),
    StableHlo.unary main_arg32 main_v275 ((transpose S64x16 [1, 0] · transposes_S16x64_S64x16_1_0) : (⟨S16x64, .f32⟩ : BufTy).Contents (Elt F) → (⟨S64x16, .f32⟩ : BufTy).Contents (Elt F)),
    StableHlo.binary main_v242 main_v275 main_v276 ((fun l r => Host.dotGeneral dot_S65536x64_S64x16_S65536x16_1_0_0_1_n_n none l r) : (⟨S65536x64, .f32⟩ : BufTy).Contents (Elt F) → (⟨S64x16, .f32⟩ : BufTy).Contents (Elt F) → (⟨S65536x16, .f32⟩ : BufTy).Contents (Elt F)),
    StableHlo.unary main_arg33 main_v277 (broadcastInDim S1x16 ![1] bcast_S16_S1x16_1 : (⟨S16, .f32⟩ : BufTy).Contents (Elt F) → (⟨S1x16, .f32⟩ : BufTy).Contents (Elt F)),
    StableHlo.unary main_v277 main_v278 (broadcastInDim S65536x16 ![0, 1] bcast_S1x16_S65536x16_0_1 : (⟨S1x16, .f32⟩ : BufTy).Contents (Elt F) → (⟨S65536x16, .f32⟩ : BufTy).Contents (Elt F)),
    StableHlo.binary main_v276 main_v278 main_v279 (addf : (⟨S65536x16, .f32⟩ : BufTy).Contents (Elt F) → (⟨S65536x16, .f32⟩ : BufTy).Contents (Elt F) → (⟨S65536x16, .f32⟩ : BufTy).Contents (Elt F)),
    StableHlo.binary main_v274 main_v279 main_v280 (subf : (⟨S65536x16, .f32⟩ : BufTy).Contents (Elt F) → (⟨S65536x16, .f32⟩ : BufTy).Contents (Elt F) → (⟨S65536x16, .f32⟩ : BufTy).Contents (Elt F)),
    StableHlo.binary main_v280 main_v280 main_v281 (mulf : (⟨S65536x16, .f32⟩ : BufTy).Contents (Elt F) → (⟨S65536x16, .f32⟩ : BufTy).Contents (Elt F) → (⟨S65536x16, .f32⟩ : BufTy).Contents (Elt F)) ]
/-- What `rseg4`'s operations write, in order. -/
abbrev rseg4_W : List (Ref sig .tc) := [main_v243, main_v244, main_v245, main_v246, main_v247, main_cst_42, main_v248, main_v249, main_v250, main_v251, main_v252, main_v253, main_v254, main_v255, main_v256, main_v257, main_v258, main_cst_43, main_v259, main_cst_44, main_v260, main_v261, main_v262, main_v263, main_v264, main_v265, main_cst_45, main_v266, main_v267, main_v268, main_v269, main_v270, main_v271, main_v272, main_v273, main_v274, main_v275, main_v276, main_v277, main_v278, main_v279, main_v280, main_v281]

/-- @main's operations, in order. -/
abbrev ops : List (HloOp τ sig (Elt F)) := rseg0 ++ rseg1 ++ rseg1_1 ++ rseg1_2 ++ rseg1_3 ++ rseg1_4 ++ rseg1_5 ++ rseg1_6 ++ rseg1_7 ++ rsegBig ++ rseg2 ++ rseg3 ++ rseg3_1 ++ rseg3_2 ++ rseg3_3 ++ rseg3_4 ++ rseg3_5 ++ rseg3_6 ++ rseg3_7 ++ rsegSmall ++ rseg4
/-- What they write, in order. -/
abbrev ops_W : List (Ref sig .tc) := rseg0_W ++ rseg1_W ++ rseg1_1_W ++ rseg1_2_W ++ rseg1_3_W ++ rseg1_4_W ++ rseg1_5_W ++ rseg1_6_W ++ rseg1_7_W ++ rsegBig_W ++ rseg2_W ++ rseg3_W ++ rseg3_1_W ++ rseg3_2_W ++ rseg3_3_W ++ rseg3_4_W ++ rseg3_5_W ++ rseg3_6_W ++ rseg3_7_W ++ rsegSmall_W ++ rseg4_W

end Cert.ReferenceIdeal.Hand

end
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.Ref.Writes.lean ====
/-
  What each operation of the reference program's line writes.

  Every operation of @main's line (Ref/Ops.lean) writes exactly one buffer — the one its statement defines — and the
  lists `rsegJ_W` name these buffers in order: operation `k` of stage `rsegJ` writes `rsegJ_W[k]`.  Each builder's
  set of written buffers is the singleton of its result by computation, so the fact is a walk down the two lists.
  Consequences (LibSsa): a buffer that does not occur in `rsegJ_W` comes out of the stage as it went in
  (`after_kept`), and the operations' own equations hold of the stage's final contents (`eq_unary`, `eq_binary`, …).
-/
import proofs.«120736_j30030411334238_1_alg».proof.Proof.Ref.Ops
import proofs.«120736_j30030411334238_1_alg».proof.Proof.LibSsa

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Operation `k` of a literal list writes the `k`-th reference of the list beside it. -/
macro "ops_writes_tac" : tactic =>
  `(tactic| repeat (first | exact WritesIn.nil | refine WritesIn.cons (Finset.Subset.refl _) ?_))

theorem rseg0_writes : WritesIn (rseg0 : List (HloOp τ sig (Elt F))) rseg0_W := by ops_writes_tac
theorem rseg1_writes : WritesIn (rseg1 : List (HloOp τ sig (Elt F))) rseg1_W := by ops_writes_tac
theorem rseg1_1_writes : WritesIn (rseg1_1 : List (HloOp τ sig (Elt F))) rseg1_1_W := by ops_writes_tac
theorem rseg1_2_writes : WritesIn (rseg1_2 : List (HloOp τ sig (Elt F))) rseg1_2_W := by ops_writes_tac
theorem rseg1_3_writes : WritesIn (rseg1_3 : List (HloOp τ sig (Elt F))) rseg1_3_W := by ops_writes_tac
theorem rseg1_4_writes : WritesIn (rseg1_4 : List (HloOp τ sig (Elt F))) rseg1_4_W := by ops_writes_tac
theorem rseg1_5_writes : WritesIn (rseg1_5 : List (HloOp τ sig (Elt F))) rseg1_5_W := by ops_writes_tac
theorem rseg1_6_writes : WritesIn (rseg1_6 : List (HloOp τ sig (Elt F))) rseg1_6_W := by ops_writes_tac
theorem rseg1_7_writes : WritesIn (rseg1_7 : List (HloOp τ sig (Elt F))) rseg1_7_W := by ops_writes_tac
theorem rsegBig_writes : WritesIn (rsegBig : List (HloOp τ sig (Elt F))) rsegBig_W := by ops_writes_tac
theorem rseg2_writes : WritesIn (rseg2 : List (HloOp τ sig (Elt F))) rseg2_W := by ops_writes_tac
theorem rseg3_writes : WritesIn (rseg3 : List (HloOp τ sig (Elt F))) rseg3_W := by ops_writes_tac
theorem rseg3_1_writes : WritesIn (rseg3_1 : List (HloOp τ sig (Elt F))) rseg3_1_W := by ops_writes_tac
theorem rseg3_2_writes : WritesIn (rseg3_2 : List (HloOp τ sig (Elt F))) rseg3_2_W := by ops_writes_tac
theorem rseg3_3_writes : WritesIn (rseg3_3 : List (HloOp τ sig (Elt F))) rseg3_3_W := by ops_writes_tac
theorem rseg3_4_writes : WritesIn (rseg3_4 : List (HloOp τ sig (Elt F))) rseg3_4_W := by ops_writes_tac
theorem rseg3_5_writes : WritesIn (rseg3_5 : List (HloOp τ sig (Elt F))) rseg3_5_W := by ops_writes_tac
theorem rseg3_6_writes : WritesIn (rseg3_6 : List (HloOp τ sig (Elt F))) rseg3_6_W := by ops_writes_tac
theorem rseg3_7_writes : WritesIn (rseg3_7 : List (HloOp τ sig (Elt F))) rseg3_7_W := by ops_writes_tac
theorem rsegSmall_writes : WritesIn (rsegSmall : List (HloOp τ sig (Elt F))) rsegSmall_W := by ops_writes_tac
theorem rseg4_writes : WritesIn (rseg4 : List (HloOp τ sig (Elt F))) rseg4_W := by ops_writes_tac

/-- Operation `k` of the whole line writes `ops_W[k]`. -/
theorem ops_writes : WritesIn (ops : List (HloOp τ sig (Elt F))) ops_W :=
  ((((((((((((((((((((rseg0_writes.append rseg1_writes).append rseg1_1_writes).append rseg1_2_writes).append rseg1_3_writes).append rseg1_4_writes).append rseg1_5_writes).append rseg1_6_writes).append rseg1_7_writes).append rsegBig_writes).append rseg2_writes).append rseg3_writes).append rseg3_1_writes).append rseg3_2_writes).append rseg3_3_writes).append rseg3_4_writes).append rseg3_5_writes).append rseg3_6_writes).append rseg3_7_writes).append rsegSmall_writes).append rseg4_writes)

end Cert.ReferenceIdeal.Hand

end
-- ==== Proof.Ref.Run.lean ====
/-
  The reference program's run.

  @main of the reference program is printed in six consecutive windows `main_part0 … main_part5` and calls module-local
  functions (the column variance `_var`, which calls the select `_where`; the leaky rectifier, which calls a select).
  A call executes the function's body on the operands, so unfolding the functions at their calls and the records at
  their fields turns each window into one chain of host steps; re-associating the sequencing makes the chain the
  straight line `seq` of the window's operations.  The windows' lists, one after the other, are the list `ops` of
  Ref/Ops.lean (the stages `rseg0 … rseg4` cut at other places than the windows, hence the `take`/`drop` below), so
  @main is `seq ops` and its run is the fold `after ops` of the operations over the launch contents.

  Beside the run: every operation of the line touches TensorCore buffers only and determines what it writes, stage by
  stage and for the whole line (what each writes is Ref/Writes.lean).
-/
import proofs.«120736_j30030411334238_1_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## The printed windows as lists

Window `k` holds @main's statements `60k+1 … 60k+60`.  Counted in operations (a call counts for its body's), the
windows end inside the stages `rseg1_2` (after 40 of its 61 operations), `rseg1_6` (after 31 of 61), `rseg3_2` (after
19 of 58), `rseg3_6` (after 13 of 58) and `rseg4` (after 13 of 43). -/

def win0 : List (HloOp τ sig (Elt F)) := rseg0 ++ rseg1 ++ rseg1_1 ++ rseg1_2.take 40
def win1 : List (HloOp τ sig (Elt F)) := rseg1_2.drop 40 ++ rseg1_3 ++ rseg1_4 ++ rseg1_5 ++ rseg1_6.take 31
def win2 : List (HloOp τ sig (Elt F)) := rseg1_6.drop 31 ++ rseg1_7 ++ rsegBig ++ rseg2 ++ rseg3 ++ rseg3_1 ++ rseg3_2.take 19
def win3 : List (HloOp τ sig (Elt F)) := rseg3_2.drop 19 ++ rseg3_3 ++ rseg3_4 ++ rseg3_5 ++ rseg3_6.take 13
def win4 : List (HloOp τ sig (Elt F)) := rseg3_6.drop 13 ++ rseg3_7 ++ rsegSmall ++ rseg4.take 13
def win5 : List (HloOp τ sig (Elt F)) := rseg4.drop 13

/-- The windows' lists one after the other are the whole line: both sides are the same literal list once the
    concatenations, `take` and `drop` are computed. -/
theorem ops_eq_windows : (ops : List (HloOp τ sig (Elt F))) = win0 ++ (win1 ++ (win2 ++ (win3 ++ (win4 ++ win5)))) := by
  simp only [ops, win0, win1, win2, win3, win4, win5, List.append_assoc]
  rw [← List.append_assoc (List.take 40 rseg1_2), List.take_append_drop,
    ← List.append_assoc (List.take 31 rseg1_6), List.take_append_drop,
    ← List.append_assoc (List.take 19 rseg3_2), List.take_append_drop,
    ← List.append_assoc (List.take 13 rseg3_6), List.take_append_drop,
    List.take_append_drop]

/-! ## Each window is the straight line of its operations

The functions' definitions unfolded at their calls (and the nested select's inside), both sides are one chain of
host steps once sequencing is re-associated; what is left is computation: the records' fields, the list on the right. -/

set_option maxRecDepth 8192 in
theorem main_part0_eq (c : Dev nD) : main_part0 (F := F) c = seq win0 := by
  simp only [main_part0, fn_var.body, fn_where.body, bind_assoc, pure_bind]
  rfl

set_option maxRecDepth 8192 in
theorem main_part1_eq (c : Dev nD) : main_part1 (F := F) c = seq win1 := by
  simp only [main_part1, fn_leaky_relu.body, fn_where_0.body, fn_var.body, fn_where.body, bind_assoc, pure_bind]
  rfl

set_option maxRecDepth 8192 in
theorem main_part2_eq (c : Dev nD) : main_part2 (F := F) c = seq win2 := by
  simp only [main_part2, fn_leaky_relu_1.body, fn_where_2.body, fn_var_3.body, fn_where.body, bind_assoc, pure_bind]
  rfl

set_option maxRecDepth 8192 in
theorem main_part3_eq (c : Dev nD) : main_part3 (F := F) c = seq win3 := by
  simp only [main_part3, fn_leaky_relu_4.body, fn_where_5.body, fn_var_3.body, fn_where.body, bind_assoc, pure_bind]
  rfl

set_option maxRecDepth 8192 in
theorem main_part4_eq (c : Dev nD) : main_part4 (F := F) c = seq win4 := by
  simp only [main_part4, fn_leaky_relu_6.body, fn_where_7.body, bind_assoc, pure_bind]
  rfl

set_option maxRecDepth 8192 in
theorem main_part5_eq (c : Dev nD) : main_part5 (F := F) c = seq win5 := by
  simp only [main_part5, bind_assoc, pure_bind]
  rfl

/-- @main is the straight line of its operations: the six windows in order, each the line of its own. -/
theorem main_eq (c : Dev nD) : main (F := F) c = seq ops := by
  rw [ops_eq_windows]
  simp only [seq_append, main, main_part0_eq, main_part1_eq, main_part2_eq, main_part3_eq, main_part4_eq, main_part5_eq]

/-! ## Every operation touches TensorCore buffers only, and determines what it writes -/

/-- The builders' facts, one per operation of a literal list. -/
macro "ops_sub_tac" : tactic =>
  `(tactic| simp only [List.Forall, StableHlo.nullary_bufs_sub, StableHlo.unary_bufs_sub, StableHlo.binary_bufs_sub,
      StableHlo.ternary_bufs_sub, StableHlo.reshape_bufs_sub, and_self])

/-- No operation of a literal list allocates: what it leaves undetermined is empty, by computation. -/
macro "ops_fresh_tac" : tactic => `(tactic| (simp only [List.Forall]; repeat' constructor))

theorem rseg0_sub : (rseg0 : List (HloOp τ sig (Elt F))).Forall fun op => op.bufs ⊆ tcRefs τ sig := by ops_sub_tac
theorem rseg0_fresh : (rseg0 : List (HloOp τ sig (Elt F))).Forall fun op => op.fresh = ∅ := by ops_fresh_tac
theorem rseg1_sub : (rseg1 : List (HloOp τ sig (Elt F))).Forall fun op => op.bufs ⊆ tcRefs τ sig := by ops_sub_tac
theorem rseg1_fresh : (rseg1 : List (HloOp τ sig (Elt F))).Forall fun op => op.fresh = ∅ := by ops_fresh_tac
theorem rseg1_1_sub : (rseg1_1 : List (HloOp τ sig (Elt F))).Forall fun op => op.bufs ⊆ tcRefs τ sig := by ops_sub_tac
theorem rseg1_1_fresh : (rseg1_1 : List (HloOp τ sig (Elt F))).Forall fun op => op.fresh = ∅ := by ops_fresh_tac
theorem rseg1_2_sub : (rseg1_2 : List (HloOp τ sig (Elt F))).Forall fun op => op.bufs ⊆ tcRefs τ sig := by ops_sub_tac
theorem rseg1_2_fresh : (rseg1_2 : List (HloOp τ sig (Elt F))).Forall fun op => op.fresh = ∅ := by ops_fresh_tac
theorem rseg1_3_sub : (rseg1_3 : List (HloOp τ sig (Elt F))).Forall fun op => op.bufs ⊆ tcRefs τ sig := by ops_sub_tac
theorem rseg1_3_fresh : (rseg1_3 : List (HloOp τ sig (Elt F))).Forall fun op => op.fresh = ∅ := by ops_fresh_tac
theorem rseg1_4_sub : (rseg1_4 : List (HloOp τ sig (Elt F))).Forall fun op => op.bufs ⊆ tcRefs τ sig := by ops_sub_tac
theorem rseg1_4_fresh : (rseg1_4 : List (HloOp τ sig (Elt F))).Forall fun op => op.fresh = ∅ := by ops_fresh_tac
theorem rseg1_5_sub : (rseg1_5 : List (HloOp τ sig (Elt F))).Forall fun op => op.bufs ⊆ tcRefs τ sig := by ops_sub_tac
theorem rseg1_5_fresh : (rseg1_5 : List (HloOp τ sig (Elt F))).Forall fun op => op.fresh = ∅ := by ops_fresh_tac
theorem rseg1_6_sub : (rseg1_6 : List (HloOp τ sig (Elt F))).Forall fun op => op.bufs ⊆ tcRefs τ sig := by ops_sub_tac
theorem rseg1_6_fresh : (rseg1_6 : List (HloOp τ sig (Elt F))).Forall fun op => op.fresh = ∅ := by ops_fresh_tac
theorem rseg1_7_sub : (rseg1_7 : List (HloOp τ sig (Elt F))).Forall fun op => op.bufs ⊆ tcRefs τ sig := by ops_sub_tac
theorem rseg1_7_fresh : (rseg1_7 : List (HloOp τ sig (Elt F))).Forall fun op => op.fresh = ∅ := by ops_fresh_tac
theorem rsegBig_sub : (rsegBig : List (HloOp τ sig (Elt F))).Forall fun op => op.bufs ⊆ tcRefs τ sig := by ops_sub_tac
theorem rsegBig_fresh : (rsegBig : List (HloOp τ sig (Elt F))).Forall fun op => op.fresh = ∅ := by ops_fresh_tac
theorem rseg2_sub : (rseg2 : List (HloOp τ sig (Elt F))).Forall fun op => op.bufs ⊆ tcRefs τ sig := by ops_sub_tac
theorem rseg2_fresh : (rseg2 : List (HloOp τ sig (Elt F))).Forall fun op => op.fresh = ∅ := by ops_fresh_tac
theorem rseg3_sub : (rseg3 : List (HloOp τ sig (Elt F))).Forall fun op => op.bufs ⊆ tcRefs τ sig := by ops_sub_tac
theorem rseg3_fresh : (rseg3 : List (HloOp τ sig (Elt F))).Forall fun op => op.fresh = ∅ := by ops_fresh_tac
theorem rseg3_1_sub : (rseg3_1 : List (HloOp τ sig (Elt F))).Forall fun op => op.bufs ⊆ tcRefs τ sig := by ops_sub_tac
theorem rseg3_1_fresh : (rseg3_1 : List (HloOp τ sig (Elt F))).Forall fun op => op.fresh = ∅ := by ops_fresh_tac
theorem rseg3_2_sub : (rseg3_2 : List (HloOp τ sig (Elt F))).Forall fun op => op.bufs ⊆ tcRefs τ sig := by ops_sub_tac
theorem rseg3_2_fresh : (rseg3_2 : List (HloOp τ sig (Elt F))).Forall fun op => op.fresh = ∅ := by ops_fresh_tac
theorem rseg3_3_sub : (rseg3_3 : List (HloOp τ sig (Elt F))).Forall fun op => op.bufs ⊆ tcRefs τ sig := by ops_sub_tac
theorem rseg3_3_fresh : (rseg3_3 : List (HloOp τ sig (Elt F))).Forall fun op => op.fresh = ∅ := by ops_fresh_tac
theorem rseg3_4_sub : (rseg3_4 : List (HloOp τ sig (Elt F))).Forall fun op => op.bufs ⊆ tcRefs τ sig := by ops_sub_tac
theorem rseg3_4_fresh : (rseg3_4 : List (HloOp τ sig (Elt F))).Forall fun op => op.fresh = ∅ := by ops_fresh_tac
theorem rseg3_5_sub : (rseg3_5 : List (HloOp τ sig (Elt F))).Forall fun op => op.bufs ⊆ tcRefs τ sig := by ops_sub_tac
theorem rseg3_5_fresh : (rseg3_5 : List (HloOp τ sig (Elt F))).Forall fun op => op.fresh = ∅ := by ops_fresh_tac
theorem rseg3_6_sub : (rseg3_6 : List (HloOp τ sig (Elt F))).Forall fun op => op.bufs ⊆ tcRefs τ sig := by ops_sub_tac
theorem rseg3_6_fresh : (rseg3_6 : List (HloOp τ sig (Elt F))).Forall fun op => op.fresh = ∅ := by ops_fresh_tac
theorem rseg3_7_sub : (rseg3_7 : List (HloOp τ sig (Elt F))).Forall fun op => op.bufs ⊆ tcRefs τ sig := by ops_sub_tac
theorem rseg3_7_fresh : (rseg3_7 : List (HloOp τ sig (Elt F))).Forall fun op => op.fresh = ∅ := by ops_fresh_tac
theorem rsegSmall_sub : (rsegSmall : List (HloOp τ sig (Elt F))).Forall fun op => op.bufs ⊆ tcRefs τ sig := by ops_sub_tac
theorem rsegSmall_fresh : (rsegSmall : List (HloOp τ sig (Elt F))).Forall fun op => op.fresh = ∅ := by ops_fresh_tac
theorem rseg4_sub : (rseg4 : List (HloOp τ sig (Elt F))).Forall fun op => op.bufs ⊆ tcRefs τ sig := by ops_sub_tac
theorem rseg4_fresh : (rseg4 : List (HloOp τ sig (Elt F))).Forall fun op => op.fresh = ∅ := by ops_fresh_tac

/-- What holds of every member of two lists holds of every member of their concatenation. -/
theorem mem_append_of {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

/-- Every operation of the whole line touches TensorCore buffers only. -/
theorem ops_sub_mem : ∀ op ∈ (ops : List (HloOp τ sig (Elt F))), op.bufs ⊆ tcRefs τ sig :=
  (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (List.forall_iff_forall_mem.1 rseg0_sub) (List.forall_iff_forall_mem.1 rseg1_sub)) (List.forall_iff_forall_mem.1 rseg1_1_sub)) (List.forall_iff_forall_mem.1 rseg1_2_sub)) (List.forall_iff_forall_mem.1 rseg1_3_sub)) (List.forall_iff_forall_mem.1 rseg1_4_sub)) (List.forall_iff_forall_mem.1 rseg1_5_sub)) (List.forall_iff_forall_mem.1 rseg1_6_sub)) (List.forall_iff_forall_mem.1 rseg1_7_sub)) (List.forall_iff_forall_mem.1 rsegBig_sub)) (List.forall_iff_forall_mem.1 rseg2_sub)) (List.forall_iff_forall_mem.1 rseg3_sub)) (List.forall_iff_forall_mem.1 rseg3_1_sub)) (List.forall_iff_forall_mem.1 rseg3_2_sub)) (List.forall_iff_forall_mem.1 rseg3_3_sub)) (List.forall_iff_forall_mem.1 rseg3_4_sub)) (List.forall_iff_forall_mem.1 rseg3_5_sub)) (List.forall_iff_forall_mem.1 rseg3_6_sub)) (List.forall_iff_forall_mem.1 rseg3_7_sub)) (List.forall_iff_forall_mem.1 rsegSmall_sub)) (List.forall_iff_forall_mem.1 rseg4_sub))

/-- No operation of the whole line allocates. -/
theorem ops_fresh_mem : ∀ op ∈ (ops : List (HloOp τ sig (Elt F))), op.fresh = ∅ :=
  (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (mem_append_of (List.forall_iff_forall_mem.1 rseg0_fresh) (List.forall_iff_forall_mem.1 rseg1_fresh)) (List.forall_iff_forall_mem.1 rseg1_1_fresh)) (List.forall_iff_forall_mem.1 rseg1_2_fresh)) (List.forall_iff_forall_mem.1 rseg1_3_fresh)) (List.forall_iff_forall_mem.1 rseg1_4_fresh)) (List.forall_iff_forall_mem.1 rseg1_5_fresh)) (List.forall_iff_forall_mem.1 rseg1_6_fresh)) (List.forall_iff_forall_mem.1 rseg1_7_fresh)) (List.forall_iff_forall_mem.1 rsegBig_fresh)) (List.forall_iff_forall_mem.1 rseg2_fresh)) (List.forall_iff_forall_mem.1 rseg3_fresh)) (List.forall_iff_forall_mem.1 rseg3_1_fresh)) (List.forall_iff_forall_mem.1 rseg3_2_fresh)) (List.forall_iff_forall_mem.1 rseg3_3_fresh)) (List.forall_iff_forall_mem.1 rseg3_4_fresh)) (List.forall_iff_forall_mem.1 rseg3_5_fresh)) (List.forall_iff_forall_mem.1 rseg3_6_fresh)) (List.forall_iff_forall_mem.1 rseg3_7_fresh)) (List.forall_iff_forall_mem.1 rsegSmall_fresh)) (List.forall_iff_forall_mem.1 rseg4_fresh))

/-! ## The run

The run's theorem asks that the property "touches TensorCore buffers only" be given as the conjunction over the list of
operations.  It is given over the line under a name `line` that is not unfolded, so that the conjunction stays the
property of one list rather than 438 conjuncts; `line` is `ops`, and the result is read back over `ops`. -/

/-- @main's line of operations under a name that does not unfold. -/
@[irreducible] def line : List (HloOp τ sig (Elt F)) := ops

theorem line_eq : (line : List (HloOp τ sig (Elt F))) = ops := by unfold line; rfl

theorem main_eq_line (c : Dev nD) : main (F := F) c = seq line := by rw [line_eq]; exact main_eq c

theorem line_sub : (line : List (HloOp τ sig (Elt F))).Forall fun op => op.bufs ⊆ tcRefs τ sig :=
  List.forall_iff_forall_mem.2 fun op h => ops_sub_mem op ((line_eq (F := F)) ▸ h)

theorem line_fresh : ∀ op ∈ (line : List (HloOp τ sig (Elt F))), op.fresh = ∅ :=
  fun op h => ops_fresh_mem op ((line_eq (F := F)) ▸ h)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the fold of the line's operations over its launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) := by
  have h := run_seq scopedRefs_eq scopedSems_eq defs main (fun _ => line) main_eq_line (fun _ => line_sub) m ρ
    (fun _ => line_fresh)
  rw [line_eq] at h
  exact h

/-- A buffer the line never writes ends as launched. -/
theorem after_ops_kept (m : (ℓ : Loc nD τ sig) → Buf (Elt F) ℓ) (c : Dev nD) (x : Ref sig .tc) (hx : x ∉ ops_W) :
    after (ops : List (HloOp τ sig (Elt F))) (launchContents m c) (Proc.devRef .tc x) = m ((c.tc : Thread nD τ).loc x) :=
  after_kept ops_writes (launchContents m c) x hx

end Cert.ReferenceIdeal.Hand

end
-- ==== Proof.Ref.Frame.lean ====
/-
  The reference program's frame: it runs, and every argument array ends holding what it was launched with.

  The run of Ref/Run.lean leaves each TensorCore buffer at the fold of @main's operations over the launch contents.
  Every operation writes one buffer, the one its statement defines — a value of @main or of an inlined call — and
  none of these is an argument: an argument's reference occurs nowhere in the list `ops_W` of written references
  (decided, reference by reference), so the fold leaves it as launched.
-/
import proofs.«120736_j30030411334238_1_alg».proof.Defs
import proofs.«120736_j30030411334238_1_alg».proof.Proof.Gen.Pre_finite_inputs
import proofs.«120736_j30030411334238_1_alg».proof.Proof.Ref.Run

-- membership in the list of the 438 written references, decided entry by entry, recurses past the default depth
set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.StableHlo

/-- The reference program runs from every launch memory (the precondition is not needed for this), and each of its 35
    argument arrays ends unchanged: no operation of the line writes an argument. -/
theorem frame_ri : Cert.frame_ReferenceIdeal (hReferenceIdeal := Cert.ReferenceIdeal.Gen.facts)
    (hPre_finite_inputs := Cert.Pre_finite_inputs.Gen.facts) :=
  fun m g _ => (θ_run defs _ _).mono
    (fun _ h c => ⟨(h c main_arg0).trans (after_ops_kept m c main_arg0 (by decide)),
      (h c main_arg1).trans (after_ops_kept m c main_arg1 (by decide)),
      (h c main_arg2).trans (after_ops_kept m c main_arg2 (by decide)),
      (h c main_arg3).trans (after_ops_kept m c main_arg3 (by decide)),
      (h c main_arg4).trans (after_ops_kept m c main_arg4 (by decide)),
      (h c main_arg5).trans (after_ops_kept m c main_arg5 (by decide)),
      (h c main_arg6).trans (after_ops_kept m c main_arg6 (by decide)),
      (h c main_arg7).trans (after_ops_kept m c main_arg7 (by decide)),
      (h c main_arg8).trans (after_ops_kept m c main_arg8 (by decide)),
      (h c main_arg9).trans (after_ops_kept m c main_arg9 (by decide)),
      (h c main_arg10).trans (after_ops_kept m c main_arg10 (by decide)),
      (h c main_arg11).trans (after_ops_kept m c main_arg11 (by decide)),
      (h c main_arg12).trans (after_ops_kept m c main_arg12 (by decide)),
      (h c main_arg13).trans (after_ops_kept m c main_arg13 (by decide)),
      (h c main_arg14).trans (after_ops_kept m c main_arg14 (by decide)),
      (h c main_arg15).trans (after_ops_kept m c main_arg15 (by decide)),
      (h c main_arg16).trans (after_ops_kept m c main_arg16 (by decide)),
      (h c main_arg17).trans (after_ops_kept m c main_arg17 (by decide)),
      (h c main_arg18).trans (after_ops_kept m c main_arg18 (by decide)),
      (h c main_arg19).trans (after_ops_kept m c main_arg19 (by decide)),
      (h c main_arg20).trans (after_ops_kept m c main_arg20 (by decide)),
      (h c main_arg21).trans (after_ops_kept m c main_arg21 (by decide)),
      (h c main_arg22).trans (after_ops_kept m c main_arg22 (by decide)),
      (h c main_arg23).trans (after_ops_kept m c main_arg23 (by decide)),
      (h c main_arg24).trans (after_ops_kept m c main_arg24 (by decide)),
      (h c main_arg25).trans (after_ops_kept m c main_arg25 (by decide)),
      (h c main_arg26).trans (after_ops_kept m c main_arg26 (by decide)),
      (h c main_arg27).trans (after_ops_kept m c main_arg27 (by decide)),
      (h c main_arg28).trans (after_ops_kept m c main_arg28 (by decide)),
      (h c main_arg29).trans (after_ops_kept m c main_arg29 (by decide)),
      (h c main_arg30).trans (after_ops_kept m c main_arg30 (by decide)),
      (h c main_arg31).trans (after_ops_kept m c main_arg31 (by decide)),
      (h c main_arg32).trans (after_ops_kept m c main_arg32 (by decide)),
      (h c main_arg33).trans (after_ops_kept m c main_arg33 (by decide)),
      (h c main_arg34).trans (after_ops_kept m c main_arg34 (by decide))⟩)
    (run_all m g)

end Cert.ReferenceIdeal.Hand

end
-- ==== Proof.LibSumBlocks.lean ====
/-
  A sum over a * b positions, regrouped into a consecutive blocks of b positions.

  In any additive commutative monoid, the sum over the a * b positions n of f n is the sum over the blocks s < a of the
  sums over the positions y < b of f (s * b + y): position s * b + y is the y-th position of block s, and every position
  is of that form exactly once.
-/
import Mathlib.Algebra.BigOperators.Fin
import Mathlib.Logic.Equiv.Fin.Basic

open scoped BigOperators

namespace Cert.SumBlocks

/-- A sum over `a * b` positions, regrouped as `a` consecutive blocks of `b` positions: position `s * b + y` is the
    `y`-th position of block `s`. -/
theorem sum_blocks {M : Type*} [AddCommMonoid M] (a b : Nat) (f : Fin (a * b) → M) :
    (∑ n : Fin (a * b), f n) = ∑ s : Fin a, ∑ y : Fin b,
      f ⟨s.val * b + y.val, Nat.lt_of_lt_of_le (Nat.add_lt_add_left y.isLt _)
        (by rw [← Nat.succ_mul]; exact Nat.mul_le_mul_right _ s.isLt)⟩ := by
  rw [← Equiv.sum_comp finProdFinEquiv f, Fintype.sum_prod_type]
  refine Finset.sum_congr rfl fun s _ => Finset.sum_congr rfl fun y _ => ?_
  refine congrArg f (Fin.ext ?_)
  show y.val + b * s.val = s.val * b + y.val
  rw [Nat.mul_comm, Nat.add_comm]

end Cert.SumBlocks
-- ==== Proof.KI.Val0.lean ====
/-
  Region 0 of the kernel program, read as numbers: at the extended reals the accumulated transposed product leaves in
  its output array  out[n, j] = Σ_k A[k, n] · B[k, j],  the sum over all 65536 rows k of the two arrays it reads (A the
  65536×1024 assignment matrix, B the 65536×128 flattened image).  A grid point adds to the accumulator, from zero at
  the first point, the sum over the 2048 rows of its two tiles (roundings into the matrix unit are the identity on
  extended reals, the unit's accumulation from zero is the plain sum of products); point t's tiles are rows
  2048·t … 2048·t + 2047 of A and of B; the 32 points' partial sums, taken in order, regroup into the sum over
  65536 = 32 · 2048 rows; the last point alone writes the accumulator back, over the whole output array.
-/
import proofs.«120736_j30030411334238_1_alg».proof.Proof.KI.Body0Frame
import proofs.«120736_j30030411334238_1_alg».proof.Proof.LibSumBlocks
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.ShloMosaic.ValueIdx
open Idealize.SL.Sem
open Idealize.ShloMosaic.Pipeline (Dat Cfg Window)

theorem zero_off0 : (![0, 0] : Fin 2 → Nat) = fun _ => 0 := funext fun a => by fin_cases a <;> rfl

/-- The zeroing store leaves 0 everywhere. -/
theorem accZero0_val (y : S1024x128.Idx) : accZero0 (F := Ideal) y = 0 := by
  unfold accZero0
  rw [View.canon_unit_zero zero_off0]
  unfold k0_pay1
  simp only [shapeCast_self]
  show Ideal.ofBits .f32 0x00000000#32 = 0
  exact Ideal.ofBits_zero_f32

/-- The accumulating payload at a position: what was held plus column n of the A-tile against column j of the B-tile. -/
theorem pay0_apply (a : Vec Ideal S2048x1024 .f32) (b : Vec Ideal S2048x128 .f32) (s : Vec Ideal S1024x128 .f32) (n : Fin 1024) (j : Fin 128) :
    k0_pay2 (F := Ideal) a b s (ix2 n j) = s (ix2 n j) + ∑ k : Fin 2048, a (ix2 k n) * b (ix2 k j) := by
  unfold k0_pay2
  simp only [shapeCast_self]
  show s (ix2 n j) + FloatOps.matmul (F := Ideal) dot_S2048x1024_S2048x128_S1024x128_0_0_1_1_n_n none _ _ (constant S1024x128 .f32 0x00000000#32) (ix2 n j) = _
  rw [Ideal.matmul_constant_zero_apply,
    ← Equiv.sum_comp (contrEquiv1 dot_S2048x1024_S2048x128_S1024x128_0_0_1_1_n_n 2048 rfl rfl).symm]
  refine congrArg (s (ix2 n j) + ·) (Finset.sum_congr rfl fun k _ => ?_)
  have ck := contrEquiv1_symm_val dot_S2048x1024_S2048x128_S1024x128_0_0_1_1_n_n 2048 rfl rfl k
  have hl : dot_S2048x1024_S2048x128_S1024x128_0_0_1_1_n_n.lhsIdx (ix2 n j) ((contrEquiv1 _ 2048 rfl rfl).symm k) = ix2 k n := by
    funext ax; apply Fin.ext
    match ax with
    | ⟨0, _⟩ => simp [DotDims.lhsIdx, dot_S2048x1024_S2048x128_S1024x128_0_0_1_1_n_n]; exact ck
    | ⟨1, _⟩ => simp [DotDims.lhsIdx, dot_S2048x1024_S2048x128_S1024x128_0_0_1_1_n_n]; rfl
  have hr : dot_S2048x1024_S2048x128_S1024x128_0_0_1_1_n_n.rhsIdx (ix2 n j) ((contrEquiv1 _ 2048 rfl rfl).symm k) = ix2 k j := by
    funext ax; apply Fin.ext
    match ax with
    | ⟨0, _⟩ => simp [DotDims.rhsIdx, dot_S2048x1024_S2048x128_S1024x128_0_0_1_1_n_n]; exact ck
    | ⟨1, _⟩ => simp [DotDims.rhsIdx, dot_S2048x1024_S2048x128_S1024x128_0_0_1_1_n_n]; rfl
  show a (dot_S2048x1024_S2048x128_S1024x128_0_0_1_1_n_n.lhsIdx (ix2 n j) _) * b (dot_S2048x1024_S2048x128_S1024x128_0_0_1_1_n_n.rhsIdx (ix2 n j) _) = _
  rw [hl, hr]

/-- The accumulator after an accumulating store, position by position. -/
theorem accStep0_val (a : Vec Ideal S2048x1024 .f32) (b : Vec Ideal S2048x128 .f32) (s : Vec Ideal S1024x128 .f32) (y : S1024x128.Idx) :
    accStep0 a b s y = s y + ∑ k : Fin 2048, a (ix2 k (y 0)) * b (ix2 k (y 1)) := by
  unfold accStep0
  rw [View.canon_unit_zero zero_off0]
  simp only [View.ld_unit_zero (S := S2048x1024) zero_off0, View.ld_unit_zero (S := S2048x128) zero_off0, View.ld_unit_zero (S := S1024x128) zero_off0]
  obtain ⟨n, j, rfl⟩ : ∃ (n : Fin 1024) (j : Fin 128), y = ix2 n j := ⟨y 0, y 1, eq_ix2 y⟩
  exact pay0_apply a b s n j

/-- Row y of the tile of point s, as a row of the arrays. -/
def rowOf0 (s : ℕ) (y : Fin 2048) : Fin 65536 := ⟨(s % 32) * 2048 + y.val, by have := y.isLt; omega⟩

/-- What point s adds: the sum over the 2048 rows of its tiles. -/
def stepSum0 (A : S65536x1024.Idx → EReal) (B : S65536x128.Idx → EReal) (s : ℕ) : S1024x128.Idx → EReal :=
  fun x => ∑ y : Fin 2048, A (ix2 (rowOf0 s y) (x 0)) * B (ix2 (rowOf0 s y) (x 1))

/-- The whole transposed product: column n of A against column j of B, over all 65536 rows. -/
def matProdT0 (A : S65536x1024.Idx → EReal) (B : S65536x128.Idx → EReal) : S1024x128.Idx → EReal :=
  fun x => ∑ k : Fin 65536, A (ix2 k (x 0)) * B (ix2 k (x 1))

/-- The 32 points' partial sums, in order, are the sum over all rows: 65536 = 32 · 2048. -/
theorem sum_steps0 (A : S65536x1024.Idx → EReal) (B : S65536x128.Idx → EReal) (x : S1024x128.Idx) :
    ∑ s ∈ Finset.range 32, stepSum0 A B s x = matProdT0 A B x := by
  unfold matProdT0 stepSum0
  rw [Finset.sum_range]
  refine Eq.trans ?_ (Cert.SumBlocks.sum_blocks 32 2048 (fun k : Fin (32 * 2048) => A (ix2 k (x 0)) * B (ix2 k (x 1)))).symm
  refine Finset.sum_congr rfl fun s _ => Finset.sum_congr rfl fun y _ => ?_
  have hs : s.val % 32 = s.val := Nat.mod_eq_of_lt s.isLt
  have e : rowOf0 s.val y = ⟨s.val * 2048 + y.val, by have := s.isLt; have := y.isLt; omega⟩ := Fin.ext (by show (s.val % 32) * 2048 + y.val = _; rw [hs])
  rw [e]

/-- The printed index maps over the grid: point t's tiles of A and B are row block t, column block 0; the output's
    block index never moves. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- A position of point t's A-tile is the array's position 2048·t rows further down. -/
theorem tile0_0_apply (c : Dev nD) (t : Fin cfg0.N) (p : S2048x1024.Idx) (q : S65536x1024.Idx)
    (h0 : (q 0).val = t.val * 2048 + (p 0).val) (h1 : (q 1).val = (p 1).val) :
    (tile0 V c 0 t : Vec Ideal S2048x1024 .f32) p = V c main_arg2 q := by
  obtain ⟨e00, e01, -, -, -, -⟩ := idx_facts0 t
  show V c main_arg2 (((cfg0.win 0).blk t).view.emb p) = V c main_arg2 q
  congr 1
  funext ax; apply Fin.ext
  match ax with
  | ⟨0, _⟩ => show win0_0.index t (0 : Fin 2) * 2048 + 1 * (p 0).val = (q 0).val; omega
  | ⟨1, _⟩ => show win0_0.index t (1 : Fin 2) * 1024 + 1 * (p 1).val = (q 1).val; omega

/-- The same for its B-tile. -/
theorem tile0_1_apply (c : Dev nD) (t : Fin cfg0.N) (p : S2048x128.Idx) (q : S65536x128.Idx)
    (h0 : (q 0).val = t.val * 2048 + (p 0).val) (h1 : (q 1).val = (p 1).val) :
    (tile0 V c 1 t : Vec Ideal S2048x128 .f32) p = V c main_v0 q := by
  obtain ⟨-, -, e10, e11, -, -⟩ := idx_facts0 t
  show V c main_v0 (((cfg0.win 1).blk t).view.emb p) = V c main_v0 q
  congr 1
  funext ax; apply Fin.ext
  match ax with
  | ⟨0, _⟩ => show win0_1.index t (0 : Fin 2) * 2048 + 1 * (p 0).val = (q 0).val; omega
  | ⟨1, _⟩ => show win0_1.index t (1 : Fin 2) * 128 + 1 * (p 1).val = (q 1).val; omega

/-- Point t's two tiles, as functions of literal index types. -/
abbrev tileA0 (c : Dev nD) (t : Fin cfg0.N) : S2048x1024.Idx → EReal := tile0 V c 0 t
abbrev tileB0 (c : Dev nD) (t : Fin cfg0.N) : S2048x128.Idx → EReal := tile0 V c 1 t

/-- What point t adds, read off the arrays. -/
theorem step0_eq (c : Dev nD) (t : Fin cfg0.N) (x : S1024x128.Idx) :
    ∑ y : Fin 2048, tileA0 V c t (ix2 y (x 0)) * tileB0 V c t (ix2 y (x 1))
      = stepSum0 (V c main_arg2) (V c main_v0) t.val x := by
  have ht : t.val < 32 := lt_of_lt_of_eq t.isLt (show cfg0.N = 32 from N_0)
  have hm : t.val % 32 = t.val := Nat.mod_eq_of_lt ht
  unfold stepSum0
  refine Finset.sum_congr rfl fun y _ => ?_
  have hrow : (rowOf0 t.val y).val = t.val * 2048 + y.val := by show (t.val % 32) * 2048 + y.val = _; rw [hm]
  exact congrArg₂ (· * ·) (tile0_0_apply V c t (ix2 y (x 0)) (ix2 (rowOf0 t.val y) (x 0)) hrow rfl)
    (tile0_1_apply V c t (ix2 y (x 1)) (ix2 (rowOf0 t.val y) (x 1)) hrow rfl)

/-- The accumulator after point n: the partial sums of the points up to n. -/
theorem acc0_val (c : Dev nD) : ∀ (n : ℕ) (hn : n < cfg0.N) (x : S1024x128.Idx),
    acc0 (F := Ideal) V c n hn x = ∑ s ∈ Finset.range (n + 1), stepSum0 (V c main_arg2) (V c main_v0) s x
  | 0, hn, x => by
    rw [acc0_zero]
    refine (accStep0_val _ _ _ x).trans ?_
    rw [accZero0_val, zero_add, Finset.sum_range_one]
    exact step0_eq V c ⟨0, hn⟩ x
  | n + 1, hn, x => by
    rw [acc0_succ]
    refine (accStep0_val _ _ _ x).trans ?_
    rw [acc0_val c n (Nat.lt_of_succ_lt hn) x, Finset.sum_range_succ _ (n + 1)]
    exact congrArg (_ + ·) (step0_eq V c ⟨n + 1, hn⟩ x)

/-- What the last point writes back is the whole transposed product of the two arrays as the region finds them. -/
theorem flushed0_eq (c : Dev nD) (t : Fin cfg0.N) (hf : (cfg0.win 2).flush t = true) :
    (dat0 (F := Ideal) V c).flushed 2 t
      = ((cfg0.win 2).blk t).view.read (Elt Ideal) (matProdT0 (V c main_arg2) (V c main_v0)) := by
  have hN : cfg0.N = 32 := N_0
  have hlast : t.val = 31 := by have := (flush0_2 t).mp hf; have := t.isLt; omega
  obtain ⟨-, -, -, -, e20, e21⟩ := idx_facts0 t
  show (cfg0.win 2).cut (grid0.coords t) ((dat0 V c).after 2 t) = _
  rw [after0_2]
  funext y
  refine (acc0_val V c t.val t.isLt _).trans ?_
  have e : Finset.range (t.val + 1) = Finset.range 32 := by rw [hlast]
  rw [e]
  refine (sum_steps0 _ _ _).trans ?_
  generalize matProdT0 (V c main_arg2) (V c main_v0) = G
  show G ((cfg0.win 2).xinj (grid0.coords t) y) = G (((cfg0.win 2).blk t).view.emb y)
  congr 1
  funext ax; apply Fin.ext
  match ax with
  | ⟨0, _⟩ => show (y 0).val = win0_2.index t (0 : Fin 2) * 1024 + 1 * (y 0).val; omega
  | ⟨1, _⟩ => show (y 1).val = win0_2.index t (1 : Fin 2) * 128 + 1 * (y 1).val; omega

/-- An index of the output array is in point t's block iff each coordinate is in the block's range on its axis. -/
theorem mem_blk0 (t : Fin cfg0.N) (i : S1024x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v3).slice (win0_2.rect t)).set ↔ _
  rw [View.set_slice_whole, Rect.mem_set_unit]
  exact Iff.rfl

/-- The last point's block is the whole output array. -/
theorem cover0 (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  have hN : cfg0.N = 32 := N_0
  refine ⟨⟨31, by rw [hN]; omega⟩, (flush0_2 _).mpr rfl, ?_⟩
  obtain ⟨-, -, -, -, e20, e21⟩ := idx_facts0 ⟨31, by rw [hN]; omega⟩
  rw [mem_blk0]
  intro a
  match a with
  | ⟨0, _⟩ => show win0_2.index _ (0 : Fin 2) * 1024 ≤ (i 0).val ∧ (i 0).val < win0_2.index _ (0 : Fin 2) * 1024 + 1024; rw [e20]; omega
  | ⟨1, _⟩ => show win0_2.index _ (1 : Fin 2) * 128 ≤ (i 1).val ∧ (i 1).val < win0_2.index _ (1 : Fin 2) * 128 + 128; rw [e21]; omega

/-- The output array after the region is the whole transposed product. -/
theorem out0_eq (c : Dev nD) :
    (dat0 (F := Ideal) V c).arrAt 2 cfg0.N = matProdT0 (V c main_arg2) (V c main_v0) :=
  (dat0 (F := Ideal) V c).arrAt_eq_of_cover 2 (matProdT0 (V c main_arg2) (V c main_v0)) (fun t hf => flushed0_eq V c t hf) cover0

end Cert.KernelIdeal.Gen

end
-- ==== Proof.KI.Val2.lean ====
/-
  Region 2 of the kernel program, read as numbers: at the extended reals the accumulated transposed product leaves in
  its output array  out[n, j] = Σ_k A[k, n] · B[k, j],  the sum over all 65536 rows k of the two arrays it reads (A the
  65536×2048 assignment matrix, B the 65536×128 flattened image).  A grid point adds to the accumulator, from zero at
  the first point, the sum over the 1024 rows of its two tiles (roundings into the matrix unit are the identity on
  extended reals, the unit's accumulation from zero is the plain sum of products); point t's tiles are rows
  1024·t … 1024·t + 1023 of A and of B; the 64 points' partial sums, taken in order, regroup into the sum over
  65536 = 64 · 1024 rows; the last point alone writes the accumulator back, over the whole output array.
-/
import proofs.«120736_j30030411334238_1_alg».proof.Proof.KI.Body2Frame
import proofs.«120736_j30030411334238_1_alg».proof.Proof.LibSumBlocks
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.ShloMosaic.ValueIdx
open Idealize.SL.Sem
open Idealize.ShloMosaic.Pipeline (Dat Cfg Window)

theorem zero_off2 : (![0, 0] : Fin 2 → Nat) = fun _ => 0 := funext fun a => by fin_cases a <;> rfl

/-- The zeroing store leaves 0 everywhere. -/
theorem accZero2_val (y : S2048x128.Idx) : accZero2 (F := Ideal) y = 0 := by
  unfold accZero2
  rw [View.canon_unit_zero zero_off2]
  unfold k2_pay1
  simp only [shapeCast_self]
  show Ideal.ofBits .f32 0x00000000#32 = 0
  exact Ideal.ofBits_zero_f32

/-- The accumulating payload at a position: what was held plus column n of the A-tile against column j of the B-tile. -/
theorem pay2_apply (a : Vec Ideal S1024x2048 .f32) (b : Vec Ideal S1024x128 .f32) (s : Vec Ideal S2048x128 .f32) (n : Fin 2048) (j : Fin 128) :
    k2_pay2 (F := Ideal) a b s (ix2 n j) = s (ix2 n j) + ∑ k : Fin 1024, a (ix2 k n) * b (ix2 k j) := by
  unfold k2_pay2
  simp only [shapeCast_self]
  show s (ix2 n j) + FloatOps.matmul (F := Ideal) dot_S1024x2048_S1024x128_S2048x128_0_0_1_1_n_n none _ _ (constant S2048x128 .f32 0x00000000#32) (ix2 n j) = _
  rw [Ideal.matmul_constant_zero_apply,
    ← Equiv.sum_comp (contrEquiv1 dot_S1024x2048_S1024x128_S2048x128_0_0_1_1_n_n 1024 rfl rfl).symm]
  refine congrArg (s (ix2 n j) + ·) (Finset.sum_congr rfl fun k _ => ?_)
  have ck := contrEquiv1_symm_val dot_S1024x2048_S1024x128_S2048x128_0_0_1_1_n_n 1024 rfl rfl k
  have hl : dot_S1024x2048_S1024x128_S2048x128_0_0_1_1_n_n.lhsIdx (ix2 n j) ((contrEquiv1 _ 1024 rfl rfl).symm k) = ix2 k n := by
    funext ax; apply Fin.ext
    match ax with
    | ⟨0, _⟩ => simp [DotDims.lhsIdx, dot_S1024x2048_S1024x128_S2048x128_0_0_1_1_n_n]; exact ck
    | ⟨1, _⟩ => simp [DotDims.lhsIdx, dot_S1024x2048_S1024x128_S2048x128_0_0_1_1_n_n]; rfl
  have hr : dot_S1024x2048_S1024x128_S2048x128_0_0_1_1_n_n.rhsIdx (ix2 n j) ((contrEquiv1 _ 1024 rfl rfl).symm k) = ix2 k j := by
    funext ax; apply Fin.ext
    match ax with
    | ⟨0, _⟩ => simp [DotDims.rhsIdx, dot_S1024x2048_S1024x128_S2048x128_0_0_1_1_n_n]; exact ck
    | ⟨1, _⟩ => simp [DotDims.rhsIdx, dot_S1024x2048_S1024x128_S2048x128_0_0_1_1_n_n]; rfl
  show a (dot_S1024x2048_S1024x128_S2048x128_0_0_1_1_n_n.lhsIdx (ix2 n j) _) * b (dot_S1024x2048_S1024x128_S2048x128_0_0_1_1_n_n.rhsIdx (ix2 n j) _) = _
  rw [hl, hr]

/-- The accumulator after an accumulating store, position by position. -/
theorem accStep2_val (a : Vec Ideal S1024x2048 .f32) (b : Vec Ideal S1024x128 .f32) (s : Vec Ideal S2048x128 .f32) (y : S2048x128.Idx) :
    accStep2 a b s y = s y + ∑ k : Fin 1024, a (ix2 k (y 0)) * b (ix2 k (y 1)) := by
  unfold accStep2
  rw [View.canon_unit_zero zero_off2]
  simp only [View.ld_unit_zero (S := S1024x2048) zero_off2, View.ld_unit_zero (S := S1024x128) zero_off2, View.ld_unit_zero (S := S2048x128) zero_off2]
  obtain ⟨n, j, rfl⟩ : ∃ (n : Fin 2048) (j : Fin 128), y = ix2 n j := ⟨y 0, y 1, eq_ix2 y⟩
  exact pay2_apply a b s n j

/-- Row y of the tile of point s, as a row of the arrays. -/
def rowOf2 (s : ℕ) (y : Fin 1024) : Fin 65536 := ⟨(s % 64) * 1024 + y.val, by have := y.isLt; omega⟩

/-- What point s adds: the sum over the 1024 rows of its tiles. -/
def stepSum2 (A : S65536x2048.Idx → EReal) (B : S65536x128.Idx → EReal) (s : ℕ) : S2048x128.Idx → EReal :=
  fun x => ∑ y : Fin 1024, A (ix2 (rowOf2 s y) (x 0)) * B (ix2 (rowOf2 s y) (x 1))

/-- The whole transposed product: column n of A against column j of B, over all 65536 rows. -/
def matProdT2 (A : S65536x2048.Idx → EReal) (B : S65536x128.Idx → EReal) : S2048x128.Idx → EReal :=
  fun x => ∑ k : Fin 65536, A (ix2 k (x 0)) * B (ix2 k (x 1))

/-- The 64 points' partial sums, in order, are the sum over all rows: 65536 = 64 · 1024. -/
theorem sum_steps2 (A : S65536x2048.Idx → EReal) (B : S65536x128.Idx → EReal) (x : S2048x128.Idx) :
    ∑ s ∈ Finset.range 64, stepSum2 A B s x = matProdT2 A B x := by
  unfold matProdT2 stepSum2
  rw [Finset.sum_range]
  refine Eq.trans ?_ (Cert.SumBlocks.sum_blocks 64 1024 (fun k : Fin (64 * 1024) => A (ix2 k (x 0)) * B (ix2 k (x 1)))).symm
  refine Finset.sum_congr rfl fun s _ => Finset.sum_congr rfl fun y _ => ?_
  have hs : s.val % 64 = s.val := Nat.mod_eq_of_lt s.isLt
  have e : rowOf2 s.val y = ⟨s.val * 1024 + y.val, by have := s.isLt; have := y.isLt; omega⟩ := Fin.ext (by show (s.val % 64) * 1024 + y.val = _; rw [hs])
  rw [e]

/-- The printed index maps over the grid: point t's tiles of A and B are row block t, column block 0; the output's
    block index never moves. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- A position of point t's A-tile is the array's position 1024·t rows further down. -/
theorem tile2_0_apply (c : Dev nD) (t : Fin cfg2.N) (p : S1024x2048.Idx) (q : S65536x2048.Idx)
    (h0 : (q 0).val = t.val * 1024 + (p 0).val) (h1 : (q 1).val = (p 1).val) :
    (tile2 V c 0 t : Vec Ideal S1024x2048 .f32) p = V c main_arg4 q := by
  obtain ⟨e00, e01, -, -, -, -⟩ := idx_facts2 t
  show V c main_arg4 (((cfg2.win 0).blk t).view.emb p) = V c main_arg4 q
  congr 1
  funext ax; apply Fin.ext
  match ax with
  | ⟨0, _⟩ => show win2_0.index t (0 : Fin 2) * 1024 + 1 * (p 0).val = (q 0).val; omega
  | ⟨1, _⟩ => show win2_0.index t (1 : Fin 2) * 2048 + 1 * (p 1).val = (q 1).val; omega

/-- The same for its B-tile. -/
theorem tile2_1_apply (c : Dev nD) (t : Fin cfg2.N) (p : S1024x128.Idx) (q : S65536x128.Idx)
    (h0 : (q 0).val = t.val * 1024 + (p 0).val) (h1 : (q 1).val = (p 1).val) :
    (tile2 V c 1 t : Vec Ideal S1024x128 .f32) p = V c main_v0 q := by
  obtain ⟨-, -, e10, e11, -, -⟩ := idx_facts2 t
  show V c main_v0 (((cfg2.win 1).blk t).view.emb p) = V c main_v0 q
  congr 1
  funext ax; apply Fin.ext
  match ax with
  | ⟨0, _⟩ => show win2_1.index t (0 : Fin 2) * 1024 + 1 * (p 0).val = (q 0).val; omega
  | ⟨1, _⟩ => show win2_1.index t (1 : Fin 2) * 128 + 1 * (p 1).val = (q 1).val; omega

/-- Point t's two tiles, as functions of literal index types. -/
abbrev tileA2 (c : Dev nD) (t : Fin cfg2.N) : S1024x2048.Idx → EReal := tile2 V c 0 t
abbrev tileB2 (c : Dev nD) (t : Fin cfg2.N) : S1024x128.Idx → EReal := tile2 V c 1 t

/-- What point t adds, read off the arrays. -/
theorem step2_eq (c : Dev nD) (t : Fin cfg2.N) (x : S2048x128.Idx) :
    ∑ y : Fin 1024, tileA2 V c t (ix2 y (x 0)) * tileB2 V c t (ix2 y (x 1))
      = stepSum2 (V c main_arg4) (V c main_v0) t.val x := by
  have ht : t.val < 64 := lt_of_lt_of_eq t.isLt (show cfg2.N = 64 from N_2)
  have hm : t.val % 64 = t.val := Nat.mod_eq_of_lt ht
  unfold stepSum2
  refine Finset.sum_congr rfl fun y _ => ?_
  have hrow : (rowOf2 t.val y).val = t.val * 1024 + y.val := by show (t.val % 64) * 1024 + y.val = _; rw [hm]
  exact congrArg₂ (· * ·) (tile2_0_apply V c t (ix2 y (x 0)) (ix2 (rowOf2 t.val y) (x 0)) hrow rfl)
    (tile2_1_apply V c t (ix2 y (x 1)) (ix2 (rowOf2 t.val y) (x 1)) hrow rfl)

/-- The accumulator after point n: the partial sums of the points up to n. -/
theorem acc2_val (c : Dev nD) : ∀ (n : ℕ) (hn : n < cfg2.N) (x : S2048x128.Idx),
    acc2 (F := Ideal) V c n hn x = ∑ s ∈ Finset.range (n + 1), stepSum2 (V c main_arg4) (V c main_v0) s x
  | 0, hn, x => by
    rw [acc2_zero]
    refine (accStep2_val _ _ _ x).trans ?_
    rw [accZero2_val, zero_add, Finset.sum_range_one]
    exact step2_eq V c ⟨0, hn⟩ x
  | n + 1, hn, x => by
    rw [acc2_succ]
    refine (accStep2_val _ _ _ x).trans ?_
    rw [acc2_val c n (Nat.lt_of_succ_lt hn) x, Finset.sum_range_succ _ (n + 1)]
    exact congrArg (_ + ·) (step2_eq V c ⟨n + 1, hn⟩ x)

/-- What the last point writes back is the whole transposed product of the two arrays as the region finds them. -/
theorem flushed2_eq (c : Dev nD) (t : Fin cfg2.N) (hf : (cfg2.win 2).flush t = true) :
    (dat2 (F := Ideal) V c).flushed 2 t
      = ((cfg2.win 2).blk t).view.read (Elt Ideal) (matProdT2 (V c main_arg4) (V c main_v0)) := by
  have hN : cfg2.N = 64 := N_2
  have hlast : t.val = 63 := by have := (flush2_2 t).mp hf; have := t.isLt; omega
  obtain ⟨-, -, -, -, e20, e21⟩ := idx_facts2 t
  show (cfg2.win 2).cut (grid2.coords t) ((dat2 V c).after 2 t) = _
  rw [after2_2]
  funext y
  refine (acc2_val V c t.val t.isLt _).trans ?_
  have e : Finset.range (t.val + 1) = Finset.range 64 := by rw [hlast]
  rw [e]
  refine (sum_steps2 _ _ _).trans ?_
  generalize matProdT2 (V c main_arg4) (V c main_v0) = G
  show G ((cfg2.win 2).xinj (grid2.coords t) y) = G (((cfg2.win 2).blk t).view.emb y)
  congr 1
  funext ax; apply Fin.ext
  match ax with
  | ⟨0, _⟩ => show (y 0).val = win2_2.index t (0 : Fin 2) * 2048 + 1 * (y 0).val; omega
  | ⟨1, _⟩ => show (y 1).val = win2_2.index t (1 : Fin 2) * 128 + 1 * (y 1).val; omega

/-- An index of the output array is in point t's block iff each coordinate is in the block's range on its axis. -/
theorem mem_blk2 (t : Fin cfg2.N) (i : S2048x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v124).slice (win2_2.rect t)).set ↔ _
  rw [View.set_slice_whole, Rect.mem_set_unit]
  exact Iff.rfl

/-- The last point's block is the whole output array. -/
theorem cover2 (i : S2048x128.Idx) : ∃ t : Fin cfg2.N, (cfg2.win 2).flush t = true ∧ i ∈ ((cfg2.win 2).blk t).view.set := by
  have hi0 : (i 0).val < 2048 := (i 0).isLt
  have hi1 : (i 1).val < 128 := (i 1).isLt
  have hN : cfg2.N = 64 := N_2
  refine ⟨⟨63, by rw [hN]; omega⟩, (flush2_2 _).mpr rfl, ?_⟩
  obtain ⟨-, -, -, -, e20, e21⟩ := idx_facts2 ⟨63, by rw [hN]; omega⟩
  rw [mem_blk2]
  intro a
  match a with
  | ⟨0, _⟩ => show win2_2.index _ (0 : Fin 2) * 2048 ≤ (i 0).val ∧ (i 0).val < win2_2.index _ (0 : Fin 2) * 2048 + 2048; rw [e20]; omega
  | ⟨1, _⟩ => show win2_2.index _ (1 : Fin 2) * 128 ≤ (i 1).val ∧ (i 1).val < win2_2.index _ (1 : Fin 2) * 128 + 128; rw [e21]; omega

/-- The output array after the region is the whole transposed product. -/
theorem out2_eq (c : Dev nD) :
    (dat2 (F := Ideal) V c).arrAt 2 cfg2.N = matProdT2 (V c main_arg4) (V c main_v0) :=
  (dat2 (F := Ideal) V c).arrAt_eq_of_cover 2 (matProdT2 (V c main_arg4) (V c main_v0)) (fun t hf => flushed2_eq V c t hf) cover2

end Cert.KernelIdeal.Gen

end
-- ==== Proof.Br.Base.lean ====
/-
  The two programs side by side.

  The kernel program and the reference program are printed over two different signatures, so a buffer of one and a
  buffer of the other are never the same object; what can be compared is what they hold: both hold a function from the
  index set of one literal shape to the extended reals.  This file fixes the spelling used for that comparison
  (`kb r`, `rb r`: a buffer of the kernel program, of the reference program, as the device buffer a valuation is
  applied to) and the one fact about straight lines of host operations used to cut a line at a position.
-/
import proofs.«120736_j30030411334238_1_alg».proof.Proof.Gen.KernelIdeal.Regions
import proofs.«120736_j30030411334238_1_alg».proof.Proof.Ref.Ops
import proofs.«120736_j30030411334238_1_alg».proof.Proof.LibSsa
import Idealize.ShloMosaic.Lib.StableHlo.Run
import Idealize.ShloMosaic.PureOps.Ideal

noncomputable section

namespace Cert.Bridge

open Idealize.ShloMosaic Idealize.ShloMosaic.StableHlo Idealize.SL.Sem

/-- A buffer of the kernel program, as a device buffer. -/
abbrev kb (r : Ref Cert.KernelIdeal.sig .tc) : DevRef Cert.KernelIdeal.τ Cert.KernelIdeal.sig :=
  Proc.devRef (τ := Cert.KernelIdeal.τ) .tc r

/-- A buffer of the reference program, as a device buffer. -/
abbrev rb (r : Ref Cert.ReferenceIdeal.sig .tc) : DevRef Cert.ReferenceIdeal.τ Cert.ReferenceIdeal.sig :=
  Proc.devRef (τ := Cert.ReferenceIdeal.τ) .tc r

/-- The contents of the kernel program's buffers: one valuation of its signature. -/
abbrev KVal : Type := Valuation Cert.KernelIdeal.τ Cert.KernelIdeal.sig (Elt Ideal)

/-- The contents of the reference program's buffers. -/
abbrev RVal : Type := Valuation Cert.ReferenceIdeal.τ Cert.ReferenceIdeal.sig (Elt Ideal)

/-- A line of operations run from `V` is its first `n` operations run from `V`, then the rest run from there. -/
theorem after_cut {τ : Topo} {sig : RefSig} {Val : EltTy → Type} (n : Nat) (l : List (HloOp τ sig Val)) (V : Valuation τ sig Val) :
    after l V = after (l.drop n) (after (l.take n) V) := by
  rw [← after_append, List.take_append_drop]

end Cert.Bridge

end
-- ==== Proof.Br.DivSum.lean ====
/-
  Dividing a finite sum of products by a nonzero real, in the extended reals.

  For real families q (rows k, columns n) and f (rows k, columns j) and a column n whose sum
  s = ∑ k, q k n is not zero,

      (∑ k, q k n · f k j) / s  =  ∑ k, (q k n / s) · f k j

  where every number is read as an extended real and "/" is the extended-real quotient
  x / y = x · y⁻¹ (for y ≠ 0).  No infinity can arise, since every term is the coercion of a real:
  the coercion ℝ → EReal is additive and multiplicative, so both sides are the coercion of one real
  number, and the identity is the distributive law of ℝ.

  The second form states the same for families of extended reals all of whose entries are coercions
  of reals, with the divisor written as the extended-real column sum.
-/
import Mathlib.Data.EReal.Operations
import Mathlib.Algebra.BigOperators.Group.Finset.Basic
import Mathlib.Algebra.BigOperators.Ring.Finset
import Mathlib.Tactic.Ring
import Mathlib.Tactic.FieldSimp
import Idealize.ShloMosaic.PureOps.Ideal
import Idealize.ShloMosaic.Lib.ValueIdx

open scoped BigOperators
open Idealize.ShloMosaic

namespace DivSum

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A value is real: it is the coercion of a real number (neither infinity). -/
def IsReal (v : EReal) : Prop := ∃ r : ℝ, v = (r : EReal)

theorem isReal_iff (v : EReal) : IsReal v ↔ v ≠ ⊥ ∧ v ≠ ⊤ := by
  constructor
  · rintro ⟨r, rfl⟩; exact ⟨EReal.coe_ne_bot r, EReal.coe_ne_top r⟩
  · rintro ⟨h1, h2⟩; exact ⟨v.toReal, (EReal.coe_toReal h2 h1).symm⟩

/-- The law over the reals: the quotient of the sum of products by the column sum is the sum of the
    products with the divided entries. -/
theorem div_sum_mul {K N C : Type*} [Fintype K] (q : K → N → ℝ) (f : K → C → ℝ) (n : N) (j : C)
    (hs : (∑ k, q k n) ≠ 0) :
    Ideal.div (∑ k, ((q k n : ℝ) : EReal) * ((f k j : ℝ) : EReal)) (((∑ k, q k n : ℝ)) : EReal)
      = ∑ k, Ideal.div ((q k n : ℝ) : EReal) (((∑ k, q k n : ℝ)) : EReal) * ((f k j : ℝ) : EReal) := by
  rw [Ideal.div_coe hs]
  simp only [Ideal.div_coe hs, ← EReal.coe_mul]
  rw [← coe_sum, ← coe_sum, ← EReal.coe_mul, Finset.sum_mul]
  congr 1
  exact Finset.sum_congr rfl fun k _ => by ring

/-- The law for families of extended reals whose entries are all real, the divisor being the
    extended-real column sum. -/
theorem div_sum_mul_of_isReal {K N C : Type*} [Fintype K] (Q : K → N → EReal) (X : K → C → EReal)
    (hQ : ∀ k n, IsReal (Q k n)) (hX : ∀ k j, IsReal (X k j)) (n : N) (j : C) (hs : (∑ k, Q k n) ≠ 0) :
    Ideal.div (∑ k, Q k n * X k j) (∑ k, Q k n) = ∑ k, Ideal.div (Q k n) (∑ k, Q k n) * X k j := by
  choose q hq using hQ
  choose f hf using hX
  have hsum : (∑ k, Q k n) = (((∑ k, q k n : ℝ)) : EReal) := by
    rw [coe_sum]; exact Finset.sum_congr rfl fun k _ => hq k n
  have hs' : (∑ k, q k n) ≠ 0 := fun h0 => hs (by rw [hsum, h0, EReal.coe_zero])
  rw [hsum]
  have := div_sum_mul q f n j hs'
  simpa only [hq, hf] using this

end DivSum
-- ==== Proof.Br.Pre.lean ====
/-
  What the precondition says of the arrays, read at the extended reals.

  The precondition is one bit: the conjunction of thirty-seven tests.  Thirty-five of them say of one float
  argument each that every entry x has |x| < +∞; at the extended reals |x| = max x (-x) and +∞ is the top
  element, so the test holds of x exactly when x is neither infinity, that is, when x is the coercion of a
  real number.  The last two say that every column sum of the two assignment matrices (65536 × 1024 and
  65536 × 2048, summed over the 65536 rows from zero) differs from zero.

  From the bit being one this file reads back, for any arrays of the stated types: every entry of the
  first argument (the pixel features), of the big assignment matrix and of the small assignment matrix is
  real, and every column of either matrix has a nonzero sum over its rows, the sum written as a
  sum over the row coordinate of the matrix read at (row, column).
-/
import proofs.«120736_j30030411334238_1_alg».proof.Pre_finite_inputs
import proofs.«120736_j30030411334238_1_alg».proof.Proof.Br.DivSum
import Idealize.ShloMosaic.Lib.ReduceAll
import Idealize.ShloMosaic.Lib.ValueIdx
import Idealize.ShloMosaic.PureOps.Ideal.Laws

open scoped BigOperators

noncomputable section

namespace Cert.Pre_finite_inputs.Br

open Idealize.ShloMosaic Idealize.ShloMosaic.ValueIdx DivSum

/-- The rank-zero shape has one index. -/
instance : Subsingleton S_.Idx := ⟨fun a b => funext fun d => d.elim0⟩

/-- The pattern of +∞ denotes the top element. -/
theorem ofBits_posInf : Ideal.ofBits .f32 0x7F800000#32 = ⊤ := by simp [Ideal.ofBits, Ideal.ieee]

/-- An extended real whose absolute value is below +∞ is a real number. -/
theorem isReal_of_abs_lt_top (x : Ideal .f32)
    (h : FloatOps.cmpf (F := Ideal) (φ := .f32) .olt (FloatOps.hostAbsf x) (FloatOps.ofBits .f32 0x7F800000#32) = 1#1) : IsReal x := by
  rw [Ideal.cmpf_def, Ideal.hostAbsf_def, Ideal.absf_def, Ideal.ofBits_def, ofBits_posInf] at h
  simp only [Ideal.cmp] at h
  induction x using EReal.rec with
  | bot => simp at h
  | top => simp at h
  | coe r => exact ⟨r, rfl⟩

/-- An extended real that the comparison finds different from the zero pattern is not zero. -/
theorem ne_zero_of_une_zero (a : Ideal .f32)
    (h : FloatOps.cmpf (F := Ideal) (φ := .f32) .une a (FloatOps.ofBits .f32 0x00000000#32) = 1#1) : a ≠ 0 := by
  rw [Ideal.cmpf_def, Ideal.ofBits_def, Ideal.ofBits_zero_f32] at h
  simp only [Ideal.cmp] at h
  intro h0
  simp [h0] at h

/-- The conjunction of two bits is one exactly when both are. -/
theorem andi_ones {a b : IVec S_ 1} : andi a b = (fun _ => 1#1) ↔ a = (fun _ => 1#1) ∧ b = (fun _ => 1#1) := by
  constructor
  · intro h
    exact ⟨funext fun i => (IntOp.andi_eq_one.1 (congrFun h i)).1, funext fun i => (IntOp.andi_eq_one.1 (congrFun h i)).2⟩
  · rintro ⟨rfl, rfl⟩; funext i; exact IntOp.andi_eq_one.2 ⟨rfl, rfl⟩

/-- One finiteness test: when "all entries have absolute value below +∞" came out one, every entry is real. -/
theorem all_real_of_test {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu = fun _ => 1#1) (i : s.Idx) : IsReal (x i) :=
  isReal_of_abs_lt_top (x i) (Host.reduce_andi_all _ _ hr hu ix0 (congrFun e ix0) i)

/-- The column-sum test of the big assignment matrix: when it came out one, every column's sum over the rows is not zero. -/
theorem colsum_ne_zero_big (Q : FVec Ideal S65536x1024 .f32) (hb : S_.BroadcastsInDim S1024 (![] : Fin 0 → Fin S1024.rank))
    (hrt : S65536x1024.ReducesTo [0] S1024) (hr' : S1024.ReducesTo [0] S_) (hu : 0 < S_.numel)
    (e : Host.reduce IntOp.andi (cmpf .une (Host.reduceAdd Q (constant S_ .f32 0x00000000#32) hrt hu)
            (broadcastInDim S1024 ![] hb (constant S_ .f32 0x00000000#32))) (constantI S_ 1 1#1) hr' hu = fun _ => 1#1)
    (n : Fin 1024) : (∑ k : Fin 65536, Q (ix2 k n)) ≠ 0 := by
  have h1 := ne_zero_of_une_zero _ (Host.reduce_andi_all _ _ hr' hu ix0 (congrFun e ix0) (ix1 n))
  have h2 : Host.reduceAdd Q (constant S_ .f32 0x00000000#32) hrt hu (ix1 n) = ∑ k : Fin 65536, Q (ix2 k n) := by
    show Ideal.hostReduceAdd hrt Q (Ideal.ofBits .f32 0x00000000#32) (ix1 n) = _
    rw [Ideal.hostReduceAdd_single hrt (by decide) Q _ (ix1 n), Ideal.ofBits_zero_f32, zero_add]
    exact Finset.sum_congr rfl fun k _ => congrArg Q (funext fun d => by match d with | ⟨0, _⟩ => rfl | ⟨1, _⟩ => rfl)
  rwa [h2] at h1

/-- The same for the small assignment matrix. -/
theorem colsum_ne_zero_small (Q : FVec Ideal S65536x2048 .f32) (hb : S_.BroadcastsInDim S2048 (![] : Fin 0 → Fin S2048.rank))
    (hrt : S65536x2048.ReducesTo [0] S2048) (hr' : S2048.ReducesTo [0] S_) (hu : 0 < S_.numel)
    (e : Host.reduce IntOp.andi (cmpf .une (Host.reduceAdd Q (constant S_ .f32 0x00000000#32) hrt hu)
            (broadcastInDim S2048 ![] hb (constant S_ .f32 0x00000000#32))) (constantI S_ 1 1#1) hr' hu = fun _ => 1#1)
    (n : Fin 2048) : (∑ k : Fin 65536, Q (ix2 k n)) ≠ 0 := by
  have h1 := ne_zero_of_une_zero _ (Host.reduce_andi_all _ _ hr' hu ix0 (congrFun e ix0) (ix1 n))
  have h2 : Host.reduceAdd Q (constant S_ .f32 0x00000000#32) hrt hu (ix1 n) = ∑ k : Fin 65536, Q (ix2 k n) := by
    show Ideal.hostReduceAdd hrt Q (Ideal.ofBits .f32 0x00000000#32) (ix1 n) = _
    rw [Ideal.hostReduceAdd_single hrt (by decide) Q _ (ix1 n), Ideal.ofBits_zero_f32, zero_add]
    exact Finset.sum_congr rfl fun k _ => congrArg Q (funext fun d => by match d with | ⟨0, _⟩ => rfl | ⟨1, _⟩ => rfl)
  rwa [h2] at h1

variable [Facts]
open Facts

set_option maxHeartbeats 1000000 in
/-- The precondition read back: the pixel features and the two assignment matrices have real entries only, and every
    column of either assignment matrix has a nonzero sum over its rows. -/
theorem facts_of_pre (main_arg0 : FVec Ideal S256x256x128 .f32) (main_arg1 : FVec Ideal S65536x64 .f32) (main_arg2 : FVec Ideal S65536x1024 .f32) (main_arg3 : FVec Ideal S1024x1024 .f32) (main_arg4 : FVec Ideal S65536x2048 .f32) (main_arg5 : FVec Ideal S2048x2048 .f32) (main_arg6 : FVec Ideal S128 .f32) (main_arg7 : FVec Ideal S128 .f32) (main_arg8 : FVec Ideal S256x128 .f32) (main_arg9 : FVec Ideal S256 .f32) (main_arg10 : FVec Ideal S128x128 .f32) (main_arg11 : FVec Ideal S128 .f32) (main_arg12 : FVec Ideal S128 .f32) (main_arg13 : FVec Ideal S128 .f32) (main_arg14 : FVec Ideal S256x128 .f32) (main_arg15 : FVec Ideal S256 .f32) (main_arg16 : FVec Ideal S64x128 .f32) (main_arg17 : FVec Ideal S64 .f32) (main_arg18 : FVec Ideal S128 .f32) (main_arg19 : FVec Ideal S128 .f32) (main_arg20 : FVec Ideal S256x128 .f32) (main_arg21 : FVec Ideal S256 .f32) (main_arg22 : FVec Ideal S128x128 .f32) (main_arg23 : FVec Ideal S128 .f32) (main_arg24 : FVec Ideal S128 .f32) (main_arg25 : FVec Ideal S128 .f32) (main_arg26 : FVec Ideal S256x128 .f32) (main_arg27 : FVec Ideal S256 .f32) (main_arg28 : FVec Ideal S64x128 .f32) (main_arg29 : FVec Ideal S64 .f32) (main_arg30 : FVec Ideal S16x128 .f32) (main_arg31 : FVec Ideal S16 .f32) (main_arg32 : FVec Ideal S16x64 .f32) (main_arg33 : FVec Ideal S16 .f32) (main_arg34 : FVec Ideal S1 .f32)
    (h : fn (F := Ideal) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 = fun _ => 1#1) :
    (∀ i, IsReal (main_arg0 i)) ∧ (∀ i, IsReal (main_arg2 i)) ∧ (∀ i, IsReal (main_arg4 i))
      ∧ (∀ n : Fin 1024, (∑ k : Fin 65536, main_arg2 (ix2 k n)) ≠ 0)
      ∧ (∀ n : Fin 2048, (∑ k : Fin 65536, main_arg4 (ix2 k n)) ≠ 0) := by
  dsimp only [fn, fn_part1, fn_part2, fn_part3, fn_part4, fn_part5, fn_part6, fn_part7, fn_part8, fn_part9, fn_part10] at h
  -- the two column-sum tests are the outermost conjuncts
  obtain ⟨h, hsmall⟩ := andi_ones.1 h
  obtain ⟨h, hbig⟩ := andi_ones.1 h
  -- the finiteness tests of the last twenty-nine arguments
  iterate 29 replace h := (andi_ones.1 h).1
  obtain ⟨h, -⟩ := andi_ones.1 h
  obtain ⟨h, h4⟩ := andi_ones.1 h
  obtain ⟨h, -⟩ := andi_ones.1 h
  obtain ⟨h, h2⟩ := andi_ones.1 h
  obtain ⟨h0, -⟩ := andi_ones.1 h
  exact ⟨all_real_of_test _ _ _ _ h0, all_real_of_test _ _ _ _ h2, all_real_of_test _ _ _ _ h4,
    colsum_ne_zero_big _ _ _ _ _ hbig, colsum_ne_zero_small _ _ _ _ _ hsmall⟩

end Cert.Pre_finite_inputs.Br

end
-- ==== Proof.Br.Layout.lean ====
/-
  The column sums, their keep-dimension broadcasts, and the two quotients they enter, read at an index.

  For a K × N matrix Q of extended reals, the host's sum over the row axis from the zero pattern, read at column n,
  is the sum over k of Q at (k, n).  A vector of N column values is spread to a matrix in two ways: as a column
  block, [N] → [N, 1] → [N, C], whose entry at (n, j) is the vector's entry n; and as a row block,
  [N] → [1, N] → [K, N], whose entry at (k, n) is the vector's entry n.  Each step reads the operand at the
  coordinates the broadcast keeps, and at 0 on a unit axis.

  With these the two ways of pooling are one array.  One way divides the product Qᵀ·X (an N × C matrix known entry
  by entry as the sum over k of Q(k, n)·X(k, j)) by the column block of the column sums.  The other divides Q by the
  row block of its column sums, transposes, and multiplies by X.  At (n, j) the first is
  (∑ k, Q(k, n)·X(k, j)) / s(n) and the second ∑ k, (Q(k, n) / s(n))·X(k, j), s(n) = ∑ k, Q(k, n); they agree when
  every entry is real and s(n) ≠ 0.
-/
import Idealize.ShloMosaic.Lib.StackMember
import Idealize.ShloMosaic.Lib.ValueLayout
import proofs.«120736_j30030411334238_1_alg».proof.Proof.Br.DivSum

open scoped BigOperators

noncomputable section

namespace Cert.Br

open Idealize.ShloMosaic Idealize.ShloMosaic.ValueIdx DivSum

variable {K N C : Nat} {α : Type}

/-- The column sums of a K × N matrix, read at column n: the sum over the rows of the entries of that column. -/
theorem colsum_apply (Q : FVec Ideal ⟨2, ![K, N]⟩ .f32) (hrt : (⟨2, ![K, N]⟩ : Shape).ReducesTo [0] ⟨1, ![N]⟩)
    (hr : (⟨2, ![K, N]⟩ : Shape).Reduces [0] ⟨1, ![N]⟩) (hu : 0 < (⟨0, ![]⟩ : Shape).numel) (n : Fin N) :
    Host.reduceAdd Q (constant ⟨0, ![]⟩ .f32 0x00000000#32) hrt hu (ix1 n) = ∑ k : Fin K, Q (ix2 k n) := by
  show Ideal.hostReduceAdd hrt Q (Ideal.ofBits .f32 0x00000000#32) (ix1 n) = _
  rw [Ideal.hostReduceAdd_single hrt hr Q _ (ix1 n), Ideal.ofBits_zero_f32, zero_add]
  exact Finset.sum_congr rfl fun k _ => congrArg Q (funext fun d => by match d with | ⟨0, _⟩ => rfl | ⟨1, _⟩ => rfl)

/-- A vector stood up as a one-column matrix, [N] → [N, 1]: row n holds the vector's entry n. -/
theorem bcast_col_apply (v : (⟨1, ![N]⟩ : Shape).Idx → α) (h : (⟨1, ![N]⟩ : Shape).BroadcastsInDim ⟨2, ![N, 1]⟩ ![0])
    (n : Fin N) (z : Fin 1) : broadcastInDim ⟨2, ![N, 1]⟩ ![0] h v (ix2 n z) = v (ix1 n) :=
  broadcastInDim_apply _ h v _ _ fun a => by
    match a with
    | ⟨0, _⟩ =>
      show n.val = if N = 1 then 0 else n.val
      split
      · have := n.isLt; omega
      · rfl

/-- A one-column matrix spread over C columns, [N, 1] → [N, C]: the entry at (n, j) is the column's entry n. -/
theorem bcast_col_wide_apply (v : (⟨2, ![N, 1]⟩ : Shape).Idx → α) (h : (⟨2, ![N, 1]⟩ : Shape).BroadcastsInDim ⟨2, ![N, C]⟩ ![0, 1])
    (n : Fin N) (j : Fin C) : broadcastInDim ⟨2, ![N, C]⟩ ![0, 1] h v (ix2 n j) = v (ix2 n (0 : Fin 1)) :=
  broadcastInDim_apply _ h v _ _ fun a => by
    match a with
    | ⟨0, _⟩ =>
      show n.val = if N = 1 then 0 else n.val
      split
      · have := n.isLt; omega
      · rfl
    | ⟨1, _⟩ =>
      show (0 : ℕ) = if (1 : ℕ) = 1 then 0 else j.val
      rw [if_pos rfl]

/-- A vector laid down as a one-row matrix, [N] → [1, N]: column n holds the vector's entry n. -/
theorem bcast_row_apply (v : (⟨1, ![N]⟩ : Shape).Idx → α) (h : (⟨1, ![N]⟩ : Shape).BroadcastsInDim ⟨2, ![1, N]⟩ ![1])
    (z : Fin 1) (n : Fin N) : broadcastInDim ⟨2, ![1, N]⟩ ![1] h v (ix2 z n) = v (ix1 n) :=
  broadcastInDim_apply _ h v _ _ fun a => by
    match a with
    | ⟨0, _⟩ =>
      show n.val = if N = 1 then 0 else n.val
      split
      · have := n.isLt; omega
      · rfl

/-- A one-row matrix spread over K rows, [1, N] → [K, N]: the entry at (k, n) is the row's entry n. -/
theorem bcast_row_tall_apply (v : (⟨2, ![1, N]⟩ : Shape).Idx → α) (h : (⟨2, ![1, N]⟩ : Shape).BroadcastsInDim ⟨2, ![K, N]⟩ ![0, 1])
    (k : Fin K) (n : Fin N) : broadcastInDim ⟨2, ![K, N]⟩ ![0, 1] h v (ix2 k n) = v (ix2 (0 : Fin 1) n) :=
  broadcastInDim_apply _ h v _ _ fun a => by
    match a with
    | ⟨0, _⟩ =>
      show (0 : ℕ) = if (1 : ℕ) = 1 then 0 else k.val
      rw [if_pos rfl]
    | ⟨1, _⟩ =>
      show n.val = if N = 1 then 0 else n.val
      split
      · have := n.isLt; omega
      · rfl

/-- The product divided by the column block of the column sums. -/
def pooledThenDivided (Q : FVec Ideal ⟨2, ![K, N]⟩ .f32) (RAW : FVec Ideal ⟨2, ![N, C]⟩ .f32)
    (hrt : (⟨2, ![K, N]⟩ : Shape).ReducesTo [0] ⟨1, ![N]⟩) (hu : 0 < (⟨0, ![]⟩ : Shape).numel)
    (b1 : (⟨1, ![N]⟩ : Shape).BroadcastsInDim ⟨2, ![N, 1]⟩ ![0]) (b2 : (⟨2, ![N, 1]⟩ : Shape).BroadcastsInDim ⟨2, ![N, C]⟩ ![0, 1]) :
    FVec Ideal ⟨2, ![N, C]⟩ .f32 :=
  Host.divf RAW (broadcastInDim ⟨2, ![N, C]⟩ ![0, 1] b2 (broadcastInDim ⟨2, ![N, 1]⟩ ![0] b1
    (Host.reduceAdd Q (constant ⟨0, ![]⟩ .f32 0x00000000#32) hrt hu)))

/-- The matrix divided by the row block of its column sums, transposed, times X. -/
def dividedThenPooled (Q : FVec Ideal ⟨2, ![K, N]⟩ .f32) (X : FVec Ideal ⟨2, ![K, C]⟩ .f32)
    (hrt : (⟨2, ![K, N]⟩ : Shape).ReducesTo [0] ⟨1, ![N]⟩) (hu : 0 < (⟨0, ![]⟩ : Shape).numel)
    (b3 : (⟨1, ![N]⟩ : Shape).BroadcastsInDim ⟨2, ![1, N]⟩ ![1]) (b4 : (⟨2, ![1, N]⟩ : Shape).BroadcastsInDim ⟨2, ![K, N]⟩ ![0, 1])
    (ht : (⟨2, ![K, N]⟩ : Shape).Transposes [1, 0] ⟨2, ![N, K]⟩) : FVec Ideal ⟨2, ![N, C]⟩ .f32 :=
  Host.dotGeneral (DotDims.plain N K C) none
    (transpose ⟨2, ![N, K]⟩ [1, 0] (Host.divf Q (broadcastInDim ⟨2, ![K, N]⟩ ![0, 1] b4 (broadcastInDim ⟨2, ![1, N]⟩ ![1] b3
      (Host.reduceAdd Q (constant ⟨0, ![]⟩ .f32 0x00000000#32) hrt hu)))) ht) X

/-- The two are one array when every entry of Q and X is real, every column sum of Q is not zero, and the product
    is the entrywise sum of products. -/
theorem pooledThenDivided_eq_dividedThenPooled (Q : FVec Ideal ⟨2, ![K, N]⟩ .f32) (X : FVec Ideal ⟨2, ![K, C]⟩ .f32)
    (RAW : FVec Ideal ⟨2, ![N, C]⟩ .f32)
    (hrt : (⟨2, ![K, N]⟩ : Shape).ReducesTo [0] ⟨1, ![N]⟩) (hr : (⟨2, ![K, N]⟩ : Shape).Reduces [0] ⟨1, ![N]⟩)
    (hu : 0 < (⟨0, ![]⟩ : Shape).numel)
    (b1 : (⟨1, ![N]⟩ : Shape).BroadcastsInDim ⟨2, ![N, 1]⟩ ![0]) (b2 : (⟨2, ![N, 1]⟩ : Shape).BroadcastsInDim ⟨2, ![N, C]⟩ ![0, 1])
    (b3 : (⟨1, ![N]⟩ : Shape).BroadcastsInDim ⟨2, ![1, N]⟩ ![1]) (b4 : (⟨2, ![1, N]⟩ : Shape).BroadcastsInDim ⟨2, ![K, N]⟩ ![0, 1])
    (ht : (⟨2, ![K, N]⟩ : Shape).Transposes [1, 0] ⟨2, ![N, K]⟩)
    (hQ : ∀ i, IsReal (Q i)) (hX : ∀ i, IsReal (X i)) (hs : ∀ n : Fin N, (∑ k : Fin K, Q (ix2 k n)) ≠ 0)
    (hraw : ∀ (n : Fin N) (j : Fin C), RAW (ix2 n j) = ∑ k : Fin K, Q (ix2 k n) * X (ix2 k j)) :
    pooledThenDivided Q RAW hrt hu b1 b2 = dividedThenPooled Q X hrt hu b3 b4 ht := by
  have key : ∀ (n : Fin N) (j : Fin C),
      pooledThenDivided Q RAW hrt hu b1 b2 (ix2 n j) = dividedThenPooled Q X hrt hu b3 b4 ht (ix2 n j) := by
    intro n j
    have hl : pooledThenDivided Q RAW hrt hu b1 b2 (ix2 n j)
        = Ideal.div (∑ k : Fin K, Q (ix2 k n) * X (ix2 k j)) (∑ k : Fin K, Q (ix2 k n)) := by
      show Ideal.div (RAW (ix2 n j)) (broadcastInDim ⟨2, ![N, C]⟩ ![0, 1] b2 (broadcastInDim ⟨2, ![N, 1]⟩ ![0] b1
        (Host.reduceAdd Q (constant ⟨0, ![]⟩ .f32 0x00000000#32) hrt hu)) (ix2 n j)) = _
      rw [bcast_col_wide_apply, bcast_col_apply, colsum_apply Q hrt hr hu n, hraw]
    have hrr : dividedThenPooled Q X hrt hu b3 b4 ht (ix2 n j)
        = ∑ k : Fin K, Ideal.div (Q (ix2 k n)) (∑ k : Fin K, Q (ix2 k n)) * X (ix2 k j) := by
      unfold dividedThenPooled
      rw [StackMember.dotGeneral_plain_apply]
      refine Finset.sum_congr rfl fun k _ => ?_
      rw [transpose_ix2_apply]
      show Ideal.div (Q (ix2 k n)) (broadcastInDim ⟨2, ![K, N]⟩ ![0, 1] b4 (broadcastInDim ⟨2, ![1, N]⟩ ![1] b3
        (Host.reduceAdd Q (constant ⟨0, ![]⟩ .f32 0x00000000#32) hrt hu)) (ix2 k n)) * _ = _
      rw [bcast_row_tall_apply, bcast_row_apply, colsum_apply Q hrt hr hu n]
    rw [hl, hrr]
    exact div_sum_mul_of_isReal (fun k n => Q (ix2 k n)) (fun k j => X (ix2 k j)) (fun k n => hQ _) (fun k j => hX _) n j (hs n)
  funext i
  rw [eq_ix2 i]
  exact key (i 0) (i 1)

end Cert.Br

end
-- ==== Proof.Br.H1.lean ====
/-
  The pooled features of the two branches: the kernel program's term and the reference program's term are one array.

  Big branch.  The kernel program takes the 1024 × 128 product RAW = Qᵀ·X out of its first region and divides it by
  the column sums of Q (65536 × 1024) spread as a column block: H1 = RAW / colsum(Q)[:, None].  The reference divides Q
  by its column sums spread as a row block, transposes, and multiplies by X (65536 × 128, the image flattened):
  H1 = (Q / colsum(Q)[None, :])ᵀ · X.  Entry (n, j) of the first is (∑ k, Q(k, n)·X(k, j)) / s(n) and of the second
  ∑ k, (Q(k, n) / s(n))·X(k, j), with s(n) = ∑ k, Q(k, n); they agree when every entry of Q and X is real and no s(n)
  is zero.  Small branch: the same with Qsmall (65536 × 2048) and 2048 rows.

  Each side is written with the names its own program gives to the shapes, the broadcast and transpose
  facts and the product's dimension record.
-/
import proofs.«120736_j30030411334238_1_alg».proof.KernelIdeal
import proofs.«120736_j30030411334238_1_alg».proof.ReferenceIdeal
import proofs.«120736_j30030411334238_1_alg».proof.Proof.Br.Layout

open scoped BigOperators

noncomputable section

namespace Cert.Br

open Idealize.ShloMosaic Idealize.ShloMosaic.ValueIdx DivSum

variable [Cert.KernelIdeal.Facts] [Cert.ReferenceIdeal.Facts]

/-! ## The kernel program's side -/

/-- The big branch's pooled features as the kernel program computes them from the region's product. -/
def H1k (Q : FVec Ideal Cert.KernelIdeal.S65536x1024 .f32) (RAW : FVec Ideal Cert.KernelIdeal.S1024x128 .f32) :
    FVec Ideal Cert.KernelIdeal.S1024x128 .f32 :=
  Host.divf RAW (broadcastInDim Cert.KernelIdeal.S1024x128 ![0, 1] Cert.KernelIdeal.Facts₀.bcast_S1024x1_S1024x128_0_1
    (broadcastInDim Cert.KernelIdeal.S1024x1 ![0] Cert.KernelIdeal.Facts₀.bcast_S1024_S1024x1_0
      (Host.reduceAdd Q (constant Cert.KernelIdeal.S_ .f32 0x00000000#32)
        Cert.KernelIdeal.Facts₀.reducesTo_S65536x1024_S1024_d0 Cert.KernelIdeal.Facts₀.h_S_)))

/-- The small branch's pooled features as the kernel program computes them from the region's product. -/
def H2k (Qs : FVec Ideal Cert.KernelIdeal.S65536x2048 .f32) (RAW : FVec Ideal Cert.KernelIdeal.S2048x128 .f32) :
    FVec Ideal Cert.KernelIdeal.S2048x128 .f32 :=
  Host.divf RAW (broadcastInDim Cert.KernelIdeal.S2048x128 ![0, 1] Cert.KernelIdeal.Facts₀.bcast_S2048x1_S2048x128_0_1
    (broadcastInDim Cert.KernelIdeal.S2048x1 ![0] Cert.KernelIdeal.Facts₀.bcast_S2048_S2048x1_0
      (Host.reduceAdd Qs (constant Cert.KernelIdeal.S_ .f32 0x00000000#32)
        Cert.KernelIdeal.Facts₀.reducesTo_S65536x2048_S2048_d0 Cert.KernelIdeal.Facts₀.h_S_)))

/-! ## The reference program's side -/

/-- The big assignment matrix with every column divided by its sum, as the reference computes it. -/
def normQr (Q : FVec Ideal Cert.ReferenceIdeal.S65536x1024 .f32) : FVec Ideal Cert.ReferenceIdeal.S65536x1024 .f32 :=
  Host.divf Q (broadcastInDim Cert.ReferenceIdeal.S65536x1024 ![0, 1] Cert.ReferenceIdeal.Facts₀.bcast_S1x1024_S65536x1024_0_1
    (broadcastInDim Cert.ReferenceIdeal.S1x1024 ![1] Cert.ReferenceIdeal.Facts₀.bcast_S1024_S1x1024_1
      (Host.reduceAdd Q (constant Cert.ReferenceIdeal.S_ .f32 0x00000000#32)
        Cert.ReferenceIdeal.Facts₀.reducesTo_S65536x1024_S1024_d0 Cert.ReferenceIdeal.Facts₀.h_S_)))

/-- The small assignment matrix with every column divided by its sum, as the reference computes it. -/
def normQsr (Qs : FVec Ideal Cert.ReferenceIdeal.S65536x2048 .f32) : FVec Ideal Cert.ReferenceIdeal.S65536x2048 .f32 :=
  Host.divf Qs (broadcastInDim Cert.ReferenceIdeal.S65536x2048 ![0, 1] Cert.ReferenceIdeal.Facts₀.bcast_S1x2048_S65536x2048_0_1
    (broadcastInDim Cert.ReferenceIdeal.S1x2048 ![1] Cert.ReferenceIdeal.Facts₀.bcast_S2048_S1x2048_1
      (Host.reduceAdd Qs (constant Cert.ReferenceIdeal.S_ .f32 0x00000000#32)
        Cert.ReferenceIdeal.Facts₀.reducesTo_S65536x2048_S2048_d0 Cert.ReferenceIdeal.Facts₀.h_S_)))

/-- The big branch's pooled features as the reference computes them: the normalised matrix transposed, times X. -/
def H1r (Q : FVec Ideal Cert.ReferenceIdeal.S65536x1024 .f32) (X : FVec Ideal Cert.ReferenceIdeal.S65536x128 .f32) :
    FVec Ideal Cert.ReferenceIdeal.S1024x128 .f32 :=
  Host.dotGeneral Cert.ReferenceIdeal.dot_S1024x65536_S65536x128_S1024x128_1_0_0_1_n_n none
    (transpose Cert.ReferenceIdeal.S1024x65536 [1, 0] (normQr Q) Cert.ReferenceIdeal.Facts₀.transposes_S65536x1024_S1024x65536_1_0) X

/-- The small branch's pooled features as the reference computes them. -/
def H2r (Qs : FVec Ideal Cert.ReferenceIdeal.S65536x2048 .f32) (X : FVec Ideal Cert.ReferenceIdeal.S65536x128 .f32) :
    FVec Ideal Cert.ReferenceIdeal.S2048x128 .f32 :=
  Host.dotGeneral Cert.ReferenceIdeal.dot_S2048x65536_S65536x128_S2048x128_1_0_0_1_n_n none
    (transpose Cert.ReferenceIdeal.S2048x65536 [1, 0] (normQsr Qs) Cert.ReferenceIdeal.Facts₀.transposes_S65536x2048_S2048x65536_1_0) X

/-! ## The two sides are one array -/

/-- Big branch: with real entries and nonzero column sums, dividing the product by the column sums is multiplying by
    the normalised matrix. -/
theorem H1_eq (Q : FVec Ideal ⟨2, ![65536, 1024]⟩ .f32) (X : FVec Ideal ⟨2, ![65536, 128]⟩ .f32)
    (RAW : FVec Ideal ⟨2, ![1024, 128]⟩ .f32)
    (hQ : ∀ i, IsReal (Q i)) (hX : ∀ i, IsReal (X i)) (hs : ∀ n : Fin 1024, (∑ k : Fin 65536, Q (ix2 k n)) ≠ 0)
    (hraw : ∀ (n : Fin 1024) (j : Fin 128), RAW (ix2 n j) = ∑ k : Fin 65536, Q (ix2 k n) * X (ix2 k j)) :
    H1k Q RAW = H1r Q X :=
  pooledThenDivided_eq_dividedThenPooled (K := 65536) (N := 1024) (C := 128) Q X RAW
    Cert.KernelIdeal.Facts₀.reducesTo_S65536x1024_S1024_d0 (by decide) Cert.KernelIdeal.Facts₀.h_S_
    Cert.KernelIdeal.Facts₀.bcast_S1024_S1024x1_0 Cert.KernelIdeal.Facts₀.bcast_S1024x1_S1024x128_0_1
    Cert.ReferenceIdeal.Facts₀.bcast_S1024_S1x1024_1 Cert.ReferenceIdeal.Facts₀.bcast_S1x1024_S65536x1024_0_1
    Cert.ReferenceIdeal.Facts₀.transposes_S65536x1024_S1024x65536_1_0 hQ hX hs hraw

/-- Small branch: the same with the small assignment matrix. -/
theorem H2_eq (Qs : FVec Ideal ⟨2, ![65536, 2048]⟩ .f32) (X : FVec Ideal ⟨2, ![65536, 128]⟩ .f32)
    (RAW : FVec Ideal ⟨2, ![2048, 128]⟩ .f32)
    (hQ : ∀ i, IsReal (Qs i)) (hX : ∀ i, IsReal (X i)) (hs : ∀ n : Fin 2048, (∑ k : Fin 65536, Qs (ix2 k n)) ≠ 0)
    (hraw : ∀ (n : Fin 2048) (j : Fin 128), RAW (ix2 n j) = ∑ k : Fin 65536, Qs (ix2 k n) * X (ix2 k j)) :
    H2k Qs RAW = H2r Qs X :=
  pooledThenDivided_eq_dividedThenPooled (K := 65536) (N := 2048) (C := 128) Qs X RAW
    Cert.KernelIdeal.Facts₀.reducesTo_S65536x2048_S2048_d0 (by decide) Cert.KernelIdeal.Facts₀.h_S_
    Cert.KernelIdeal.Facts₀.bcast_S2048_S2048x1_0 Cert.KernelIdeal.Facts₀.bcast_S2048x1_S2048x128_0_1
    Cert.ReferenceIdeal.Facts₀.bcast_S2048_S1x2048_1 Cert.ReferenceIdeal.Facts₀.bcast_S1x2048_S65536x2048_0_1
    Cert.ReferenceIdeal.Facts₀.transposes_S65536x2048_S2048x65536_1_0 hQ hX hs hraw

end Cert.Br

end
-- ==== Proof.Br.H1After.lean ====
/-
  The pooled features in the programs' buffers.

  Kernel program: after the first three host operations that follow a pooling region (the column sums stood up as a
  column, spread over the 128 feature columns, and the region's product divided by that), the quotient's buffer holds
  the region's product over the spread column sums.  Reference program: after its first stage the big branch's pooled
  features' buffer holds the normalised assignment matrix transposed times the flattened image, and after the small
  branch's first two operations its pooled features' buffer holds the same of the small matrix.  When the two programs
  start from the same image and assignment matrices, every entry real and every column sum nonzero, and the region's
  product is the entrywise sum of products, the two buffers hold one array.
-/
import proofs.«120736_j30030411334238_1_alg».proof.Proof.Gen.KernelIdeal.Launch
import proofs.«120736_j30030411334238_1_alg».proof.Proof.Ref.Ops
import proofs.«120736_j30030411334238_1_alg».proof.Proof.Br.H1
import Idealize.ShloMosaic.Lib.StableHlo.Run

set_option maxRecDepth 16384

open scoped BigOperators

noncomputable section

namespace Cert.Br

open Idealize.ShloMosaic Idealize.ShloMosaic.ValueIdx Idealize.ShloMosaic.StableHlo DivSum

variable [Cert.KernelIdeal.Facts] [Cert.ReferenceIdeal.Facts]

/-- A valuation of the kernel program's buffers. -/
abbrev KVal := Valuation Cert.KernelIdeal.τ Cert.KernelIdeal.sig (Elt Ideal)
/-- A valuation of the reference program's buffers. -/
abbrev RVal := Valuation Cert.ReferenceIdeal.τ Cert.ReferenceIdeal.sig (Elt Ideal)

/-! ## The kernel program's buffers, read with their array types -/

abbrev kImage (W : KVal) : FVec Ideal ⟨3, ![256, 256, 128]⟩ .f32 := W (Proc.devRef .tc Cert.KernelIdeal.main_arg0)
abbrev kQ (W : KVal) : FVec Ideal ⟨2, ![65536, 1024]⟩ .f32 := W (Proc.devRef .tc Cert.KernelIdeal.main_arg2)
abbrev kQs (W : KVal) : FVec Ideal ⟨2, ![65536, 2048]⟩ .f32 := W (Proc.devRef .tc Cert.KernelIdeal.main_arg4)
abbrev kFlat (W : KVal) : FVec Ideal ⟨2, ![65536, 128]⟩ .f32 := W (Proc.devRef .tc Cert.KernelIdeal.main_v0)
abbrev kColsum (W : KVal) : FVec Ideal ⟨1, ![1024]⟩ .f32 := W (Proc.devRef .tc Cert.KernelIdeal.main_v1)
abbrev kColsumS (W : KVal) : FVec Ideal ⟨1, ![2048]⟩ .f32 := W (Proc.devRef .tc Cert.KernelIdeal.main_v2)
abbrev kRaw1 (W : KVal) : FVec Ideal ⟨2, ![1024, 128]⟩ .f32 := W (Proc.devRef .tc Cert.KernelIdeal.main_v3)
abbrev kRaw2 (W : KVal) : FVec Ideal ⟨2, ![2048, 128]⟩ .f32 := W (Proc.devRef .tc Cert.KernelIdeal.main_v124)

/-! ## The reference program's buffers, read with their array types -/

abbrev rImage (W : RVal) : FVec Ideal ⟨3, ![256, 256, 128]⟩ .f32 := W (Proc.devRef .tc Cert.ReferenceIdeal.main_arg0)
abbrev rQ (W : RVal) : FVec Ideal ⟨2, ![65536, 1024]⟩ .f32 := W (Proc.devRef .tc Cert.ReferenceIdeal.main_arg2)
abbrev rQs (W : RVal) : FVec Ideal ⟨2, ![65536, 2048]⟩ .f32 := W (Proc.devRef .tc Cert.ReferenceIdeal.main_arg4)
abbrev rFlat (W : RVal) : FVec Ideal ⟨2, ![65536, 128]⟩ .f32 := W (Proc.devRef .tc Cert.ReferenceIdeal.main_v0)
abbrev rNormQs (W : RVal) : FVec Ideal ⟨2, ![65536, 2048]⟩ .f32 := W (Proc.devRef .tc Cert.ReferenceIdeal.main_v8)

/-! ## What the buffers hold -/

/-- Kernel program, big branch: the quotient's buffer after the three operations. -/
theorem after_hostOps1_take3 (W : KVal) :
    (StableHlo.after ((Cert.KernelIdeal.Gen.hostOps1 (F := Ideal)).take 3) W (Proc.devRef .tc Cert.KernelIdeal.main_v6)
        : FVec Ideal ⟨2, ![1024, 128]⟩ .f32)
      = Host.divf (kRaw1 W) (broadcastInDim Cert.KernelIdeal.S1024x128 ![0, 1] Cert.KernelIdeal.Facts₀.bcast_S1024x1_S1024x128_0_1
          (broadcastInDim Cert.KernelIdeal.S1024x1 ![0] Cert.KernelIdeal.Facts₀.bcast_S1024_S1024x1_0 (kColsum W))) := by
  simp only [Cert.KernelIdeal.Gen.hostOps1, List.take_succ_cons, List.take_zero]
  after_results

/-- Kernel program, small branch: the quotient's buffer after the three operations. -/
theorem after_hostOps3_take3 (W : KVal) :
    (StableHlo.after ((Cert.KernelIdeal.Gen.hostOps3 (F := Ideal)).take 3) W (Proc.devRef .tc Cert.KernelIdeal.main_v127)
        : FVec Ideal ⟨2, ![2048, 128]⟩ .f32)
      = Host.divf (kRaw2 W) (broadcastInDim Cert.KernelIdeal.S2048x128 ![0, 1] Cert.KernelIdeal.Facts₀.bcast_S2048x1_S2048x128_0_1
          (broadcastInDim Cert.KernelIdeal.S2048x1 ![0] Cert.KernelIdeal.Facts₀.bcast_S2048_S2048x1_0 (kColsumS W))) := by
  simp only [Cert.KernelIdeal.Gen.hostOps3, List.take_succ_cons, List.take_zero]
  after_results

/-- Reference program: after the first stage the big branch's pooled features' buffer holds the reference's term of
    the assignment matrix and the flattened image. -/
theorem after_rseg0_v10 (W' : RVal) :
    (StableHlo.after (Cert.ReferenceIdeal.Hand.rseg0 (F := Ideal)) W' (Proc.devRef .tc Cert.ReferenceIdeal.main_v10)
        : FVec Ideal ⟨2, ![1024, 128]⟩ .f32)
      = H1r (rQ W') (shapeCast Cert.ReferenceIdeal.S65536x128 (rImage W') Cert.ReferenceIdeal.Facts₀.shapeCasts_S256x256x128_S65536x128) := by
  after_results
  rfl

/-- Reference program: after the first stage the flattened image's buffer holds the image reshaped. -/
theorem after_rseg0_v0 (W' : RVal) :
    (StableHlo.after (Cert.ReferenceIdeal.Hand.rseg0 (F := Ideal)) W' (Proc.devRef .tc Cert.ReferenceIdeal.main_v0)
        : FVec Ideal ⟨2, ![65536, 128]⟩ .f32)
      = shapeCast Cert.ReferenceIdeal.S65536x128 (rImage W') Cert.ReferenceIdeal.Facts₀.shapeCasts_S256x256x128_S65536x128 := by
  after_results
  rfl

/-- Reference program: after the first stage the normalised small matrix's buffer holds the small matrix with every
    column divided by its sum. -/
theorem after_rseg0_v8 (W' : RVal) :
    (StableHlo.after (Cert.ReferenceIdeal.Hand.rseg0 (F := Ideal)) W' (Proc.devRef .tc Cert.ReferenceIdeal.main_v8)
        : FVec Ideal ⟨2, ![65536, 2048]⟩ .f32)
      = normQsr (rQs W') := by
  after_results
  rfl

/-- Reference program, small branch: after the two operations the pooled features' buffer holds the normalised small
    matrix (as its buffer holds it) transposed times the flattened image (as its buffer holds it). -/
theorem after_rseg2_v129 (V' : RVal) :
    (StableHlo.after (Cert.ReferenceIdeal.Hand.rseg2 (F := Ideal)) V' (Proc.devRef .tc Cert.ReferenceIdeal.main_v129)
        : FVec Ideal ⟨2, ![2048, 128]⟩ .f32)
      = Host.dotGeneral Cert.ReferenceIdeal.dot_S2048x65536_S65536x128_S2048x128_1_0_0_1_n_n none
          (transpose Cert.ReferenceIdeal.S2048x65536 [1, 0] (rNormQs V') Cert.ReferenceIdeal.Facts₀.transposes_S65536x2048_S2048x65536_1_0)
          (rFlat V') := by
  after_results

/-- The flattened image has real entries when the image has. -/
theorem isReal_flat (x : FVec Ideal ⟨3, ![256, 256, 128]⟩ .f32) (hx : ∀ i, IsReal (x i))
    (h : (⟨3, ![256, 256, 128]⟩ : Shape).ShapeCasts ⟨2, ![65536, 128]⟩) (i : (⟨2, ![65536, 128]⟩ : Shape).Idx) :
    IsReal (shapeCast ⟨2, ![65536, 128]⟩ x h i) := hx _

/-! ## The two programs' buffers hold one array -/

/-- Big branch.  `W`: the kernel program's buffers when the three operations start (the flattened image and the column
    sums as the first host operations left them, the region's product in its output).  `W'`: the reference's buffers
    at its start. -/
theorem H1_buffers_eq (W : KVal) (W' : RVal)
    (hflat : kFlat W = shapeCast Cert.KernelIdeal.S65536x128 (kImage W) Cert.KernelIdeal.Facts₀.shapeCasts_S256x256x128_S65536x128)
    (hcol : kColsum W = Host.reduceAdd (kQ W) (constant Cert.KernelIdeal.S_ .f32 0x00000000#32)
      Cert.KernelIdeal.Facts₀.reducesTo_S65536x1024_S1024_d0 Cert.KernelIdeal.Facts₀.h_S_)
    (himg : rImage W' = kImage W) (hq : rQ W' = kQ W)
    (hx : ∀ i, IsReal (kImage W i)) (hQ : ∀ i, IsReal (kQ W i))
    (hs : ∀ n : Fin 1024, (∑ k : Fin 65536, kQ W (ix2 k n)) ≠ 0)
    (hraw : ∀ (n : Fin 1024) (j : Fin 128), kRaw1 W (ix2 n j) = ∑ k : Fin 65536, kQ W (ix2 k n) * kFlat W (ix2 k j)) :
    (StableHlo.after (Cert.ReferenceIdeal.Hand.rseg0 (F := Ideal)) W' (Proc.devRef .tc Cert.ReferenceIdeal.main_v10)
        : FVec Ideal ⟨2, ![1024, 128]⟩ .f32)
      = StableHlo.after ((Cert.KernelIdeal.Gen.hostOps1 (F := Ideal)).take 3) W (Proc.devRef .tc Cert.KernelIdeal.main_v6) := by
  rw [after_rseg0_v10, after_hostOps1_take3, himg, hq, hcol]
  have hX : ∀ i, IsReal (kFlat W i) := fun i => by rw [hflat]; exact hx _
  have e := H1_eq (kQ W) (kFlat W) (kRaw1 W) hQ hX hs hraw
  rw [hflat] at e
  exact e.symm

/-- Small branch.  `W`: the kernel program's buffers when the three operations start.  `V'`: the reference's buffers
    when the small branch's two operations start (the flattened image and the normalised small matrix as the first
    stage left them). -/
theorem H2_buffers_eq (W : KVal) (V' : RVal)
    (hflat : kFlat W = shapeCast Cert.KernelIdeal.S65536x128 (kImage W) Cert.KernelIdeal.Facts₀.shapeCasts_S256x256x128_S65536x128)
    (hcol : kColsumS W = Host.reduceAdd (kQs W) (constant Cert.KernelIdeal.S_ .f32 0x00000000#32)
      Cert.KernelIdeal.Facts₀.reducesTo_S65536x2048_S2048_d0 Cert.KernelIdeal.Facts₀.h_S_)
    (hflat' : rFlat V' = shapeCast Cert.ReferenceIdeal.S65536x128 (rImage V') Cert.ReferenceIdeal.Facts₀.shapeCasts_S256x256x128_S65536x128)
    (hnorm' : rNormQs V' = normQsr (rQs V'))
    (himg : rImage V' = kImage W) (hq : rQs V' = kQs W)
    (hx : ∀ i, IsReal (kImage W i)) (hQ : ∀ i, IsReal (kQs W i))
    (hs : ∀ n : Fin 2048, (∑ k : Fin 65536, kQs W (ix2 k n)) ≠ 0)
    (hraw : ∀ (n : Fin 2048) (j : Fin 128), kRaw2 W (ix2 n j) = ∑ k : Fin 65536, kQs W (ix2 k n) * kFlat W (ix2 k j)) :
    (StableHlo.after (Cert.ReferenceIdeal.Hand.rseg2 (F := Ideal)) V' (Proc.devRef .tc Cert.ReferenceIdeal.main_v129)
        : FVec Ideal ⟨2, ![2048, 128]⟩ .f32)
      = StableHlo.after ((Cert.KernelIdeal.Gen.hostOps3 (F := Ideal)).take 3) W (Proc.devRef .tc Cert.KernelIdeal.main_v127) := by
  rw [after_rseg2_v129, after_hostOps3_take3, hnorm', hflat', himg, hq, hcol]
  have hX : ∀ i, IsReal (kFlat W i) := fun i => by rw [hflat]; exact hx _
  have e := H2_eq (kQs W) (kFlat W) (kRaw2 W) hQ hX hs hraw
  rw [hflat] at e
  exact e.symm

end Cert.Br

end
-- ==== Proof.Br.StepsH.lean ====
/-
  The pooled features of the two branches, for the buffers the two programs really hold.

  Kernel program, core c, launch memory m.  Its first host operations flatten the image and sum the columns of the two
  assignment matrices; the first pooling region leaves in its output the product Qᵀ·X (entry (n, j) the sum over the
  65536 rows k of Q(k, n)·X(k, j)); the next host stretch divides it by the column sums into the pooled features H1.
  The reference's first stage computes H1 as the normalised matrix transposed times X.  From a start of the reference
  that holds the kernel program's image and assignment matrices, under the precondition (real entries, nonzero column
  sums), the two pooled-feature buffers hold one array.  The same for the small branch: the third region's product
  Qsmallᵀ·X divided by Qsmall's column sums against the reference's two operations on the normalised small matrix.

  The buffers the quotient reads (the flattened image, the column sums, the arguments) are written by the first host
  operations only, so at the entry of either stretch they hold what those operations left.
-/
import proofs.«120736_j30030411334238_1_alg».proof.Defs
import proofs.«120736_j30030411334238_1_alg».proof.Proof.KI.Main
import proofs.«120736_j30030411334238_1_alg».proof.Proof.KI.Val0
import proofs.«120736_j30030411334238_1_alg».proof.Proof.KI.Val2
import proofs.«120736_j30030411334238_1_alg».proof.Proof.Br.Base
import proofs.«120736_j30030411334238_1_alg».proof.Proof.Br.Pre
import proofs.«120736_j30030411334238_1_alg».proof.Proof.Br.H1After

set_option maxRecDepth 16384

open scoped BigOperators

noncomputable section

namespace Cert.Bridge

open Idealize.ShloMosaic Idealize.ShloMosaic.StableHlo Idealize.ShloMosaic.ValueIdx Idealize.SL.Sem DivSum

variable (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD)

/-! ## What the first host operations leave -/

/-- The flattened image's buffer after the first host operations: the image reshaped. -/
theorem V1_flat : Cert.Br.kFlat (Cert.KernelIdeal.Gen.V1 m c)
    = shapeCast Cert.KernelIdeal.S65536x128 (Cert.Br.kImage (Cert.KernelIdeal.Gen.V0 m c)) Cert.KernelIdeal.Facts₀.shapeCasts_S256x256x128_S65536x128 := by
  show after (Cert.KernelIdeal.Gen.hostOps0 (F := Ideal)) _ _ = _
  after_results
  rfl

/-- The big matrix's column sums after the first host operations. -/
theorem V1_colsum : Cert.Br.kColsum (Cert.KernelIdeal.Gen.V1 m c)
    = Host.reduceAdd (Cert.Br.kQ (Cert.KernelIdeal.Gen.V0 m c)) (constant Cert.KernelIdeal.S_ .f32 0x00000000#32)
        Cert.KernelIdeal.Facts₀.reducesTo_S65536x1024_S1024_d0 Cert.KernelIdeal.Facts₀.h_S_ := by
  show after (Cert.KernelIdeal.Gen.hostOps0 (F := Ideal)) _ _ = _
  after_results

/-- The small matrix's column sums after the first host operations. -/
theorem V1_colsumS : Cert.Br.kColsumS (Cert.KernelIdeal.Gen.V1 m c)
    = Host.reduceAdd (Cert.Br.kQs (Cert.KernelIdeal.Gen.V0 m c)) (constant Cert.KernelIdeal.S_ .f32 0x00000000#32)
        Cert.KernelIdeal.Facts₀.reducesTo_S65536x2048_S2048_d0 Cert.KernelIdeal.Facts₀.h_S_ := by
  show after (Cert.KernelIdeal.Gen.hostOps0 (F := Ideal)) _ _ = _
  after_results

/-! ## Buffers that keep their contents up to the entry of either quotient -/

/-- A buffer that neither the first two regions nor any host stretch up to the third region's entry writes holds, at
    that entry, what the first host operations left. -/
theorem V11_eq_V1 (r : Ref Cert.KernelIdeal.sig .tc) (h11 : r ∉ ([Cert.KernelIdeal.main_v123] : List (Ref Cert.KernelIdeal.sig .tc)))
    (h10 : r ∉ Cert.KernelIdeal.Gen.hostOps1_7_W) (h9 : r ∉ Cert.KernelIdeal.Gen.hostOps1_6_W) (h8 : r ∉ Cert.KernelIdeal.Gen.hostOps1_5_W) (h7 : r ∉ Cert.KernelIdeal.Gen.hostOps1_4_W)
    (h6 : r ∉ Cert.KernelIdeal.Gen.hostOps1_3_W) (h5 : r ∉ Cert.KernelIdeal.Gen.hostOps1_2_W) (h4 : r ∉ Cert.KernelIdeal.Gen.hostOps1_1_W) (h3 : r ∉ Cert.KernelIdeal.Gen.hostOps1_W)
    (h2 : r ∉ ([Cert.KernelIdeal.main_v3] : List (Ref Cert.KernelIdeal.sig .tc))) :
    Cert.KernelIdeal.Gen.V11 m outs c (kb r) = Cert.KernelIdeal.Gen.V1 m c (kb r) :=
  (Cert.KernelIdeal.Gen.V11_of m outs c r h11).trans <| (Cert.KernelIdeal.Gen.V10_of m outs c r h10).trans <| (Cert.KernelIdeal.Gen.V9_of m outs c r h9).trans <|
    (Cert.KernelIdeal.Gen.V8_of m outs c r h8).trans <| (Cert.KernelIdeal.Gen.V7_of m outs c r h7).trans <| (Cert.KernelIdeal.Gen.V6_of m outs c r h6).trans <|
    (Cert.KernelIdeal.Gen.V5_of m outs c r h5).trans <| (Cert.KernelIdeal.Gen.V4_of m outs c r h4).trans <| (Cert.KernelIdeal.Gen.V3_of m outs c r h3).trans
    (Cert.KernelIdeal.Gen.V2_of m outs c r h2)

theorem V11_flat : Cert.Br.kFlat (Cert.KernelIdeal.Gen.V11 m outs c) = Cert.Br.kFlat (Cert.KernelIdeal.Gen.V1 m c) :=
  V11_eq_V1 m outs c _ (by decide) (by decide) (by decide) (by decide) (by decide) (by decide) (by decide) (by decide) (by decide) (by decide)
theorem V11_colsumS : Cert.Br.kColsumS (Cert.KernelIdeal.Gen.V11 m outs c) = Cert.Br.kColsumS (Cert.KernelIdeal.Gen.V1 m c) :=
  V11_eq_V1 m outs c _ (by decide) (by decide) (by decide) (by decide) (by decide) (by decide) (by decide) (by decide) (by decide) (by decide)
theorem V11_image : Cert.Br.kImage (Cert.KernelIdeal.Gen.V11 m outs c) = Cert.Br.kImage (Cert.KernelIdeal.Gen.V1 m c) :=
  V11_eq_V1 m outs c _ (by decide) (by decide) (by decide) (by decide) (by decide) (by decide) (by decide) (by decide) (by decide) (by decide)
theorem V11_Qs : Cert.Br.kQs (Cert.KernelIdeal.Gen.V11 m outs c) = Cert.Br.kQs (Cert.KernelIdeal.Gen.V1 m c) :=
  V11_eq_V1 m outs c _ (by decide) (by decide) (by decide) (by decide) (by decide) (by decide) (by decide) (by decide) (by decide) (by decide)

/-- The quotient's own stretch: its last six operations do not write the quotient's buffer. -/
theorem hostOps1_rest_keeps (U : KVal) :
    after ((Cert.KernelIdeal.Gen.hostOps1 (F := Ideal)).drop 3) U (kb Cert.KernelIdeal.main_v6) = U (kb Cert.KernelIdeal.main_v6) := by
  simp only [Cert.KernelIdeal.Gen.hostOps1, List.drop_succ_cons, List.drop_zero]
  after_results

/-- The small branch's quotient likewise: the stretch's operations after the third do not write its buffer. -/
theorem hostOps3_rest_keeps (U : KVal) :
    after ((Cert.KernelIdeal.Gen.hostOps3 (F := Ideal)).drop 3) U (kb Cert.KernelIdeal.main_v127) = U (kb Cert.KernelIdeal.main_v127) := by
  simp only [Cert.KernelIdeal.Gen.hostOps3, List.drop_succ_cons, List.drop_zero]
  after_results

/-! ## The two steps, from what the two pooling regions leave -/

variable [hP : Cert.Pre_finite_inputs.Facts]

set_option maxHeartbeats 1000000 in
/-- Big branch, given that the first region leaves the product of the transposed assignment matrix and the flattened
    image: the reference's pooled features after its first stage are the kernel program's after its second host stretch. -/
theorem stepA_of
    (hleft : @Eq (FVec Ideal ⟨2, ![1024, 128]⟩ .f32) (Cert.KernelIdeal.Gen.left0 m c)
      (fun x => ∑ k : Fin 65536, Cert.Br.kQ (Cert.KernelIdeal.Gen.V1 m c) (ix2 k (x 0)) * Cert.Br.kFlat (Cert.KernelIdeal.Gen.V1 m c) (ix2 k (x 1))))
    (hpre : Cert.Pre_KernelIdeal (hPre_finite_inputs := hP) m) (V0' : RVal)
    (h0 : V0' (rb Cert.ReferenceIdeal.main_arg0) = Cert.KernelIdeal.Gen.V0 m c (kb Cert.KernelIdeal.main_arg0))
    (h2 : V0' (rb Cert.ReferenceIdeal.main_arg2) = Cert.KernelIdeal.Gen.V0 m c (kb Cert.KernelIdeal.main_arg2)) :
    after (Cert.ReferenceIdeal.Hand.rseg0 (F := Ideal)) V0' (rb Cert.ReferenceIdeal.main_v10) = Cert.KernelIdeal.Gen.V3 m (Cert.KernelIdeal.Gen.outsD m) c (kb Cert.KernelIdeal.main_v6) := by
  have eK : Cert.KernelIdeal.Gen.V3 m (Cert.KernelIdeal.Gen.outsD m) c (kb Cert.KernelIdeal.main_v6)
      = after ((Cert.KernelIdeal.Gen.hostOps1 (F := Ideal)).take 3) (Cert.KernelIdeal.Gen.V2 m (Cert.KernelIdeal.Gen.outsD m) c) (kb Cert.KernelIdeal.main_v6) := by
    show after (Cert.KernelIdeal.Gen.hostOps1 (F := Ideal)) _ _ = _
    rw [after_cut 3 (Cert.KernelIdeal.Gen.hostOps1 (F := Ideal))]
    exact hostOps1_rest_keeps _
  rw [eK]
  obtain ⟨hx, hQ, -, hs, -⟩ := Cert.Pre_finite_inputs.Br.facts_of_pre _ _ _ _ _ _ _ _ _ _ _ _ _ _ _ _ _ _ _ _ _ _ _ _ _ _ _ _ _ _ _ _ _ _ _ (hpre c)
  -- the buffers the quotient reads, at the stretch's entry
  have eImg : Cert.Br.kImage (Cert.KernelIdeal.Gen.V2 m (Cert.KernelIdeal.Gen.outsD m) c) = Cert.Br.kImage (Cert.KernelIdeal.Gen.V0 m c) :=
    (Cert.KernelIdeal.Gen.V2_of m _ c _ (by decide)).trans (Cert.KernelIdeal.Gen.V1_of m c _ (by decide))
  have eQ1 : Cert.Br.kQ (Cert.KernelIdeal.Gen.V1 m c) = Cert.Br.kQ (Cert.KernelIdeal.Gen.V0 m c) := Cert.KernelIdeal.Gen.V1_of m c _ (by decide)
  have eQ2 : Cert.Br.kQ (Cert.KernelIdeal.Gen.V2 m (Cert.KernelIdeal.Gen.outsD m) c) = Cert.Br.kQ (Cert.KernelIdeal.Gen.V1 m c) := Cert.KernelIdeal.Gen.V2_of m _ c _ (by decide)
  have eFlat : Cert.Br.kFlat (Cert.KernelIdeal.Gen.V2 m (Cert.KernelIdeal.Gen.outsD m) c) = Cert.Br.kFlat (Cert.KernelIdeal.Gen.V1 m c) := Cert.KernelIdeal.Gen.V2_of m _ c _ (by decide)
  have eCol : Cert.Br.kColsum (Cert.KernelIdeal.Gen.V2 m (Cert.KernelIdeal.Gen.outsD m) c) = Cert.Br.kColsum (Cert.KernelIdeal.Gen.V1 m c) := Cert.KernelIdeal.Gen.V2_of m _ c _ (by decide)
  have eRaw : Cert.Br.kRaw1 (Cert.KernelIdeal.Gen.V2 m (Cert.KernelIdeal.Gen.outsD m) c)
      = fun x => ∑ k : Fin 65536, Cert.Br.kQ (Cert.KernelIdeal.Gen.V1 m c) (ix2 k (x 0)) * Cert.Br.kFlat (Cert.KernelIdeal.Gen.V1 m c) (ix2 k (x 1)) := by
    have e1 : Cert.Br.kRaw1 (Cert.KernelIdeal.Gen.V2 m (Cert.KernelIdeal.Gen.outsD m) c) = Cert.KernelIdeal.Gen.outsD m 2 Cert.KernelIdeal.main_v3 c :=
      Function.update_self (kb Cert.KernelIdeal.main_v3) (Cert.KernelIdeal.Gen.outsD m 2 Cert.KernelIdeal.main_v3 c) (Cert.KernelIdeal.Gen.V1 m c)
    rw [e1, Cert.KernelIdeal.Gen.outsD_2]
    exact hleft
  refine Cert.Br.H1_buffers_eq (Cert.KernelIdeal.Gen.V2 m (Cert.KernelIdeal.Gen.outsD m) c) V0' ?_ ?_ ?_ ?_ ?_ ?_ ?_ ?_
  · rw [eFlat, eImg]; exact V1_flat m c
  · rw [eCol, eQ2, eQ1]; exact V1_colsum m c
  · rw [eImg]; exact h0
  · rw [eQ2, eQ1]; exact h2
  · intro i; rw [eImg]; exact hx i
  · intro i; rw [eQ2, eQ1]; exact hQ i
  · intro n; rw [eQ2, eQ1]; exact hs n
  · intro n j; rw [eRaw, eQ2, eFlat]

set_option maxHeartbeats 1000000 in
/-- Small branch, given that the third region leaves the product of the transposed small assignment matrix and the
    flattened image: the reference's pooled features after the branch's first two operations are the kernel program's
    after the host stretch that follows the third region. -/
theorem stepD_of
    (hleft : @Eq (FVec Ideal ⟨2, ![2048, 128]⟩ .f32) (Cert.KernelIdeal.Gen.left2 m c)
      (fun x => ∑ k : Fin 65536, Cert.Br.kQs (Cert.KernelIdeal.Gen.V11 m (Cert.KernelIdeal.Gen.outsB m) c) (ix2 k (x 0)) * Cert.Br.kFlat (Cert.KernelIdeal.Gen.V11 m (Cert.KernelIdeal.Gen.outsB m) c) (ix2 k (x 1))))
    (hpre : Cert.Pre_KernelIdeal (hPre_finite_inputs := hP) m) (V0' : RVal)
    (hV0 : V0' (rb Cert.ReferenceIdeal.main_arg0) = Cert.KernelIdeal.Gen.V0 m c (kb Cert.KernelIdeal.main_arg0))
    (hV4 : V0' (rb Cert.ReferenceIdeal.main_arg4) = Cert.KernelIdeal.Gen.V0 m c (kb Cert.KernelIdeal.main_arg4))
    (W' : RVal)
    (h0 : W' (rb Cert.ReferenceIdeal.main_v0) = after (Cert.ReferenceIdeal.Hand.rseg0 (F := Ideal)) V0' (rb Cert.ReferenceIdeal.main_v0))
    (h8 : W' (rb Cert.ReferenceIdeal.main_v8) = after (Cert.ReferenceIdeal.Hand.rseg0 (F := Ideal)) V0' (rb Cert.ReferenceIdeal.main_v8))
    (ha0 : W' (rb Cert.ReferenceIdeal.main_arg0) = Cert.KernelIdeal.Gen.V0 m c (kb Cert.KernelIdeal.main_arg0))
    (ha4 : W' (rb Cert.ReferenceIdeal.main_arg4) = Cert.KernelIdeal.Gen.V0 m c (kb Cert.KernelIdeal.main_arg4)) :
    after (Cert.ReferenceIdeal.Hand.rseg2 (F := Ideal)) W' (rb Cert.ReferenceIdeal.main_v129) = Cert.KernelIdeal.Gen.V13 m (Cert.KernelIdeal.Gen.outsD m) c (kb Cert.KernelIdeal.main_v127) := by
  have eK : Cert.KernelIdeal.Gen.V13 m (Cert.KernelIdeal.Gen.outsD m) c (kb Cert.KernelIdeal.main_v127)
      = after ((Cert.KernelIdeal.Gen.hostOps3 (F := Ideal)).take 3) (Cert.KernelIdeal.Gen.V12 m (Cert.KernelIdeal.Gen.outsD m) c) (kb Cert.KernelIdeal.main_v127) := by
    show after (Cert.KernelIdeal.Gen.hostOps3 (F := Ideal)) _ _ = _
    rw [after_cut 3 (Cert.KernelIdeal.Gen.hostOps3 (F := Ideal))]
    exact hostOps3_rest_keeps _
  rw [eK]
  obtain ⟨hx, -, hQ, -, hs⟩ := Cert.Pre_finite_inputs.Br.facts_of_pre _ _ _ _ _ _ _ _ _ _ _ _ _ _ _ _ _ _ _ _ _ _ _ _ _ _ _ _ _ _ _ _ _ _ _ (hpre c)
  have eImg1 : Cert.Br.kImage (Cert.KernelIdeal.Gen.V1 m c) = Cert.Br.kImage (Cert.KernelIdeal.Gen.V0 m c) := Cert.KernelIdeal.Gen.V1_of m c _ (by decide)
  have eQ1 : Cert.Br.kQs (Cert.KernelIdeal.Gen.V1 m c) = Cert.Br.kQs (Cert.KernelIdeal.Gen.V0 m c) := Cert.KernelIdeal.Gen.V1_of m c _ (by decide)
  have eImg : Cert.Br.kImage (Cert.KernelIdeal.Gen.V12 m (Cert.KernelIdeal.Gen.outsD m) c) = Cert.Br.kImage (Cert.KernelIdeal.Gen.V0 m c) :=
    (Cert.KernelIdeal.Gen.V12_of m _ c _ (by decide)).trans <| (V11_image m _ c).trans eImg1
  have eQ12 : Cert.Br.kQs (Cert.KernelIdeal.Gen.V12 m (Cert.KernelIdeal.Gen.outsD m) c) = Cert.Br.kQs (Cert.KernelIdeal.Gen.V1 m c) :=
    (Cert.KernelIdeal.Gen.V12_of m _ c _ (by decide)).trans (V11_Qs m _ c)
  have eFlat : Cert.Br.kFlat (Cert.KernelIdeal.Gen.V12 m (Cert.KernelIdeal.Gen.outsD m) c) = Cert.Br.kFlat (Cert.KernelIdeal.Gen.V1 m c) :=
    (Cert.KernelIdeal.Gen.V12_of m _ c _ (by decide)).trans (V11_flat m _ c)
  have eCol : Cert.Br.kColsumS (Cert.KernelIdeal.Gen.V12 m (Cert.KernelIdeal.Gen.outsD m) c) = Cert.Br.kColsumS (Cert.KernelIdeal.Gen.V1 m c) :=
    (Cert.KernelIdeal.Gen.V12_of m _ c _ (by decide)).trans (V11_colsumS m _ c)
  have eRaw : Cert.Br.kRaw2 (Cert.KernelIdeal.Gen.V12 m (Cert.KernelIdeal.Gen.outsD m) c)
      = fun x => ∑ k : Fin 65536, Cert.Br.kQs (Cert.KernelIdeal.Gen.V1 m c) (ix2 k (x 0)) * Cert.Br.kFlat (Cert.KernelIdeal.Gen.V1 m c) (ix2 k (x 1)) := by
    have e1 : Cert.Br.kRaw2 (Cert.KernelIdeal.Gen.V12 m (Cert.KernelIdeal.Gen.outsD m) c) = Cert.KernelIdeal.Gen.outsD m 12 Cert.KernelIdeal.main_v124 c :=
      Function.update_self (kb Cert.KernelIdeal.main_v124) (Cert.KernelIdeal.Gen.outsD m 12 Cert.KernelIdeal.main_v124 c) (Cert.KernelIdeal.Gen.V11 m (Cert.KernelIdeal.Gen.outsD m) c)
    rw [e1, Cert.KernelIdeal.Gen.outsD_12]
    refine hleft.trans ?_
    rw [V11_Qs m _ c, V11_flat m _ c]
  -- the reference's side
  have rImg : Cert.Br.rImage W' = Cert.Br.rImage V0' := ha0.trans hV0.symm
  have rQs : Cert.Br.rQs W' = Cert.Br.rQs V0' := ha4.trans hV4.symm
  have rFlat : Cert.Br.rFlat W' = shapeCast Cert.ReferenceIdeal.S65536x128 (Cert.Br.rImage V0') Cert.ReferenceIdeal.Facts₀.shapeCasts_S256x256x128_S65536x128 :=
    h0.trans (Cert.Br.after_rseg0_v0 V0')
  have rNorm : Cert.Br.rNormQs W' = Cert.Br.normQsr (Cert.Br.rQs V0') := h8.trans (Cert.Br.after_rseg0_v8 V0')
  refine Cert.Br.H2_buffers_eq (Cert.KernelIdeal.Gen.V12 m (Cert.KernelIdeal.Gen.outsD m) c) W' ?_ ?_ ?_ ?_ ?_ ?_ ?_ ?_ ?_ ?_
  · rw [eFlat, eImg]; exact V1_flat m c
  · rw [eCol, eQ12, eQ1]; exact V1_colsumS m c
  · rw [rImg]; exact rFlat
  · rw [rQs]; exact rNorm
  · rw [eImg]; exact ha0
  · rw [eQ12, eQ1]; exact ha4
  · intro i; rw [eImg]; exact hx i
  · intro i; rw [eQ12, eQ1]; exact hQ i
  · intro n; rw [eQ12, eQ1]; exact hs n
  · intro n j; rw [eRaw, eQ12, eFlat]

/-! ## The two steps -/

/-- Big branch. -/
theorem stepA (hpre : Cert.Pre_KernelIdeal (hPre_finite_inputs := hP) m) (V0' : RVal)
    (h0 : V0' (rb Cert.ReferenceIdeal.main_arg0) = Cert.KernelIdeal.Gen.V0 m c (kb Cert.KernelIdeal.main_arg0))
    (h2 : V0' (rb Cert.ReferenceIdeal.main_arg2) = Cert.KernelIdeal.Gen.V0 m c (kb Cert.KernelIdeal.main_arg2)) :
    after (Cert.ReferenceIdeal.Hand.rseg0 (F := Ideal)) V0' (rb Cert.ReferenceIdeal.main_v10) = Cert.KernelIdeal.Gen.V3 m (Cert.KernelIdeal.Gen.outsD m) c (kb Cert.KernelIdeal.main_v6) :=
  stepA_of m c (Cert.KernelIdeal.Gen.out0_eq (Cert.KernelIdeal.Gen.atTc (Cert.KernelIdeal.Gen.V1 m)) c) hpre V0' h0 h2

/-- Small branch. -/
theorem stepD (hpre : Cert.Pre_KernelIdeal (hPre_finite_inputs := hP) m) (V0' : RVal)
    (hV0 : V0' (rb Cert.ReferenceIdeal.main_arg0) = Cert.KernelIdeal.Gen.V0 m c (kb Cert.KernelIdeal.main_arg0))
    (hV4 : V0' (rb Cert.ReferenceIdeal.main_arg4) = Cert.KernelIdeal.Gen.V0 m c (kb Cert.KernelIdeal.main_arg4))
    (W' : RVal)
    (h0 : W' (rb Cert.ReferenceIdeal.main_v0) = after (Cert.ReferenceIdeal.Hand.rseg0 (F := Ideal)) V0' (rb Cert.ReferenceIdeal.main_v0))
    (h8 : W' (rb Cert.ReferenceIdeal.main_v8) = after (Cert.ReferenceIdeal.Hand.rseg0 (F := Ideal)) V0' (rb Cert.ReferenceIdeal.main_v8))
    (ha0 : W' (rb Cert.ReferenceIdeal.main_arg0) = Cert.KernelIdeal.Gen.V0 m c (kb Cert.KernelIdeal.main_arg0))
    (ha4 : W' (rb Cert.ReferenceIdeal.main_arg4) = Cert.KernelIdeal.Gen.V0 m c (kb Cert.KernelIdeal.main_arg4)) :
    after (Cert.ReferenceIdeal.Hand.rseg2 (F := Ideal)) W' (rb Cert.ReferenceIdeal.main_v129) = Cert.KernelIdeal.Gen.V13 m (Cert.KernelIdeal.Gen.outsD m) c (kb Cert.KernelIdeal.main_v127) :=
  stepD_of m c (Cert.KernelIdeal.Gen.out2_eq (Cert.KernelIdeal.Gen.atTc (Cert.KernelIdeal.Gen.V11 m (Cert.KernelIdeal.Gen.outsB m))) c) hpre V0' hV0 hV4 W' h0 h8 ha0 ha4

end Cert.Bridge

end
-- ==== Proof.KI.Val1.lean ====
/-
  Region 1 of the kernel program, read as numbers: at the extended reals the row-tiled product leaves in its
  output array the matrix product  out[i, j] = Σ_k A[i, k] · B[k, j]  of the two arrays it reads (A the 65536×1024
  assignment matrix, B the 1024×64 node features), whatever else the memory holds on entry.  Roundings into the
  matrix unit are the identity on extended reals and the unit's accumulation from zero is the plain sum of products,
  so a grid point's output tile is the product of its two input tiles; point t's tiles are rows 1024·t … 1024·t + 1023
  of A and of the output and the whole of B; the 64 points' output tiles cover the array.
-/
import proofs.«120736_j30030411334238_1_alg».proof.Proof.KI.Dat1
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.ShloMosaic.ValueIdx
open Idealize.SL.Sem
open Idealize.ShloMosaic.Pipeline (Dat Cfg Window)

/-- The body's matrix product at a position of the output tile: row r of the A-tile against column j of B. -/
theorem pay1_apply (a : Vec Ideal S1024x1024 .f32) (b : Vec Ideal S1024x64 .f32) (r : Fin 1024) (j : Fin 64) :
    k1_pay1 (F := Ideal) a b (ix2 r j) = ∑ k : Fin 1024, a (ix2 r k) * b (ix2 k j) := by
  unfold k1_pay1
  simp only [shapeCast_self]
  show FloatOps.matmul dot_S1024x1024_S1024x64_S1024x64_1_0_0_1_n_n none _ _ (constant S1024x64 .f32 0x00000000#32) (ix2 r j) = _
  rw [Ideal.matmul_constant_zero_apply,
    ← Equiv.sum_comp (contrEquiv1 dot_S1024x1024_S1024x64_S1024x64_1_0_0_1_n_n 1024 rfl rfl).symm]
  refine Finset.sum_congr rfl fun k _ => ?_
  have ck := contrEquiv1_symm_val dot_S1024x1024_S1024x64_S1024x64_1_0_0_1_n_n 1024 rfl rfl k
  have hl : dot_S1024x1024_S1024x64_S1024x64_1_0_0_1_n_n.lhsIdx (ix2 r j) ((contrEquiv1 _ 1024 rfl rfl).symm k) = ix2 r k := by
    funext ax; apply Fin.ext
    match ax with
    | ⟨0, _⟩ => simp [DotDims.lhsIdx, dot_S1024x1024_S1024x64_S1024x64_1_0_0_1_n_n]; rfl
    | ⟨1, _⟩ => simp [DotDims.lhsIdx, dot_S1024x1024_S1024x64_S1024x64_1_0_0_1_n_n]; exact ck
  have hr : dot_S1024x1024_S1024x64_S1024x64_1_0_0_1_n_n.rhsIdx (ix2 r j) ((contrEquiv1 _ 1024 rfl rfl).symm k) = ix2 k j := by
    funext ax; apply Fin.ext
    match ax with
    | ⟨0, _⟩ => simp [DotDims.rhsIdx, dot_S1024x1024_S1024x64_S1024x64_1_0_0_1_n_n]; exact ck
    | ⟨1, _⟩ => simp [DotDims.rhsIdx, dot_S1024x1024_S1024x64_S1024x64_1_0_0_1_n_n]; rfl
  show a (dot_S1024x1024_S1024x64_S1024x64_1_0_0_1_n_n.lhsIdx (ix2 r j) _) * b (dot_S1024x1024_S1024x64_S1024x64_1_0_0_1_n_n.rhsIdx (ix2 r j) _) = _
  rw [hl, hr]

theorem zero_off1 : (![0, 0] : Fin 2 → Nat) = fun _ => 0 := funext fun a => by fin_cases a <;> rfl

/-- The output tile after the body, position by position: the product of the two tiles read. -/
theorem prod1_apply (a : Vec Ideal S1024x1024 .f32) (b : Vec Ideal S1024x64 .f32) (y : S1024x64.Idx) :
    prod1 a b y = ∑ k : Fin 1024, a (ix2 (y 0) k) * b (ix2 k (y 1)) := by
  unfold prod1
  rw [View.canon_unit_zero zero_off1]
  simp only [View.ld_unit_zero (S := S1024x1024) zero_off1, View.ld_unit_zero (S := S1024x64) zero_off1]
  obtain ⟨r, j, rfl⟩ : ∃ (r : Fin 1024) (j : Fin 64), y = ix2 r j := ⟨y 0, y 1, eq_ix2 y⟩
  exact pay1_apply a b r j

/-- The whole product: row i of A against column j of B. -/
def matProd1 (A : S65536x1024.Idx → EReal) (B : S1024x64.Idx → EReal) : S65536x64.Idx → EReal :=
  fun x => ∑ k : Fin 1024, A (ix2 (x 0) k) * B (ix2 k (x 1))

/-- The printed index maps over the grid: point t's A-tile and output tile are row block t, column block 0; B's
    block index never moves. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is its tile of the whole product of the two arrays as the region finds them. -/
theorem flushed1_eq (c : Dev nD) (t : Fin cfg1.N) :
    (dat1 (F := Ideal) V c).flushed 2 t
      = ((cfg1.win 2).blk t).view.read (Elt Ideal) (matProd1 (V c main_arg2) (V c main_v122)) := by
  show (cfg1.win 2).cut (grid1.coords t) ((dat1 V c).after 2 t) = _
  rw [after1_2]
  obtain ⟨e00, e01, e10, e11, e20, e21⟩ := idx_facts1 t
  funext y
  refine (prod1_apply _ _ _).trans ?_
  show _ = matProd1 (V c main_arg2) (V c main_v122) (((cfg1.win 2).blk t).view.emb y)
  unfold matProd1
  refine Finset.sum_congr rfl fun k _ => ?_
  have hy0 : (y 0).val < 1024 := (y 0).isLt
  have hy1 : (y 1).val < 64 := (y 1).isLt
  have hA : ∀ (p : S1024x1024.Idx) (q : S65536x1024.Idx), (p 0).val = (y 0).val → (q 0).val = win1_2.index t (0 : Fin 2) * 1024 + 1 * (y 0).val
      → (q 1).val = (p 1).val → (tile1 V c 0 t : Vec Ideal S1024x1024 .f32) p = V c main_arg2 q := by
    intro p q h0 h1 h2
    show V c main_arg2 (((cfg1.win 0).blk t).view.emb p) = V c main_arg2 q
    congr 1
    funext ax; apply Fin.ext
    match ax with
    | ⟨0, _⟩ => show win1_0.index t (0 : Fin 2) * 1024 + 1 * (p 0).val = (q 0).val; omega
    | ⟨1, _⟩ => show win1_0.index t (1 : Fin 2) * 1024 + 1 * (p 1).val = (q 1).val; omega
  have hB : ∀ (p : S1024x64.Idx) (q : S1024x64.Idx), (q 0).val = (p 0).val → (q 1).val = (p 1).val
      → (tile1 V c 1 t : Vec Ideal S1024x64 .f32) p = V c main_v122 q := by
    intro p q h0 h1
    show V c main_v122 (((cfg1.win 1).blk t).view.emb p) = V c main_v122 q
    congr 1
    funext ax; apply Fin.ext
    match ax with
    | ⟨0, _⟩ => show win1_1.index t (0 : Fin 2) * 1024 + 1 * (p 0).val = (q 0).val; omega
    | ⟨1, _⟩ => show win1_1.index t (1 : Fin 2) * 64 + 1 * (p 1).val = (q 1).val; omega
  refine congrArg₂ (· * ·) (hA _ _ rfl ?_ rfl) (hB _ _ rfl ?_)
  · show win1_2.index t (0 : Fin 2) * 1024 + 1 * (y 0).val = _; rfl
  · show win1_2.index t (1 : Fin 2) * 64 + 1 * (y 1).val = (y 1).val; omega

/-- An index of the output array is in point t's tile iff each coordinate is in the tile's range on its axis. -/
theorem mem_blk1 (t : Fin cfg1.N) (i : S65536x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v123).slice (win1_2.rect t)).set ↔ _
  rw [View.set_slice_whole, Rect.mem_set_unit]
  exact Iff.rfl

/-- Row r of the output lies in the tile of point r / 1024. -/
theorem cover1 (i : S65536x64.Idx) : ∃ t : Fin cfg1.N, (cfg1.win 2).flush t = true ∧ i ∈ ((cfg1.win 2).blk t).view.set := by
  have hi0 : (i 0).val < 65536 := (i 0).isLt
  have hi1 : (i 1).val < 64 := (i 1).isLt
  have hN : cfg1.N = 64 := N_1
  refine ⟨⟨(i 0).val / 1024, by rw [hN]; omega⟩, flush1_2 _, ?_⟩
  obtain ⟨-, -, -, -, e20, e21⟩ := idx_facts1 ⟨(i 0).val / 1024, by rw [hN]; omega⟩
  rw [mem_blk1]
  intro a
  match a with
  | ⟨0, _⟩ => show win1_2.index _ (0 : Fin 2) * 1024 ≤ (i 0).val ∧ (i 0).val < win1_2.index _ (0 : Fin 2) * 1024 + 1024; rw [e20]; show (i 0).val / 1024 * 1024 ≤ (i 0).val ∧ (i 0).val < (i 0).val / 1024 * 1024 + 1024; omega
  | ⟨1, _⟩ => show win1_2.index _ (1 : Fin 2) * 64 ≤ (i 1).val ∧ (i 1).val < win1_2.index _ (1 : Fin 2) * 64 + 64; rw [e21]; omega

/-- The output array after the region is the whole product. -/
theorem out1_eq (c : Dev nD) :
    (dat1 (F := Ideal) V c).arrAt 2 cfg1.N = matProd1 (V c main_arg2) (V c main_v122) :=
  (dat1 (F := Ideal) V c).arrAt_eq_of_cover 2 (matProd1 (V c main_arg2) (V c main_v122)) (fun t _ => flushed1_eq V c t) cover1

/-- Entry (i, j) of the output array after the region: Σ_k A[i, k] · B[k, j]. -/
theorem out1_apply (c : Dev nD) (i : Fin 65536) (j : Fin 64) :
    @Eq EReal ((dat1 (F := Ideal) V c).arrAt 2 cfg1.N (ix2 i j))
      (∑ k : Fin 1024, @HMul.hMul EReal EReal EReal _ (V c main_arg2 (ix2 i k)) (V c main_v122 (ix2 k j))) := by
  rw [out1_eq]
  rfl

end Cert.KernelIdeal.Gen

end
-- ==== Proof.KI.Val3.lean ====
/-
  Region 3 of the kernel program, read as numbers: at the extended reals the row-tiled product leaves in its
  output array the matrix product  out[i, j] = Σ_k A[i, k] · B[k, j]  of the two arrays it reads (A the 65536×2048
  assignment matrix, B the 2048×64 node features), whatever else the memory holds on entry.  Roundings into the
  matrix unit are the identity on extended reals and the unit's accumulation from zero is the plain sum of products,
  so a grid point's output tile is the product of its two input tiles; point t's tiles are rows 1024·t … 1024·t + 1023
  of A and of the output and the whole of B; the 64 points' output tiles cover the array.
-/
import proofs.«120736_j30030411334238_1_alg».proof.Proof.KI.Dat3
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic
open Idealize.ShloMosaic.ValueIdx
open Idealize.SL.Sem
open Idealize.ShloMosaic.Pipeline (Dat Cfg Window)

/-- The body's matrix product at a position of the output tile: row r of the A-tile against column j of B. -/
theorem pay3_apply (a : Vec Ideal S1024x2048 .f32) (b : Vec Ideal S2048x64 .f32) (r : Fin 1024) (j : Fin 64) :
    k3_pay1 (F := Ideal) a b (ix2 r j) = ∑ k : Fin 2048, a (ix2 r k) * b (ix2 k j) := by
  unfold k3_pay1
  simp only [shapeCast_self]
  show FloatOps.matmul dot_S1024x2048_S2048x64_S1024x64_1_0_0_1_n_n none _ _ (constant S1024x64 .f32 0x00000000#32) (ix2 r j) = _
  rw [Ideal.matmul_constant_zero_apply,
    ← Equiv.sum_comp (contrEquiv1 dot_S1024x2048_S2048x64_S1024x64_1_0_0_1_n_n 2048 rfl rfl).symm]
  refine Finset.sum_congr rfl fun k _ => ?_
  have ck := contrEquiv1_symm_val dot_S1024x2048_S2048x64_S1024x64_1_0_0_1_n_n 2048 rfl rfl k
  have hl : dot_S1024x2048_S2048x64_S1024x64_1_0_0_1_n_n.lhsIdx (ix2 r j) ((contrEquiv1 _ 2048 rfl rfl).symm k) = ix2 r k := by
    funext ax; apply Fin.ext
    match ax with
    | ⟨0, _⟩ => simp [DotDims.lhsIdx, dot_S1024x2048_S2048x64_S1024x64_1_0_0_1_n_n]; rfl
    | ⟨1, _⟩ => simp [DotDims.lhsIdx, dot_S1024x2048_S2048x64_S1024x64_1_0_0_1_n_n]; exact ck
  have hr : dot_S1024x2048_S2048x64_S1024x64_1_0_0_1_n_n.rhsIdx (ix2 r j) ((contrEquiv1 _ 2048 rfl rfl).symm k) = ix2 k j := by
    funext ax; apply Fin.ext
    match ax with
    | ⟨0, _⟩ => simp [DotDims.rhsIdx, dot_S1024x2048_S2048x64_S1024x64_1_0_0_1_n_n]; exact ck
    | ⟨1, _⟩ => simp [DotDims.rhsIdx, dot_S1024x2048_S2048x64_S1024x64_1_0_0_1_n_n]; rfl
  show a (dot_S1024x2048_S2048x64_S1024x64_1_0_0_1_n_n.lhsIdx (ix2 r j) _) * b (dot_S1024x2048_S2048x64_S1024x64_1_0_0_1_n_n.rhsIdx (ix2 r j) _) = _
  rw [hl, hr]

theorem zero_off3 : (![0, 0] : Fin 2 → Nat) = fun _ => 0 := funext fun a => by fin_cases a <;> rfl

/-- The output tile after the body, position by position: the product of the two tiles read. -/
theorem prod3_apply (a : Vec Ideal S1024x2048 .f32) (b : Vec Ideal S2048x64 .f32) (y : S1024x64.Idx) :
    prod3 a b y = ∑ k : Fin 2048, a (ix2 (y 0) k) * b (ix2 k (y 1)) := by
  unfold prod3
  rw [View.canon_unit_zero zero_off3]
  simp only [View.ld_unit_zero (S := S1024x2048) zero_off3, View.ld_unit_zero (S := S2048x64) zero_off3]
  obtain ⟨r, j, rfl⟩ : ∃ (r : Fin 1024) (j : Fin 64), y = ix2 r j := ⟨y 0, y 1, eq_ix2 y⟩
  exact pay3_apply a b r j

/-- The whole product: row i of A against column j of B. -/
def matProd3 (A : S65536x2048.Idx → EReal) (B : S2048x64.Idx → EReal) : S65536x64.Idx → EReal :=
  fun x => ∑ k : Fin 2048, A (ix2 (x 0) k) * B (ix2 k (x 1))

/-- The printed index maps over the grid: point t's A-tile and output tile are row block t, column block 0; B's
    block index never moves. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is its tile of the whole product of the two arrays as the region finds them. -/
theorem flushed3_eq (c : Dev nD) (t : Fin cfg3.N) :
    (dat3 (F := Ideal) V c).flushed 2 t
      = ((cfg3.win 2).blk t).view.read (Elt Ideal) (matProd3 (V c main_arg4) (V c main_v239)) := by
  show (cfg3.win 2).cut (grid3.coords t) ((dat3 V c).after 2 t) = _
  rw [after3_2]
  obtain ⟨e00, e01, e10, e11, e20, e21⟩ := idx_facts3 t
  funext y
  refine (prod3_apply _ _ _).trans ?_
  show _ = matProd3 (V c main_arg4) (V c main_v239) (((cfg3.win 2).blk t).view.emb y)
  unfold matProd3
  refine Finset.sum_congr rfl fun k _ => ?_
  have hy0 : (y 0).val < 1024 := (y 0).isLt
  have hy1 : (y 1).val < 64 := (y 1).isLt
  have hA : ∀ (p : S1024x2048.Idx) (q : S65536x2048.Idx), (p 0).val = (y 0).val → (q 0).val = win3_2.index t (0 : Fin 2) * 1024 + 1 * (y 0).val
      → (q 1).val = (p 1).val → (tile3 V c 0 t : Vec Ideal S1024x2048 .f32) p = V c main_arg4 q := by
    intro p q h0 h1 h2
    show V c main_arg4 (((cfg3.win 0).blk t).view.emb p) = V c main_arg4 q
    congr 1
    funext ax; apply Fin.ext
    match ax with
    | ⟨0, _⟩ => show win3_0.index t (0 : Fin 2) * 1024 + 1 * (p 0).val = (q 0).val; omega
    | ⟨1, _⟩ => show win3_0.index t (1 : Fin 2) * 2048 + 1 * (p 1).val = (q 1).val; omega
  have hB : ∀ (p : S2048x64.Idx) (q : S2048x64.Idx), (q 0).val = (p 0).val → (q 1).val = (p 1).val
      → (tile3 V c 1 t : Vec Ideal S2048x64 .f32) p = V c main_v239 q := by
    intro p q h0 h1
    show V c main_v239 (((cfg3.win 1).blk t).view.emb p) = V c main_v239 q
    congr 1
    funext ax; apply Fin.ext
    match ax with
    | ⟨0, _⟩ => show win3_1.index t (0 : Fin 2) * 2048 + 1 * (p 0).val = (q 0).val; omega
    | ⟨1, _⟩ => show win3_1.index t (1 : Fin 2) * 64 + 1 * (p 1).val = (q 1).val; omega
  refine congrArg₂ (· * ·) (hA _ _ rfl ?_ rfl) (hB _ _ rfl ?_)
  · show win3_2.index t (0 : Fin 2) * 1024 + 1 * (y 0).val = _; rfl
  · show win3_2.index t (1 : Fin 2) * 64 + 1 * (y 1).val = (y 1).val; omega

/-- An index of the output array is in point t's tile iff each coordinate is in the tile's range on its axis. -/
theorem mem_blk3 (t : Fin cfg3.N) (i : S65536x64.Idx) :
    i ∈ ((cfg3.win 2).blk t).view.set ↔ ∀ a : Fin 2, win3_2.index t a * S1024x64.size a ≤ (i a).val ∧ (i a).val < win3_2.index t a * S1024x64.size a + S1024x64.size a := by
  show i ∈ ((View.whole main_v240).slice (win3_2.rect t)).set ↔ _
  rw [View.set_slice_whole, Rect.mem_set_unit]
  exact Iff.rfl

/-- Row r of the output lies in the tile of point r / 1024. -/
theorem cover3 (i : S65536x64.Idx) : ∃ t : Fin cfg3.N, (cfg3.win 2).flush t = true ∧ i ∈ ((cfg3.win 2).blk t).view.set := by
  have hi0 : (i 0).val < 65536 := (i 0).isLt
  have hi1 : (i 1).val < 64 := (i 1).isLt
  have hN : cfg3.N = 64 := N_3
  refine ⟨⟨(i 0).val / 1024, by rw [hN]; omega⟩, flush3_2 _, ?_⟩
  obtain ⟨-, -, -, -, e20, e21⟩ := idx_facts3 ⟨(i 0).val / 1024, by rw [hN]; omega⟩
  rw [mem_blk3]
  intro a
  match a with
  | ⟨0, _⟩ => show win3_2.index _ (0 : Fin 2) * 1024 ≤ (i 0).val ∧ (i 0).val < win3_2.index _ (0 : Fin 2) * 1024 + 1024; rw [e20]; show (i 0).val / 1024 * 1024 ≤ (i 0).val ∧ (i 0).val < (i 0).val / 1024 * 1024 + 1024; omega
  | ⟨1, _⟩ => show win3_2.index _ (1 : Fin 2) * 64 ≤ (i 1).val ∧ (i 1).val < win3_2.index _ (1 : Fin 2) * 64 + 64; rw [e21]; omega

/-- The output array after the region is the whole product. -/
theorem out3_eq (c : Dev nD) :
    (dat3 (F := Ideal) V c).arrAt 2 cfg3.N = matProd3 (V c main_arg4) (V c main_v239) :=
  (dat3 (F := Ideal) V c).arrAt_eq_of_cover 2 (matProd3 (V c main_arg4) (V c main_v239)) (fun t _ => flushed3_eq V c t) cover3

/-- Entry (i, j) of the output array after the region: Σ_k A[i, k] · B[k, j]. -/
theorem out3_apply (c : Dev nD) (i : Fin 65536) (j : Fin 64) :
    @Eq EReal ((dat3 (F := Ideal) V c).arrAt 2 cfg3.N (ix2 i j))
      (∑ k : Fin 2048, @HMul.hMul EReal EReal EReal _ (V c main_arg4 (ix2 i k)) (V c main_v239 (ix2 k j))) := by
  rw [out3_eq]
  rfl

end Cert.KernelIdeal.Gen

end
-- ==== Proof.Br.Prod.lean ====
/-
  The reference's two spreading products, read as numbers.  The reference spreads each branch's pooled features back
  over the pixels by one dot_general, res = Q · H (Q the 65536×1024 or 65536×2048 assignment matrix, H the branch's
  1024×64 or 2048×64 features).  At the extended reals a dot_general read at an index is the plain sum of products over
  the contracted coordinate, so each of the two is, entry by entry, the same function  (i, j) ↦ Σ_k Q[i, k] · H[k, j]
  of its two operands as the array the kernel's row-tiled product leaves.
-/
import proofs.«120736_j30030411334238_1_alg».proof.Proof.Ref.Ops
import proofs.«120736_j30030411334238_1_alg».proof.Proof.KI.Val1
import proofs.«120736_j30030411334238_1_alg».proof.Proof.KI.Val3
import Idealize.ShloMosaic.Lib.ValueIdx
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx Idealize.SL.Sem

/-- The big branch's dot_general at an entry: row i of Q against column j of H. -/
theorem dotBig_apply (A : FVec Ideal Cert.ReferenceIdeal.S65536x1024 .f32) (B : FVec Ideal Cert.ReferenceIdeal.S1024x64 .f32)
    (i : Fin 65536) (j : Fin 64) :
    Host.dotGeneral (F := Ideal) Cert.ReferenceIdeal.dot_S65536x1024_S1024x64_S65536x64_1_0_0_1_n_n none A B (ix2 i j)
      = ∑ k : Fin 1024, A (ix2 i k) * B (ix2 k j) := by
  show FloatOps.dotGeneral _ none _ A B (ix2 i j) = _
  rw [Ideal.dotGeneral_apply,
    ← Equiv.sum_comp (contrEquiv1 Cert.ReferenceIdeal.dot_S65536x1024_S1024x64_S65536x64_1_0_0_1_n_n 1024 rfl rfl).symm]
  refine Finset.sum_congr rfl fun k _ => ?_
  have ck := contrEquiv1_symm_val Cert.ReferenceIdeal.dot_S65536x1024_S1024x64_S65536x64_1_0_0_1_n_n 1024 rfl rfl k
  have hl : Cert.ReferenceIdeal.dot_S65536x1024_S1024x64_S65536x64_1_0_0_1_n_n.lhsIdx (ix2 i j) ((contrEquiv1 _ 1024 rfl rfl).symm k) = ix2 i k := by
    funext ax; apply Fin.ext
    match ax with
    | ⟨0, _⟩ => simp [DotDims.lhsIdx, Cert.ReferenceIdeal.dot_S65536x1024_S1024x64_S65536x64_1_0_0_1_n_n]; rfl
    | ⟨1, _⟩ => simp [DotDims.lhsIdx, Cert.ReferenceIdeal.dot_S65536x1024_S1024x64_S65536x64_1_0_0_1_n_n]; exact ck
  have hr : Cert.ReferenceIdeal.dot_S65536x1024_S1024x64_S65536x64_1_0_0_1_n_n.rhsIdx (ix2 i j) ((contrEquiv1 _ 1024 rfl rfl).symm k) = ix2 k j := by
    funext ax; apply Fin.ext
    match ax with
    | ⟨0, _⟩ => simp [DotDims.rhsIdx, Cert.ReferenceIdeal.dot_S65536x1024_S1024x64_S65536x64_1_0_0_1_n_n]; exact ck
    | ⟨1, _⟩ => simp [DotDims.rhsIdx, Cert.ReferenceIdeal.dot_S65536x1024_S1024x64_S65536x64_1_0_0_1_n_n]; rfl
  rw [hl, hr]

/-- The small branch's dot_general at an entry: row i of Qsmall against column j of H. -/
theorem dotSmall_apply (A : FVec Ideal Cert.ReferenceIdeal.S65536x2048 .f32) (B : FVec Ideal Cert.ReferenceIdeal.S2048x64 .f32)
    (i : Fin 65536) (j : Fin 64) :
    Host.dotGeneral (F := Ideal) Cert.ReferenceIdeal.dot_S65536x2048_S2048x64_S65536x64_1_0_0_1_n_n none A B (ix2 i j)
      = ∑ k : Fin 2048, A (ix2 i k) * B (ix2 k j) := by
  show FloatOps.dotGeneral _ none _ A B (ix2 i j) = _
  rw [Ideal.dotGeneral_apply,
    ← Equiv.sum_comp (contrEquiv1 Cert.ReferenceIdeal.dot_S65536x2048_S2048x64_S65536x64_1_0_0_1_n_n 2048 rfl rfl).symm]
  refine Finset.sum_congr rfl fun k _ => ?_
  have ck := contrEquiv1_symm_val Cert.ReferenceIdeal.dot_S65536x2048_S2048x64_S65536x64_1_0_0_1_n_n 2048 rfl rfl k
  have hl : Cert.ReferenceIdeal.dot_S65536x2048_S2048x64_S65536x64_1_0_0_1_n_n.lhsIdx (ix2 i j) ((contrEquiv1 _ 2048 rfl rfl).symm k) = ix2 i k := by
    funext ax; apply Fin.ext
    match ax with
    | ⟨0, _⟩ => simp [DotDims.lhsIdx, Cert.ReferenceIdeal.dot_S65536x2048_S2048x64_S65536x64_1_0_0_1_n_n]; rfl
    | ⟨1, _⟩ => simp [DotDims.lhsIdx, Cert.ReferenceIdeal.dot_S65536x2048_S2048x64_S65536x64_1_0_0_1_n_n]; exact ck
  have hr : Cert.ReferenceIdeal.dot_S65536x2048_S2048x64_S65536x64_1_0_0_1_n_n.rhsIdx (ix2 i j) ((contrEquiv1 _ 2048 rfl rfl).symm k) = ix2 k j := by
    funext ax; apply Fin.ext
    match ax with
    | ⟨0, _⟩ => simp [DotDims.rhsIdx, Cert.ReferenceIdeal.dot_S65536x2048_S2048x64_S65536x64_1_0_0_1_n_n]; exact ck
    | ⟨1, _⟩ => simp [DotDims.rhsIdx, Cert.ReferenceIdeal.dot_S65536x2048_S2048x64_S65536x64_1_0_0_1_n_n]; rfl
  rw [hl, hr]

/-- The big branch's spreading product, as the reference computes it, is the whole product of its two operands. -/
theorem refBig (W' : Valuation Cert.ReferenceIdeal.τ Cert.ReferenceIdeal.sig (Elt Ideal)) :
    StableHlo.after (Cert.ReferenceIdeal.Hand.rsegBig (F := Ideal)) W' (Proc.devRef .tc Cert.ReferenceIdeal.main_v127)
      = Cert.KernelIdeal.Gen.matProd1 (W' (Proc.devRef .tc Cert.ReferenceIdeal.main_arg2)) (W' (Proc.devRef .tc Cert.ReferenceIdeal.main_v126)) := by
  after_results
  funext x
  obtain ⟨i, j, rfl⟩ : ∃ (i : Fin 65536) (j : Fin 64), x = ix2 i j := ⟨x 0, x 1, eq_ix2 x⟩
  exact dotBig_apply _ _ i j

/-- The small branch's spreading product likewise. -/
theorem refSmall (W' : Valuation Cert.ReferenceIdeal.τ Cert.ReferenceIdeal.sig (Elt Ideal)) :
    StableHlo.after (Cert.ReferenceIdeal.Hand.rsegSmall (F := Ideal)) W' (Proc.devRef .tc Cert.ReferenceIdeal.main_v242)
      = Cert.KernelIdeal.Gen.matProd3 (W' (Proc.devRef .tc Cert.ReferenceIdeal.main_arg4)) (W' (Proc.devRef .tc Cert.ReferenceIdeal.main_v241)) := by
  after_results
  funext x
  obtain ⟨i, j, rfl⟩ : ∃ (i : Fin 65536) (j : Fin 64), x = ix2 i j := ⟨x 0, x 1, eq_ix2 x⟩
  exact dotSmall_apply _ _ i j

end Cert.Bridge

end
-- ==== Proof.Br.StepsP.lean ====
/-
  The two spreading products of the two programs are one array.  In the kernel program the product Q · H is a
  row-tiled pallas region whose output array, after the region, holds  (i, j) ↦ Σ_k Q[i,k] · H[k,j]  of the contents
  found on entry; in the reference it is one dot_general, which holds the same sum.  So once the features H agree
  (and Q is the same argument), the two products agree; likewise for the small branch.
-/
import proofs.«120736_j30030411334238_1_alg».proof.Proof.Br.Base
import proofs.«120736_j30030411334238_1_alg».proof.Proof.Br.Prod
import proofs.«120736_j30030411334238_1_alg».proof.Proof.KI.Main

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- No item before region 1 writes the argument Q. -/
theorem V10_arg2 (outs : Outs (F := Ideal)) : V10 m outs c main_arg2 = V0 m c main_arg2 :=
  (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))

/-- No item before region 3 writes the argument Qsmall. -/
theorem V20_arg4 (outs : Outs (F := Ideal)) : V20 m outs c main_arg4 = V0 m c main_arg4 :=
  (V20_of m outs c main_arg4 (by decide)).trans <| (V19_of m outs c main_arg4 (by decide)).trans <| (V18_of m outs c main_arg4 (by decide)).trans <| (V17_of m outs c main_arg4 (by decide)).trans <| (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))

theorem stepC (W' : RVal) (h : W' (rb Cert.ReferenceIdeal.main_v126) = V10 m (outsD m) c (kb main_v122))
    (ha : W' (rb Cert.ReferenceIdeal.main_arg2) = V0 m c (kb main_arg2)) :
    StableHlo.after (Cert.ReferenceIdeal.Hand.rsegBig (F := Ideal)) W' (rb Cert.ReferenceIdeal.main_v127)
      = V11 m (outsD m) c (kb main_v123) := by
  refine (refBig W').trans ?_
  refine Eq.trans ?_ (exit1_arr2 m (outsD m) (good m) c)
  refine Eq.trans ?_ (out1_eq (atTc (V10 m (outsD m))) c).symm
  show matProd1 (W' (rb Cert.ReferenceIdeal.main_arg2)) (W' (rb Cert.ReferenceIdeal.main_v126))
    = matProd1 (V10 m (outsD m) c main_arg2) (V10 m (outsD m) c main_v122)
  rw [h, ha, V10_arg2 m c (outsD m)]

theorem stepF (W' : RVal) (h : W' (rb Cert.ReferenceIdeal.main_v241) = V20 m (outsD m) c (kb main_v239))
    (ha : W' (rb Cert.ReferenceIdeal.main_arg4) = V0 m c (kb main_arg4)) :
    StableHlo.after (Cert.ReferenceIdeal.Hand.rsegSmall (F := Ideal)) W' (rb Cert.ReferenceIdeal.main_v242)
      = V21 m (outsD m) c (kb main_v240) := by
  refine (refSmall W').trans ?_
  refine Eq.trans ?_ (exit3_arr2 m (outsD m) (good m) c)
  refine Eq.trans ?_ (out3_eq (atTc (V20 m (outsD m))) c).symm
  show matProd3 (W' (rb Cert.ReferenceIdeal.main_arg4)) (W' (rb Cert.ReferenceIdeal.main_v241))
    = matProd3 (V20 m (outsD m) c main_arg4) (V20 m (outsD m) c main_v239)
  rw [h, ha, V20_arg4 m c (outsD m)]

end Cert.Bridge

end
-- ==== Proof.Br.Stage4.lean ====
/-
  The tail, side by side.

  Both programs run the same host operations on this stretch, operation for operation, over differently named
  buffers.  Run from contents that agree on the buffers the stretch reads, the two lines leave equal contents in the
  buffers it hands on: each side's result is the same composition of the same host functions at the same literal
  shapes applied to the contents read, so once the contents read are identified the two sides are one term.
  Here: the 43 operations after the last matrix product, from the two branches' results to the two results of the
  program.
-/
import proofs.«120736_j30030411334238_1_alg».proof.Proof.Br.Base

set_option maxRecDepth 16384

noncomputable section

namespace Cert.Bridge

open Idealize.ShloMosaic Idealize.ShloMosaic.StableHlo Idealize.SL.Sem

set_option maxHeartbeats 8000000 in
/-- The tail, first result: the two branches' 65536×64 results each concatenated with y, mixed by sigma2 and 1 − sigma2, the 16 class logits, and their row softmax (exponentials of the logits less their row maximum, divided by their row sums). -/
theorem stage4_probs (W : KVal) (W' : RVal)
    (h_v123 : W' (rb Cert.ReferenceIdeal.main_v127) = W (kb Cert.KernelIdeal.main_v123))
    (h_arg1 : W' (rb Cert.ReferenceIdeal.main_arg1) = W (kb Cert.KernelIdeal.main_arg1))
    (h_v240 : W' (rb Cert.ReferenceIdeal.main_v242) = W (kb Cert.KernelIdeal.main_v240))
    (h_arg34 : W' (rb Cert.ReferenceIdeal.main_arg34) = W (kb Cert.KernelIdeal.main_arg34))
    (h_arg30 : W' (rb Cert.ReferenceIdeal.main_arg30) = W (kb Cert.KernelIdeal.main_arg30))
    (h_arg31 : W' (rb Cert.ReferenceIdeal.main_arg31) = W (kb Cert.KernelIdeal.main_arg31)) :
    after (Cert.ReferenceIdeal.Hand.rseg4 (F := Ideal)) W' (rb Cert.ReferenceIdeal.main_v269)
      = after (Cert.KernelIdeal.Gen.hostOps4 (F := Ideal)) W (kb Cert.KernelIdeal.main_v267) := by
  after_results_simp
  -- On each side the second concatenation takes the small branch's result and y, two buffers the first concatenation
  -- does not write: they hold there what they held at the stretch's entry.
  rw [binary_result_ne, binary_result_ne, binary_result_ne, binary_result_ne]
  rotate_left
  · decide
  · decide
  · decide
  · decide
  rw [h_v123, h_arg1, h_v240, h_arg34, h_arg30, h_arg31] <;> rfl

set_option maxHeartbeats 2000000 in
/-- The tail, second result: the 16-wide projections of the two branches' results, the square of their difference. -/
theorem stage4_loss (W : KVal) (W' : RVal)
    (h_v123 : W' (rb Cert.ReferenceIdeal.main_v127) = W (kb Cert.KernelIdeal.main_v123))
    (h_v240 : W' (rb Cert.ReferenceIdeal.main_v242) = W (kb Cert.KernelIdeal.main_v240))
    (h_arg32 : W' (rb Cert.ReferenceIdeal.main_arg32) = W (kb Cert.KernelIdeal.main_arg32))
    (h_arg33 : W' (rb Cert.ReferenceIdeal.main_arg33) = W (kb Cert.KernelIdeal.main_arg33)) :
    after (Cert.ReferenceIdeal.Hand.rseg4 (F := Ideal)) W' (rb Cert.ReferenceIdeal.main_v281)
      = after (Cert.KernelIdeal.Gen.hostOps4 (F := Ideal)) W (kb Cert.KernelIdeal.main_v279) := by
  after_results_simp
  simp only [h_v123, h_v240, h_arg32, h_arg33] <;> rfl

end Cert.Bridge

end
-- ==== Proof.Br.Stage1S.lean ====
/-
  The big branch's short stretches, side by side.

  Both programs run the same host operations on this stretch, operation for operation, over differently named
  buffers.  Run from contents that agree on the buffers the stretch reads, the two lines leave equal contents in the
  buffers it hands on: each side's result is the same composition of the same host functions at the same literal
  shapes applied to the contents read, so once the contents read are identified the two sides are one term.
  Here: the two layers' column means and variances and their leaky rectifiers (the long middle of each layer is in
  Stage1L.lean).
-/
import proofs.«120736_j30030411334238_1_alg».proof.Proof.Br.Base

set_option maxRecDepth 16384

noncomputable section

namespace Cert.Bridge

open Idealize.ShloMosaic Idealize.ShloMosaic.StableHlo Idealize.SL.Sem

set_option maxHeartbeats 1000000 in
/-- Big branch, layer 1: the column mean of the pooled features H (1024×128): the column sums divided by 1024. -/
theorem stage1_mean (W : KVal) (W' : RVal)
    (h_v6 : W' (rb Cert.ReferenceIdeal.main_v10) = W (kb Cert.KernelIdeal.main_v6)) :
    after (Cert.ReferenceIdeal.Hand.rseg1 (F := Ideal)) W' (rb Cert.ReferenceIdeal.main_v13)
      = after ((Cert.KernelIdeal.Gen.hostOps1 (F := Ideal)).drop 3) W (kb Cert.KernelIdeal.main_v9) := by
  simp only [List.drop_succ_cons, List.drop_zero]
  after_results_simp
  simp only [h_v6] <;> rfl

/-- Big branch, layer 1: the integer 0 handed to the variance as its degrees-of-freedom correction. -/
theorem stage1_zero (W : KVal) (W' : RVal) :
    after (Cert.ReferenceIdeal.Hand.rseg1 (F := Ideal)) W' (rb Cert.ReferenceIdeal.main_c)
      = after ((Cert.KernelIdeal.Gen.hostOps1 (F := Ideal)).drop 3) W (kb Cert.KernelIdeal.main_c) := by
  simp only [List.drop_succ_cons, List.drop_zero]
  after_results_simp <;> rfl

set_option maxHeartbeats 4000000 in
/-- Big branch, layer 1: the column variance of H: the mean of the squared deviations from the column mean, with the correction 0, kept when 1024 − 0 > 0. -/
theorem stage1_1 (W : KVal) (W' : RVal)
    (h_v6 : W' (rb Cert.ReferenceIdeal.main_v10) = W (kb Cert.KernelIdeal.main_v6))
    (h_c : W' (rb Cert.ReferenceIdeal.main_c) = W (kb Cert.KernelIdeal.main_c)) :
    after (Cert.ReferenceIdeal.Hand.rseg1_1 (F := Ideal)) W' (rb Cert.ReferenceIdeal.main_v14)
      = after (Cert.KernelIdeal.Gen.hostOps1_1 (F := Ideal)) W (kb Cert.KernelIdeal.main_v10) := by
  after_results_simp
  simp only [h_v6, h_c] <;> rfl

set_option maxHeartbeats 1000000 in
/-- Big branch, layer 1: the leaky rectifier of the layer's 1024×128 output: x where x ≥ 0, slope · x elsewhere. -/
theorem stage1_3 (W : KVal) (W' : RVal)
    (h_v63 : W' (rb Cert.ReferenceIdeal.main_v67) = W (kb Cert.KernelIdeal.main_v63))
    (h_cst_10 : W' (rb Cert.ReferenceIdeal.main_cst_10) = W (kb Cert.KernelIdeal.main_cst_10)) :
    after (Cert.ReferenceIdeal.Hand.rseg1_3 (F := Ideal)) W' (rb Cert.ReferenceIdeal.main_v68)
      = after (Cert.KernelIdeal.Gen.hostOps1_3 (F := Ideal)) W (kb Cert.KernelIdeal.main_v64) := by
  after_results_simp
  simp only [h_v63, h_cst_10] <;> rfl

set_option maxHeartbeats 1000000 in
/-- Big branch, layer 2: the column mean of the layer's input (1024×128). -/
theorem stage1_4_mean (W : KVal) (W' : RVal)
    (h_v64 : W' (rb Cert.ReferenceIdeal.main_v68) = W (kb Cert.KernelIdeal.main_v64)) :
    after (Cert.ReferenceIdeal.Hand.rseg1_4 (F := Ideal)) W' (rb Cert.ReferenceIdeal.main_v71)
      = after (Cert.KernelIdeal.Gen.hostOps1_4 (F := Ideal)) W (kb Cert.KernelIdeal.main_v67) := by
  after_results_simp
  simp only [h_v64] <;> rfl

/-- Big branch, layer 2: the integer 0 handed to the variance. -/
theorem stage1_4_zero (W : KVal) (W' : RVal) :
    after (Cert.ReferenceIdeal.Hand.rseg1_4 (F := Ideal)) W' (rb Cert.ReferenceIdeal.main_c_13)
      = after (Cert.KernelIdeal.Gen.hostOps1_4 (F := Ideal)) W (kb Cert.KernelIdeal.main_c_13) := by
  after_results_simp <;> rfl

set_option maxHeartbeats 4000000 in
/-- Big branch, layer 2: the column variance of the layer's input. -/
theorem stage1_5 (W : KVal) (W' : RVal)
    (h_v64 : W' (rb Cert.ReferenceIdeal.main_v68) = W (kb Cert.KernelIdeal.main_v64))
    (h_c_13 : W' (rb Cert.ReferenceIdeal.main_c_13) = W (kb Cert.KernelIdeal.main_c_13)) :
    after (Cert.ReferenceIdeal.Hand.rseg1_5 (F := Ideal)) W' (rb Cert.ReferenceIdeal.main_v72)
      = after (Cert.KernelIdeal.Gen.hostOps1_5 (F := Ideal)) W (kb Cert.KernelIdeal.main_v68) := by
  after_results_simp
  simp only [h_v64, h_c_13] <;> rfl

set_option maxHeartbeats 1000000 in
/-- Big branch, layer 2: the leaky rectifier of the layer's 1024×64 output. -/
theorem stage1_7 (W : KVal) (W' : RVal)
    (h_v121 : W' (rb Cert.ReferenceIdeal.main_v125) = W (kb Cert.KernelIdeal.main_v121))
    (h_cst_21 : W' (rb Cert.ReferenceIdeal.main_cst_21) = W (kb Cert.KernelIdeal.main_cst_21)) :
    after (Cert.ReferenceIdeal.Hand.rseg1_7 (F := Ideal)) W' (rb Cert.ReferenceIdeal.main_v126)
      = after (Cert.KernelIdeal.Gen.hostOps1_7 (F := Ideal)) W (kb Cert.KernelIdeal.main_v122) := by
  after_results_simp
  simp only [h_v121, h_cst_21] <;> rfl

end Cert.Bridge

end
-- ==== Proof.Br.Stage1L.lean ====
/-
  The big branch's two long stretches, side by side.

  Both programs run the same host operations on this stretch, operation for operation, over differently named
  buffers.  Run from contents that agree on the buffers the stretch reads, the two lines leave equal contents in the
  buffers it hands on: each side's result is the same composition of the same host functions at the same literal
  shapes applied to the contents read, so once the contents read are identified the two sides are one term.
  Here: the 61 operations between a layer's variance and its leaky rectifier, for each of the two layers.
-/
import proofs.«120736_j30030411334238_1_alg».proof.Proof.Br.Base

set_option maxRecDepth 16384

noncomputable section

namespace Cert.Bridge

open Idealize.ShloMosaic Idealize.ShloMosaic.StableHlo Idealize.SL.Sem

set_option maxHeartbeats 8000000 in
/-- Big branch, layer 1, the long middle: H normalised by its column mean and variance, scaled and shifted; the 256 similarity features and their Gram matrix through the logistic function, clamped below, masked by the adjacency A, the identity added, scaled on both sides by the inverse square roots of the row sums; that matrix times the layer's 128 output features of the normalised H. -/
theorem stage1_2 (W : KVal) (W' : RVal)
    (h_v9 : W' (rb Cert.ReferenceIdeal.main_v13) = W (kb Cert.KernelIdeal.main_v9))
    (h_v6 : W' (rb Cert.ReferenceIdeal.main_v10) = W (kb Cert.KernelIdeal.main_v6))
    (h_v10 : W' (rb Cert.ReferenceIdeal.main_v14) = W (kb Cert.KernelIdeal.main_v10))
    (h_arg6 : W' (rb Cert.ReferenceIdeal.main_arg6) = W (kb Cert.KernelIdeal.main_arg6))
    (h_arg7 : W' (rb Cert.ReferenceIdeal.main_arg7) = W (kb Cert.KernelIdeal.main_arg7))
    (h_arg8 : W' (rb Cert.ReferenceIdeal.main_arg8) = W (kb Cert.KernelIdeal.main_arg8))
    (h_arg9 : W' (rb Cert.ReferenceIdeal.main_arg9) = W (kb Cert.KernelIdeal.main_arg9))
    (h_arg3 : W' (rb Cert.ReferenceIdeal.main_arg3) = W (kb Cert.KernelIdeal.main_arg3))
    (h_arg10 : W' (rb Cert.ReferenceIdeal.main_arg10) = W (kb Cert.KernelIdeal.main_arg10))
    (h_arg11 : W' (rb Cert.ReferenceIdeal.main_arg11) = W (kb Cert.KernelIdeal.main_arg11)) :
    after (Cert.ReferenceIdeal.Hand.rseg1_2 (F := Ideal)) W' (rb Cert.ReferenceIdeal.main_v67)
      = after (Cert.KernelIdeal.Gen.hostOps1_2 (F := Ideal)) W (kb Cert.KernelIdeal.main_v63) := by
  after_results_simp
  simp only [h_v9, h_v6, h_v10, h_arg6, h_arg7, h_arg8, h_arg9, h_arg3, h_arg10, h_arg11] <;> rfl

/-- Big branch, layer 1: the slope 0.01 handed to the leaky rectifier. -/
theorem stage1_2_slope (W : KVal) (W' : RVal) :
    after (Cert.ReferenceIdeal.Hand.rseg1_2 (F := Ideal)) W' (rb Cert.ReferenceIdeal.main_cst_10)
      = after (Cert.KernelIdeal.Gen.hostOps1_2 (F := Ideal)) W (kb Cert.KernelIdeal.main_cst_10) := by
  after_results_simp <;> rfl

set_option maxHeartbeats 8000000 in
/-- Big branch, layer 2, the long middle: as layer 1's, on the first layer's output, with 64 output features. -/
theorem stage1_6 (W : KVal) (W' : RVal)
    (h_v67 : W' (rb Cert.ReferenceIdeal.main_v71) = W (kb Cert.KernelIdeal.main_v67))
    (h_v64 : W' (rb Cert.ReferenceIdeal.main_v68) = W (kb Cert.KernelIdeal.main_v64))
    (h_v68 : W' (rb Cert.ReferenceIdeal.main_v72) = W (kb Cert.KernelIdeal.main_v68))
    (h_arg12 : W' (rb Cert.ReferenceIdeal.main_arg12) = W (kb Cert.KernelIdeal.main_arg12))
    (h_arg13 : W' (rb Cert.ReferenceIdeal.main_arg13) = W (kb Cert.KernelIdeal.main_arg13))
    (h_arg14 : W' (rb Cert.ReferenceIdeal.main_arg14) = W (kb Cert.KernelIdeal.main_arg14))
    (h_arg15 : W' (rb Cert.ReferenceIdeal.main_arg15) = W (kb Cert.KernelIdeal.main_arg15))
    (h_arg3 : W' (rb Cert.ReferenceIdeal.main_arg3) = W (kb Cert.KernelIdeal.main_arg3))
    (h_arg16 : W' (rb Cert.ReferenceIdeal.main_arg16) = W (kb Cert.KernelIdeal.main_arg16))
    (h_arg17 : W' (rb Cert.ReferenceIdeal.main_arg17) = W (kb Cert.KernelIdeal.main_arg17)) :
    after (Cert.ReferenceIdeal.Hand.rseg1_6 (F := Ideal)) W' (rb Cert.ReferenceIdeal.main_v125)
      = after (Cert.KernelIdeal.Gen.hostOps1_6 (F := Ideal)) W (kb Cert.KernelIdeal.main_v121) := by
  after_results_simp
  simp only [h_v67, h_v64, h_v68, h_arg12, h_arg13, h_arg14, h_arg15, h_arg3, h_arg16, h_arg17] <;> rfl

/-- Big branch, layer 2: the slope 0.01 handed to the leaky rectifier. -/
theorem stage1_6_slope (W : KVal) (W' : RVal) :
    after (Cert.ReferenceIdeal.Hand.rseg1_6 (F := Ideal)) W' (rb Cert.ReferenceIdeal.main_cst_21)
      = after (Cert.KernelIdeal.Gen.hostOps1_6 (F := Ideal)) W (kb Cert.KernelIdeal.main_cst_21) := by
  after_results_simp <;> rfl

end Cert.Bridge

end
-- ==== Proof.Br.ChainBig.lean ====
/-
  The big branch, stretch after stretch.

  Between the first matrix product and the second the kernel program runs eight stretches of host operations (its
  items 2 … 9); the reference runs the same operations as its stages `rseg1 … rseg1_7`.  Stage by stage
  (Stage1S.lean, Stage1L.lean) equal contents on what a stage reads give equal contents on what it hands on.  This file
  walks the eight stages in order: what a stage reads was either handed on by the stage before, or was handed on
  earlier and has not been written since (each side has, per stage, the list of buffers the stage writes), or is an
  argument of the program, which nothing writes.  So from equal arguments and equal pooled features H at the entry,
  the branch's 1024×64 output is equal at the exit.
-/
import proofs.«120736_j30030411334238_1_alg».proof.Proof.Br.Base
import proofs.«120736_j30030411334238_1_alg».proof.Proof.Ref.Writes
import proofs.«120736_j30030411334238_1_alg».proof.Proof.Br.Stage1S
import proofs.«120736_j30030411334238_1_alg».proof.Proof.Br.Stage1L

set_option maxRecDepth 16384

noncomputable section

namespace Cert.Bridge

open Idealize.ShloMosaic Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD)

/-! ## Buffers no item writes, on the kernel program's side -/

/-- A buffer written by none of the items 0 … 3 holds, at the entry of the big branch's first long stretch, what it held at launch. -/
theorem keptK4 (r : Ref Cert.KernelIdeal.sig .tc)
    (h : r ∉ Cert.KernelIdeal.Gen.hostOps0_W ++ (([Cert.KernelIdeal.main_v3] : List (Ref Cert.KernelIdeal.sig .tc)) ++ (Cert.KernelIdeal.Gen.hostOps1_W ++ (Cert.KernelIdeal.Gen.hostOps1_1_W)))) :
    Cert.KernelIdeal.Gen.V4 m outs c (kb r) = Cert.KernelIdeal.Gen.V0 m c (kb r) := by
  simp only [List.mem_append, not_or] at h
  obtain ⟨h0, h1, h2, h3⟩ := h
  exact (Cert.KernelIdeal.Gen.V4_of m outs c r h3).trans <|
    (Cert.KernelIdeal.Gen.V3_of m outs c r h2).trans <|
    (Cert.KernelIdeal.Gen.V2_of m outs c r h1).trans <|
    Cert.KernelIdeal.Gen.V1_of m c r h0

/-- A buffer written by none of the items 0 … 7 holds, at the entry of the big branch's second long stretch, what it held at launch. -/
theorem keptK8 (r : Ref Cert.KernelIdeal.sig .tc)
    (h : r ∉ Cert.KernelIdeal.Gen.hostOps0_W ++ (([Cert.KernelIdeal.main_v3] : List (Ref Cert.KernelIdeal.sig .tc)) ++ (Cert.KernelIdeal.Gen.hostOps1_W ++ (Cert.KernelIdeal.Gen.hostOps1_1_W ++ (Cert.KernelIdeal.Gen.hostOps1_2_W ++ (Cert.KernelIdeal.Gen.hostOps1_3_W ++ (Cert.KernelIdeal.Gen.hostOps1_4_W ++ (Cert.KernelIdeal.Gen.hostOps1_5_W)))))))) :
    Cert.KernelIdeal.Gen.V8 m outs c (kb r) = Cert.KernelIdeal.Gen.V0 m c (kb r) := by
  simp only [List.mem_append, not_or] at h
  obtain ⟨h0, h1, h2, h3, h4, h5, h6, h7⟩ := h
  exact (Cert.KernelIdeal.Gen.V8_of m outs c r h7).trans <|
    (Cert.KernelIdeal.Gen.V7_of m outs c r h6).trans <|
    (Cert.KernelIdeal.Gen.V6_of m outs c r h5).trans <|
    (Cert.KernelIdeal.Gen.V5_of m outs c r h4).trans <|
    (Cert.KernelIdeal.Gen.V4_of m outs c r h3).trans <|
    (Cert.KernelIdeal.Gen.V3_of m outs c r h2).trans <|
    (Cert.KernelIdeal.Gen.V2_of m outs c r h1).trans <|
    Cert.KernelIdeal.Gen.V1_of m c r h0

/-! ## The reference's buffers along the branch -/

abbrev rB1 (W' : RVal) : RVal := after (Cert.ReferenceIdeal.Hand.rseg1 (F := Ideal)) W'
abbrev rB2 (W' : RVal) : RVal := after (Cert.ReferenceIdeal.Hand.rseg1_1 (F := Ideal)) (rB1 W')
abbrev rB3 (W' : RVal) : RVal := after (Cert.ReferenceIdeal.Hand.rseg1_2 (F := Ideal)) (rB2 W')
abbrev rB4 (W' : RVal) : RVal := after (Cert.ReferenceIdeal.Hand.rseg1_3 (F := Ideal)) (rB3 W')
abbrev rB5 (W' : RVal) : RVal := after (Cert.ReferenceIdeal.Hand.rseg1_4 (F := Ideal)) (rB4 W')
abbrev rB6 (W' : RVal) : RVal := after (Cert.ReferenceIdeal.Hand.rseg1_5 (F := Ideal)) (rB5 W')
abbrev rB7 (W' : RVal) : RVal := after (Cert.ReferenceIdeal.Hand.rseg1_6 (F := Ideal)) (rB6 W')
abbrev rB8 (W' : RVal) : RVal := after (Cert.ReferenceIdeal.Hand.rseg1_7 (F := Ideal)) (rB7 W')

/-- A buffer the big branch's first two stages (mean, variance) do not write comes out of them as it went in. -/
theorem kept_rB2 (W' : RVal) (x : Ref Cert.ReferenceIdeal.sig .tc)
    (h : x ∉ Cert.ReferenceIdeal.Hand.rseg1_W ++ (Cert.ReferenceIdeal.Hand.rseg1_1_W)) :
    rB2 W' (rb x) = W' (rb x) := by
  simp only [List.mem_append, not_or] at h
  obtain ⟨h0, h1⟩ := h
  exact (after_kept (Cert.ReferenceIdeal.Hand.rseg1_1_writes (F := Ideal)) (rB1 W') x h1).trans <|
    after_kept (Cert.ReferenceIdeal.Hand.rseg1_writes (F := Ideal)) W' x h0

/-- A buffer the big branch's first six stages do not write comes out of them as it went in. -/
theorem kept_rB6 (W' : RVal) (x : Ref Cert.ReferenceIdeal.sig .tc)
    (h : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W)))))) :
    rB6 W' (rb x) = W' (rb x) := by
  simp only [List.mem_append, not_or] at h
  obtain ⟨h0, h1, h2, h3, h4, h5⟩ := h
  exact (after_kept (Cert.ReferenceIdeal.Hand.rseg1_5_writes (F := Ideal)) (rB5 W') x h5).trans <|
    (after_kept (Cert.ReferenceIdeal.Hand.rseg1_4_writes (F := Ideal)) (rB4 W') x h4).trans <|
    (after_kept (Cert.ReferenceIdeal.Hand.rseg1_3_writes (F := Ideal)) (rB3 W') x h3).trans <|
    (after_kept (Cert.ReferenceIdeal.Hand.rseg1_2_writes (F := Ideal)) (rB2 W') x h2).trans <|
    (after_kept (Cert.ReferenceIdeal.Hand.rseg1_1_writes (F := Ideal)) (rB1 W') x h1).trans <|
    after_kept (Cert.ReferenceIdeal.Hand.rseg1_writes (F := Ideal)) W' x h0

/-- A buffer none of the big branch's eight stages writes comes out of the branch as it went in. -/
theorem kept_rB8 (W' : RVal) (x : Ref Cert.ReferenceIdeal.sig .tc)
    (h : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W)))))))) :
    rB8 W' (rb x) = W' (rb x) := by
  simp only [List.mem_append, not_or] at h
  obtain ⟨h0, h1, h2, h3, h4, h5, h6, h7⟩ := h
  exact (after_kept (Cert.ReferenceIdeal.Hand.rseg1_7_writes (F := Ideal)) (rB7 W') x h7).trans <|
    (after_kept (Cert.ReferenceIdeal.Hand.rseg1_6_writes (F := Ideal)) (rB6 W') x h6).trans <|
    (after_kept (Cert.ReferenceIdeal.Hand.rseg1_5_writes (F := Ideal)) (rB5 W') x h5).trans <|
    (after_kept (Cert.ReferenceIdeal.Hand.rseg1_4_writes (F := Ideal)) (rB4 W') x h4).trans <|
    (after_kept (Cert.ReferenceIdeal.Hand.rseg1_3_writes (F := Ideal)) (rB3 W') x h3).trans <|
    (after_kept (Cert.ReferenceIdeal.Hand.rseg1_2_writes (F := Ideal)) (rB2 W') x h2).trans <|
    (after_kept (Cert.ReferenceIdeal.Hand.rseg1_1_writes (F := Ideal)) (rB1 W') x h1).trans <|
    after_kept (Cert.ReferenceIdeal.Hand.rseg1_writes (F := Ideal)) W' x h0

/-! ## The chain -/

/-- The six operations of the mean leave H where it is. -/
theorem big_branch_mean_keeps_H (U : KVal) :
    after ((Cert.KernelIdeal.Gen.hostOps1 (F := Ideal)).drop 3) U (kb Cert.KernelIdeal.main_v6) = U (kb Cert.KernelIdeal.main_v6) := by
  simp only [List.drop_succ_cons, List.drop_zero]
  after_results_simp

set_option maxHeartbeats 4000000 in
/-- The big branch. From contents of the reference's buffers that hold, at the entry of its eight stages, the same pooled features H as the kernel program's `main_v6` after its first stretch and the same weights as the kernel program's arguments, the reference's last stage leaves in its `main_v126` what the kernel program's `main_v122` holds before the second product: the two layers' 1024×64 output. -/
theorem big_branch (W' : RVal)
    (hH : W' (rb Cert.ReferenceIdeal.main_v10) = Cert.KernelIdeal.Gen.V3 m outs c (kb Cert.KernelIdeal.main_v6))
    (h_arg3 : W' (rb Cert.ReferenceIdeal.main_arg3) = Cert.KernelIdeal.Gen.V0 m c (kb Cert.KernelIdeal.main_arg3))
    (h_arg6 : W' (rb Cert.ReferenceIdeal.main_arg6) = Cert.KernelIdeal.Gen.V0 m c (kb Cert.KernelIdeal.main_arg6))
    (h_arg7 : W' (rb Cert.ReferenceIdeal.main_arg7) = Cert.KernelIdeal.Gen.V0 m c (kb Cert.KernelIdeal.main_arg7))
    (h_arg8 : W' (rb Cert.ReferenceIdeal.main_arg8) = Cert.KernelIdeal.Gen.V0 m c (kb Cert.KernelIdeal.main_arg8))
    (h_arg9 : W' (rb Cert.ReferenceIdeal.main_arg9) = Cert.KernelIdeal.Gen.V0 m c (kb Cert.KernelIdeal.main_arg9))
    (h_arg10 : W' (rb Cert.ReferenceIdeal.main_arg10) = Cert.KernelIdeal.Gen.V0 m c (kb Cert.KernelIdeal.main_arg10))
    (h_arg11 : W' (rb Cert.ReferenceIdeal.main_arg11) = Cert.KernelIdeal.Gen.V0 m c (kb Cert.KernelIdeal.main_arg11))
    (h_arg12 : W' (rb Cert.ReferenceIdeal.main_arg12) = Cert.KernelIdeal.Gen.V0 m c (kb Cert.KernelIdeal.main_arg12))
    (h_arg13 : W' (rb Cert.ReferenceIdeal.main_arg13) = Cert.KernelIdeal.Gen.V0 m c (kb Cert.KernelIdeal.main_arg13))
    (h_arg14 : W' (rb Cert.ReferenceIdeal.main_arg14) = Cert.KernelIdeal.Gen.V0 m c (kb Cert.KernelIdeal.main_arg14))
    (h_arg15 : W' (rb Cert.ReferenceIdeal.main_arg15) = Cert.KernelIdeal.Gen.V0 m c (kb Cert.KernelIdeal.main_arg15))
    (h_arg16 : W' (rb Cert.ReferenceIdeal.main_arg16) = Cert.KernelIdeal.Gen.V0 m c (kb Cert.KernelIdeal.main_arg16))
    (h_arg17 : W' (rb Cert.ReferenceIdeal.main_arg17) = Cert.KernelIdeal.Gen.V0 m c (kb Cert.KernelIdeal.main_arg17)) :
    rB8 W' (rb Cert.ReferenceIdeal.main_v126) = Cert.KernelIdeal.Gen.V10 m outs c (kb Cert.KernelIdeal.main_v122) := by
  -- the kernel program's first stretch: three operations making H, then the six of the mean
  have e1 : Cert.KernelIdeal.Gen.V3 m outs c = after ((Cert.KernelIdeal.Gen.hostOps1 (F := Ideal)).drop 3) (after ((Cert.KernelIdeal.Gen.hostOps1 (F := Ideal)).take 3) (Cert.KernelIdeal.Gen.V2 m outs c)) :=
    after_cut 3 _ _
  have hU : W' (rb Cert.ReferenceIdeal.main_v10) = after ((Cert.KernelIdeal.Gen.hostOps1 (F := Ideal)).take 3) (Cert.KernelIdeal.Gen.V2 m outs c) (kb Cert.KernelIdeal.main_v6) := by
    rw [hH, e1]; exact big_branch_mean_keeps_H _
  -- layer 1: mean, zero, variance
  have s1m : rB1 W' (rb Cert.ReferenceIdeal.main_v13) = Cert.KernelIdeal.Gen.V3 m outs c (kb Cert.KernelIdeal.main_v9) := by
    rw [e1]; exact stage1_mean _ W' hU
  have s1z : rB1 W' (rb Cert.ReferenceIdeal.main_c) = Cert.KernelIdeal.Gen.V3 m outs c (kb Cert.KernelIdeal.main_c) := by
    rw [e1]; exact stage1_zero _ W'
  have k1H : rB1 W' (rb Cert.ReferenceIdeal.main_v10) = Cert.KernelIdeal.Gen.V3 m outs c (kb Cert.KernelIdeal.main_v6) :=
    (after_kept (Cert.ReferenceIdeal.Hand.rseg1_writes (F := Ideal)) W' Cert.ReferenceIdeal.main_v10 (by decide)).trans hH
  have s2 : rB2 W' (rb Cert.ReferenceIdeal.main_v14) = Cert.KernelIdeal.Gen.V4 m outs c (kb Cert.KernelIdeal.main_v10) := stage1_1 (Cert.KernelIdeal.Gen.V3 m outs c) (rB1 W') k1H s1z
  have k2H : rB2 W' (rb Cert.ReferenceIdeal.main_v10) = Cert.KernelIdeal.Gen.V4 m outs c (kb Cert.KernelIdeal.main_v6) :=
    (after_kept (Cert.ReferenceIdeal.Hand.rseg1_1_writes (F := Ideal)) (rB1 W') Cert.ReferenceIdeal.main_v10 (by decide)).trans (k1H.trans (Cert.KernelIdeal.Gen.V4_of m outs c Cert.KernelIdeal.main_v6 (by decide)).symm)
  have k2m : rB2 W' (rb Cert.ReferenceIdeal.main_v13) = Cert.KernelIdeal.Gen.V4 m outs c (kb Cert.KernelIdeal.main_v9) :=
    (after_kept (Cert.ReferenceIdeal.Hand.rseg1_1_writes (F := Ideal)) (rB1 W') Cert.ReferenceIdeal.main_v13 (by decide)).trans (s1m.trans (Cert.KernelIdeal.Gen.V4_of m outs c Cert.KernelIdeal.main_v9 (by decide)).symm)
  -- layer 1: the long middle and the rectifier
  have a2_6 : rB2 W' (rb Cert.ReferenceIdeal.main_arg6) = Cert.KernelIdeal.Gen.V4 m outs c (kb Cert.KernelIdeal.main_arg6) :=
    (kept_rB2 W' Cert.ReferenceIdeal.main_arg6 (by decide)).trans (h_arg6.trans (keptK4 m outs c Cert.KernelIdeal.main_arg6 (by decide)).symm)
  have a2_7 : rB2 W' (rb Cert.ReferenceIdeal.main_arg7) = Cert.KernelIdeal.Gen.V4 m outs c (kb Cert.KernelIdeal.main_arg7) :=
    (kept_rB2 W' Cert.ReferenceIdeal.main_arg7 (by decide)).trans (h_arg7.trans (keptK4 m outs c Cert.KernelIdeal.main_arg7 (by decide)).symm)
  have a2_8 : rB2 W' (rb Cert.ReferenceIdeal.main_arg8) = Cert.KernelIdeal.Gen.V4 m outs c (kb Cert.KernelIdeal.main_arg8) :=
    (kept_rB2 W' Cert.ReferenceIdeal.main_arg8 (by decide)).trans (h_arg8.trans (keptK4 m outs c Cert.KernelIdeal.main_arg8 (by decide)).symm)
  have a2_9 : rB2 W' (rb Cert.ReferenceIdeal.main_arg9) = Cert.KernelIdeal.Gen.V4 m outs c (kb Cert.KernelIdeal.main_arg9) :=
    (kept_rB2 W' Cert.ReferenceIdeal.main_arg9 (by decide)).trans (h_arg9.trans (keptK4 m outs c Cert.KernelIdeal.main_arg9 (by decide)).symm)
  have a2_3 : rB2 W' (rb Cert.ReferenceIdeal.main_arg3) = Cert.KernelIdeal.Gen.V4 m outs c (kb Cert.KernelIdeal.main_arg3) :=
    (kept_rB2 W' Cert.ReferenceIdeal.main_arg3 (by decide)).trans (h_arg3.trans (keptK4 m outs c Cert.KernelIdeal.main_arg3 (by decide)).symm)
  have a2_10 : rB2 W' (rb Cert.ReferenceIdeal.main_arg10) = Cert.KernelIdeal.Gen.V4 m outs c (kb Cert.KernelIdeal.main_arg10) :=
    (kept_rB2 W' Cert.ReferenceIdeal.main_arg10 (by decide)).trans (h_arg10.trans (keptK4 m outs c Cert.KernelIdeal.main_arg10 (by decide)).symm)
  have a2_11 : rB2 W' (rb Cert.ReferenceIdeal.main_arg11) = Cert.KernelIdeal.Gen.V4 m outs c (kb Cert.KernelIdeal.main_arg11) :=
    (kept_rB2 W' Cert.ReferenceIdeal.main_arg11 (by decide)).trans (h_arg11.trans (keptK4 m outs c Cert.KernelIdeal.main_arg11 (by decide)).symm)
  have s3 : rB3 W' (rb Cert.ReferenceIdeal.main_v67) = Cert.KernelIdeal.Gen.V5 m outs c (kb Cert.KernelIdeal.main_v63) :=
    stage1_2 (Cert.KernelIdeal.Gen.V4 m outs c) (rB2 W') k2m k2H s2 a2_6 a2_7 a2_8 a2_9 a2_3 a2_10 a2_11
  have s3s : rB3 W' (rb Cert.ReferenceIdeal.main_cst_10) = Cert.KernelIdeal.Gen.V5 m outs c (kb Cert.KernelIdeal.main_cst_10) := stage1_2_slope (Cert.KernelIdeal.Gen.V4 m outs c) (rB2 W')
  have s4 : rB4 W' (rb Cert.ReferenceIdeal.main_v68) = Cert.KernelIdeal.Gen.V6 m outs c (kb Cert.KernelIdeal.main_v64) := stage1_3 (Cert.KernelIdeal.Gen.V5 m outs c) (rB3 W') s3 s3s
  -- layer 2: mean, zero, variance
  have s5m : rB5 W' (rb Cert.ReferenceIdeal.main_v71) = Cert.KernelIdeal.Gen.V7 m outs c (kb Cert.KernelIdeal.main_v67) := stage1_4_mean (Cert.KernelIdeal.Gen.V6 m outs c) (rB4 W') s4
  have s5z : rB5 W' (rb Cert.ReferenceIdeal.main_c_13) = Cert.KernelIdeal.Gen.V7 m outs c (kb Cert.KernelIdeal.main_c_13) := stage1_4_zero (Cert.KernelIdeal.Gen.V6 m outs c) (rB4 W')
  have k5x : rB5 W' (rb Cert.ReferenceIdeal.main_v68) = Cert.KernelIdeal.Gen.V7 m outs c (kb Cert.KernelIdeal.main_v64) :=
    (after_kept (Cert.ReferenceIdeal.Hand.rseg1_4_writes (F := Ideal)) (rB4 W') Cert.ReferenceIdeal.main_v68 (by decide)).trans (s4.trans (Cert.KernelIdeal.Gen.V7_of m outs c Cert.KernelIdeal.main_v64 (by decide)).symm)
  have s6 : rB6 W' (rb Cert.ReferenceIdeal.main_v72) = Cert.KernelIdeal.Gen.V8 m outs c (kb Cert.KernelIdeal.main_v68) := stage1_5 (Cert.KernelIdeal.Gen.V7 m outs c) (rB5 W') k5x s5z
  have k6x : rB6 W' (rb Cert.ReferenceIdeal.main_v68) = Cert.KernelIdeal.Gen.V8 m outs c (kb Cert.KernelIdeal.main_v64) :=
    (after_kept (Cert.ReferenceIdeal.Hand.rseg1_5_writes (F := Ideal)) (rB5 W') Cert.ReferenceIdeal.main_v68 (by decide)).trans (k5x.trans (Cert.KernelIdeal.Gen.V8_of m outs c Cert.KernelIdeal.main_v64 (by decide)).symm)
  have k6m : rB6 W' (rb Cert.ReferenceIdeal.main_v71) = Cert.KernelIdeal.Gen.V8 m outs c (kb Cert.KernelIdeal.main_v67) :=
    (after_kept (Cert.ReferenceIdeal.Hand.rseg1_5_writes (F := Ideal)) (rB5 W') Cert.ReferenceIdeal.main_v71 (by decide)).trans (s5m.trans (Cert.KernelIdeal.Gen.V8_of m outs c Cert.KernelIdeal.main_v67 (by decide)).symm)
  -- layer 2: the long middle and the rectifier
  have a6_12 : rB6 W' (rb Cert.ReferenceIdeal.main_arg12) = Cert.KernelIdeal.Gen.V8 m outs c (kb Cert.KernelIdeal.main_arg12) :=
    (kept_rB6 W' Cert.ReferenceIdeal.main_arg12 (by decide)).trans (h_arg12.trans (keptK8 m outs c Cert.KernelIdeal.main_arg12 (by decide)).symm)
  have a6_13 : rB6 W' (rb Cert.ReferenceIdeal.main_arg13) = Cert.KernelIdeal.Gen.V8 m outs c (kb Cert.KernelIdeal.main_arg13) :=
    (kept_rB6 W' Cert.ReferenceIdeal.main_arg13 (by decide)).trans (h_arg13.trans (keptK8 m outs c Cert.KernelIdeal.main_arg13 (by decide)).symm)
  have a6_14 : rB6 W' (rb Cert.ReferenceIdeal.main_arg14) = Cert.KernelIdeal.Gen.V8 m outs c (kb Cert.KernelIdeal.main_arg14) :=
    (kept_rB6 W' Cert.ReferenceIdeal.main_arg14 (by decide)).trans (h_arg14.trans (keptK8 m outs c Cert.KernelIdeal.main_arg14 (by decide)).symm)
  have a6_15 : rB6 W' (rb Cert.ReferenceIdeal.main_arg15) = Cert.KernelIdeal.Gen.V8 m outs c (kb Cert.KernelIdeal.main_arg15) :=
    (kept_rB6 W' Cert.ReferenceIdeal.main_arg15 (by decide)).trans (h_arg15.trans (keptK8 m outs c Cert.KernelIdeal.main_arg15 (by decide)).symm)
  have a6_3 : rB6 W' (rb Cert.ReferenceIdeal.main_arg3) = Cert.KernelIdeal.Gen.V8 m outs c (kb Cert.KernelIdeal.main_arg3) :=
    (kept_rB6 W' Cert.ReferenceIdeal.main_arg3 (by decide)).trans (h_arg3.trans (keptK8 m outs c Cert.KernelIdeal.main_arg3 (by decide)).symm)
  have a6_16 : rB6 W' (rb Cert.ReferenceIdeal.main_arg16) = Cert.KernelIdeal.Gen.V8 m outs c (kb Cert.KernelIdeal.main_arg16) :=
    (kept_rB6 W' Cert.ReferenceIdeal.main_arg16 (by decide)).trans (h_arg16.trans (keptK8 m outs c Cert.KernelIdeal.main_arg16 (by decide)).symm)
  have a6_17 : rB6 W' (rb Cert.ReferenceIdeal.main_arg17) = Cert.KernelIdeal.Gen.V8 m outs c (kb Cert.KernelIdeal.main_arg17) :=
    (kept_rB6 W' Cert.ReferenceIdeal.main_arg17 (by decide)).trans (h_arg17.trans (keptK8 m outs c Cert.KernelIdeal.main_arg17 (by decide)).symm)
  have s7 : rB7 W' (rb Cert.ReferenceIdeal.main_v125) = Cert.KernelIdeal.Gen.V9 m outs c (kb Cert.KernelIdeal.main_v121) :=
    stage1_6 (Cert.KernelIdeal.Gen.V8 m outs c) (rB6 W') k6m k6x s6 a6_12 a6_13 a6_14 a6_15 a6_3 a6_16 a6_17
  have s7s : rB7 W' (rb Cert.ReferenceIdeal.main_cst_21) = Cert.KernelIdeal.Gen.V9 m outs c (kb Cert.KernelIdeal.main_cst_21) := stage1_6_slope (Cert.KernelIdeal.Gen.V8 m outs c) (rB6 W')
  exact stage1_7 (Cert.KernelIdeal.Gen.V9 m outs c) (rB7 W') s7 s7s

end Cert.Bridge

end
-- ==== Proof.Br.Stage3S.lean ====
/-
  The small branch's short stretches, side by side.

  Both programs run the same host operations on this stretch, operation for operation, over differently named
  buffers.  Run from contents that agree on the buffers the stretch reads, the two lines leave equal contents in the
  buffers it hands on: each side's result is the same composition of the same host functions at the same literal
  shapes applied to the contents read, so once the contents read are identified the two sides are one term.
  Here: the two layers' column means and variances and their leaky rectifiers (the long middle of each layer is in
  Stage3L.lean).
-/
import proofs.«120736_j30030411334238_1_alg».proof.Proof.Br.Base

set_option maxRecDepth 16384

noncomputable section

namespace Cert.Bridge

open Idealize.ShloMosaic Idealize.ShloMosaic.StableHlo Idealize.SL.Sem

set_option maxHeartbeats 1000000 in
/-- Small branch, layer 1: the column mean of the pooled features H (2048×128): the column sums divided by 2048. -/
theorem stage3_mean (W : KVal) (W' : RVal)
    (h_v127 : W' (rb Cert.ReferenceIdeal.main_v129) = W (kb Cert.KernelIdeal.main_v127)) :
    after (Cert.ReferenceIdeal.Hand.rseg3 (F := Ideal)) W' (rb Cert.ReferenceIdeal.main_v132)
      = after ((Cert.KernelIdeal.Gen.hostOps3 (F := Ideal)).drop 3) W (kb Cert.KernelIdeal.main_v130) := by
  simp only [List.drop_succ_cons, List.drop_zero]
  after_results_simp
  simp only [h_v127] <;> rfl

/-- Small branch, layer 1: the integer 0 handed to the variance as its degrees-of-freedom correction. -/
theorem stage3_zero (W : KVal) (W' : RVal) :
    after (Cert.ReferenceIdeal.Hand.rseg3 (F := Ideal)) W' (rb Cert.ReferenceIdeal.main_c_24)
      = after ((Cert.KernelIdeal.Gen.hostOps3 (F := Ideal)).drop 3) W (kb Cert.KernelIdeal.main_c_24) := by
  simp only [List.drop_succ_cons, List.drop_zero]
  after_results_simp <;> rfl

set_option maxHeartbeats 4000000 in
/-- Small branch, layer 1: the column variance of H: the mean of the squared deviations from the column mean, with the correction 0, kept when 2048 − 0 > 0. -/
theorem stage3_1 (W : KVal) (W' : RVal)
    (h_v127 : W' (rb Cert.ReferenceIdeal.main_v129) = W (kb Cert.KernelIdeal.main_v127))
    (h_c_24 : W' (rb Cert.ReferenceIdeal.main_c_24) = W (kb Cert.KernelIdeal.main_c_24)) :
    after (Cert.ReferenceIdeal.Hand.rseg3_1 (F := Ideal)) W' (rb Cert.ReferenceIdeal.main_v133)
      = after (Cert.KernelIdeal.Gen.hostOps3_1 (F := Ideal)) W (kb Cert.KernelIdeal.main_v131) := by
  after_results_simp
  simp only [h_v127, h_c_24] <;> rfl

set_option maxHeartbeats 1000000 in
/-- Small branch, layer 1: the leaky rectifier of the layer's 2048×128 output: x where x ≥ 0, slope · x elsewhere. -/
theorem stage3_3 (W : KVal) (W' : RVal)
    (h_v182 : W' (rb Cert.ReferenceIdeal.main_v184) = W (kb Cert.KernelIdeal.main_v182))
    (h_cst_31 : W' (rb Cert.ReferenceIdeal.main_cst_31) = W (kb Cert.KernelIdeal.main_cst_31)) :
    after (Cert.ReferenceIdeal.Hand.rseg3_3 (F := Ideal)) W' (rb Cert.ReferenceIdeal.main_v185)
      = after (Cert.KernelIdeal.Gen.hostOps3_3 (F := Ideal)) W (kb Cert.KernelIdeal.main_v183) := by
  after_results_simp
  simp only [h_v182, h_cst_31] <;> rfl

set_option maxHeartbeats 1000000 in
/-- Small branch, layer 2: the column mean of the layer's input (2048×128). -/
theorem stage3_4_mean (W : KVal) (W' : RVal)
    (h_v183 : W' (rb Cert.ReferenceIdeal.main_v185) = W (kb Cert.KernelIdeal.main_v183)) :
    after (Cert.ReferenceIdeal.Hand.rseg3_4 (F := Ideal)) W' (rb Cert.ReferenceIdeal.main_v188)
      = after (Cert.KernelIdeal.Gen.hostOps3_4 (F := Ideal)) W (kb Cert.KernelIdeal.main_v186) := by
  after_results_simp
  simp only [h_v183] <;> rfl

/-- Small branch, layer 2: the integer 0 handed to the variance. -/
theorem stage3_4_zero (W : KVal) (W' : RVal) :
    after (Cert.ReferenceIdeal.Hand.rseg3_4 (F := Ideal)) W' (rb Cert.ReferenceIdeal.main_c_34)
      = after (Cert.KernelIdeal.Gen.hostOps3_4 (F := Ideal)) W (kb Cert.KernelIdeal.main_c_34) := by
  after_results_simp <;> rfl

set_option maxHeartbeats 4000000 in
/-- Small branch, layer 2: the column variance of the layer's input. -/
theorem stage3_5 (W : KVal) (W' : RVal)
    (h_v183 : W' (rb Cert.ReferenceIdeal.main_v185) = W (kb Cert.KernelIdeal.main_v183))
    (h_c_34 : W' (rb Cert.ReferenceIdeal.main_c_34) = W (kb Cert.KernelIdeal.main_c_34)) :
    after (Cert.ReferenceIdeal.Hand.rseg3_5 (F := Ideal)) W' (rb Cert.ReferenceIdeal.main_v189)
      = after (Cert.KernelIdeal.Gen.hostOps3_5 (F := Ideal)) W (kb Cert.KernelIdeal.main_v187) := by
  after_results_simp
  simp only [h_v183, h_c_34] <;> rfl

set_option maxHeartbeats 1000000 in
/-- Small branch, layer 2: the leaky rectifier of the layer's 2048×64 output. -/
theorem stage3_7 (W : KVal) (W' : RVal)
    (h_v238 : W' (rb Cert.ReferenceIdeal.main_v240) = W (kb Cert.KernelIdeal.main_v238))
    (h_cst_41 : W' (rb Cert.ReferenceIdeal.main_cst_41) = W (kb Cert.KernelIdeal.main_cst_41)) :
    after (Cert.ReferenceIdeal.Hand.rseg3_7 (F := Ideal)) W' (rb Cert.ReferenceIdeal.main_v241)
      = after (Cert.KernelIdeal.Gen.hostOps3_7 (F := Ideal)) W (kb Cert.KernelIdeal.main_v239) := by
  after_results_simp
  simp only [h_v238, h_cst_41] <;> rfl

end Cert.Bridge

end
-- ==== Proof.Br.Stage3L.lean ====
/-
  The small branch's two long stretches, side by side.

  Both programs run the same host operations on this stretch, operation for operation, over differently named
  buffers.  Run from contents that agree on the buffers the stretch reads, the two lines leave equal contents in the
  buffers it hands on: each side's result is the same composition of the same host functions at the same literal
  shapes applied to the contents read, so once the contents read are identified the two sides are one term.
  Here: the 58 operations between a layer's variance and its leaky rectifier, for each of the two layers.
-/
import proofs.«120736_j30030411334238_1_alg».proof.Proof.Br.Base

set_option maxRecDepth 16384

noncomputable section

namespace Cert.Bridge

open Idealize.ShloMosaic Idealize.ShloMosaic.StableHlo Idealize.SL.Sem

set_option maxHeartbeats 8000000 in
/-- Small branch, layer 1, the long middle: H normalised by its column mean and variance, scaled and shifted; the 256 similarity features and their Gram matrix through the logistic function, masked by the adjacency Asmall, the identity added, scaled on both sides by the inverse square roots of the row sums; that matrix times the layer's 128 output features of the normalised H. -/
theorem stage3_2 (W : KVal) (W' : RVal)
    (h_v130 : W' (rb Cert.ReferenceIdeal.main_v132) = W (kb Cert.KernelIdeal.main_v130))
    (h_v127 : W' (rb Cert.ReferenceIdeal.main_v129) = W (kb Cert.KernelIdeal.main_v127))
    (h_v131 : W' (rb Cert.ReferenceIdeal.main_v133) = W (kb Cert.KernelIdeal.main_v131))
    (h_arg18 : W' (rb Cert.ReferenceIdeal.main_arg18) = W (kb Cert.KernelIdeal.main_arg18))
    (h_arg19 : W' (rb Cert.ReferenceIdeal.main_arg19) = W (kb Cert.KernelIdeal.main_arg19))
    (h_arg20 : W' (rb Cert.ReferenceIdeal.main_arg20) = W (kb Cert.KernelIdeal.main_arg20))
    (h_arg21 : W' (rb Cert.ReferenceIdeal.main_arg21) = W (kb Cert.KernelIdeal.main_arg21))
    (h_arg5 : W' (rb Cert.ReferenceIdeal.main_arg5) = W (kb Cert.KernelIdeal.main_arg5))
    (h_arg22 : W' (rb Cert.ReferenceIdeal.main_arg22) = W (kb Cert.KernelIdeal.main_arg22))
    (h_arg23 : W' (rb Cert.ReferenceIdeal.main_arg23) = W (kb Cert.KernelIdeal.main_arg23)) :
    after (Cert.ReferenceIdeal.Hand.rseg3_2 (F := Ideal)) W' (rb Cert.ReferenceIdeal.main_v184)
      = after (Cert.KernelIdeal.Gen.hostOps3_2 (F := Ideal)) W (kb Cert.KernelIdeal.main_v182) := by
  after_results_simp
  simp only [h_v130, h_v127, h_v131, h_arg18, h_arg19, h_arg20, h_arg21, h_arg5, h_arg22, h_arg23] <;> rfl

/-- Small branch, layer 1: the slope 0.01 handed to the leaky rectifier. -/
theorem stage3_2_slope (W : KVal) (W' : RVal) :
    after (Cert.ReferenceIdeal.Hand.rseg3_2 (F := Ideal)) W' (rb Cert.ReferenceIdeal.main_cst_31)
      = after (Cert.KernelIdeal.Gen.hostOps3_2 (F := Ideal)) W (kb Cert.KernelIdeal.main_cst_31) := by
  after_results_simp <;> rfl

set_option maxHeartbeats 8000000 in
/-- Small branch, layer 2, the long middle: as layer 1's, on the first layer's output, with 64 output features. -/
theorem stage3_6 (W : KVal) (W' : RVal)
    (h_v186 : W' (rb Cert.ReferenceIdeal.main_v188) = W (kb Cert.KernelIdeal.main_v186))
    (h_v183 : W' (rb Cert.ReferenceIdeal.main_v185) = W (kb Cert.KernelIdeal.main_v183))
    (h_v187 : W' (rb Cert.ReferenceIdeal.main_v189) = W (kb Cert.KernelIdeal.main_v187))
    (h_arg24 : W' (rb Cert.ReferenceIdeal.main_arg24) = W (kb Cert.KernelIdeal.main_arg24))
    (h_arg25 : W' (rb Cert.ReferenceIdeal.main_arg25) = W (kb Cert.KernelIdeal.main_arg25))
    (h_arg26 : W' (rb Cert.ReferenceIdeal.main_arg26) = W (kb Cert.KernelIdeal.main_arg26))
    (h_arg27 : W' (rb Cert.ReferenceIdeal.main_arg27) = W (kb Cert.KernelIdeal.main_arg27))
    (h_arg5 : W' (rb Cert.ReferenceIdeal.main_arg5) = W (kb Cert.KernelIdeal.main_arg5))
    (h_arg28 : W' (rb Cert.ReferenceIdeal.main_arg28) = W (kb Cert.KernelIdeal.main_arg28))
    (h_arg29 : W' (rb Cert.ReferenceIdeal.main_arg29) = W (kb Cert.KernelIdeal.main_arg29)) :
    after (Cert.ReferenceIdeal.Hand.rseg3_6 (F := Ideal)) W' (rb Cert.ReferenceIdeal.main_v240)
      = after (Cert.KernelIdeal.Gen.hostOps3_6 (F := Ideal)) W (kb Cert.KernelIdeal.main_v238) := by
  after_results_simp
  simp only [h_v186, h_v183, h_v187, h_arg24, h_arg25, h_arg26, h_arg27, h_arg5, h_arg28, h_arg29] <;> rfl

/-- Small branch, layer 2: the slope 0.01 handed to the leaky rectifier. -/
theorem stage3_6_slope (W : KVal) (W' : RVal) :
    after (Cert.ReferenceIdeal.Hand.rseg3_6 (F := Ideal)) W' (rb Cert.ReferenceIdeal.main_cst_41)
      = after (Cert.KernelIdeal.Gen.hostOps3_6 (F := Ideal)) W (kb Cert.KernelIdeal.main_cst_41) := by
  after_results_simp <;> rfl

end Cert.Bridge

end
-- ==== Proof.Br.ChainSmall.lean ====
/-
  The small branch, stretch after stretch.

  Between the third matrix product and the last the kernel program runs eight stretches of host operations (its
  items 12 … 19); the reference runs the same operations as its stages `rseg3 … rseg3_7`.  Stage by stage
  (Stage3S.lean, Stage3L.lean) equal contents on what a stage reads give equal contents on what it hands on.  This file
  walks the eight stages in order, as ChainBig.lean does for the big branch: what a stage reads was handed on by the
  stage before, or earlier and not written since, or is an argument of the program.  So from equal arguments and
  equal pooled features H at the entry, the branch's 2048×64 output is equal at the exit.
-/
import proofs.«120736_j30030411334238_1_alg».proof.Proof.Br.Base
import proofs.«120736_j30030411334238_1_alg».proof.Proof.Ref.Writes
import proofs.«120736_j30030411334238_1_alg».proof.Proof.Br.Stage3S
import proofs.«120736_j30030411334238_1_alg».proof.Proof.Br.Stage3L

set_option maxRecDepth 16384

noncomputable section

namespace Cert.Bridge

open Idealize.ShloMosaic Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD)

/-! ## Buffers no item writes, on the kernel program's side -/

/-- A buffer written by none of the items 0 … 13 holds, at the entry of the small branch's first long stretch, what it held at launch. -/
theorem keptK14 (r : Ref Cert.KernelIdeal.sig .tc)
    (h : r ∉ Cert.KernelIdeal.Gen.hostOps0_W ++ (([Cert.KernelIdeal.main_v3] : List (Ref Cert.KernelIdeal.sig .tc)) ++ (Cert.KernelIdeal.Gen.hostOps1_W ++ (Cert.KernelIdeal.Gen.hostOps1_1_W ++ (Cert.KernelIdeal.Gen.hostOps1_2_W ++ (Cert.KernelIdeal.Gen.hostOps1_3_W ++ (Cert.KernelIdeal.Gen.hostOps1_4_W ++ (Cert.KernelIdeal.Gen.hostOps1_5_W ++ (Cert.KernelIdeal.Gen.hostOps1_6_W ++ (Cert.KernelIdeal.Gen.hostOps1_7_W ++ (([Cert.KernelIdeal.main_v123] : List (Ref Cert.KernelIdeal.sig .tc)) ++ (([Cert.KernelIdeal.main_v124] : List (Ref Cert.KernelIdeal.sig .tc)) ++ (Cert.KernelIdeal.Gen.hostOps3_W ++ (Cert.KernelIdeal.Gen.hostOps3_1_W)))))))))))))) :
    Cert.KernelIdeal.Gen.V14 m outs c (kb r) = Cert.KernelIdeal.Gen.V0 m c (kb r) := by
  simp only [List.mem_append, not_or] at h
  obtain ⟨h0, h1, h2, h3, h4, h5, h6, h7, h8, h9, h10, h11, h12, h13⟩ := h
  exact (Cert.KernelIdeal.Gen.V14_of m outs c r h13).trans <|
    (Cert.KernelIdeal.Gen.V13_of m outs c r h12).trans <|
    (Cert.KernelIdeal.Gen.V12_of m outs c r h11).trans <|
    (Cert.KernelIdeal.Gen.V11_of m outs c r h10).trans <|
    (Cert.KernelIdeal.Gen.V10_of m outs c r h9).trans <|
    (Cert.KernelIdeal.Gen.V9_of m outs c r h8).trans <|
    (Cert.KernelIdeal.Gen.V8_of m outs c r h7).trans <|
    (Cert.KernelIdeal.Gen.V7_of m outs c r h6).trans <|
    (Cert.KernelIdeal.Gen.V6_of m outs c r h5).trans <|
    (Cert.KernelIdeal.Gen.V5_of m outs c r h4).trans <|
    (Cert.KernelIdeal.Gen.V4_of m outs c r h3).trans <|
    (Cert.KernelIdeal.Gen.V3_of m outs c r h2).trans <|
    (Cert.KernelIdeal.Gen.V2_of m outs c r h1).trans <|
    Cert.KernelIdeal.Gen.V1_of m c r h0

/-- A buffer written by none of the items 0 … 17 holds, at the entry of the small branch's second long stretch, what it held at launch. -/
theorem keptK18 (r : Ref Cert.KernelIdeal.sig .tc)
    (h : r ∉ Cert.KernelIdeal.Gen.hostOps0_W ++ (([Cert.KernelIdeal.main_v3] : List (Ref Cert.KernelIdeal.sig .tc)) ++ (Cert.KernelIdeal.Gen.hostOps1_W ++ (Cert.KernelIdeal.Gen.hostOps1_1_W ++ (Cert.KernelIdeal.Gen.hostOps1_2_W ++ (Cert.KernelIdeal.Gen.hostOps1_3_W ++ (Cert.KernelIdeal.Gen.hostOps1_4_W ++ (Cert.KernelIdeal.Gen.hostOps1_5_W ++ (Cert.KernelIdeal.Gen.hostOps1_6_W ++ (Cert.KernelIdeal.Gen.hostOps1_7_W ++ (([Cert.KernelIdeal.main_v123] : List (Ref Cert.KernelIdeal.sig .tc)) ++ (([Cert.KernelIdeal.main_v124] : List (Ref Cert.KernelIdeal.sig .tc)) ++ (Cert.KernelIdeal.Gen.hostOps3_W ++ (Cert.KernelIdeal.Gen.hostOps3_1_W ++ (Cert.KernelIdeal.Gen.hostOps3_2_W ++ (Cert.KernelIdeal.Gen.hostOps3_3_W ++ (Cert.KernelIdeal.Gen.hostOps3_4_W ++ (Cert.KernelIdeal.Gen.hostOps3_5_W)))))))))))))))))) :
    Cert.KernelIdeal.Gen.V18 m outs c (kb r) = Cert.KernelIdeal.Gen.V0 m c (kb r) := by
  simp only [List.mem_append, not_or] at h
  obtain ⟨h0, h1, h2, h3, h4, h5, h6, h7, h8, h9, h10, h11, h12, h13, h14, h15, h16, h17⟩ := h
  exact (Cert.KernelIdeal.Gen.V18_of m outs c r h17).trans <|
    (Cert.KernelIdeal.Gen.V17_of m outs c r h16).trans <|
    (Cert.KernelIdeal.Gen.V16_of m outs c r h15).trans <|
    (Cert.KernelIdeal.Gen.V15_of m outs c r h14).trans <|
    (Cert.KernelIdeal.Gen.V14_of m outs c r h13).trans <|
    (Cert.KernelIdeal.Gen.V13_of m outs c r h12).trans <|
    (Cert.KernelIdeal.Gen.V12_of m outs c r h11).trans <|
    (Cert.KernelIdeal.Gen.V11_of m outs c r h10).trans <|
    (Cert.KernelIdeal.Gen.V10_of m outs c r h9).trans <|
    (Cert.KernelIdeal.Gen.V9_of m outs c r h8).trans <|
    (Cert.KernelIdeal.Gen.V8_of m outs c r h7).trans <|
    (Cert.KernelIdeal.Gen.V7_of m outs c r h6).trans <|
    (Cert.KernelIdeal.Gen.V6_of m outs c r h5).trans <|
    (Cert.KernelIdeal.Gen.V5_of m outs c r h4).trans <|
    (Cert.KernelIdeal.Gen.V4_of m outs c r h3).trans <|
    (Cert.KernelIdeal.Gen.V3_of m outs c r h2).trans <|
    (Cert.KernelIdeal.Gen.V2_of m outs c r h1).trans <|
    Cert.KernelIdeal.Gen.V1_of m c r h0

/-! ## The reference's buffers along the branch -/

abbrev rS1 (W' : RVal) : RVal := after (Cert.ReferenceIdeal.Hand.rseg3 (F := Ideal)) W'
abbrev rS2 (W' : RVal) : RVal := after (Cert.ReferenceIdeal.Hand.rseg3_1 (F := Ideal)) (rS1 W')
abbrev rS3 (W' : RVal) : RVal := after (Cert.ReferenceIdeal.Hand.rseg3_2 (F := Ideal)) (rS2 W')
abbrev rS4 (W' : RVal) : RVal := after (Cert.ReferenceIdeal.Hand.rseg3_3 (F := Ideal)) (rS3 W')
abbrev rS5 (W' : RVal) : RVal := after (Cert.ReferenceIdeal.Hand.rseg3_4 (F := Ideal)) (rS4 W')
abbrev rS6 (W' : RVal) : RVal := after (Cert.ReferenceIdeal.Hand.rseg3_5 (F := Ideal)) (rS5 W')
abbrev rS7 (W' : RVal) : RVal := after (Cert.ReferenceIdeal.Hand.rseg3_6 (F := Ideal)) (rS6 W')
abbrev rS8 (W' : RVal) : RVal := after (Cert.ReferenceIdeal.Hand.rseg3_7 (F := Ideal)) (rS7 W')

/-- A buffer the small branch's first two stages (mean, variance) do not write comes out of them as it went in. -/
theorem kept_rS2 (W' : RVal) (x : Ref Cert.ReferenceIdeal.sig .tc)
    (h : x ∉ Cert.ReferenceIdeal.Hand.rseg3_W ++ (Cert.ReferenceIdeal.Hand.rseg3_1_W)) :
    rS2 W' (rb x) = W' (rb x) := by
  simp only [List.mem_append, not_or] at h
  obtain ⟨h0, h1⟩ := h
  exact (after_kept (Cert.ReferenceIdeal.Hand.rseg3_1_writes (F := Ideal)) (rS1 W') x h1).trans <|
    after_kept (Cert.ReferenceIdeal.Hand.rseg3_writes (F := Ideal)) W' x h0

/-- A buffer the small branch's first six stages do not write comes out of them as it went in. -/
theorem kept_rS6 (W' : RVal) (x : Ref Cert.ReferenceIdeal.sig .tc)
    (h : x ∉ Cert.ReferenceIdeal.Hand.rseg3_W ++ (Cert.ReferenceIdeal.Hand.rseg3_1_W ++ (Cert.ReferenceIdeal.Hand.rseg3_2_W ++ (Cert.ReferenceIdeal.Hand.rseg3_3_W ++ (Cert.ReferenceIdeal.Hand.rseg3_4_W ++ (Cert.ReferenceIdeal.Hand.rseg3_5_W)))))) :
    rS6 W' (rb x) = W' (rb x) := by
  simp only [List.mem_append, not_or] at h
  obtain ⟨h0, h1, h2, h3, h4, h5⟩ := h
  exact (after_kept (Cert.ReferenceIdeal.Hand.rseg3_5_writes (F := Ideal)) (rS5 W') x h5).trans <|
    (after_kept (Cert.ReferenceIdeal.Hand.rseg3_4_writes (F := Ideal)) (rS4 W') x h4).trans <|
    (after_kept (Cert.ReferenceIdeal.Hand.rseg3_3_writes (F := Ideal)) (rS3 W') x h3).trans <|
    (after_kept (Cert.ReferenceIdeal.Hand.rseg3_2_writes (F := Ideal)) (rS2 W') x h2).trans <|
    (after_kept (Cert.ReferenceIdeal.Hand.rseg3_1_writes (F := Ideal)) (rS1 W') x h1).trans <|
    after_kept (Cert.ReferenceIdeal.Hand.rseg3_writes (F := Ideal)) W' x h0

/-- A buffer none of the small branch's eight stages writes comes out of the branch as it went in. -/
theorem kept_rS8 (W' : RVal) (x : Ref Cert.ReferenceIdeal.sig .tc)
    (h : x ∉ Cert.ReferenceIdeal.Hand.rseg3_W ++ (Cert.ReferenceIdeal.Hand.rseg3_1_W ++ (Cert.ReferenceIdeal.Hand.rseg3_2_W ++ (Cert.ReferenceIdeal.Hand.rseg3_3_W ++ (Cert.ReferenceIdeal.Hand.rseg3_4_W ++ (Cert.ReferenceIdeal.Hand.rseg3_5_W ++ (Cert.ReferenceIdeal.Hand.rseg3_6_W ++ (Cert.ReferenceIdeal.Hand.rseg3_7_W)))))))) :
    rS8 W' (rb x) = W' (rb x) := by
  simp only [List.mem_append, not_or] at h
  obtain ⟨h0, h1, h2, h3, h4, h5, h6, h7⟩ := h
  exact (after_kept (Cert.ReferenceIdeal.Hand.rseg3_7_writes (F := Ideal)) (rS7 W') x h7).trans <|
    (after_kept (Cert.ReferenceIdeal.Hand.rseg3_6_writes (F := Ideal)) (rS6 W') x h6).trans <|
    (after_kept (Cert.ReferenceIdeal.Hand.rseg3_5_writes (F := Ideal)) (rS5 W') x h5).trans <|
    (after_kept (Cert.ReferenceIdeal.Hand.rseg3_4_writes (F := Ideal)) (rS4 W') x h4).trans <|
    (after_kept (Cert.ReferenceIdeal.Hand.rseg3_3_writes (F := Ideal)) (rS3 W') x h3).trans <|
    (after_kept (Cert.ReferenceIdeal.Hand.rseg3_2_writes (F := Ideal)) (rS2 W') x h2).trans <|
    (after_kept (Cert.ReferenceIdeal.Hand.rseg3_1_writes (F := Ideal)) (rS1 W') x h1).trans <|
    after_kept (Cert.ReferenceIdeal.Hand.rseg3_writes (F := Ideal)) W' x h0

/-! ## The chain -/

/-- The six operations of the mean leave H where it is. -/
theorem small_branch_mean_keeps_H (U : KVal) :
    after ((Cert.KernelIdeal.Gen.hostOps3 (F := Ideal)).drop 3) U (kb Cert.KernelIdeal.main_v127) = U (kb Cert.KernelIdeal.main_v127) := by
  simp only [List.drop_succ_cons, List.drop_zero]
  after_results_simp

set_option maxHeartbeats 4000000 in
/-- The small branch. From contents of the reference's buffers that hold, at the entry of its eight stages, the same pooled features H as the kernel program's `main_v127` after its first stretch and the same weights as the kernel program's arguments, the reference's last stage leaves in its `main_v241` what the kernel program's `main_v239` holds before the last product: the two layers' 2048×64 output. -/
theorem small_branch (W' : RVal)
    (hH : W' (rb Cert.ReferenceIdeal.main_v129) = Cert.KernelIdeal.Gen.V13 m outs c (kb Cert.KernelIdeal.main_v127))
    (h_arg5 : W' (rb Cert.ReferenceIdeal.main_arg5) = Cert.KernelIdeal.Gen.V0 m c (kb Cert.KernelIdeal.main_arg5))
    (h_arg18 : W' (rb Cert.ReferenceIdeal.main_arg18) = Cert.KernelIdeal.Gen.V0 m c (kb Cert.KernelIdeal.main_arg18))
    (h_arg19 : W' (rb Cert.ReferenceIdeal.main_arg19) = Cert.KernelIdeal.Gen.V0 m c (kb Cert.KernelIdeal.main_arg19))
    (h_arg20 : W' (rb Cert.ReferenceIdeal.main_arg20) = Cert.KernelIdeal.Gen.V0 m c (kb Cert.KernelIdeal.main_arg20))
    (h_arg21 : W' (rb Cert.ReferenceIdeal.main_arg21) = Cert.KernelIdeal.Gen.V0 m c (kb Cert.KernelIdeal.main_arg21))
    (h_arg22 : W' (rb Cert.ReferenceIdeal.main_arg22) = Cert.KernelIdeal.Gen.V0 m c (kb Cert.KernelIdeal.main_arg22))
    (h_arg23 : W' (rb Cert.ReferenceIdeal.main_arg23) = Cert.KernelIdeal.Gen.V0 m c (kb Cert.KernelIdeal.main_arg23))
    (h_arg24 : W' (rb Cert.ReferenceIdeal.main_arg24) = Cert.KernelIdeal.Gen.V0 m c (kb Cert.KernelIdeal.main_arg24))
    (h_arg25 : W' (rb Cert.ReferenceIdeal.main_arg25) = Cert.KernelIdeal.Gen.V0 m c (kb Cert.KernelIdeal.main_arg25))
    (h_arg26 : W' (rb Cert.ReferenceIdeal.main_arg26) = Cert.KernelIdeal.Gen.V0 m c (kb Cert.KernelIdeal.main_arg26))
    (h_arg27 : W' (rb Cert.ReferenceIdeal.main_arg27) = Cert.KernelIdeal.Gen.V0 m c (kb Cert.KernelIdeal.main_arg27))
    (h_arg28 : W' (rb Cert.ReferenceIdeal.main_arg28) = Cert.KernelIdeal.Gen.V0 m c (kb Cert.KernelIdeal.main_arg28))
    (h_arg29 : W' (rb Cert.ReferenceIdeal.main_arg29) = Cert.KernelIdeal.Gen.V0 m c (kb Cert.KernelIdeal.main_arg29)) :
    rS8 W' (rb Cert.ReferenceIdeal.main_v241) = Cert.KernelIdeal.Gen.V20 m outs c (kb Cert.KernelIdeal.main_v239) := by
  -- the kernel program's first stretch: three operations making H, then the six of the mean
  have e1 : Cert.KernelIdeal.Gen.V13 m outs c = after ((Cert.KernelIdeal.Gen.hostOps3 (F := Ideal)).drop 3) (after ((Cert.KernelIdeal.Gen.hostOps3 (F := Ideal)).take 3) (Cert.KernelIdeal.Gen.V12 m outs c)) :=
    after_cut 3 _ _
  have hU : W' (rb Cert.ReferenceIdeal.main_v129) = after ((Cert.KernelIdeal.Gen.hostOps3 (F := Ideal)).take 3) (Cert.KernelIdeal.Gen.V12 m outs c) (kb Cert.KernelIdeal.main_v127) := by
    rw [hH, e1]; exact small_branch_mean_keeps_H _
  -- layer 1: mean, zero, variance
  have s1m : rS1 W' (rb Cert.ReferenceIdeal.main_v132) = Cert.KernelIdeal.Gen.V13 m outs c (kb Cert.KernelIdeal.main_v130) := by
    rw [e1]; exact stage3_mean _ W' hU
  have s1z : rS1 W' (rb Cert.ReferenceIdeal.main_c_24) = Cert.KernelIdeal.Gen.V13 m outs c (kb Cert.KernelIdeal.main_c_24) := by
    rw [e1]; exact stage3_zero _ W'
  have k1H : rS1 W' (rb Cert.ReferenceIdeal.main_v129) = Cert.KernelIdeal.Gen.V13 m outs c (kb Cert.KernelIdeal.main_v127) :=
    (after_kept (Cert.ReferenceIdeal.Hand.rseg3_writes (F := Ideal)) W' Cert.ReferenceIdeal.main_v129 (by decide)).trans hH
  have s2 : rS2 W' (rb Cert.ReferenceIdeal.main_v133) = Cert.KernelIdeal.Gen.V14 m outs c (kb Cert.KernelIdeal.main_v131) := stage3_1 (Cert.KernelIdeal.Gen.V13 m outs c) (rS1 W') k1H s1z
  have k2H : rS2 W' (rb Cert.ReferenceIdeal.main_v129) = Cert.KernelIdeal.Gen.V14 m outs c (kb Cert.KernelIdeal.main_v127) :=
    (after_kept (Cert.ReferenceIdeal.Hand.rseg3_1_writes (F := Ideal)) (rS1 W') Cert.ReferenceIdeal.main_v129 (by decide)).trans (k1H.trans (Cert.KernelIdeal.Gen.V14_of m outs c Cert.KernelIdeal.main_v127 (by decide)).symm)
  have k2m : rS2 W' (rb Cert.ReferenceIdeal.main_v132) = Cert.KernelIdeal.Gen.V14 m outs c (kb Cert.KernelIdeal.main_v130) :=
    (after_kept (Cert.ReferenceIdeal.Hand.rseg3_1_writes (F := Ideal)) (rS1 W') Cert.ReferenceIdeal.main_v132 (by decide)).trans (s1m.trans (Cert.KernelIdeal.Gen.V14_of m outs c Cert.KernelIdeal.main_v130 (by decide)).symm)
  -- layer 1: the long middle and the rectifier
  have a2_18 : rS2 W' (rb Cert.ReferenceIdeal.main_arg18) = Cert.KernelIdeal.Gen.V14 m outs c (kb Cert.KernelIdeal.main_arg18) :=
    (kept_rS2 W' Cert.ReferenceIdeal.main_arg18 (by decide)).trans (h_arg18.trans (keptK14 m outs c Cert.KernelIdeal.main_arg18 (by decide)).symm)
  have a2_19 : rS2 W' (rb Cert.ReferenceIdeal.main_arg19) = Cert.KernelIdeal.Gen.V14 m outs c (kb Cert.KernelIdeal.main_arg19) :=
    (kept_rS2 W' Cert.ReferenceIdeal.main_arg19 (by decide)).trans (h_arg19.trans (keptK14 m outs c Cert.KernelIdeal.main_arg19 (by decide)).symm)
  have a2_20 : rS2 W' (rb Cert.ReferenceIdeal.main_arg20) = Cert.KernelIdeal.Gen.V14 m outs c (kb Cert.KernelIdeal.main_arg20) :=
    (kept_rS2 W' Cert.ReferenceIdeal.main_arg20 (by decide)).trans (h_arg20.trans (keptK14 m outs c Cert.KernelIdeal.main_arg20 (by decide)).symm)
  have a2_21 : rS2 W' (rb Cert.ReferenceIdeal.main_arg21) = Cert.KernelIdeal.Gen.V14 m outs c (kb Cert.KernelIdeal.main_arg21) :=
    (kept_rS2 W' Cert.ReferenceIdeal.main_arg21 (by decide)).trans (h_arg21.trans (keptK14 m outs c Cert.KernelIdeal.main_arg21 (by decide)).symm)
  have a2_5 : rS2 W' (rb Cert.ReferenceIdeal.main_arg5) = Cert.KernelIdeal.Gen.V14 m outs c (kb Cert.KernelIdeal.main_arg5) :=
    (kept_rS2 W' Cert.ReferenceIdeal.main_arg5 (by decide)).trans (h_arg5.trans (keptK14 m outs c Cert.KernelIdeal.main_arg5 (by decide)).symm)
  have a2_22 : rS2 W' (rb Cert.ReferenceIdeal.main_arg22) = Cert.KernelIdeal.Gen.V14 m outs c (kb Cert.KernelIdeal.main_arg22) :=
    (kept_rS2 W' Cert.ReferenceIdeal.main_arg22 (by decide)).trans (h_arg22.trans (keptK14 m outs c Cert.KernelIdeal.main_arg22 (by decide)).symm)
  have a2_23 : rS2 W' (rb Cert.ReferenceIdeal.main_arg23) = Cert.KernelIdeal.Gen.V14 m outs c (kb Cert.KernelIdeal.main_arg23) :=
    (kept_rS2 W' Cert.ReferenceIdeal.main_arg23 (by decide)).trans (h_arg23.trans (keptK14 m outs c Cert.KernelIdeal.main_arg23 (by decide)).symm)
  have s3 : rS3 W' (rb Cert.ReferenceIdeal.main_v184) = Cert.KernelIdeal.Gen.V15 m outs c (kb Cert.KernelIdeal.main_v182) :=
    stage3_2 (Cert.KernelIdeal.Gen.V14 m outs c) (rS2 W') k2m k2H s2 a2_18 a2_19 a2_20 a2_21 a2_5 a2_22 a2_23
  have s3s : rS3 W' (rb Cert.ReferenceIdeal.main_cst_31) = Cert.KernelIdeal.Gen.V15 m outs c (kb Cert.KernelIdeal.main_cst_31) := stage3_2_slope (Cert.KernelIdeal.Gen.V14 m outs c) (rS2 W')
  have s4 : rS4 W' (rb Cert.ReferenceIdeal.main_v185) = Cert.KernelIdeal.Gen.V16 m outs c (kb Cert.KernelIdeal.main_v183) := stage3_3 (Cert.KernelIdeal.Gen.V15 m outs c) (rS3 W') s3 s3s
  -- layer 2: mean, zero, variance
  have s5m : rS5 W' (rb Cert.ReferenceIdeal.main_v188) = Cert.KernelIdeal.Gen.V17 m outs c (kb Cert.KernelIdeal.main_v186) := stage3_4_mean (Cert.KernelIdeal.Gen.V16 m outs c) (rS4 W') s4
  have s5z : rS5 W' (rb Cert.ReferenceIdeal.main_c_34) = Cert.KernelIdeal.Gen.V17 m outs c (kb Cert.KernelIdeal.main_c_34) := stage3_4_zero (Cert.KernelIdeal.Gen.V16 m outs c) (rS4 W')
  have k5x : rS5 W' (rb Cert.ReferenceIdeal.main_v185) = Cert.KernelIdeal.Gen.V17 m outs c (kb Cert.KernelIdeal.main_v183) :=
    (after_kept (Cert.ReferenceIdeal.Hand.rseg3_4_writes (F := Ideal)) (rS4 W') Cert.ReferenceIdeal.main_v185 (by decide)).trans (s4.trans (Cert.KernelIdeal.Gen.V17_of m outs c Cert.KernelIdeal.main_v183 (by decide)).symm)
  have s6 : rS6 W' (rb Cert.ReferenceIdeal.main_v189) = Cert.KernelIdeal.Gen.V18 m outs c (kb Cert.KernelIdeal.main_v187) := stage3_5 (Cert.KernelIdeal.Gen.V17 m outs c) (rS5 W') k5x s5z
  have k6x : rS6 W' (rb Cert.ReferenceIdeal.main_v185) = Cert.KernelIdeal.Gen.V18 m outs c (kb Cert.KernelIdeal.main_v183) :=
    (after_kept (Cert.ReferenceIdeal.Hand.rseg3_5_writes (F := Ideal)) (rS5 W') Cert.ReferenceIdeal.main_v185 (by decide)).trans (k5x.trans (Cert.KernelIdeal.Gen.V18_of m outs c Cert.KernelIdeal.main_v183 (by decide)).symm)
  have k6m : rS6 W' (rb Cert.ReferenceIdeal.main_v188) = Cert.KernelIdeal.Gen.V18 m outs c (kb Cert.KernelIdeal.main_v186) :=
    (after_kept (Cert.ReferenceIdeal.Hand.rseg3_5_writes (F := Ideal)) (rS5 W') Cert.ReferenceIdeal.main_v188 (by decide)).trans (s5m.trans (Cert.KernelIdeal.Gen.V18_of m outs c Cert.KernelIdeal.main_v186 (by decide)).symm)
  -- layer 2: the long middle and the rectifier
  have a6_24 : rS6 W' (rb Cert.ReferenceIdeal.main_arg24) = Cert.KernelIdeal.Gen.V18 m outs c (kb Cert.KernelIdeal.main_arg24) :=
    (kept_rS6 W' Cert.ReferenceIdeal.main_arg24 (by decide)).trans (h_arg24.trans (keptK18 m outs c Cert.KernelIdeal.main_arg24 (by decide)).symm)
  have a6_25 : rS6 W' (rb Cert.ReferenceIdeal.main_arg25) = Cert.KernelIdeal.Gen.V18 m outs c (kb Cert.KernelIdeal.main_arg25) :=
    (kept_rS6 W' Cert.ReferenceIdeal.main_arg25 (by decide)).trans (h_arg25.trans (keptK18 m outs c Cert.KernelIdeal.main_arg25 (by decide)).symm)
  have a6_26 : rS6 W' (rb Cert.ReferenceIdeal.main_arg26) = Cert.KernelIdeal.Gen.V18 m outs c (kb Cert.KernelIdeal.main_arg26) :=
    (kept_rS6 W' Cert.ReferenceIdeal.main_arg26 (by decide)).trans (h_arg26.trans (keptK18 m outs c Cert.KernelIdeal.main_arg26 (by decide)).symm)
  have a6_27 : rS6 W' (rb Cert.ReferenceIdeal.main_arg27) = Cert.KernelIdeal.Gen.V18 m outs c (kb Cert.KernelIdeal.main_arg27) :=
    (kept_rS6 W' Cert.ReferenceIdeal.main_arg27 (by decide)).trans (h_arg27.trans (keptK18 m outs c Cert.KernelIdeal.main_arg27 (by decide)).symm)
  have a6_5 : rS6 W' (rb Cert.ReferenceIdeal.main_arg5) = Cert.KernelIdeal.Gen.V18 m outs c (kb Cert.KernelIdeal.main_arg5) :=
    (kept_rS6 W' Cert.ReferenceIdeal.main_arg5 (by decide)).trans (h_arg5.trans (keptK18 m outs c Cert.KernelIdeal.main_arg5 (by decide)).symm)
  have a6_28 : rS6 W' (rb Cert.ReferenceIdeal.main_arg28) = Cert.KernelIdeal.Gen.V18 m outs c (kb Cert.KernelIdeal.main_arg28) :=
    (kept_rS6 W' Cert.ReferenceIdeal.main_arg28 (by decide)).trans (h_arg28.trans (keptK18 m outs c Cert.KernelIdeal.main_arg28 (by decide)).symm)
  have a6_29 : rS6 W' (rb Cert.ReferenceIdeal.main_arg29) = Cert.KernelIdeal.Gen.V18 m outs c (kb Cert.KernelIdeal.main_arg29) :=
    (kept_rS6 W' Cert.ReferenceIdeal.main_arg29 (by decide)).trans (h_arg29.trans (keptK18 m outs c Cert.KernelIdeal.main_arg29 (by decide)).symm)
  have s7 : rS7 W' (rb Cert.ReferenceIdeal.main_v240) = Cert.KernelIdeal.Gen.V19 m outs c (kb Cert.KernelIdeal.main_v238) :=
    stage3_6 (Cert.KernelIdeal.Gen.V18 m outs c) (rS6 W') k6m k6x s6 a6_24 a6_25 a6_26 a6_27 a6_5 a6_28 a6_29
  have s7s : rS7 W' (rb Cert.ReferenceIdeal.main_cst_41) = Cert.KernelIdeal.Gen.V19 m outs c (kb Cert.KernelIdeal.main_cst_41) := stage3_6_slope (Cert.KernelIdeal.Gen.V18 m outs c) (rS6 W')
  exact stage3_7 (Cert.KernelIdeal.Gen.V19 m outs c) (rS7 W') s7 s7s

end Cert.Bridge

end
-- ==== Proof.Br.ChainAll.lean ====
/-
  The two programs' results, from the steps.

  The reference's line of operations is its 21 stages in order; the kernel program's run is its 22 items.  Seventeen
  stages are the same host operations as the kernel program's stretches (the two branches, ChainBig.lean and
  ChainSmall.lean, and the tail, Stage4.lean).  The other four are where the programs differ: how the pooled features
  are normalised, and the four matrix products, which the kernel program does in its regions.  This file puts the
  steps in order: each step's inputs are the step before's outputs, or outputs of an earlier step that no stage and no
  item has written since, or arguments of the program.  The four differing steps are hypotheses here, stated as: the
  reference's stage, run from any contents agreeing with the kernel program's on what it reads, leaves the kernel
  program's value.
-/
import proofs.«120736_j30030411334238_1_alg».proof.Proof.Br.Base
import proofs.«120736_j30030411334238_1_alg».proof.Proof.Ref.Writes
import proofs.«120736_j30030411334238_1_alg».proof.Proof.Br.Stage4
import proofs.«120736_j30030411334238_1_alg».proof.Proof.Br.ChainBig
import proofs.«120736_j30030411334238_1_alg».proof.Proof.Br.ChainSmall

set_option maxRecDepth 16384

noncomputable section

namespace Cert.Bridge

open Idealize.ShloMosaic Idealize.ShloMosaic.StableHlo Idealize.SL.Sem

variable (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD)

/-- A buffer written by none of the items 0 … 20 holds, at the tail's entry, what it held at launch. -/
theorem keptK21 (r : Ref Cert.KernelIdeal.sig .tc)
    (h : r ∉ Cert.KernelIdeal.Gen.hostOps0_W ++ (([Cert.KernelIdeal.main_v3] : List (Ref Cert.KernelIdeal.sig .tc)) ++ (Cert.KernelIdeal.Gen.hostOps1_W ++ (Cert.KernelIdeal.Gen.hostOps1_1_W ++ (Cert.KernelIdeal.Gen.hostOps1_2_W ++ (Cert.KernelIdeal.Gen.hostOps1_3_W ++ (Cert.KernelIdeal.Gen.hostOps1_4_W ++ (Cert.KernelIdeal.Gen.hostOps1_5_W ++ (Cert.KernelIdeal.Gen.hostOps1_6_W ++ (Cert.KernelIdeal.Gen.hostOps1_7_W ++ (([Cert.KernelIdeal.main_v123] : List (Ref Cert.KernelIdeal.sig .tc)) ++ (([Cert.KernelIdeal.main_v124] : List (Ref Cert.KernelIdeal.sig .tc)) ++ (Cert.KernelIdeal.Gen.hostOps3_W ++ (Cert.KernelIdeal.Gen.hostOps3_1_W ++ (Cert.KernelIdeal.Gen.hostOps3_2_W ++ (Cert.KernelIdeal.Gen.hostOps3_3_W ++ (Cert.KernelIdeal.Gen.hostOps3_4_W ++ (Cert.KernelIdeal.Gen.hostOps3_5_W ++ (Cert.KernelIdeal.Gen.hostOps3_6_W ++ (Cert.KernelIdeal.Gen.hostOps3_7_W ++ (([Cert.KernelIdeal.main_v240] : List (Ref Cert.KernelIdeal.sig .tc))))))))))))))))))))))) :
    Cert.KernelIdeal.Gen.V21 m outs c (kb r) = Cert.KernelIdeal.Gen.V0 m c (kb r) := by
  simp only [List.mem_append, not_or] at h
  obtain ⟨h0, h1, h2, h3, h4, h5, h6, h7, h8, h9, h10, h11, h12, h13, h14, h15, h16, h17, h18, h19, h20⟩ := h
  exact (Cert.KernelIdeal.Gen.V21_of m outs c r h20).trans <|
    (Cert.KernelIdeal.Gen.V20_of m outs c r h19).trans <|
    (Cert.KernelIdeal.Gen.V19_of m outs c r h18).trans <|
    (Cert.KernelIdeal.Gen.V18_of m outs c r h17).trans <|
    (Cert.KernelIdeal.Gen.V17_of m outs c r h16).trans <|
    (Cert.KernelIdeal.Gen.V16_of m outs c r h15).trans <|
    (Cert.KernelIdeal.Gen.V15_of m outs c r h14).trans <|
    (Cert.KernelIdeal.Gen.V14_of m outs c r h13).trans <|
    (Cert.KernelIdeal.Gen.V13_of m outs c r h12).trans <|
    (Cert.KernelIdeal.Gen.V12_of m outs c r h11).trans <|
    (Cert.KernelIdeal.Gen.V11_of m outs c r h10).trans <|
    (Cert.KernelIdeal.Gen.V10_of m outs c r h9).trans <|
    (Cert.KernelIdeal.Gen.V9_of m outs c r h8).trans <|
    (Cert.KernelIdeal.Gen.V8_of m outs c r h7).trans <|
    (Cert.KernelIdeal.Gen.V7_of m outs c r h6).trans <|
    (Cert.KernelIdeal.Gen.V6_of m outs c r h5).trans <|
    (Cert.KernelIdeal.Gen.V5_of m outs c r h4).trans <|
    (Cert.KernelIdeal.Gen.V4_of m outs c r h3).trans <|
    (Cert.KernelIdeal.Gen.V3_of m outs c r h2).trans <|
    (Cert.KernelIdeal.Gen.V2_of m outs c r h1).trans <|
    Cert.KernelIdeal.Gen.V1_of m c r h0

/-- The big branch's product, written by the second region (item 10), is written by no later item before the tail. -/
theorem big_product_kept :
    Cert.KernelIdeal.Gen.V21 m outs c (kb Cert.KernelIdeal.main_v123) = Cert.KernelIdeal.Gen.V11 m outs c (kb Cert.KernelIdeal.main_v123) :=
  (Cert.KernelIdeal.Gen.V21_of m outs c Cert.KernelIdeal.main_v123 (by decide)).trans <|
  (Cert.KernelIdeal.Gen.V20_of m outs c Cert.KernelIdeal.main_v123 (by decide)).trans <|
  (Cert.KernelIdeal.Gen.V19_of m outs c Cert.KernelIdeal.main_v123 (by decide)).trans <|
  (Cert.KernelIdeal.Gen.V18_of m outs c Cert.KernelIdeal.main_v123 (by decide)).trans <|
  (Cert.KernelIdeal.Gen.V17_of m outs c Cert.KernelIdeal.main_v123 (by decide)).trans <|
  (Cert.KernelIdeal.Gen.V16_of m outs c Cert.KernelIdeal.main_v123 (by decide)).trans <|
  (Cert.KernelIdeal.Gen.V15_of m outs c Cert.KernelIdeal.main_v123 (by decide)).trans <|
  (Cert.KernelIdeal.Gen.V14_of m outs c Cert.KernelIdeal.main_v123 (by decide)).trans <|
  (Cert.KernelIdeal.Gen.V13_of m outs c Cert.KernelIdeal.main_v123 (by decide)).trans <|
  Cert.KernelIdeal.Gen.V12_of m outs c Cert.KernelIdeal.main_v123 (by decide)

/-! ## The reference's buffers between its steps

From the launch contents `V0'`: after the first stage (both assignment matrices normalised, the first pooled
features), after the big branch, after the big branch's product, after the small branch's pooled features, after the
small branch, after the small branch's product. -/

abbrev refW1 (V0' : RVal) : RVal := after (Cert.ReferenceIdeal.Hand.rseg0 (F := Ideal)) V0'
abbrev refWB (V0' : RVal) : RVal := rB8 (refW1 V0')
abbrev refWb (V0' : RVal) : RVal := after (Cert.ReferenceIdeal.Hand.rsegBig (F := Ideal)) (refWB V0')
abbrev refW2 (V0' : RVal) : RVal := after (Cert.ReferenceIdeal.Hand.rseg2 (F := Ideal)) (refWb V0')
abbrev refWS (V0' : RVal) : RVal := rS8 (refW2 V0')
abbrev refWs (V0' : RVal) : RVal := after (Cert.ReferenceIdeal.Hand.rsegSmall (F := Ideal)) (refWS V0')

/-- The reference's whole line is its 21 stages one after the other. -/
theorem ops_run (V0' : RVal) :
    after (Cert.ReferenceIdeal.Hand.ops (F := Ideal)) V0' = after (Cert.ReferenceIdeal.Hand.rseg4 (F := Ideal)) (refWs V0') := by
  simp only [Cert.ReferenceIdeal.Hand.ops, after_append]

/-! ## Buffers the reference's stages do not write

A buffer in none of the write lists of the stages run so far holds what it held at launch. -/

theorem carry_W1 (V0' : RVal) (x : Ref Cert.ReferenceIdeal.sig .tc) (h0 : x ∉ Cert.ReferenceIdeal.Hand.rseg0_W) :
    refW1 V0' (rb x) = V0' (rb x) :=
  after_kept (Cert.ReferenceIdeal.Hand.rseg0_writes (F := Ideal)) V0' x h0

theorem carry_WB (V0' : RVal) (x : Ref Cert.ReferenceIdeal.sig .tc) (h0 : x ∉ Cert.ReferenceIdeal.Hand.rseg0_W)
    (hB : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W)))))))) :
    refWB V0' (rb x) = V0' (rb x) :=
  (kept_rB8 (refW1 V0') x hB).trans (carry_W1 V0' x h0)

theorem carry_Wb (V0' : RVal) (x : Ref Cert.ReferenceIdeal.sig .tc) (h0 : x ∉ Cert.ReferenceIdeal.Hand.rseg0_W)
    (hB : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W))))))))
    (hb : x ∉ Cert.ReferenceIdeal.Hand.rsegBig_W) :
    refWb V0' (rb x) = V0' (rb x) :=
  (after_kept (Cert.ReferenceIdeal.Hand.rsegBig_writes (F := Ideal)) (refWB V0') x hb).trans (carry_WB V0' x h0 hB)

theorem carry_W2 (V0' : RVal) (x : Ref Cert.ReferenceIdeal.sig .tc) (h0 : x ∉ Cert.ReferenceIdeal.Hand.rseg0_W)
    (hB : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W))))))))
    (hb : x ∉ Cert.ReferenceIdeal.Hand.rsegBig_W) (h2 : x ∉ Cert.ReferenceIdeal.Hand.rseg2_W) :
    refW2 V0' (rb x) = V0' (rb x) :=
  (after_kept (Cert.ReferenceIdeal.Hand.rseg2_writes (F := Ideal)) (refWb V0') x h2).trans (carry_Wb V0' x h0 hB hb)

theorem carry_WS (V0' : RVal) (x : Ref Cert.ReferenceIdeal.sig .tc) (h0 : x ∉ Cert.ReferenceIdeal.Hand.rseg0_W)
    (hB : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W))))))))
    (hb : x ∉ Cert.ReferenceIdeal.Hand.rsegBig_W) (h2 : x ∉ Cert.ReferenceIdeal.Hand.rseg2_W)
    (hS : x ∉ Cert.ReferenceIdeal.Hand.rseg3_W ++ (Cert.ReferenceIdeal.Hand.rseg3_1_W ++ (Cert.ReferenceIdeal.Hand.rseg3_2_W ++ (Cert.ReferenceIdeal.Hand.rseg3_3_W ++ (Cert.ReferenceIdeal.Hand.rseg3_4_W ++ (Cert.ReferenceIdeal.Hand.rseg3_5_W ++ (Cert.ReferenceIdeal.Hand.rseg3_6_W ++ (Cert.ReferenceIdeal.Hand.rseg3_7_W)))))))) :
    refWS V0' (rb x) = V0' (rb x) :=
  (kept_rS8 (refW2 V0') x hS).trans (carry_W2 V0' x h0 hB hb h2)

theorem carry_Ws (V0' : RVal) (x : Ref Cert.ReferenceIdeal.sig .tc) (h0 : x ∉ Cert.ReferenceIdeal.Hand.rseg0_W)
    (hB : x ∉ Cert.ReferenceIdeal.Hand.rseg1_W ++ (Cert.ReferenceIdeal.Hand.rseg1_1_W ++ (Cert.ReferenceIdeal.Hand.rseg1_2_W ++ (Cert.ReferenceIdeal.Hand.rseg1_3_W ++ (Cert.ReferenceIdeal.Hand.rseg1_4_W ++ (Cert.ReferenceIdeal.Hand.rseg1_5_W ++ (Cert.ReferenceIdeal.Hand.rseg1_6_W ++ (Cert.ReferenceIdeal.Hand.rseg1_7_W))))))))
    (hb : x ∉ Cert.ReferenceIdeal.Hand.rsegBig_W) (h2 : x ∉ Cert.ReferenceIdeal.Hand.rseg2_W)
    (hS : x ∉ Cert.ReferenceIdeal.Hand.rseg3_W ++ (Cert.ReferenceIdeal.Hand.rseg3_1_W ++ (Cert.ReferenceIdeal.Hand.rseg3_2_W ++ (Cert.ReferenceIdeal.Hand.rseg3_3_W ++ (Cert.ReferenceIdeal.Hand.rseg3_4_W ++ (Cert.ReferenceIdeal.Hand.rseg3_5_W ++ (Cert.ReferenceIdeal.Hand.rseg3_6_W ++ (Cert.ReferenceIdeal.Hand.rseg3_7_W))))))))
    (hs : x ∉ Cert.ReferenceIdeal.Hand.rsegSmall_W) :
    refWs V0' (rb x) = V0' (rb x) :=
  (after_kept (Cert.ReferenceIdeal.Hand.rsegSmall_writes (F := Ideal)) (refWS V0') x hs).trans (carry_WS V0' x h0 hB hb h2 hS)

/-! ## The whole line -/

set_option maxHeartbeats 4000000 in
/-- The two programs' results. From equal arguments, and granted the four steps where the programs differ — the first
    pooled features (`hA`), the big branch's product (`hC`), the second pooled features (`hD`), the small branch's
    product (`hF`), each as the reference's stage run from any contents that agree with the kernel program's on what the
    stage reads — the reference's two results are the kernel program's. -/
theorem results_eq (V0' : RVal)
    (h_arg0 : V0' (rb Cert.ReferenceIdeal.main_arg0) = Cert.KernelIdeal.Gen.V0 m c (kb Cert.KernelIdeal.main_arg0))
    (h_arg1 : V0' (rb Cert.ReferenceIdeal.main_arg1) = Cert.KernelIdeal.Gen.V0 m c (kb Cert.KernelIdeal.main_arg1))
    (h_arg2 : V0' (rb Cert.ReferenceIdeal.main_arg2) = Cert.KernelIdeal.Gen.V0 m c (kb Cert.KernelIdeal.main_arg2))
    (h_arg3 : V0' (rb Cert.ReferenceIdeal.main_arg3) = Cert.KernelIdeal.Gen.V0 m c (kb Cert.KernelIdeal.main_arg3))
    (h_arg4 : V0' (rb Cert.ReferenceIdeal.main_arg4) = Cert.KernelIdeal.Gen.V0 m c (kb Cert.KernelIdeal.main_arg4))
    (h_arg5 : V0' (rb Cert.ReferenceIdeal.main_arg5) = Cert.KernelIdeal.Gen.V0 m c (kb Cert.KernelIdeal.main_arg5))
    (h_arg6 : V0' (rb Cert.ReferenceIdeal.main_arg6) = Cert.KernelIdeal.Gen.V0 m c (kb Cert.KernelIdeal.main_arg6))
    (h_arg7 : V0' (rb Cert.ReferenceIdeal.main_arg7) = Cert.KernelIdeal.Gen.V0 m c (kb Cert.KernelIdeal.main_arg7))
    (h_arg8 : V0' (rb Cert.ReferenceIdeal.main_arg8) = Cert.KernelIdeal.Gen.V0 m c (kb Cert.KernelIdeal.main_arg8))
    (h_arg9 : V0' (rb Cert.ReferenceIdeal.main_arg9) = Cert.KernelIdeal.Gen.V0 m c (kb Cert.KernelIdeal.main_arg9))
    (h_arg10 : V0' (rb Cert.ReferenceIdeal.main_arg10) = Cert.KernelIdeal.Gen.V0 m c (kb Cert.KernelIdeal.main_arg10))
    (h_arg11 : V0' (rb Cert.ReferenceIdeal.main_arg11) = Cert.KernelIdeal.Gen.V0 m c (kb Cert.KernelIdeal.main_arg11))
    (h_arg12 : V0' (rb Cert.ReferenceIdeal.main_arg12) = Cert.KernelIdeal.Gen.V0 m c (kb Cert.KernelIdeal.main_arg12))
    (h_arg13 : V0' (rb Cert.ReferenceIdeal.main_arg13) = Cert.KernelIdeal.Gen.V0 m c (kb Cert.KernelIdeal.main_arg13))
    (h_arg14 : V0' (rb Cert.ReferenceIdeal.main_arg14) = Cert.KernelIdeal.Gen.V0 m c (kb Cert.KernelIdeal.main_arg14))
    (h_arg15 : V0' (rb Cert.ReferenceIdeal.main_arg15) = Cert.KernelIdeal.Gen.V0 m c (kb Cert.KernelIdeal.main_arg15))
    (h_arg16 : V0' (rb Cert.ReferenceIdeal.main_arg16) = Cert.KernelIdeal.Gen.V0 m c (kb Cert.KernelIdeal.main_arg16))
    (h_arg17 : V0' (rb Cert.ReferenceIdeal.main_arg17) = Cert.KernelIdeal.Gen.V0 m c (kb Cert.KernelIdeal.main_arg17))
    (h_arg18 : V0' (rb Cert.ReferenceIdeal.main_arg18) = Cert.KernelIdeal.Gen.V0 m c (kb Cert.KernelIdeal.main_arg18))
    (h_arg19 : V0' (rb Cert.ReferenceIdeal.main_arg19) = Cert.KernelIdeal.Gen.V0 m c (kb Cert.KernelIdeal.main_arg19))
    (h_arg20 : V0' (rb Cert.ReferenceIdeal.main_arg20) = Cert.KernelIdeal.Gen.V0 m c (kb Cert.KernelIdeal.main_arg20))
    (h_arg21 : V0' (rb Cert.ReferenceIdeal.main_arg21) = Cert.KernelIdeal.Gen.V0 m c (kb Cert.KernelIdeal.main_arg21))
    (h_arg22 : V0' (rb Cert.ReferenceIdeal.main_arg22) = Cert.KernelIdeal.Gen.V0 m c (kb Cert.KernelIdeal.main_arg22))
    (h_arg23 : V0' (rb Cert.ReferenceIdeal.main_arg23) = Cert.KernelIdeal.Gen.V0 m c (kb Cert.KernelIdeal.main_arg23))
    (h_arg24 : V0' (rb Cert.ReferenceIdeal.main_arg24) = Cert.KernelIdeal.Gen.V0 m c (kb Cert.KernelIdeal.main_arg24))
    (h_arg25 : V0' (rb Cert.ReferenceIdeal.main_arg25) = Cert.KernelIdeal.Gen.V0 m c (kb Cert.KernelIdeal.main_arg25))
    (h_arg26 : V0' (rb Cert.ReferenceIdeal.main_arg26) = Cert.KernelIdeal.Gen.V0 m c (kb Cert.KernelIdeal.main_arg26))
    (h_arg27 : V0' (rb Cert.ReferenceIdeal.main_arg27) = Cert.KernelIdeal.Gen.V0 m c (kb Cert.KernelIdeal.main_arg27))
    (h_arg28 : V0' (rb Cert.ReferenceIdeal.main_arg28) = Cert.KernelIdeal.Gen.V0 m c (kb Cert.KernelIdeal.main_arg28))
    (h_arg29 : V0' (rb Cert.ReferenceIdeal.main_arg29) = Cert.KernelIdeal.Gen.V0 m c (kb Cert.KernelIdeal.main_arg29))
    (h_arg30 : V0' (rb Cert.ReferenceIdeal.main_arg30) = Cert.KernelIdeal.Gen.V0 m c (kb Cert.KernelIdeal.main_arg30))
    (h_arg31 : V0' (rb Cert.ReferenceIdeal.main_arg31) = Cert.KernelIdeal.Gen.V0 m c (kb Cert.KernelIdeal.main_arg31))
    (h_arg32 : V0' (rb Cert.ReferenceIdeal.main_arg32) = Cert.KernelIdeal.Gen.V0 m c (kb Cert.KernelIdeal.main_arg32))
    (h_arg33 : V0' (rb Cert.ReferenceIdeal.main_arg33) = Cert.KernelIdeal.Gen.V0 m c (kb Cert.KernelIdeal.main_arg33))
    (h_arg34 : V0' (rb Cert.ReferenceIdeal.main_arg34) = Cert.KernelIdeal.Gen.V0 m c (kb Cert.KernelIdeal.main_arg34))
    (hA : after (Cert.ReferenceIdeal.Hand.rseg0 (F := Ideal)) V0' (rb Cert.ReferenceIdeal.main_v10) = Cert.KernelIdeal.Gen.V3 m outs c (kb Cert.KernelIdeal.main_v6))
    (hC : ∀ W' : RVal, W' (rb Cert.ReferenceIdeal.main_v126) = Cert.KernelIdeal.Gen.V10 m outs c (kb Cert.KernelIdeal.main_v122) →
        W' (rb Cert.ReferenceIdeal.main_arg2) = Cert.KernelIdeal.Gen.V0 m c (kb Cert.KernelIdeal.main_arg2) →
        after (Cert.ReferenceIdeal.Hand.rsegBig (F := Ideal)) W' (rb Cert.ReferenceIdeal.main_v127) = Cert.KernelIdeal.Gen.V11 m outs c (kb Cert.KernelIdeal.main_v123))
    (hD : ∀ W' : RVal, W' (rb Cert.ReferenceIdeal.main_v0) = after (Cert.ReferenceIdeal.Hand.rseg0 (F := Ideal)) V0' (rb Cert.ReferenceIdeal.main_v0) →
        W' (rb Cert.ReferenceIdeal.main_v8) = after (Cert.ReferenceIdeal.Hand.rseg0 (F := Ideal)) V0' (rb Cert.ReferenceIdeal.main_v8) →
        W' (rb Cert.ReferenceIdeal.main_arg0) = Cert.KernelIdeal.Gen.V0 m c (kb Cert.KernelIdeal.main_arg0) →
        W' (rb Cert.ReferenceIdeal.main_arg4) = Cert.KernelIdeal.Gen.V0 m c (kb Cert.KernelIdeal.main_arg4) →
        after (Cert.ReferenceIdeal.Hand.rseg2 (F := Ideal)) W' (rb Cert.ReferenceIdeal.main_v129) = Cert.KernelIdeal.Gen.V13 m outs c (kb Cert.KernelIdeal.main_v127))
    (hF : ∀ W' : RVal, W' (rb Cert.ReferenceIdeal.main_v241) = Cert.KernelIdeal.Gen.V20 m outs c (kb Cert.KernelIdeal.main_v239) →
        W' (rb Cert.ReferenceIdeal.main_arg4) = Cert.KernelIdeal.Gen.V0 m c (kb Cert.KernelIdeal.main_arg4) →
        after (Cert.ReferenceIdeal.Hand.rsegSmall (F := Ideal)) W' (rb Cert.ReferenceIdeal.main_v242) = Cert.KernelIdeal.Gen.V21 m outs c (kb Cert.KernelIdeal.main_v240)) :
    after (Cert.ReferenceIdeal.Hand.ops (F := Ideal)) V0' (rb Cert.ReferenceIdeal.main_v269) = Cert.KernelIdeal.Gen.V22 m outs c (kb Cert.KernelIdeal.main_v267)
    ∧ after (Cert.ReferenceIdeal.Hand.ops (F := Ideal)) V0' (rb Cert.ReferenceIdeal.main_v281) = Cert.KernelIdeal.Gen.V22 m outs c (kb Cert.KernelIdeal.main_v279) := by
  -- the big branch, from the first pooled features
  have eB : refWB V0' (rb Cert.ReferenceIdeal.main_v126) = Cert.KernelIdeal.Gen.V10 m outs c (kb Cert.KernelIdeal.main_v122) :=
    big_branch m outs c (refW1 V0') hA
      ((carry_W1 V0' Cert.ReferenceIdeal.main_arg3 (by decide)).trans h_arg3)
      ((carry_W1 V0' Cert.ReferenceIdeal.main_arg6 (by decide)).trans h_arg6)
      ((carry_W1 V0' Cert.ReferenceIdeal.main_arg7 (by decide)).trans h_arg7)
      ((carry_W1 V0' Cert.ReferenceIdeal.main_arg8 (by decide)).trans h_arg8)
      ((carry_W1 V0' Cert.ReferenceIdeal.main_arg9 (by decide)).trans h_arg9)
      ((carry_W1 V0' Cert.ReferenceIdeal.main_arg10 (by decide)).trans h_arg10)
      ((carry_W1 V0' Cert.ReferenceIdeal.main_arg11 (by decide)).trans h_arg11)
      ((carry_W1 V0' Cert.ReferenceIdeal.main_arg12 (by decide)).trans h_arg12)
      ((carry_W1 V0' Cert.ReferenceIdeal.main_arg13 (by decide)).trans h_arg13)
      ((carry_W1 V0' Cert.ReferenceIdeal.main_arg14 (by decide)).trans h_arg14)
      ((carry_W1 V0' Cert.ReferenceIdeal.main_arg15 (by decide)).trans h_arg15)
      ((carry_W1 V0' Cert.ReferenceIdeal.main_arg16 (by decide)).trans h_arg16)
      ((carry_W1 V0' Cert.ReferenceIdeal.main_arg17 (by decide)).trans h_arg17)
  -- its product
  have eb : refWb V0' (rb Cert.ReferenceIdeal.main_v127) = Cert.KernelIdeal.Gen.V11 m outs c (kb Cert.KernelIdeal.main_v123) :=
    hC (refWB V0') eB ((carry_WB V0' Cert.ReferenceIdeal.main_arg2 (by decide) (by decide)).trans h_arg2)
  -- the second pooled features: the flattened image and the normalised second assignment matrix are still where the
  -- first stage left them
  have e2 : refW2 V0' (rb Cert.ReferenceIdeal.main_v129) = Cert.KernelIdeal.Gen.V13 m outs c (kb Cert.KernelIdeal.main_v127) :=
    hD (refWb V0')
      ((after_kept (Cert.ReferenceIdeal.Hand.rsegBig_writes (F := Ideal)) (refWB V0') Cert.ReferenceIdeal.main_v0 (by decide)).trans (kept_rB8 (refW1 V0') Cert.ReferenceIdeal.main_v0 (by decide)))
      ((after_kept (Cert.ReferenceIdeal.Hand.rsegBig_writes (F := Ideal)) (refWB V0') Cert.ReferenceIdeal.main_v8 (by decide)).trans (kept_rB8 (refW1 V0') Cert.ReferenceIdeal.main_v8 (by decide)))
      ((carry_Wb V0' Cert.ReferenceIdeal.main_arg0 (by decide) (by decide) (by decide)).trans h_arg0)
      ((carry_Wb V0' Cert.ReferenceIdeal.main_arg4 (by decide) (by decide) (by decide)).trans h_arg4)
  -- the small branch
  have eS : refWS V0' (rb Cert.ReferenceIdeal.main_v241) = Cert.KernelIdeal.Gen.V20 m outs c (kb Cert.KernelIdeal.main_v239) :=
    small_branch m outs c (refW2 V0') e2
      ((carry_W2 V0' Cert.ReferenceIdeal.main_arg5 (by decide) (by decide) (by decide) (by decide)).trans h_arg5)
      ((carry_W2 V0' Cert.ReferenceIdeal.main_arg18 (by decide) (by decide) (by decide) (by decide)).trans h_arg18)
      ((carry_W2 V0' Cert.ReferenceIdeal.main_arg19 (by decide) (by decide) (by decide) (by decide)).trans h_arg19)
      ((carry_W2 V0' Cert.ReferenceIdeal.main_arg20 (by decide) (by decide) (by decide) (by decide)).trans h_arg20)
      ((carry_W2 V0' Cert.ReferenceIdeal.main_arg21 (by decide) (by decide) (by decide) (by decide)).trans h_arg21)
      ((carry_W2 V0' Cert.ReferenceIdeal.main_arg22 (by decide) (by decide) (by decide) (by decide)).trans h_arg22)
      ((carry_W2 V0' Cert.ReferenceIdeal.main_arg23 (by decide) (by decide) (by decide) (by decide)).trans h_arg23)
      ((carry_W2 V0' Cert.ReferenceIdeal.main_arg24 (by decide) (by decide) (by decide) (by decide)).trans h_arg24)
      ((carry_W2 V0' Cert.ReferenceIdeal.main_arg25 (by decide) (by decide) (by decide) (by decide)).trans h_arg25)
      ((carry_W2 V0' Cert.ReferenceIdeal.main_arg26 (by decide) (by decide) (by decide) (by decide)).trans h_arg26)
      ((carry_W2 V0' Cert.ReferenceIdeal.main_arg27 (by decide) (by decide) (by decide) (by decide)).trans h_arg27)
      ((carry_W2 V0' Cert.ReferenceIdeal.main_arg28 (by decide) (by decide) (by decide) (by decide)).trans h_arg28)
      ((carry_W2 V0' Cert.ReferenceIdeal.main_arg29 (by decide) (by decide) (by decide) (by decide)).trans h_arg29)
  -- its product
  have es : refWs V0' (rb Cert.ReferenceIdeal.main_v242) = Cert.KernelIdeal.Gen.V21 m outs c (kb Cert.KernelIdeal.main_v240) :=
    hF (refWS V0') eS ((carry_WS V0' Cert.ReferenceIdeal.main_arg4 (by decide) (by decide) (by decide) (by decide) (by decide)).trans h_arg4)
  -- the big branch's product is still there at the tail's entry, on both sides
  have eb' : refWs V0' (rb Cert.ReferenceIdeal.main_v127) = Cert.KernelIdeal.Gen.V21 m outs c (kb Cert.KernelIdeal.main_v123) :=
    ((after_kept (Cert.ReferenceIdeal.Hand.rsegSmall_writes (F := Ideal)) (refWS V0') Cert.ReferenceIdeal.main_v127 (by decide)).trans <|
      (kept_rS8 (refW2 V0') Cert.ReferenceIdeal.main_v127 (by decide)).trans <|
      (after_kept (Cert.ReferenceIdeal.Hand.rseg2_writes (F := Ideal)) (refWb V0') Cert.ReferenceIdeal.main_v127 (by decide)).trans eb).trans (big_product_kept m outs c).symm
  -- the tail's arguments
  have t1 : refWs V0' (rb Cert.ReferenceIdeal.main_arg1) = Cert.KernelIdeal.Gen.V21 m outs c (kb Cert.KernelIdeal.main_arg1) :=
    ((carry_Ws V0' Cert.ReferenceIdeal.main_arg1 (by decide) (by decide) (by decide) (by decide) (by decide) (by decide)).trans h_arg1).trans (keptK21 m outs c Cert.KernelIdeal.main_arg1 (by decide)).symm
  have t30 : refWs V0' (rb Cert.ReferenceIdeal.main_arg30) = Cert.KernelIdeal.Gen.V21 m outs c (kb Cert.KernelIdeal.main_arg30) :=
    ((carry_Ws V0' Cert.ReferenceIdeal.main_arg30 (by decide) (by decide) (by decide) (by decide) (by decide) (by decide)).trans h_arg30).trans (keptK21 m outs c Cert.KernelIdeal.main_arg30 (by decide)).symm
  have t31 : refWs V0' (rb Cert.ReferenceIdeal.main_arg31) = Cert.KernelIdeal.Gen.V21 m outs c (kb Cert.KernelIdeal.main_arg31) :=
    ((carry_Ws V0' Cert.ReferenceIdeal.main_arg31 (by decide) (by decide) (by decide) (by decide) (by decide) (by decide)).trans h_arg31).trans (keptK21 m outs c Cert.KernelIdeal.main_arg31 (by decide)).symm
  have t32 : refWs V0' (rb Cert.ReferenceIdeal.main_arg32) = Cert.KernelIdeal.Gen.V21 m outs c (kb Cert.KernelIdeal.main_arg32) :=
    ((carry_Ws V0' Cert.ReferenceIdeal.main_arg32 (by decide) (by decide) (by decide) (by decide) (by decide) (by decide)).trans h_arg32).trans (keptK21 m outs c Cert.KernelIdeal.main_arg32 (by decide)).symm
  have t33 : refWs V0' (rb Cert.ReferenceIdeal.main_arg33) = Cert.KernelIdeal.Gen.V21 m outs c (kb Cert.KernelIdeal.main_arg33) :=
    ((carry_Ws V0' Cert.ReferenceIdeal.main_arg33 (by decide) (by decide) (by decide) (by decide) (by decide) (by decide)).trans h_arg33).trans (keptK21 m outs c Cert.KernelIdeal.main_arg33 (by decide)).symm
  have t34 : refWs V0' (rb Cert.ReferenceIdeal.main_arg34) = Cert.KernelIdeal.Gen.V21 m outs c (kb Cert.KernelIdeal.main_arg34) :=
    ((carry_Ws V0' Cert.ReferenceIdeal.main_arg34 (by decide) (by decide) (by decide) (by decide) (by decide) (by decide)).trans h_arg34).trans (keptK21 m outs c Cert.KernelIdeal.main_arg34 (by decide)).symm
  rw [ops_run]
  exact ⟨stage4_probs (Cert.KernelIdeal.Gen.V21 m outs c) (refWs V0') eb' t1 es t34 t30 t31,
    stage4_loss (Cert.KernelIdeal.Gen.V21 m outs c) (refWs V0') eb' es t32 t33⟩

end Cert.Bridge

end
-- ==== Proof.Br.Final.lean ====
/-
  The two programs' results are equal arrays.  The chain of equalities runs along the two programs side by side:
  the pooled features H1 agree (the kernel program divides the pooled sums Σ_k Q[k,n]·flat[k,j], left by its first
  region, by the column sum of Q; the reference pools the divided weights; with every entry real and the column sum
  a nonzero real these are one number), then the shared layers applied to equal operands, then the spreading product
  (one sum of products on both sides), the same for the small branch, and the shared tail.
-/
import proofs.«120736_j30030411334238_1_alg».proof.Defs
import proofs.«120736_j30030411334238_1_alg».proof.Proof.Gen.Pre_finite_inputs
import proofs.«120736_j30030411334238_1_alg».proof.Proof.Ref.Run
import proofs.«120736_j30030411334238_1_alg».proof.Proof.Br.StepsH
import proofs.«120736_j30030411334238_1_alg».proof.Proof.Br.StepsP
import proofs.«120736_j30030411334238_1_alg».proof.Proof.Br.ChainAll

set_option maxRecDepth 16384

noncomputable section

namespace Cert.Bridge

open Idealize.ShloMosaic Idealize.ShloMosaic.TcCoe Idealize.SL.Sem

theorem results_final (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal (hPre_finite_inputs := Cert.Pre_finite_inputs.Gen.facts) m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) :
    StableHlo.after (Cert.ReferenceIdeal.Hand.ops (F := Ideal)) (StableHlo.launchContents m' c) (rb Cert.ReferenceIdeal.main_v269)
        = Cert.KernelIdeal.Gen.V22 m (Cert.KernelIdeal.Gen.outsD m) c (kb Cert.KernelIdeal.main_v267)
      ∧ StableHlo.after (Cert.ReferenceIdeal.Hand.ops (F := Ideal)) (StableHlo.launchContents m' c) (rb Cert.ReferenceIdeal.main_v281)
        = Cert.KernelIdeal.Gen.V22 m (Cert.KernelIdeal.Gen.outsD m) c (kb Cert.KernelIdeal.main_v279) := by
  obtain ⟨a0, a1, a2, a3, a4, a5, a6, a7, a8, a9, a10, a11, a12, a13, a14, a15, a16, a17, a18, a19, a20, a21, a22, a23, a24, a25, a26, a27, a28, a29, a30, a31, a32, a33, a34⟩ := hagree
  exact results_eq m (Cert.KernelIdeal.Gen.outsD m) c (StableHlo.launchContents m' c)
    a0 a1 a2 a3 a4 a5 a6 a7 a8 a9 a10 a11 a12 a13 a14 a15 a16 a17 a18 a19 a20 a21 a22 a23 a24 a25 a26 a27 a28 a29 a30 a31 a32 a33 a34
    (stepA (hP := Cert.Pre_finite_inputs.Gen.facts) m c hpre _ a0 a2)
    (fun W' h ha => stepC m c W' h ha)
    (fun W' h0 h8 ha0 ha4 => stepD (hP := Cert.Pre_finite_inputs.Gen.facts) m c hpre _ a0 a4 W' h0 h8 ha0 ha4)
    (fun W' h ha => stepF m c W' h ha)

end Cert.Bridge

end
-- ==== Proof.Br.Alg.lean ====
/-
  The algebraic claim.  Run from memories that agree on the 35 arguments, with every float input finite and no column
  of Q or Qsmall summing to zero, the idealized kernel program ends with its two results at the last valuation of its
  buffers, the reference ends with its two results at the fold of its 438 host operations over its launch memory, and
  these are equal arrays of extended reals (Br/Final: the pooled features agree because dividing the pooled sums by a
  nonzero real column sum is the same as pooling the divided weights; the four matrix products are the same sums of
  products; everything else is the same host arithmetic applied to equal operands).  Both leave their arguments
  unchanged.
-/
import proofs.«120736_j30030411334238_1_alg».proof.Defs
import proofs.«120736_j30030411334238_1_alg».proof.Proof.KI.Frame
import proofs.«120736_j30030411334238_1_alg».proof.Proof.Ref.Frame
import proofs.«120736_j30030411334238_1_alg».proof.Proof.Br.Final

set_option maxRecDepth 16384

noncomputable section

namespace Cert.Bridge

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V22 m (Cert.KernelIdeal.Gen.outsD m) c (kb Cert.KernelIdeal.main_v267),
    fun c => Cert.KernelIdeal.Gen.V22 m (Cert.KernelIdeal.Gen.outsD m) c (kb Cert.KernelIdeal.main_v279),
    Cert.KernelIdeal.Gen.run_results m ρ, ?_⟩
  refine (θ_run (Cert.ReferenceIdeal.defs (F := Ideal)) _ _).mono (fun r h c => ?_) (Cert.ReferenceIdeal.Hand.run_all (F := Ideal) m' ρ')
  obtain ⟨e0, e1⟩ := results_final m m' c hpre (hagree c)
  exact ⟨(h c Cert.ReferenceIdeal.main_v269).trans e0, (h c Cert.ReferenceIdeal.main_v281).trans e1,
    (h c Cert.ReferenceIdeal.main_arg0).trans (Cert.ReferenceIdeal.Hand.after_ops_kept m' c Cert.ReferenceIdeal.main_arg0 (by decide)),
    (h c Cert.ReferenceIdeal.main_arg1).trans (Cert.ReferenceIdeal.Hand.after_ops_kept m' c Cert.ReferenceIdeal.main_arg1 (by decide)),
    (h c Cert.ReferenceIdeal.main_arg2).trans (Cert.ReferenceIdeal.Hand.after_ops_kept m' c Cert.ReferenceIdeal.main_arg2 (by decide)),
    (h c Cert.ReferenceIdeal.main_arg3).trans (Cert.ReferenceIdeal.Hand.after_ops_kept m' c Cert.ReferenceIdeal.main_arg3 (by decide)),
    (h c Cert.ReferenceIdeal.main_arg4).trans (Cert.ReferenceIdeal.Hand.after_ops_kept m' c Cert.ReferenceIdeal.main_arg4 (by decide)),
    (h c Cert.ReferenceIdeal.main_arg5).trans (Cert.ReferenceIdeal.Hand.after_ops_kept m' c Cert.ReferenceIdeal.main_arg5 (by decide)),
    (h c Cert.ReferenceIdeal.main_arg6).trans (Cert.ReferenceIdeal.Hand.after_ops_kept m' c Cert.ReferenceIdeal.main_arg6 (by decide)),
    (h c Cert.ReferenceIdeal.main_arg7).trans (Cert.ReferenceIdeal.Hand.after_ops_kept m' c Cert.ReferenceIdeal.main_arg7 (by decide)),
    (h c Cert.ReferenceIdeal.main_arg8).trans (Cert.ReferenceIdeal.Hand.after_ops_kept m' c Cert.ReferenceIdeal.main_arg8 (by decide)),
    (h c Cert.ReferenceIdeal.main_arg9).trans (Cert.ReferenceIdeal.Hand.after_ops_kept m' c Cert.ReferenceIdeal.main_arg9 (by decide)),
    (h c Cert.ReferenceIdeal.main_arg10).trans (Cert.ReferenceIdeal.Hand.after_ops_kept m' c Cert.ReferenceIdeal.main_arg10 (by decide)),
    (h c Cert.ReferenceIdeal.main_arg11).trans (Cert.ReferenceIdeal.Hand.after_ops_kept m' c Cert.ReferenceIdeal.main_arg11 (by decide)),
    (h c Cert.ReferenceIdeal.main_arg12).trans (Cert.ReferenceIdeal.Hand.after_ops_kept m' c Cert.ReferenceIdeal.main_arg12 (by decide)),
    (h c Cert.ReferenceIdeal.main_arg13).trans (Cert.ReferenceIdeal.Hand.after_ops_kept m' c Cert.ReferenceIdeal.main_arg13 (by decide)),
    (h c Cert.ReferenceIdeal.main_arg14).trans (Cert.ReferenceIdeal.Hand.after_ops_kept m' c Cert.ReferenceIdeal.main_arg14 (by decide)),
    (h c Cert.ReferenceIdeal.main_arg15).trans (Cert.ReferenceIdeal.Hand.after_ops_kept m' c Cert.ReferenceIdeal.main_arg15 (by decide)),
    (h c Cert.ReferenceIdeal.main_arg16).trans (Cert.ReferenceIdeal.Hand.after_ops_kept m' c Cert.ReferenceIdeal.main_arg16 (by decide)),
    (h c Cert.ReferenceIdeal.main_arg17).trans (Cert.ReferenceIdeal.Hand.after_ops_kept m' c Cert.ReferenceIdeal.main_arg17 (by decide)),
    (h c Cert.ReferenceIdeal.main_arg18).trans (Cert.ReferenceIdeal.Hand.after_ops_kept m' c Cert.ReferenceIdeal.main_arg18 (by decide)),
    (h c Cert.ReferenceIdeal.main_arg19).trans (Cert.ReferenceIdeal.Hand.after_ops_kept m' c Cert.ReferenceIdeal.main_arg19 (by decide)),
    (h c Cert.ReferenceIdeal.main_arg20).trans (Cert.ReferenceIdeal.Hand.after_ops_kept m' c Cert.ReferenceIdeal.main_arg20 (by decide)),
    (h c Cert.ReferenceIdeal.main_arg21).trans (Cert.ReferenceIdeal.Hand.after_ops_kept m' c Cert.ReferenceIdeal.main_arg21 (by decide)),
    (h c Cert.ReferenceIdeal.main_arg22).trans (Cert.ReferenceIdeal.Hand.after_ops_kept m' c Cert.ReferenceIdeal.main_arg22 (by decide)),
    (h c Cert.ReferenceIdeal.main_arg23).trans (Cert.ReferenceIdeal.Hand.after_ops_kept m' c Cert.ReferenceIdeal.main_arg23 (by decide)),
    (h c Cert.ReferenceIdeal.main_arg24).trans (Cert.ReferenceIdeal.Hand.after_ops_kept m' c Cert.ReferenceIdeal.main_arg24 (by decide)),
    (h c Cert.ReferenceIdeal.main_arg25).trans (Cert.ReferenceIdeal.Hand.after_ops_kept m' c Cert.ReferenceIdeal.main_arg25 (by decide)),
    (h c Cert.ReferenceIdeal.main_arg26).trans (Cert.ReferenceIdeal.Hand.after_ops_kept m' c Cert.ReferenceIdeal.main_arg26 (by decide)),
    (h c Cert.ReferenceIdeal.main_arg27).trans (Cert.ReferenceIdeal.Hand.after_ops_kept m' c Cert.ReferenceIdeal.main_arg27 (by decide)),
    (h c Cert.ReferenceIdeal.main_arg28).trans (Cert.ReferenceIdeal.Hand.after_ops_kept m' c Cert.ReferenceIdeal.main_arg28 (by decide)),
    (h c Cert.ReferenceIdeal.main_arg29).trans (Cert.ReferenceIdeal.Hand.after_ops_kept m' c Cert.ReferenceIdeal.main_arg29 (by decide)),
    (h c Cert.ReferenceIdeal.main_arg30).trans (Cert.ReferenceIdeal.Hand.after_ops_kept m' c Cert.ReferenceIdeal.main_arg30 (by decide)),
    (h c Cert.ReferenceIdeal.main_arg31).trans (Cert.ReferenceIdeal.Hand.after_ops_kept m' c Cert.ReferenceIdeal.main_arg31 (by decide)),
    (h c Cert.ReferenceIdeal.main_arg32).trans (Cert.ReferenceIdeal.Hand.after_ops_kept m' c Cert.ReferenceIdeal.main_arg32 (by decide)),
    (h c Cert.ReferenceIdeal.main_arg33).trans (Cert.ReferenceIdeal.Hand.after_ops_kept m' c Cert.ReferenceIdeal.main_arg33 (by decide)),
    (h c Cert.ReferenceIdeal.main_arg34).trans (Cert.ReferenceIdeal.Hand.after_ops_kept m' c Cert.ReferenceIdeal.main_arg34 (by decide))⟩

end Cert.Bridge

end
-- ==== Proof.lean ====
/-
  The certificate's claim: the word-level kernel program, its idealization and the reference each run to the end
  from every memory satisfying the precondition, faulting nowhere and leaving their argument arrays unchanged; the
  idealization rewrote nothing; and at the extended reals the idealized kernel program and the reference, run from
  memories that agree on the arguments, end with equal results.
  The kernel program is a line of host stretches and four pallas regions — two accumulating products Qᵀ·flat over a
  grid of row blocks (the accumulator carried in scratch memory between grid points) and two row-tiled products Q·H.
  Each region's body is run once per grid point and the region is packaged as a segment of the whole program
  (Proof/K for the word-level program, Proof/KI for the idealization: the same text, generic in the float instance);
  the reference's 438 host operations are listed and run in Proof/Ref; Proof/Br compares the two at the extended reals.
-/
import proofs.«120736_j30030411334238_1_alg».proof.Defs
import proofs.«120736_j30030411334238_1_alg».proof.Proof.Gen.Kernel
import proofs.«120736_j30030411334238_1_alg».proof.Proof.Gen.KernelIdeal
import proofs.«120736_j30030411334238_1_alg».proof.Proof.Gen.ReferenceIdeal
import proofs.«120736_j30030411334238_1_alg».proof.Proof.Gen.Pre_finite_inputs
import proofs.«120736_j30030411334238_1_alg».proof.Proof.K.Frame
import proofs.«120736_j30030411334238_1_alg».proof.Proof.KI.Frame
import proofs.«120736_j30030411334238_1_alg».proof.Proof.Ref.Frame
import proofs.«120736_j30030411334238_1_alg».proof.Proof.Br.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.Hand.frame_ri,
    trivial,
    Cert.Bridge.algebraic⟩

end Cert.Proof

end
